-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x64 : Shape := ⟨2, ![1000000, 64]⟩
abbrev S1x64 : Shape := ⟨2, ![1, 64]⟩
abbrev S_ : Shape := ⟨0, ![]⟩

class Facts : Prop where
  bcast_S_S1000000x64 : S_.BroadcastsInDim S1000000x64 (![] : Fin 0 → Fin S1000000x64.rank)
  reducesTo_S1000000x64_S_d0_1 : S1000000x64.ReducesTo [0, 1] S_
  h_S_ : 0 < S_.numel
  bcast_S_S1x64 : S_.BroadcastsInDim S1x64 (![] : Fin 0 → Fin S1x64.rank)
  reducesTo_S1x64_S_d0_1 : S1x64.ReducesTo [0, 1] S_

variable [Facts]

def fn {F : FTy → Type} [FloatOps F] (main_arg0 : FVec F S1000000x64 .f32) (main_arg1 : FVec F S1x64 .f32) : IVec S_ 1 :=
  let main_v0 : FVec F S1000000x64 .f32 := Host.absf main_arg0
  let main_cst : FVec F S_ .f32 := constant S_ .f32 0x7F800000#32
  let main_v1 : FVec F S1000000x64 .f32 := broadcastInDim S1000000x64 ![] bcast_S_S1000000x64 main_cst
  let main_v2 : IVec S1000000x64 1 := cmpf .olt main_v0 main_v1
  let main_c : IVec S_ 1 := constantI S_ 1 1#1
  let main_v3 : IVec S_ 1 := (fun x v => Host.reduce IntOp.andi x v reducesTo_S1000000x64_S_d0_1 h_S_) main_v2 main_c
  let main_v4 : FVec F S1x64 .f32 := Host.absf main_arg1
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_c_1 : IVec S_ 1 := constantI S_ 1 1#1
  let main_v7 : IVec S_ 1 := (fun x v => Host.reduce IntOp.andi x v reducesTo_S1x64_S_d0_1 h_S_) main_v6 main_c_1
  let main_v8 : IVec S_ 1 := andi main_v3 main_v7
  main_v8
-- ==== Kernel.lean ====
abbrev S1000000x64 : Shape := ⟨2, ![1000000, 64]⟩
abbrev S1x64 : Shape := ⟨2, ![1, 64]⟩
abbrev S64x1 : Shape := ⟨2, ![64, 1]⟩
abbrev S64x16 : Shape := ⟨2, ![64, 16]⟩
abbrev S64x1000000 : Shape := ⟨2, ![64, 1000000]⟩
abbrev S196608 : Shape := ⟨1, ![196608]⟩
abbrev S64x768 : Shape := ⟨2, ![64, 768]⟩
abbrev S768 : Shape := ⟨1, ![768]⟩
abbrev S_ : Shape := ⟨0, ![]⟩
abbrev S16 : Shape := ⟨1, ![16]⟩
abbrev S1x16 : Shape := ⟨2, ![1, 16]⟩
abbrev S803392 : Shape := ⟨1, ![803392]⟩
abbrev S64x32768 : Shape := ⟨2, ![64, 32768]⟩
abbrev S32768 : Shape := ⟨1, ![32768]⟩
abbrev S1000000 : Shape := ⟨1, ![1000000]⟩

abbrev nBuf : Table → Nat
  | .hbm => 9
  | .local .tc .vmem => 5
  | .local .scVector .vmem => 5
  | _ => 0

abbrev bufTy : (tb : Table) → Fin (nBuf tb) → BufTy
  | .hbm, ⟨0, _⟩ => ⟨S1000000x64, .f32⟩
  | .hbm, ⟨1, _⟩ => ⟨S1x64, .f32⟩
  | .hbm, ⟨2, _⟩ => ⟨S64x1, .f32⟩
  | .hbm, ⟨3, _⟩ => ⟨S64x16, .f32⟩
  | .hbm, ⟨4, _⟩ => ⟨S64x1000000, .f32⟩
  | .hbm, ⟨5, _⟩ => ⟨S64x1, .f32⟩
  | .hbm, ⟨6, _⟩ => ⟨S196608, .f32⟩
  | .hbm, ⟨7, _⟩ => ⟨S803392, .f32⟩
  | .hbm, ⟨8, _⟩ => ⟨S1000000, .f32⟩
  | .local .tc .vmem, ⟨0, _⟩ => ⟨S64x1, .f32⟩
  | .local .tc .vmem, ⟨1, _⟩ => ⟨S64x32768, .f32⟩
  | .local .tc .vmem, ⟨2, _⟩ => ⟨S64x32768, .f32⟩
  | .local .tc .vmem, ⟨3, _⟩ => ⟨S32768, .f32⟩
  | .local .tc .vmem, ⟨4, _⟩ => ⟨S32768, .f32⟩
  | .local .scVector .vmem, ⟨0, _⟩ => ⟨S64x768, .f32⟩
  | .local .scVector .vmem, ⟨1, _⟩ => ⟨S64x768, .f32⟩
  | .local .scVector .vmem, ⟨2, _⟩ => ⟨S768, .f32⟩
  | .local .scVector .vmem, ⟨3, _⟩ => ⟨S768, .f32⟩
  | .local .scVector .vmem, ⟨4, _⟩ => ⟨S64x16, .f32⟩
  | _, _ => ⟨S1000000x64, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => false
  | ⟨4, _⟩ => false
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v2_scv : Ref sig .scVector := ⟨.hbm, 4, rfl⟩
abbrev main_v1_scv : Ref sig .scVector := ⟨.hbm, 3, rfl⟩
abbrev main_v4_scv : Ref sig .scVector := ⟨.hbm, 6, rfl⟩
abbrev cc1_stg0_0 : Ref sig .tc := ⟨.vmem, 0, rfl⟩
abbrev cc1_stg1_0 : Ref sig .tc := ⟨.vmem, 1, rfl⟩
abbrev cc1_stg1_1 : Ref sig .tc := ⟨.vmem, 2, rfl⟩
abbrev cc1_stg2_0 : Ref sig .tc := ⟨.vmem, 3, rfl⟩
abbrev cc1_stg2_1 : Ref sig .tc := ⟨.vmem, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v2 : BitVec 32 := Scalar.addi v1 c0_i32
  let c768_i32 : BitVec 32 := 768#32
  let v3 : BitVec 32 := Scalar.muli v2 c768_i32
  ![0, v3.toNat]
@[reducible] def k0_t1_loop : Scf.Loop 32 :=
  let c0_i32_3 : BitVec 32 := 0#32
  let c4_i32 : BitVec 32 := 4#32
  let v6 : BitVec 32 := Scalar.addi c0_i32_3 c4_i32
  let c1_i32 : BitVec 32 := 1#32
  ⟨c0_i32_3, v6, c1_i32⟩
def k0_cond1 (k0_t1 : Fin k0_t1_loop.trips) : BitVec 1 :=
  let c2_i32_7 : BitVec 32 := 2#32
  let c0_i32_3 : BitVec 32 := 0#32
  let c1_i32 : BitVec 32 := 1#32
  let arg14 : BitVec 32 := Scf.iv c0_i32_3 c1_i32 k0_t1
  let v16 : BitVec 32 := Scalar.muli c2_i32_7 arg14
  let c0_i32_8 : BitVec 32 := 0#32
  let v17 : BitVec 32 := Scalar.addi v16 c0_i32_8
  let c1_i32_9 : BitVec 32 := 1#32
  let v18 : BitVec 32 := Scalar.addi v17 c1_i32_9
  let c8_i32 : BitVec 32 := 8#32
  let v19 : BitVec 1 := Scalar.cmpi .slt v18 c8_i32
  let v20 : BitVec 32 := Scalar.extui v19
  let c0_i32_10 : BitVec 32 := 0#32
  let v21 : BitVec 1 := Scalar.cmpi .ne v20 c0_i32_10
  v21

def k0_off2 (i : grid0.Coords) (k0_t1 : Fin k0_t1_loop.trips) : Fin 2 → Nat :=
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let c2_i32_7 : BitVec 32 := 2#32
  let c0_i32_3 : BitVec 32 := 0#32
  let c1_i32 : BitVec 32 := 1#32
  let arg14 : BitVec 32 := Scf.iv c0_i32_3 c1_i32 k0_t1
  let v16 : BitVec 32 := Scalar.muli c2_i32_7 arg14
  let c0_i32_8 : BitVec 32 := 0#32
  let v17 : BitVec 32 := Scalar.addi v16 c0_i32_8
  let c1_i32_43 : BitVec 32 := 1#32
  let v60 : BitVec 32 := Scalar.addi v17 c1_i32_43
  let v61 : BitVec 32 := Scalar.muli c32_i32_44 v60
  let v62 : BitVec 32 := Scalar.addi v1 v61
  let c768_i32_45 : BitVec 32 := 768#32
  let v63 : BitVec 32 := Scalar.muli v62 c768_i32_45
  ![0, v63.toNat]
def k0_off3 (i : grid0.Coords) (k0_t1 : Fin k0_t1_loop.trips) (c0_i32_8 : BitVec 32) : Fin 2 → Nat :=
  let c0_i32_12 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let c2_i32_7 : BitVec 32 := 2#32
  let c0_i32_3 : BitVec 32 := 0#32
  let c1_i32 : BitVec 32 := 1#32
  let arg14 : BitVec 32 := Scf.iv c0_i32_3 c1_i32 k0_t1
  let v16 : BitVec 32 := Scalar.muli c2_i32_7 arg14
  let v17 : BitVec 32 := Scalar.addi v16 c0_i32_8
  let v22 : BitVec 32 := Scalar.muli c32_i32 v17
  let v23 : BitVec 32 := Scalar.addi v1 v22
  let c768_i32_11 : BitVec 32 := 768#32
  let v24 : BitVec 32 := Scalar.muli v23 c768_i32_11
  ![0, v24.toNat]
def k0_cond2 (k0_t1 : Fin k0_t1_loop.trips) : BitVec 1 :=
  let c2_i32_7 : BitVec 32 := 2#32
  let c0_i32_3 : BitVec 32 := 0#32
  let c1_i32 : BitVec 32 := 1#32
  let arg14 : BitVec 32 := Scf.iv c0_i32_3 c1_i32 k0_t1
  let v16 : BitVec 32 := Scalar.muli c2_i32_7 arg14
  let c0_i32_8 : BitVec 32 := 0#32
  let v17 : BitVec 32 := Scalar.addi v16 c0_i32_8
  let c2_i32_14 : BitVec 32 := 2#32
  let v27 : BitVec 32 := Scalar.subi v17 c2_i32_14
  let c0_i32_15 : BitVec 32 := 0#32
  let v28 : BitVec 1 := Scalar.cmpi .sge v27 c0_i32_15
  let v29 : BitVec 32 := Scalar.extui v28
  let c0_i32_16 : BitVec 32 := 0#32
  let v30 : BitVec 1 := Scalar.cmpi .ne v29 c0_i32_16
  v30

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let c2_i32_7 : BitVec 32 := 2#32
  let c0_i32_3 : BitVec 32 := 0#32
  let c1_i32 : BitVec 32 := 1#32
  let arg14 : BitVec 32 := Scf.iv c0_i32_3 c1_i32 k0_t1
  let v16 : BitVec 32 := Scalar.muli c2_i32_7 arg14
  let c0_i32_8 : BitVec 32 := 0#32
  let v17 : BitVec 32 := Scalar.addi v16 c0_i32_8
  let c2_i32_43 : BitVec 32 := 2#32
  let v60 : BitVec 32 := Scalar.subi v17 c2_i32_43
  let v61 : BitVec 32 := Scalar.muli c32_i32_44 v60
  let v62 : BitVec 32 := Scalar.addi v1 v61
  let c768_i32_45 : BitVec 32 := 768#32
  let v63 : BitVec 32 := Scalar.muli v62 c768_i32_45
  ![v63.toNat]
@[reducible] def k0_t2_loop : Scf.Loop 32 :=
  let c0_i32_18 : BitVec 32 := 0#32
  let c6_i32 : BitVec 32 := 6#32
  let v31 : BitVec 32 := Scalar.addi c0_i32_18 c6_i32
  let c1_i32_19 : BitVec 32 := 1#32
  ⟨c0_i32_18, v31, c1_i32_19⟩
@[reducible] def k0_t3_loop : Scf.Loop 32 :=
  let c0_i32_50 : BitVec 32 := 0#32
  let c8_i32_51 : BitVec 32 := 8#32
  let v69 : BitVec 32 := Scalar.addi c0_i32_50 c8_i32_51
  let c1_i32_52 : BitVec 32 := 1#32
  ⟨c0_i32_50, v69, c1_i32_52⟩
def k0_off5 (k0_t3 : Fin k0_t3_loop.trips) (c0_i32_58 : BitVec 32) : Fin 2 → Nat :=
  let c0_i32_50 : BitVec 32 := 0#32
  let c1_i32_52 : BitVec 32 := 1#32
  let arg18 : BitVec 32 := Scf.iv c0_i32_50 c1_i32_52 k0_t3
  let c8_i32_57 : BitVec 32 := 8#32
  let v95 : BitVec 32 := Scalar.muli arg18 c8_i32_57
  let v96 : BitVec 32 := Scalar.addi v95 c0_i32_58
  let v97 : Index := Scalar.indexCast v96
  let c0 : Index := 0#32
  ![v97.toNat, 0]
def k0_off6 (k0_t2 : Fin k0_t2_loop.trips) (k0_t3 : Fin k0_t3_loop.trips) (c0_i32_58 : BitVec 32) (c0_i32_59 : BitVec 32) : Fin 2 → Nat :=
  let c0_i32_50 : BitVec 32 := 0#32
  let c1_i32_52 : BitVec 32 := 1#32
  let arg18 : BitVec 32 := Scf.iv c0_i32_50 c1_i32_52 k0_t3
  let c8_i32_57 : BitVec 32 := 8#32
  let v95 : BitVec 32 := Scalar.muli arg18 c8_i32_57
  let v96 : BitVec 32 := Scalar.addi v95 c0_i32_58
  let v100 : Index := Scalar.indexCast v96
  let c0_i32_18 : BitVec 32 := 0#32
  let c1_i32_19 : BitVec 32 := 1#32
  let arg16 : BitVec 32 := Scf.iv c0_i32_18 c1_i32_19 k0_t2
  let c128_i32 : BitVec 32 := 128#32
  let v60 : BitVec 32 := Scalar.muli arg16 c128_i32
  let v99 : BitVec 32 := Scalar.addi v60 c0_i32_59
  let v101 : Index := Scalar.indexCast v99
  ![v100.toNat, v101.toNat]
def k0_off7 (k0_t2 : Fin k0_t2_loop.trips) (c0_i32_54 : BitVec 32) : Fin 1 → Nat :=
  let c0_i32_18 : BitVec 32 := 0#32
  let c1_i32_19 : BitVec 32 := 1#32
  let arg16 : BitVec 32 := Scf.iv c0_i32_18 c1_i32_19 k0_t2
  let c128_i32 : BitVec 32 := 128#32
  let v60 : BitVec 32 := Scalar.muli arg16 c128_i32
  let v71 : BitVec 32 := Scalar.addi v60 c0_i32_54
  let v72 : Index := Scalar.indexCast v71
  ![v72.toNat]
def k0_off8 (i : grid0.Coords) (k0_t1 : Fin k0_t1_loop.trips) (c0_i32_8 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_21 : BitVec 32 := 32#32
  let c2_i32_7 : BitVec 32 := 2#32
  let c0_i32_3 : BitVec 32 := 0#32
  let c1_i32 : BitVec 32 := 1#32
  let arg14 : BitVec 32 := Scf.iv c0_i32_3 c1_i32 k0_t1
  let v16 : BitVec 32 := Scalar.muli c2_i32_7 arg14
  let v17 : BitVec 32 := Scalar.addi v16 c0_i32_8
  let v33 : BitVec 32 := Scalar.muli c32_i32_21 v17
  let v34 : BitVec 32 := Scalar.addi v1 v33
  let c768_i32_22 : BitVec 32 := 768#32
  let v35 : BitVec 32 := Scalar.muli v34 c768_i32_22
  ![v35.toNat]
def k0_cond3 (k0_t1 : Fin k0_t1_loop.trips) : BitVec 1 :=
  let c2_i32_23 : BitVec 32 := 2#32
  let c0_i32_3 : BitVec 32 := 0#32
  let c1_i32 : BitVec 32 := 1#32
  let arg14 : BitVec 32 := Scf.iv c0_i32_3 c1_i32 k0_t1
  let v38 : BitVec 32 := Scalar.muli c2_i32_23 arg14
  let c1_i32_24 : BitVec 32 := 1#32
  let v39 : BitVec 32 := Scalar.addi v38 c1_i32_24
  let c1_i32_25 : BitVec 32 := 1#32
  let v40 : BitVec 32 := Scalar.addi v39 c1_i32_25
  let c8_i32_26 : BitVec 32 := 8#32
  let v41 : BitVec 1 := Scalar.cmpi .slt v40 c8_i32_26
  let v42 : BitVec 32 := Scalar.extui v41
  let c0_i32_27 : BitVec 32 := 0#32
  let v43 : BitVec 1 := Scalar.cmpi .ne v42 c0_i32_27
  v43

def k0_off9 (i : grid0.Coords) (k0_t1 : Fin k0_t1_loop.trips) : Fin 2 → Nat :=
  let c0_i32_46 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let c2_i32_23 : BitVec 32 := 2#32
  let c0_i32_3 : BitVec 32 := 0#32
  let c1_i32 : BitVec 32 := 1#32
  let arg14 : BitVec 32 := Scf.iv c0_i32_3 c1_i32 k0_t1
  let v38 : BitVec 32 := Scalar.muli c2_i32_23 arg14
  let c1_i32_24 : BitVec 32 := 1#32
  let v39 : BitVec 32 := Scalar.addi v38 c1_i32_24
  let c1_i32_43 : BitVec 32 := 1#32
  let v60 : BitVec 32 := Scalar.addi v39 c1_i32_43
  let v61 : BitVec 32 := Scalar.muli c32_i32_44 v60
  let v62 : BitVec 32 := Scalar.addi v1 v61
  let c768_i32_45 : BitVec 32 := 768#32
  let v63 : BitVec 32 := Scalar.muli v62 c768_i32_45
  ![0, v63.toNat]
def k0_cond4 (k0_t1 : Fin k0_t1_loop.trips) : BitVec 1 :=
  let c2_i32_23 : BitVec 32 := 2#32
  let c0_i32_3 : BitVec 32 := 0#32
  let c1_i32 : BitVec 32 := 1#32
  let arg14 : BitVec 32 := Scf.iv c0_i32_3 c1_i32 k0_t1
  let v38 : BitVec 32 := Scalar.muli c2_i32_23 arg14
  let c1_i32_24 : BitVec 32 := 1#32
  let v39 : BitVec 32 := Scalar.addi v38 c1_i32_24
  let c2_i32_32 : BitVec 32 := 2#32
  let v49 : BitVec 32 := Scalar.subi v39 c2_i32_32
  let c0_i32_33 : BitVec 32 := 0#32
  let v50 : BitVec 1 := Scalar.cmpi .sge v49 c0_i32_33
  let v51 : BitVec 32 := Scalar.extui v50
  let c0_i32_34 : BitVec 32 := 0#32
  let v52 : BitVec 1 := Scalar.cmpi .ne v51 c0_i32_34
  v52

def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_44 : BitVec 32 := 32#32
  let c2_i32_23 : BitVec 32 := 2#32
  let c0_i32_3 : BitVec 32 := 0#32
  let c1_i32 : BitVec 32 := 1#32
  let arg14 : BitVec 32 := Scf.iv c0_i32_3 c1_i32 k0_t1
  let v38 : BitVec 32 := Scalar.muli c2_i32_23 arg14
  let c1_i32_24 : BitVec 32 := 1#32
  let v39 : BitVec 32 := Scalar.addi v38 c1_i32_24
  let c2_i32_43 : BitVec 32 := 2#32
  let v60 : BitVec 32 := Scalar.subi v39 c2_i32_43
  let v61 : BitVec 32 := Scalar.muli c32_i32_44 v60
  let v62 : BitVec 32 := Scalar.addi v1 v61
  let c768_i32_45 : BitVec 32 := 768#32
  let v63 : BitVec 32 := Scalar.muli v62 c768_i32_45
  ![v63.toNat]
@[reducible] def k0_t4_loop : Scf.Loop 32 :=
  let c0_i32_36 : BitVec 32 := 0#32
  let c6_i32_37 : BitVec 32 := 6#32
  let v53 : BitVec 32 := Scalar.addi c0_i32_36 c6_i32_37
  let c1_i32_38 : BitVec 32 := 1#32
  ⟨c0_i32_36, v53, c1_i32_38⟩
@[reducible] def k0_t5_loop : Scf.Loop 32 :=
  let c0_i32_50 : BitVec 32 := 0#32
  let c8_i32_51 : BitVec 32 := 8#32
  let v69 : BitVec 32 := Scalar.addi c0_i32_50 c8_i32_51
  let c1_i32_52 : BitVec 32 := 1#32
  ⟨c0_i32_50, v69, c1_i32_52⟩
def k0_off11 (k0_t5 : Fin k0_t5_loop.trips) (c0_i32_58 : BitVec 32) : Fin 2 → Nat :=
  let c0_i32_50 : BitVec 32 := 0#32
  let c1_i32_52 : BitVec 32 := 1#32
  let arg18 : BitVec 32 := Scf.iv c0_i32_50 c1_i32_52 k0_t5
  let c8_i32_57 : BitVec 32 := 8#32
  let v95 : BitVec 32 := Scalar.muli arg18 c8_i32_57
  let v96 : BitVec 32 := Scalar.addi v95 c0_i32_58
  let v97 : Index := Scalar.indexCast v96
  let c0 : Index := 0#32
  ![v97.toNat, 0]
def k0_off12 (k0_t4 : Fin k0_t4_loop.trips) (k0_t5 : Fin k0_t5_loop.trips) (c0_i32_58 : BitVec 32) (c0_i32_59 : BitVec 32) : Fin 2 → Nat :=
  let c0_i32_50 : BitVec 32 := 0#32
  let c1_i32_52 : BitVec 32 := 1#32
  let arg18 : BitVec 32 := Scf.iv c0_i32_50 c1_i32_52 k0_t5
  let c8_i32_57 : BitVec 32 := 8#32
  let v95 : BitVec 32 := Scalar.muli arg18 c8_i32_57
  let v96 : BitVec 32 := Scalar.addi v95 c0_i32_58
  let v100 : Index := Scalar.indexCast v96
  let c0_i32_36 : BitVec 32 := 0#32
  let c1_i32_38 : BitVec 32 := 1#32
  let arg16 : BitVec 32 := Scf.iv c0_i32_36 c1_i32_38 k0_t4
  let c128_i32 : BitVec 32 := 128#32
  let v60 : BitVec 32 := Scalar.muli arg16 c128_i32
  let v99 : BitVec 32 := Scalar.addi v60 c0_i32_59
  let v101 : Index := Scalar.indexCast v99
  ![v100.toNat, v101.toNat]
def k0_off13 (k0_t4 : Fin k0_t4_loop.trips) (c0_i32_54 : BitVec 32) : Fin 1 → Nat :=
  let c0_i32_36 : BitVec 32 := 0#32
  let c1_i32_38 : BitVec 32 := 1#32
  let arg16 : BitVec 32 := Scf.iv c0_i32_36 c1_i32_38 k0_t4
  let c128_i32 : BitVec 32 := 128#32
  let v60 : BitVec 32 := Scalar.muli arg16 c128_i32
  let v71 : BitVec 32 := Scalar.addi v60 c0_i32_54
  let v72 : Index := Scalar.indexCast v71
  ![v72.toNat]
def k0_off14 (i : grid0.Coords) (c192_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let v8 : BitVec 32 := Scalar.addi v1 c192_i32
  let c768_i32_5 : BitVec 32 := 768#32
  let v9 : BitVec 32 := Scalar.muli v8 c768_i32_5
  ![v9.toNat]
abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c6_i32 : BitVec 32 := 6#32
  let v0 : BitVec 32 := Scalar.addi arg0 c6_i32
  let c0_i32 : BitVec 32 := 0#32
  let c0_i32_0 : BitVec 32 := 0#32
  ![c0_i32.toNat, v0.toNat]

def cc1_transform_2 (i : grid1.Coords) : Fin 1 → Nat :=
  let arg0 : BitVec 32 := BitVec.ofNat 32 (i 0).val
  let c0_i32 : BitVec 32 := 0#32
  ![arg0.toNat]

abbrev stage1_0 : Fin 1 → Memref sig .tc .vmem S64x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x32768 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S32768 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  shapeCasts_S1x64_S64x1 : S1x64.ShapeCasts S64x1
  bcast_S64x1_S64x16_0_1 : S64x1.BroadcastsInDim S64x16 (![0, 1] : Fin 2 → Fin S64x16.rank)
  transposes_S1000000x64_S64x1000000_1_0 : S1000000x64.Transposes [1, 0] S64x1000000
  h_S1x16 : 0 < S1x16.numel
  shapeCasts_S1x16_S16 : S1x16.ShapeCasts S16
  h_S16 : 0 < S16.numel
  inb_S64x32768_S64x32768_0_0 : ∀ a, (![0, 0] : Fin 2 → Nat) a + S64x32768.size a ≤ S64x32768.size a
  h_S64x32768 : 0 < S64x32768.numel
  shapeCasts_S64x32768_S64x32768 : S64x32768.ShapeCasts S64x32768
  inb_S64x1_S64x1_0_0 : ∀ a, (![0, 0] : Fin 2 → Nat) a + S64x1.size a ≤ S64x1.size a
  h_S64x1 : 0 < S64x1.numel
  shapeCasts_S64x1_S64x1 : S64x1.ShapeCasts S64x1
  broadcasts_S64x1_S64x32768 : S64x1.Broadcasts S64x32768
  reduces_S64x32768_S32768 : S64x32768.Reduces [0] S32768
  inb_S32768_S32768_0 : ∀ a, (![0] : Fin 1 → Nat) a + S32768.size a ≤ S32768.size a
  h_S32768 : 0 < S32768.numel
  concatenates_S196608_S803392_S1000000_d0 : Shape.Concatenates [S196608, S803392] S1000000 0
  hcc0_scratch5 : 0 + S_.numel ≤ 10
  hcc0_scratch6 : 1 + S_.numel ≤ 10
  hcc0_scratch7 : 2 + S_.numel ≤ 10
  hcc0_scratch8 : 3 + S_.numel ≤ 10
  hcc0_scoped0 : 4 + S_.numel ≤ 10
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S64x768.size a ≤ S64x1000000.size a
  k0_t1_ok : k0_t1_loop.OK
  k0_off2_inb : ∀ (i : grid0.Coords) (k0_t1 : Fin k0_t1_loop.trips), ∀ (k0_h1 : k0_cond1 k0_t1 = 1#1), ∀ a, (k0_off2 i k0_t1) a + S64x768.size a ≤ S64x1000000.size a
  k0_off3_inb : ∀ (i : grid0.Coords) (k0_t1 : Fin k0_t1_loop.trips), ∀ (r : Fin 2), ∀ a, (k0_off3 i k0_t1 (BitVec.ofNat 32 r.val)) a + S64x768.size a ≤ S64x1000000.size a
  k0_off4_inb : ∀ (i : grid0.Coords) (k0_t1 : Fin k0_t1_loop.trips), ∀ (k0_h2 : k0_cond2 k0_t1 = 1#1), ∀ a, (k0_off4 i k0_t1) a + S768.size a ≤ S196608.size a
  k0_t2_ok : k0_t2_loop.OK
  k0_t3_ok : k0_t3_loop.OK
  k0_off5_inb : ∀ k0_t3 : Fin k0_t3_loop.trips, ∀ (r : Fin 8), ∀ a, (k0_off5 k0_t3 (BitVec.ofNat 32 r.val)) a + S1x16.size a ≤ S64x16.size a
  k0_off6_inb : ∀ (k0_t2 : Fin k0_t2_loop.trips) (k0_t3 : Fin k0_t3_loop.trips), ∀ (r₁ : Fin 8) (r₂ : Fin 8), ∀ a, (k0_off6 k0_t2 k0_t3 (BitVec.ofNat 32 r₁.val) (BitVec.ofNat 32 (16 * r₂.val))) a + S1x16.size a ≤ S64x768.size a
  k0_off7_inb : ∀ k0_t2 : Fin k0_t2_loop.trips, ∀ (r : Fin 8), ∀ a, (k0_off7 k0_t2 (BitVec.ofNat 32 (16 * r.val))) a + S16.size a ≤ S768.size a
  k0_off8_inb : ∀ (i : grid0.Coords) (k0_t1 : Fin k0_t1_loop.trips), ∀ (r : Fin 2), ∀ a, (k0_off8 i k0_t1 (BitVec.ofNat 32 r.val)) a + S768.size a ≤ S196608.size a
  k0_off9_inb : ∀ (i : grid0.Coords) (k0_t1 : Fin k0_t1_loop.trips), ∀ (k0_h3 : k0_cond3 k0_t1 = 1#1), ∀ a, (k0_off9 i k0_t1) a + S64x768.size a ≤ S64x1000000.size a
  k0_off10_inb : ∀ (i : grid0.Coords) (k0_t1 : Fin k0_t1_loop.trips), ∀ (k0_h4 : k0_cond4 k0_t1 = 1#1), ∀ a, (k0_off10 i k0_t1) a + S768.size a ≤ S196608.size a
  k0_t4_ok : k0_t4_loop.OK
  k0_t5_ok : k0_t5_loop.OK
  k0_off11_inb : ∀ k0_t5 : Fin k0_t5_loop.trips, ∀ (r : Fin 8), ∀ a, (k0_off11 k0_t5 (BitVec.ofNat 32 r.val)) a + S1x16.size a ≤ S64x16.size a
  k0_off12_inb : ∀ (k0_t4 : Fin k0_t4_loop.trips) (k0_t5 : Fin k0_t5_loop.trips), ∀ (r₁ : Fin 8) (r₂ : Fin 8), ∀ a, (k0_off12 k0_t4 k0_t5 (BitVec.ofNat 32 r₁.val) (BitVec.ofNat 32 (16 * r₂.val))) a + S1x16.size a ≤ S64x768.size a
  k0_off13_inb : ∀ k0_t4 : Fin k0_t4_loop.trips, ∀ (r : Fin 8), ∀ a, (k0_off13 k0_t4 (BitVec.ofNat 32 (16 * r.val))) a + S16.size a ≤ S768.size a
  k0_off14_inb : ∀ i : grid0.Coords, ∀ (r : Fin 2), ∀ a, (k0_off14 i (BitVec.ofNat 32 (192 + 32 * r.val))) a + S768.size a ≤ S196608.size a
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S64x1.size a ≤ S64x1.size a
  hwx1_0 : ∀ i : grid1.Coords, EltTy.bits .f32 = 32 ∨ (Rect.block (s := S64x1) S64x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hstart1_1 : ∀ (i : grid1.Coords) a, cc1_transform_1 i a * S64x32768.size a < S64x1000000.size a
  hwx1_1 : ∀ i : grid1.Coords, EltTy.bits .f32 = 32 ∨ (Rect.unit (s := S64x1000000) (fun a => cc1_transform_1 i a * S64x32768.size a) (fun a => (Pipeline.Clip.of (cc1_transform_1 i a) (S64x32768.size a) (S64x1000000.size a)).extent (S64x32768.size a)) fun a => Pipeline.Clip.inb (Pipeline.Clip.ok_of (hstart1_1 i a))).WholeWords (EltTy.packing .f32)
  hwxs1_1 : ∀ i : grid1.Coords, EltTy.bits .f32 = 32 ∨ (Rect.unit (s := S64x32768) (fun _ => 0) (fun a => (Pipeline.Clip.of (cc1_transform_1 i a) (S64x32768.size a) (S64x1000000.size a)).extent (S64x32768.size a)) fun a => (Nat.zero_add _).trans_le (Pipeline.Clip.extent_le (Pipeline.Clip.ok_of (hstart1_1 i a)))).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hstart1_2 : ∀ (i : grid1.Coords) a, cc1_transform_2 i a * S32768.size a < S803392.size a
  hwx1_2 : ∀ i : grid1.Coords, EltTy.bits .f32 = 32 ∨ (Rect.unit (s := S803392) (fun a => cc1_transform_2 i a * S32768.size a) (fun a => (Pipeline.Clip.of (cc1_transform_2 i a) (S32768.size a) (S803392.size a)).extent (S32768.size a)) fun a => Pipeline.Clip.inb (Pipeline.Clip.ok_of (hstart1_2 i a))).WholeWords (EltTy.packing .f32)
  hwxs1_2 : ∀ i : grid1.Coords, EltTy.bits .f32 = 32 ∨ (Rect.unit (s := S32768) (fun _ => 0) (fun a => (Pipeline.Clip.of (cc1_transform_2 i a) (S32768.size a) (S803392.size a)).extent (S32768.size a)) fun a => (Nat.zero_add _).trans_le (Pipeline.Clip.extent_le (Pipeline.Clip.ok_of (hstart1_2 i a)))).WholeWords (EltTy.packing .f32)

variable [Facts₀]

abbrev cc0_scratch5 : DmaSems sig S_ := SemArray.consecutive 0 S_ hcc0_scratch5
abbrev cc0_scratch6 : DmaSems sig S_ := SemArray.consecutive 1 S_ hcc0_scratch6
abbrev cc0_scratch7 : DmaSems sig S_ := SemArray.consecutive 2 S_ hcc0_scratch7
abbrev cc0_scratch8 : DmaSems sig S_ := SemArray.consecutive 3 S_ hcc0_scratch8
abbrev cc0_scoped0 : DmaSems sig S_ := SemArray.consecutive 4 S_ hcc0_scoped0

abbrev win1_0 : Pipeline.Window sig grid1 :=
  Pipeline.Window.ofSpec (Memref.whole main_v3) S64x1.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpecClip (Memref.whole main_v2) S64x32768.size cc1_transform_1 reads1_1 false false 2 stage1_1 sem1_1
    hrank1 hreads1_1 hstart1_1 nbuf1_1 (Memref.isWhole_whole _) hwx1_1 hwxs1_1 hstage1_1

abbrev win1_2 : Pipeline.Window sig grid1 :=
  Pipeline.Window.ofSpecClip (Memref.whole main_v5) S32768.size cc1_transform_2 reads1_2 true false 2 stage1_2 sem1_2
    hrank1 hreads1_2 hstart1_2 nbuf1_2 (Memref.isWhole_whole _) hwx1_2 hwxs1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S1000000x64 : Shape := ⟨2, ![1000000, 64]⟩
abbrev S1x64 : Shape := ⟨2, ![1, 64]⟩
abbrev S_ : Shape := ⟨0, ![]⟩
abbrev S1000000 : Shape := ⟨1, ![1000000]⟩

abbrev nBuf : Space → Nat
  | .hbm => 6
  | .vmem => 0
  | .smem => 0
  | _ => 0

abbrev bufTy : (tb : Table) → Fin (tcTables nBuf tb) → BufTy
  | .hbm, ⟨0, _⟩ => ⟨S1000000x64, .f32⟩
  | .hbm, ⟨1, _⟩ => ⟨S1x64, .f32⟩
  | .hbm, ⟨2, _⟩ => ⟨S1000000x64, .f32⟩
  | .hbm, ⟨3, _⟩ => ⟨S1000000x64, .f32⟩
  | .hbm, ⟨4, _⟩ => ⟨S_, .f32⟩
  | .hbm, ⟨5, _⟩ => ⟨S1000000, .f32⟩
  | _, _ => ⟨S1000000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S1x64_S1000000x64_0_1 : S1x64.BroadcastsInDim S1000000x64 (![0, 1] : Fin 2 → Fin S1000000x64.rank)
  reducesTo_S1000000x64_S1000000_d1 : S1000000x64.ReducesTo [1] S1000000
  h_S_ : 0 < S_.numel

variable [Facts₀]

class Facts : Prop extends Facts₀ where

variable [Facts]
-- ==== Proof.Common.lean ====
/-
  Shared definitions for the idealized kernel's program: the program as the launch theorem sees it, the ghost
  state (handshake rounds, the TensorCore pipeline's staging rounds, the transfers' counters), the arrays, the
  specification of what each half of the result holds, and what the SparseCore call's handshakes carry.

  The mathematics. The program computes scores n ↦ Σ_d items[n, d] · u[d] for n < 1000000 in two halves. Columns
  n < 196608 of the transposed table are shared among 32 vector subcores: subcore (c, s) has number w = 2 s + c
  and takes the eight 768-column chunks numbered w + 32 j, j < 8; per column it accumulates acc ← acc + x_d · u_d
  for d = 0 … 63 from zero, in that order. Columns n ≥ 196608 are taken by a TensorCore pipeline in 25 blocks of
  32768 columns (the last block runs past the table and is clipped), each a sum over d of x_d · u_d.
-/
import proofs.«207427_g73340861546603_cont_9to1c4b_775_30_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx
import proofs.«207427_g73340861546603_cont_9to1c4b_775_30_alg».proof.Proof.Gen.KernelIdeal
import proofs.«207427_g73340861546603_cont_9to1c4b_775_30_alg».proof.Proof.Gen.KernelIdeal.Skeleton
import proofs.«207427_g73340861546603_cont_9to1c4b_775_30_alg».proof.Proof.Gen.KernelIdeal.Launch
import proofs.«207427_g73340861546603_cont_9to1c4b_775_30_alg».proof.Proof.Gen.KernelIdeal.Points

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

variable [FloatOps F]

/-! ## What the host operations before the calls leave -/

/-- The user vector as a column [64, 1]. -/
def Ucol (d : Dev nD) : FVec F S64x1 .f32 := shapeCast S64x1 (m (a1Loc d)) shapeCasts_S1x64_S64x1
/-- The column repeated sixteen times [64, 16]. -/
def Ubc (d : Dev nD) : FVec F S64x16 .f32 := broadcastInDim S64x16 ![0, 1] bcast_S64x1_S64x16_0_1 (Ucol m d)
/-- The table transposed [64, 1000000]. -/
def Xt (d : Dev nD) : FVec F S64x1000000 .f32 := transpose S64x1000000 [1, 0] (m (a0Loc d)) transposes_S1000000x64_S64x1000000_1_0

/-! ## The specification of the SparseCore half -/

/-- The running accumulator of column `n` on lane `l` after the first `k` table rows: from zero, acc + x_d · u_d. -/
def accUpTo (X : FVec F S64x1000000 .f32) (Uc : FVec F S64x16 .f32) (n : Fin 1000000) (l : Fin 16) : ℕ → F .f32
  | 0 => FloatOps.ofBits .f32 0x00000000#32
  | k + 1 => if h : k < 64 then FloatOps.addf (accUpTo X Uc n l k) (FloatOps.mulf (X (ix2 ⟨k, h⟩ n)) (Uc (ix2 ⟨k, h⟩ l)))
      else accUpTo X Uc n l k

/-- What the SparseCore call leaves at index `n` of its result: the accumulator after all 64 rows, on lane n mod 16. -/
def scOut (X : FVec F S64x1000000 .f32) (Uc : FVec F S64x16 .f32) : FVec F S196608 .f32 :=
  fun n => accUpTo X Uc ⟨(n 0).val, lt_trans (n 0).isLt (by decide)⟩ ⟨(n 0).val % 16, Nat.mod_lt _ (by decide)⟩ 64

/-! ## The specification of the TensorCore half -/

/-- `f` is what the pipeline leaves in its result: for every grid point `t` there is a staged block `xb` that agrees
    with the table on the columns of block `t + 6` that exist, and `f` on the result's columns of block `t` that
    exist is the body's reduction of `xb` against the user column. -/
def TcSpec (X : FVec F S64x1000000 .f32) (U3 : FVec F S64x1 .f32) (f : FVec F S803392 .f32) : Prop :=
  ∀ t : Fin 25, ∃ xb : Vec F S64x32768 .f32,
    (∀ (r : Fin 64) (y : Fin 32768) (h : 32768 * (t.val + 6) + y.val < 1000000), xb (ix2 r y) = X (ix2 r ⟨32768 * (t.val + 6) + y.val, h⟩))
    ∧ ∀ (y : Fin 32768) (h : 32768 * t.val + y.val < 803392), f (ix1 ⟨32768 * t.val + y.val, h⟩) = k1_pay1 xb U3 (ix1 y)

/-! ## Which indices of the SparseCore result a vector subcore writes -/

/-- Chunk `j` of subcore `(c, s)`: columns [768 (2 s + c + 32 j), + 768). -/
def chunkSet (c : Fin 2) (s : Fin 16) (j : Fin 8) : Finset S196608.Idx :=
  Finset.univ.filter fun n => (n 0).val / 768 = 2 * s.val + c.val + 32 * j.val
/-- All eight chunks of subcore `(c, s)`. -/
def tileSet (c : Fin 2) (s : Fin 16) : Finset S196608.Idx :=
  Finset.univ.filter fun n => (n 0).val / 768 % 32 = 2 * s.val + c.val
/-- All chunks of SparseCore `c`. -/
def coreSet (c : Fin 2) : Finset S196608.Idx :=
  Finset.univ.filter fun n => (n 0).val / 768 % 2 = c.val

/-! ## Read shares of the two tables: one per SparseCore, of that one per vector subcore -/

abbrev qCore (c : Fin 2) : PosShare TreeShare := Transfers.shareTok fullShare 2 c
abbrev qTile (c : Fin 2) (s : Fin 16) : PosShare TreeShare := Transfers.shareTok (qCore c) 16 s

/-! ## What the handshakes carry -/

/-- What a vector subcore is handed: a read share of the transposed table and of the repeated user column at what
    the host left there, and its chunks of the result at some contents. -/
def goRes (d : Dev nD) (c : Fin 2) (s : Fin 16) : sProp 𝕄 :=
  iprop((v2Loc d ↦{qTile c s} Xt m d) ∗ (v1Loc d ↦{qTile c s} Ubc m d) ∗ ∃ f, v4Loc d ↦[tileSet c s]{fullShare} f)
/-- What it hands back: the shares, and its chunks at the specification. -/
def tdRes (d : Dev nD) (c : Fin 2) (s : Fin 16) : sProp 𝕄 :=
  iprop((v2Loc d ↦{qTile c s} Xt m d) ∗ (v1Loc d ↦{qTile c s} Ubc m d) ∗ v4Loc d ↦[tileSet c s]{fullShare} scOut (Xt m d) (Ubc m d))
def stRes (d : Dev nD) (c : Fin 2) : sProp 𝕄 :=
  iprop((v2Loc d ↦{qCore c} Xt m d) ∗ (v1Loc d ↦{qCore c} Ubc m d) ∗ ∃ f, v4Loc d ↦[coreSet c]{fullShare} f)
def dnRes (d : Dev nD) (c : Fin 2) : sProp 𝕄 :=
  iprop((v2Loc d ↦{qCore c} Xt m d) ∗ (v1Loc d ↦{qCore c} Ubc m d) ∗ v4Loc d ↦[coreSet c]{fullShare} scOut (Xt m d) (Ubc m d))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with | 0 => by show BI.Storable (upEmb : UEmb _ 𝕄) (stRes m d _); unfold stRes; infer_instance
  dn q d c := match q with | 0 => by show BI.Storable (upEmb : UEmb _ 𝕄) (dnRes m d _); unfold dnRes; infer_instance
  go q d c i := match q with | 0 => by show BI.Storable (upEmb : UEmb _ 𝕄) (goRes m d _ _); unfold goRes; infer_instance
  td q d c i := match q with | 0 => by show BI.Storable (upEmb : UEmb _ 𝕄) (tdRes m d _ _); unfold tdRes; infer_instance

end Cert.Proof.KI

end
-- ==== Proof.Split.lean ====
/-
  How a SparseCore's operands split among its sixteen vector subcores and how their results gather: the two tables
  go out as read shares (one token per subcore, the remainder kept aside until the results come back), the
  result's columns of SparseCore c — the chunks whose number is ≡ c mod 2 — are the disjoint union over s of the
  chunks whose number is ≡ 2 s + c mod 32.
-/
import proofs.«207427_g73340861546603_cont_9to1c4b_775_30_alg».proof.Proof.Common

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ) (ρ : Dev nD → PrngReg)

/-! ## The index sets: a partition by chunk number -/

theorem tiles_disjoint (c : Fin 2) : ∀ s ∈ (Finset.univ : Finset (Fin 16)), ∀ s' ∈ (Finset.univ : Finset (Fin 16)), s ≠ s' →
    Disjoint (tileSet c s) (tileSet c s') := by
  intro s _ s' _ hne
  unfold tileSet
  refine Finset.disjoint_filter.2 fun n _ h1 h2 => hne (Fin.ext ?_)
  omega

theorem tiles_cover (c : Fin 2) : (Finset.univ : Finset (Fin 16)).biUnion (tileSet c) = coreSet c := by
  ext n
  simp only [Finset.mem_biUnion, Finset.mem_univ, true_and, tileSet, coreSet, Finset.mem_filter]
  constructor
  · rintro ⟨s, hs⟩; have := c.isLt; omega
  · intro h
    have hc := c.isLt
    exact ⟨⟨(n 0).val / 768 % 32 / 2, by omega⟩, by show (n 0).val / 768 % 32 = 2 * ((n 0).val / 768 % 32 / 2) + c.val; omega⟩

theorem cores_disjoint : ∀ c ∈ (Finset.univ : Finset (Fin 2)), ∀ c' ∈ (Finset.univ : Finset (Fin 2)), c ≠ c' →
    Disjoint (coreSet c) (coreSet c') := by
  intro c _ c' _ hne
  unfold coreSet
  refine Finset.disjoint_filter.2 fun n _ h1 h2 => hne (Fin.ext ?_)
  omega

theorem cores_cover : (Finset.univ : Finset (Fin 2)).biUnion coreSet = Finset.univ := by
  ext n
  simp only [Finset.mem_biUnion, Finset.mem_univ, true_and, coreSet, Finset.mem_filter, iff_true]
  exact ⟨⟨(n 0).val / 768 % 2, Nat.mod_lt _ (by decide)⟩, rfl⟩

variable [FloatOps F]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The split of SparseCore `c`'s operands into its subcores' and the gathering of their results. -/
theorem split_core (d : Dev nD) (c : Fin 2) :
    stRes m d c ⊢ |={Set.univ}=> iprop((bigSep Finset.univ fun s : Fin 16 => goRes m d c s)
      ∗ ((bigSep Finset.univ fun s : Fin 16 => tdRes m d c s) -∗ dnRes m d c)) := by
  unfold stRes goRes tdRes dnRes
  rw [bigSep_sep', bigSep_sep', bigSep_sep', bigSep_sep']
  iintro ⟨H2, H1, ⟨%f, H4⟩⟩
  ihave H2' := (Transfers.pointsTo_toks (qCore c) 16).1 $$ H2
  icases H2' with ⟨H2r, H2t⟩
  ihave H1' := (Transfers.pointsTo_toks (qCore c) 16).1 $$ H1
  icases H1' with ⟨H1r, H1t⟩
  have h4 : ∀ g : Buf (Elt F) (v4Loc d), (v4Loc d ↦[coreSet c]{fullShare} g : sProp 𝕄)
      = bigSep Finset.univ fun s : Fin 16 => v4Loc d ↦[tileSet c s]{fullShare} g := fun g => by
    rw [← tiles_cover c, pointsTo_biUnion Finset.univ (ℓ := v4Loc d) (tileSet c) (tiles_disjoint c)]
  have hmono : ∀ g : Buf (Elt F) (v4Loc d), (bigSep Finset.univ fun s : Fin 16 => v4Loc d ↦[tileSet c s]{fullShare} g : sProp 𝕄)
      ⊢ bigSep Finset.univ fun s : Fin 16 => iprop(∃ f, v4Loc d ↦[tileSet c s]{fullShare} f) :=
    fun g => bigSep_mono fun s _ => exists_intro (Φ := fun f : Buf (Elt F) (v4Loc d) => (v4Loc d ↦[tileSet c s]{fullShare} f : sProp 𝕄)) g
  ihave H4' := (Entails.of_eq (h4 f)) $$ H4
  imodintro
  isplitl [H2t H1t H4']
  · isplitl [H2t]; · iexact H2t
    isplitl [H1t]; · iexact H1t
    iapply (hmono f); iexact H4'
  iintro ⟨G2, G1, G4⟩
  isplitl [H2r G2]
  · iapply (Transfers.pointsTo_toks (qCore c) 16).2; isplitl [H2r] <;> iassumption
  isplitl [H1r G1]
  · iapply (Transfers.pointsTo_toks (qCore c) 16).2; isplitl [H1r] <;> iassumption
  iapply (Entails.of_eq (h4 _).symm); iexact G4

theorem vecSplit : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun s => goRes m d (Fin.cast nCore_zero c) s), bigSep_tasks (F := F) (fun s => tdRes m d (Fin.cast nCore_zero c) s)]
  exact split_core m d _

end Cert.Proof.KI

end
-- ==== Proof.Main.lean ====
/-
  @main on the TensorCore, the launch element, and the program's run: the four host operations leave the user
  column, its sixteen-fold repetition, the transposed table and the column again; the SparseCore call takes the
  table and the repetition as read shares and its result whole and brings the result back at its specification;
  the TensorCore pipeline fills the other half; the concatenation joins the two.
-/
import proofs.«207427_g73340861546603_cont_9to1c4b_775_30_alg».proof.Proof.Common
import proofs.«207427_g73340861546603_cont_9to1c4b_775_30_alg».proof.Proof.Split

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (held held_split held_sdiff_result wp_hlo_within)

/-! ## The TensorCore's arrays -/

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)
abbrev r6' : DevRef τ sig := Proc.devRef .tc (main_v6 : Ref sig .tc)

abbrev S9 : Finset (DevRef τ sig) := {a0', a1', r0', r1', r2', r3', r4', r5', r6'}

theorem held_S9 (d : Dev nD) (W : Valuation τ sig (Elt F)) :
    (held (T d) S9 W : sProp 𝕄) = iprop((a0Loc d ↦{fullShare} W a0') ∗ (a1Loc d ↦{fullShare} W a1') ∗ (v0Loc d ↦{fullShare} W r0')
      ∗ (v1Loc d ↦{fullShare} W r1') ∗ (v2Loc d ↦{fullShare} W r2') ∗ (v3Loc d ↦{fullShare} W r3') ∗ (v4Loc d ↦{fullShare} W r4')
      ∗ (v5Loc d ↦{fullShare} W r5') ∗ v6Loc d ↦{fullShare} W r6') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (v0Loc d ↦{fullShare} W main_v0)
      ∗ (v1Loc d ↦{fullShare} W main_v1) ∗ (v2Loc d ↦{fullShare} W main_v2) ∗ (v3Loc d ↦{fullShare} W main_v3) ∗ (v4Loc d ↦{fullShare} W main_v4)
      ∗ (v5Loc d ↦{fullShare} W main_v5) ∗ v6Loc d ↦{fullShare} W main_v6) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

variable [FloatOps F]

/-! ## The host operations -/

abbrev op1 : HloOp τ sig (Elt F) := StableHlo.reshape main_arg1 main_v0 rfl shapeCasts_S1x64_S64x1
abbrev op2 : HloOp τ sig (Elt F) := StableHlo.unary main_v0 main_v1 (broadcastInDim S64x16 ![0, 1] bcast_S64x1_S64x16_0_1 : (⟨S64x1, .f32⟩ : BufTy).Contents (Elt F) → (⟨S64x16, .f32⟩ : BufTy).Contents (Elt F))
abbrev op3 : HloOp τ sig (Elt F) := StableHlo.unary main_arg0 main_v2 ((transpose S64x1000000 [1, 0] · transposes_S1000000x64_S64x1000000_1_0) : (⟨S1000000x64, .f32⟩ : BufTy).Contents (Elt F) → (⟨S64x1000000, .f32⟩ : BufTy).Contents (Elt F))
abbrev op4 : HloOp τ sig (Elt F) := StableHlo.reshape main_arg1 main_v3 rfl shapeCasts_S1x64_S64x1
abbrev opC : HloOp τ sig (Elt F) := StableHlo.binary main_v4 main_v5 main_v6 ((fun a b => concatenate S1000000 0 [⟨S196608, a⟩, ⟨S803392, b⟩] concatenates_S196608_S803392_S1000000_d0) : (⟨S196608, .f32⟩ : BufTy).Contents (Elt F) → (⟨S803392, .f32⟩ : BufTy).Contents (Elt F) → (⟨S1000000, .f32⟩ : BufTy).Contents (Elt F))

theorem hop1 : (op1 (F := F)).bufs ⊆ S9 := show ({a1', r0'} : Finset (DevRef τ sig)) ⊆ S9 by decide
theorem hop2 : (op2 (F := F)).bufs ⊆ S9 := show ({r0', r1'} : Finset (DevRef τ sig)) ⊆ S9 by decide
theorem hop3 : (op3 (F := F)).bufs ⊆ S9 := show ({a0', r2'} : Finset (DevRef τ sig)) ⊆ S9 by decide
theorem hop4 : (op4 (F := F)).bufs ⊆ S9 := show ({a1', r3'} : Finset (DevRef τ sig)) ⊆ S9 by decide
theorem hopC : (opC (F := F)).bufs ⊆ S9 := show ({r4', r5', r6'} : Finset (DevRef τ sig)) ⊆ S9 by decide

/-- The launch valuation, and the one after the four operations. -/
def V0 (d : Dev nD) : Valuation τ sig (Elt F) := fun b => m (d, b)
def V4 (d : Dev nD) : Valuation τ sig (Elt F) := StableHlo.after [op1, op2, op3, op4] (V0 m d)

theorem V4_a0 (d : Dev nD) : V4 m d a0' = m (a0Loc d) := by unfold V4; after_results; rfl
theorem V4_a1 (d : Dev nD) : V4 m d a1' = m (a1Loc d) := by unfold V4; after_results; rfl
theorem V4_r1 (d : Dev nD) : V4 m d r1' = Ubc m d := by unfold V4; after_results; rfl
theorem V4_r2 (d : Dev nD) : V4 m d r2' = Xt m d := by unfold V4; after_results; rfl
theorem V4_r3 (d : Dev nD) : V4 m d r3' = Ucol m d := by unfold V4; after_results; rfl

theorem V4_r4 (d : Dev nD) : V4 m d r4' = m (v4Loc d) := by unfold V4; after_results; rfl
theorem V4_r5 (d : Dev nD) : V4 m d r5' = m (v5Loc d) := by unfold V4; after_results; rfl
theorem V4_r0 (d : Dev nD) : V4 m d r0' = Ucol m d := by unfold V4; after_results; rfl
theorem V4_r6 (d : Dev nD) : V4 m d r6' = m (v6Loc d) := by unfold V4; after_results; rfl

/-- The valuation before the concatenation: the two halves at what the calls left. -/
def V5 (d : Dev nD) (f : FVec F S803392 .f32) : Valuation τ sig (Elt F) :=
  Function.update (Function.update (V4 m d) r4' (scOut (Xt m d) (Ubc m d))) r5' f

theorem V5_a0 (d : Dev nD) (f : FVec F S803392 .f32) : V5 m d f a0' = m (a0Loc d) := by
  unfold V5; rw [Function.update_of_ne (show a0' ≠ r5' by decide), Function.update_of_ne (show a0' ≠ r4' by decide), V4_a0]
theorem V5_a1 (d : Dev nD) (f : FVec F S803392 .f32) : V5 m d f a1' = m (a1Loc d) := by
  unfold V5; rw [Function.update_of_ne (show a1' ≠ r5' by decide), Function.update_of_ne (show a1' ≠ r4' by decide), V4_a1]
theorem V5_r0 (d : Dev nD) (f : FVec F S803392 .f32) : V5 m d f r0' = Ucol m d := by
  unfold V5; rw [Function.update_of_ne (show r0' ≠ r5' by decide), Function.update_of_ne (show r0' ≠ r4' by decide), V4_r0]
theorem V5_r1 (d : Dev nD) (f : FVec F S803392 .f32) : V5 m d f r1' = Ubc m d := by
  unfold V5; rw [Function.update_of_ne (show r1' ≠ r5' by decide), Function.update_of_ne (show r1' ≠ r4' by decide), V4_r1]
theorem V5_r2 (d : Dev nD) (f : FVec F S803392 .f32) : V5 m d f r2' = Xt m d := by
  unfold V5; rw [Function.update_of_ne (show r2' ≠ r5' by decide), Function.update_of_ne (show r2' ≠ r4' by decide), V4_r2]
theorem V5_r3 (d : Dev nD) (f : FVec F S803392 .f32) : V5 m d f r3' = Ucol m d := by
  unfold V5; rw [Function.update_of_ne (show r3' ≠ r5' by decide), Function.update_of_ne (show r3' ≠ r4' by decide), V4_r3]
theorem V5_r4 (d : Dev nD) (f : FVec F S803392 .f32) : V5 m d f r4' = scOut (Xt m d) (Ubc m d) := by
  unfold V5; rw [Function.update_of_ne (show r4' ≠ r5' by decide), Function.update_self]
theorem V5_r5 (d : Dev nD) (f : FVec F S803392 .f32) : V5 m d f r5' = f := by
  unfold V5; rw [Function.update_self]
theorem V5_r6 (d : Dev nD) (f : FVec F S803392 .f32) : V5 m d f r6' = m (v6Loc d) := by
  unfold V5; rw [Function.update_of_ne (show r6' ≠ r5' by decide), Function.update_of_ne (show r6' ≠ r4' by decide), V4_r6]

/-- The whole result: the SparseCore half followed by the TensorCore half. -/
def whole (d : Dev nD) (f : FVec F S803392 .f32) : FVec F S1000000 .f32 :=
  concatenate S1000000 0 [⟨S196608, scOut (Xt m d) (Ubc m d)⟩, ⟨S803392, f⟩] concatenates_S196608_S803392_S1000000_d0

theorem VC_r6 (d : Dev nD) (f : FVec F S803392 .f32) : (opC (F := F)).result (V5 m d f) r6' = whole m d f := by
  show StableHlo.after [opC] (V5 m d f) r6' = _
  after_results
  rw [V5_r4, V5_r5]; rfl
theorem VC_a0 (d : Dev nD) (f : FVec F S803392 .f32) : (opC (F := F)).result (V5 m d f) a0' = m (a0Loc d) := by
  rw [(opC (F := F)).result_of_not_mem (V5 m d f) (b := a0') (show a0' ∉ ({r6'} : Finset (DevRef τ sig)) by decide), V5_a0]
theorem VC_a1 (d : Dev nD) (f : FVec F S803392 .f32) : (opC (F := F)).result (V5 m d f) a1' = m (a1Loc d) := by
  rw [(opC (F := F)).result_of_not_mem (V5 m d f) (b := a1') (show a1' ∉ ({r6'} : Finset (DevRef τ sig)) by decide), V5_a1]

/-! ## What the call takes for the two SparseCores, and what it hands back -/

theorem st0_eq (d : Dev nD) : (bigSep Finset.univ fun c : Fin ((K (F := F)).nCore 0) => (P m).st 0 d c) = iprop(stRes m d 0 ∗ stRes m d 1) := by
  show (bigSep (Finset.univ : Finset (Fin 2)) fun c => stRes m d (Fin.cast nCore_zero c)) = _
  rw [show (Finset.univ : Finset (Fin 2)) = {0, 1} by decide, SparseCore.bigSep_insert' (by decide), bigSep_singleton]; rfl
theorem dn0_eq (d : Dev nD) : (bigSep Finset.univ fun c : Fin ((K (F := F)).nCore 0) => (P m).dn 0 d c) = iprop(dnRes m d 0 ∗ dnRes m d 1) := by
  show (bigSep (Finset.univ : Finset (Fin 2)) fun c => dnRes m d (Fin.cast nCore_zero c)) = _
  rw [show (Finset.univ : Finset (Fin 2)) = {0, 1} by decide, SparseCore.bigSep_insert' (by decide), bigSep_singleton]; rfl

omit [FloatOps F] in
theorem toks2 {ℓ : Loc nD τ sig} (f : Buf (Elt F) ℓ) :
    (ℓ ↦{fullShare} f : sProp 𝕄) ⊣⊢ iprop((ℓ ↦{Transfers.shareDrop fullShare 2} f) ∗ (ℓ ↦{qCore 0} f) ∗ ℓ ↦{qCore 1} f) := by
  have h := Transfers.pointsTo_toks (ℓ := ℓ) (S := Finset.univ) (f := f) (Ix := HIx 1) (Name := ℕ) (U := UU) (Lvl := ℕ) fullShare 2
  rw [show (Finset.univ : Finset (Fin 2)) = {0, 1} by decide, SparseCore.bigSep_insert' (by decide), bigSep_singleton] at h
  exact h

omit [FloatOps F] in
theorem v4_cores (d : Dev nD) (f : Buf (Elt F) (v4Loc d)) :
    (v4Loc d ↦{fullShare} f : sProp 𝕄) = iprop((v4Loc d ↦[coreSet 0]{fullShare} f) ∗ v4Loc d ↦[coreSet 1]{fullShare} f) := by
  rw [← cores_cover, pointsTo_biUnion Finset.univ (ℓ := v4Loc d) coreSet cores_disjoint,
    show (Finset.univ : Finset (Fin 2)) = {0, 1} by decide, SparseCore.bigSep_insert' (by decide), bigSep_singleton]

/-- The statement of the TensorCore pipeline's region (proved in its own module): from the region boundary, what the
    TensorCore owes, the staging cells' ghost state, the user column, the table, the result array and the six other
    arrays, the call runs and leaves the result array at contents satisfying `TcSpec`. -/
def RegionStmt : Prop :=
  ∀ (κ : GSem nD τ sig → ℕ) (d : Dev nD) (U3 : FVec F S64x1 .f32) (X2 : FVec F S64x1000000 .f32)
    (W : (b : Ref sig .tc) → Buf (Elt F) ((d.tc : Thread nD τ).loc b)),
    iprop((K (F := F)).ctx EH (P m) κ ∗ boundary (T d)
        ∗ (∃ Wt, ⌜(K (F := F)).WBelow (T d) Wt (8 * 1)⌝ ∗ owes (T d) ((K (F := F)).Otc d 1) Wt)
        ∗ Pipeline.cellsGhost cfgs (EP (F := F)) 0 d ∗ Pipeline.toksInit cfgs (EP (F := F)) 0 d
        ∗ (v3Loc d ↦{fullShare} U3) ∗ (v2Loc d ↦{fullShare} X2) ∗ (∃ f, v5Loc d ↦{fullShare} f)
        ∗ Pipeline.unscopedRest spec1 d W)
      ⊢ wp frame (wpE ((K (F := F)).defs (D (F := F))) 𝒱 (T d) none) Set.univ
          (Prog.lift (.customCall (SparseCore.inner (Pipeline.entry 0)) ())) fun _ =>
          iprop(boundary (T d)
            ∗ (∃ Wt, ⌜(K (F := F)).WBelow (T d) Wt (8 * 1)⌝ ∗ owes (T d) ((K (F := F)).Otc d 1) Wt)
            ∗ (v3Loc d ↦{fullShare} U3) ∗ (v2Loc d ↦{fullShare} X2)
            ∗ (∃ f, ⌜TcSpec X2 U3 f⌝ ∗ v5Loc d ↦{fullShare} f)
            ∗ Pipeline.unscopedRest spec1 d W)

omit [FloatOps F] in
/-- The statement of the staging cells' launch piece (proved with the region). -/
def GhostStmt : Prop :=
  (BI.own ((EP (F := F)) (initOf (Pipeline.cells (nD := nD) (τ := τ) cfgs cellOf_inj) (Pipeline.launchToks (nD := nD) (τ := τ) cfgs cellOf_inj))) : sProp 𝕄)
    ⊢ iprop(|==> bigSep Finset.univ fun d : Dev nD => iprop(Pipeline.cellsGhost cfgs (EP (F := F)) 0 d ∗ Pipeline.toksInit cfgs (EP (F := F)) 0 d))

/-- What @main leaves the claim: the arguments at their launch contents, the result at the two halves joined. -/
def FIN (d : Dev nD) : sProp 𝕄 :=
  iprop((a0Loc d ↦{fullShare} m (a0Loc d)) ∗ (a1Loc d ↦{fullShare} m (a1Loc d))
    ∗ ∃ f, ⌜TcSpec (Xt m d) (Ucol m d) f⌝ ∗ v6Loc d ↦{fullShare} whole m d f)

/-- What @main's proof starts from beyond the launch's deal: the pipeline's staging cells' ghost state. -/
def G (d : Dev nD) : sProp 𝕄 := iprop(Pipeline.cellsGhost cfgs (EP (F := F)) 0 d ∗ Pipeline.toksInit cfgs (EP (F := F)) 0 d)

theorem held_V4 (d : Dev nD) :
    (held (T d) S9 ((op4 (F := F)).result ((op3 (F := F)).result ((op2 (F := F)).result ((op1 (F := F)).result (V0 m d))))) : sProp 𝕄) = iprop((a0Loc d ↦{fullShare} m (a0Loc d)) ∗ (a1Loc d ↦{fullShare} m (a1Loc d)) ∗ (v0Loc d ↦{fullShare} Ucol m d)
      ∗ (v1Loc d ↦{fullShare} Ubc m d) ∗ (v2Loc d ↦{fullShare} Xt m d) ∗ (v3Loc d ↦{fullShare} Ucol m d) ∗ (v4Loc d ↦{fullShare} m (v4Loc d))
      ∗ (v5Loc d ↦{fullShare} m (v5Loc d)) ∗ v6Loc d ↦{fullShare} m (v6Loc d)) := by
  show (held (T d) S9 (V4 m d) : sProp 𝕄) = _
  rw [held_S9, V4_a0, V4_a1, V4_r0, V4_r1, V4_r2, V4_r3, V4_r4, V4_r5, V4_r6]

theorem held_V5 (d : Dev nD) (f : FVec F S803392 .f32) :
    (held (T d) S9 (V5 m d f) : sProp 𝕄) = iprop((a0Loc d ↦{fullShare} m (a0Loc d)) ∗ (a1Loc d ↦{fullShare} m (a1Loc d)) ∗ (v0Loc d ↦{fullShare} Ucol m d)
      ∗ (v1Loc d ↦{fullShare} Ubc m d) ∗ (v2Loc d ↦{fullShare} Xt m d) ∗ (v3Loc d ↦{fullShare} Ucol m d) ∗ (v4Loc d ↦{fullShare} scOut (Xt m d) (Ubc m d))
      ∗ (v5Loc d ↦{fullShare} f) ∗ v6Loc d ↦{fullShare} m (v6Loc d)) := by
  rw [held_S9, V5_a0, V5_a1, V5_r0, V5_r1, V5_r2, V5_r3, V5_r4, V5_r5, V5_r6]

theorem held_VC (d : Dev nD) (f : FVec F S803392 .f32) :
    (held (T d) S9 ((opC (F := F)).result (V5 m d f)) : sProp 𝕄)
      ⊢ iprop((a0Loc d ↦{fullShare} m (a0Loc d)) ∗ (a1Loc d ↦{fullShare} m (a1Loc d)) ∗ v6Loc d ↦{fullShare} whole m d f) := by
  rw [held_S9, VC_a0, VC_a1, VC_r6]
  iintro ⟨H0, H1, -, -, -, -, -, -, H6⟩
  isplitl [H0]; · iexact H0
  isplitl [H1]; · iexact H1
  iexact H6

theorem unscoped_held (d : Dev nD) : (unscopedBufs d (fun b => m ((SparseCore.T d).loc b)) : sProp 𝕄) = held (T d) S9 (V0 m d) := by
  rw [unscopedBufs_eq, held_S9]; rfl

/-- The six arrays the pipeline does not touch, as a valuation of the TensorCore's buffers. -/
def Wr (d : Dev nD) : (b : Ref sig .tc) → Buf (Elt F) ((d.tc : Thread nD τ).loc b) :=
  fun b => V5 m d (m (v5Loc d)) (Proc.devRef .tc b)

theorem rest_Wr (d : Dev nD) :
    (Pipeline.unscopedRest (Ix := HIx 1) (Name := ℕ) (U := UU) (Lvl := ℕ) spec1 d (Wr m d) : sProp 𝕄)
      = iprop((a0Loc d ↦{fullShare} m (a0Loc d)) ∗ (a1Loc d ↦{fullShare} m (a1Loc d)) ∗ (v0Loc d ↦{fullShare} Ucol m d)
        ∗ (v1Loc d ↦{fullShare} Ubc m d) ∗ (v4Loc d ↦{fullShare} scOut (Xt m d) (Ubc m d)) ∗ v6Loc d ↦{fullShare} m (v6Loc d)) := by
  rw [unscopedRest1_eq]
  show iprop((a0Loc d ↦{fullShare} V5 m d (m (v5Loc d)) a0') ∗ (a1Loc d ↦{fullShare} V5 m d (m (v5Loc d)) a1') ∗ (v0Loc d ↦{fullShare} V5 m d (m (v5Loc d)) r0')
    ∗ (v1Loc d ↦{fullShare} V5 m d (m (v5Loc d)) r1') ∗ (v4Loc d ↦{fullShare} V5 m d (m (v5Loc d)) r4') ∗ v6Loc d ↦{fullShare} V5 m d (m (v5Loc d)) r6') = _
  rw [V5_a0, V5_a1, V5_r0, V5_r1, V5_r4, V5_r6]

/-- The TensorCore's state before call `n`, its first component apart. -/
def tcStRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))
theorem tcSt_split (d : Dev nD) (n : ℕ) :
    ((K (F := F)).tcSt EH d n : sProp 𝕄)
      = iprop((∃ W, ⌜(K (F := F)).WBelow (T d) W (8 * n)⌝ ∗ owes (T d) ((K (F := F)).Otc d n) W) ∗ tcStRest (F := F) d n) := rfl

set_option maxRecDepth 16384 in
/-- @main on device `d`'s TensorCore. -/
theorem hmain (hR : RegionStmt (F := F) m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held]
  simp only [main, wp_bind, wp_pure]
  iintro ⟨#Hctx, Hst, ⟨Hb, Hheld, -, -⟩, ⟨Hcg, Hti⟩⟩
  -- the four host operations before the calls
  iapply (wp_hlo_within 𝒱 (SparseCore.T d) none Set.univ (op := op1) (S := S9) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) hop3 (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S9) hop4 (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  ihave Hh := (Entails.of_eq (held_V4 (F := F) m d)) $$ Hheld
  icases Hh with ⟨Ha0, Ha1, Hr0, Hr1, Hr2, Hr3, Hr4, Hr5, Hr6⟩
  -- the SparseCore call: the table and the repeated column as read shares, the result by SparseCore
  ihave H2 := (toks2 (F := F) (ℓ := v2Loc d) _).1 $$ Hr2
  icases H2 with ⟨H2r, H2a, H2b⟩
  ihave H1 := (toks2 (F := F) (ℓ := v1Loc d) _).1 $$ Hr1
  icases H1 with ⟨H1r, H1a, H1b⟩
  ihave H4 := (Entails.of_eq (v4_cores (F := F) d _)) $$ Hr4
  icases H4 with ⟨H4a, H4b⟩
  iapply ((K (F := F)).wp_run (D (F := F)) 𝒱 (EH := EH) (P := P m) κ d 0) $$ [Hst H2a H2b H1a H1b H4a H4b H2r H1r Hb Hcg Hti Ha0 Ha1 Hr0 Hr3 Hr5 Hr6]
  isplitr; · iexact Hctx
  isplitl [Hst]; · iexact Hst
  isplitl [H2a H2b H1a H1b H4a H4b]
  · rw [st0_eq]; unfold stRes
    isplitl [H2a H1a H4a]
    · isplitl [H2a]; · iexact H2a
      isplitl [H1a]; · iexact H1a
      iexists _; iexact H4a
    · isplitl [H2b]; · iexact H2b
      isplitl [H1b]; · iexact H1b
      iexists _; iexact H4b
  iintro ⟨Hst, Hdn⟩
  ihave Hdn' := (Entails.of_eq (dn0_eq m d)) $$ Hdn
  unfold dnRes
  icases Hdn' with ⟨⟨H2a, H1a, H4a⟩, ⟨H2b, H1b, H4b⟩⟩
  ihave Hr2 := (toks2 (F := F) (ℓ := v2Loc d) _).2 $$ [H2r H2a H2b]
  · isplitl [H2r]; · iexact H2r
    isplitl [H2a] <;> iassumption
  ihave Hr1 := (toks2 (F := F) (ℓ := v1Loc d) _).2 $$ [H1r H1a H1b]
  · isplitl [H1r]; · iexact H1r
    isplitl [H1a] <;> iassumption
  ihave Hr4 := (Entails.of_eq (v4_cores (F := F) d _).symm) $$ [H4a H4b]
  · isplitl [H4a] <;> iassumption
  -- the TensorCore's pipelined call
  ihave Hst' := (Entails.of_eq (show ((K (F := F)).tcSt EH d ((0 : Fin 1).val + 1) : sProp 𝕄) = _ from tcSt_split (F := F) d 1)) $$ Hst
  icases Hst' with ⟨Hows, Hstr⟩
  iapply (wp_wand_r frame _ Set.univ) $$ [Hstr Hctx Hb Hows Hcg Hti Hr3 Hr2 Hr5 Ha0 Ha1 Hr0 Hr1 Hr4 Hr6]
  isplitl [Hctx Hb Hows Hcg Hti Hr3 Hr2 Hr5 Ha0 Ha1 Hr0 Hr1 Hr4 Hr6]
  · iapply (hR κ d (Ucol m d) (Xt m d) (Wr m d)) $$ [Hctx Hb Hows Hcg Hti Hr3 Hr2 Hr5 Ha0 Ha1 Hr0 Hr1 Hr4 Hr6]
    isplitr; · iexact Hctx
    isplitl [Hb]; · iexact Hb
    isplitl [Hows]; · iexact Hows
    isplitl [Hcg]; · iexact Hcg
    isplitl [Hti]; · iexact Hti
    isplitl [Hr3]; · iexact Hr3
    isplitl [Hr2]; · iexact Hr2
    isplitl [Hr5]; · iexists _; iexact Hr5
    rw [rest_Wr]
    isplitl [Ha0]; · iexact Ha0
    isplitl [Ha1]; · iexact Ha1
    isplitl [Hr0]; · iexact Hr0
    isplitl [Hr1]; · iexact Hr1
    isplitl [Hr4]; · iexact Hr4
    iexact Hr6
  iintro %_ ⟨Hb, Hows, Hr3, Hr2, ⟨%f, %hf, Hr5⟩, Hrest⟩
  ihave Hrest' := (Entails.of_eq (rest_Wr (F := F) m d)) $$ Hrest
  icases Hrest' with ⟨Ha0, Ha1, Hr0, Hr1, Hr4, Hr6⟩
  -- the concatenation
  iapply (wp_hlo_within 𝒱 (SparseCore.T d) none Set.univ (op := opC) (S := S9) hopC (V := V5 m d f)) $$ [Hb Ha0 Ha1 Hr0 Hr1 Hr2 Hr3 Hr4 Hr5 Hr6]
  · isplitl [Hb]; · iexact Hb
    rw [held_V5]
    isplitl [Ha0]; · iexact Ha0
    isplitl [Ha1]; · iexact Ha1
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  iintro ⟨Hb, Hheld⟩
  ihave Hh := (held_VC (F := F) m d f) $$ Hheld
  icases Hh with ⟨Ha0, Ha1, Hr6⟩
  rw [wp_ret]; imodintro; imodintro
  isplitl [Hows Hstr]
  · iapply (Entails.of_eq (tcSt_split (F := F) d 1).symm)
    isplitl [Hows] <;> iassumption
  unfold FIN
  isplitl [Ha0]; · iexact Ha0
  isplitl [Ha1]; · iexact Ha1
  iexists f; isplitr
  · ipureintro; exact hf
  · iexact Hr6

/-! ## The launch element: the handshakes' rounds, the pipeline's staging rounds, nothing of the kernel's own -/

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

omit [FloatOps F] in
theorem EP_eq : (EP (F := F)) = (Emb.inl : Emb UP (UP × Counters)).trans (embR : Emb (UP × Counters) 𝕄) := rfl

theorem hu₀ (hG : GhostStmt (F := F)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold GhostStmt at hG
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (Entails.of_eq (congrArg (fun e : Emb UP 𝕄 => (BI.own (e (initOf (Pipeline.cells (nD := nD) (τ := τ) cfgs cellOf_inj) (Pipeline.launchToks (nD := nD) (τ := τ) cfgs cellOf_inj))) : sProp 𝕄)) (EP_eq (F := F)).symm)) $$ HP
  imod hG $$ HP' with HG
  imodintro
  isplitl [HH]; · iexact HH
  isplitl [HG]; · unfold G; iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## Reading the claim off the final memory -/

def fq (d : Dev nD) (s' : Phys nD τ sig (Elt F)) : Prop :=
  s'.mem.mem (a0Loc d) = m (a0Loc d) ∧ s'.mem.mem (a1Loc d) = m (a1Loc d)
    ∧ ∃ f, TcSpec (Xt m d) (Ucol m d) f ∧ s'.mem.mem (v6Loc d) = whole m d f

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, ⟨%f, %hf, H6⟩⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v6Loc d) (I := Finset.univ) (q := fullShare) (f := whole m d f)) $$ [HSI H6]
  · isplitl [HSI] <;> iassumption
  icases H with %h6
  ipureintro
  exact ⟨funext fun i => h0 i (Finset.mem_univ i), funext fun i => h1 i (Finset.mem_univ i), f, hf, funext fun i => h6 i (Finset.mem_univ i)⟩

/-! ## The program's run -/

def QC : PUnit × MemSt nD τ sig (Elt F) → Prop := fun r => ∀ c : Dev nD,
  r.2.mem (a0Loc c) = m (a0Loc c) ∧ r.2.mem (a1Loc c) = m (a1Loc c)
    ∧ ∃ f, TcSpec (Xt m c) (Ucol m c) f ∧ r.2.mem (v6Loc c) = whole m c f

theorem run_main [∀ e, Nonempty (Elt F e)] (hT : (K (F := F)).TileObl (D (F := F)) 𝒱 (P m) v₀ 0) (hR : RegionStmt (F := F) m) (hG : GhostStmt (F := F)) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (G (F := F)) (FIN m) (u₀ (F := F)) (sep_elim_left.trans (hu₀ m hG)) (hmain m ρ hR) (fq m) (hfin m) (QC m) (fun _ h => h)

end Cert.Proof.KI

end
-- ==== Proof.CommonB.lean ====
/-
  Shared definitions for the kernel's program as printed: the program as the launch theorem sees it, the ghost
  state (handshake rounds, the TensorCore pipeline's staging rounds, the transfers' counters), the arrays, the
  specification of what each half of the result holds, and what the SparseCore call's handshakes carry.

  The mathematics. The program computes scores n ↦ Σ_d items[n, d] · u[d] for n < 1000000 in two halves. Columns
  n < 196608 of the transposed table are shared among 32 vector subcores: subcore (c, s) has number w = 2 s + c
  and takes the eight 768-column chunks numbered w + 32 j, j < 8; per column it accumulates acc ← acc + x_d · u_d
  for d = 0 … 63 from zero, in that order. Columns n ≥ 196608 are taken by a TensorCore pipeline in 25 blocks of
  32768 columns (the last block runs past the table and is clipped), each a sum over d of x_d · u_d.
-/
import proofs.«207427_g73340861546603_cont_9to1c4b_775_30_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Pipeline.Regions
import Idealize.ShloMosaic.Lib.Tactic
import Idealize.ShloMosaic.Lib.ValueIdx
import proofs.«207427_g73340861546603_cont_9to1c4b_775_30_alg».proof.Proof.Gen.Kernel
import proofs.«207427_g73340861546603_cont_9to1c4b_775_30_alg».proof.Proof.Gen.Kernel.Skeleton
import proofs.«207427_g73340861546603_cont_9to1c4b_775_30_alg».proof.Proof.Gen.Kernel.Launch
import proofs.«207427_g73340861546603_cont_9to1c4b_775_30_alg».proof.Proof.Gen.Kernel.Points

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
theorem nCore_zero : (K (F := F)).nCore 0 = 2 := rfl
theorem nSub_zero : (K (F := F)).nSub 0 = 16 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's staging rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The launch memory and the arrays -/

variable (m : (ℓ : Loc nD τ sig) → Buf (Elt F) ℓ) (ρ : Dev nD → PrngReg)

abbrev a0Loc (d : Dev nD) : Loc nD τ sig := (SparseCore.T d).loc main_arg0
abbrev a1Loc (d : Dev nD) : Loc nD τ sig := (SparseCore.T d).loc main_arg1
abbrev v0Loc (d : Dev nD) : Loc nD τ sig := (SparseCore.T d).loc main_v0
abbrev v1Loc (d : Dev nD) : Loc nD τ sig := (SparseCore.T d).loc main_v1
abbrev v2Loc (d : Dev nD) : Loc nD τ sig := (SparseCore.T d).loc main_v2
abbrev v3Loc (d : Dev nD) : Loc nD τ sig := (SparseCore.T d).loc main_v3
abbrev v4Loc (d : Dev nD) : Loc nD τ sig := (SparseCore.T d).loc main_v4
abbrev v5Loc (d : Dev nD) : Loc nD τ sig := (SparseCore.T d).loc main_v5
abbrev v6Loc (d : Dev nD) : Loc nD τ sig := (SparseCore.T d).loc main_v6

variable [FloatOps F]

/-! ## What the host operations before the calls leave -/

/-- The user vector as a column [64, 1]. -/
def Ucol (d : Dev nD) : FVec F S64x1 .f32 := shapeCast S64x1 (m (a1Loc d)) shapeCasts_S1x64_S64x1
/-- The column repeated sixteen times [64, 16]. -/
def Ubc (d : Dev nD) : FVec F S64x16 .f32 := broadcastInDim S64x16 ![0, 1] bcast_S64x1_S64x16_0_1 (Ucol m d)
/-- The table transposed [64, 1000000]. -/
def Xt (d : Dev nD) : FVec F S64x1000000 .f32 := transpose S64x1000000 [1, 0] (m (a0Loc d)) transposes_S1000000x64_S64x1000000_1_0

/-! ## The specification of the SparseCore half -/

/-- The running accumulator of column `n` on lane `l` after the first `k` table rows: from zero, acc + x_d · u_d. -/
def accUpTo (X : FVec F S64x1000000 .f32) (Uc : FVec F S64x16 .f32) (n : Fin 1000000) (l : Fin 16) : ℕ → F .f32
  | 0 => FloatOps.ofBits .f32 0x00000000#32
  | k + 1 => if h : k < 64 then FloatOps.addf (accUpTo X Uc n l k) (FloatOps.mulf (X (ix2 ⟨k, h⟩ n)) (Uc (ix2 ⟨k, h⟩ l)))
      else accUpTo X Uc n l k

/-- What the SparseCore call leaves at index `n` of its result: the accumulator after all 64 rows, on lane n mod 16. -/
def scOut (X : FVec F S64x1000000 .f32) (Uc : FVec F S64x16 .f32) : FVec F S196608 .f32 :=
  fun n => accUpTo X Uc ⟨(n 0).val, lt_trans (n 0).isLt (by decide)⟩ ⟨(n 0).val % 16, Nat.mod_lt _ (by decide)⟩ 64

/-! ## The specification of the TensorCore half -/

/-- `f` is what the pipeline leaves in its result: for every grid point `t` there is a staged block `xb` that agrees
    with the table on the columns of block `t + 6` that exist, and `f` on the result's columns of block `t` that
    exist is the body's reduction of `xb` against the user column. -/
def TcSpec (X : FVec F S64x1000000 .f32) (U3 : FVec F S64x1 .f32) (f : FVec F S803392 .f32) : Prop :=
  ∀ t : Fin 25, ∃ xb : Vec F S64x32768 .f32,
    (∀ (r : Fin 64) (y : Fin 32768) (h : 32768 * (t.val + 6) + y.val < 1000000), xb (ix2 r y) = X (ix2 r ⟨32768 * (t.val + 6) + y.val, h⟩))
    ∧ ∀ (y : Fin 32768) (h : 32768 * t.val + y.val < 803392), f (ix1 ⟨32768 * t.val + y.val, h⟩) = k1_pay1 xb U3 (ix1 y)

/-! ## Which indices of the SparseCore result a vector subcore writes -/

/-- Chunk `j` of subcore `(c, s)`: columns [768 (2 s + c + 32 j), + 768). -/
def chunkSet (c : Fin 2) (s : Fin 16) (j : Fin 8) : Finset S196608.Idx :=
  Finset.univ.filter fun n => (n 0).val / 768 = 2 * s.val + c.val + 32 * j.val
/-- All eight chunks of subcore `(c, s)`. -/
def tileSet (c : Fin 2) (s : Fin 16) : Finset S196608.Idx :=
  Finset.univ.filter fun n => (n 0).val / 768 % 32 = 2 * s.val + c.val
/-- All chunks of SparseCore `c`. -/
def coreSet (c : Fin 2) : Finset S196608.Idx :=
  Finset.univ.filter fun n => (n 0).val / 768 % 2 = c.val

/-! ## Read shares of the two tables: one per SparseCore, of that one per vector subcore -/

abbrev qCore (c : Fin 2) : PosShare TreeShare := Transfers.shareTok fullShare 2 c
abbrev qTile (c : Fin 2) (s : Fin 16) : PosShare TreeShare := Transfers.shareTok (qCore c) 16 s

/-! ## What the handshakes carry -/

/-- What a vector subcore is handed: a read share of the transposed table and of the repeated user column at what
    the host left there, and its chunks of the result at some contents. -/
def goRes (d : Dev nD) (c : Fin 2) (s : Fin 16) : sProp 𝕄 :=
  iprop((v2Loc d ↦{qTile c s} Xt m d) ∗ (v1Loc d ↦{qTile c s} Ubc m d) ∗ ∃ f, v4Loc d ↦[tileSet c s]{fullShare} f)
/-- What it hands back: the shares, and its chunks at the specification. -/
def tdRes (d : Dev nD) (c : Fin 2) (s : Fin 16) : sProp 𝕄 :=
  iprop((v2Loc d ↦{qTile c s} Xt m d) ∗ (v1Loc d ↦{qTile c s} Ubc m d) ∗ v4Loc d ↦[tileSet c s]{fullShare} scOut (Xt m d) (Ubc m d))
def stRes (d : Dev nD) (c : Fin 2) : sProp 𝕄 :=
  iprop((v2Loc d ↦{qCore c} Xt m d) ∗ (v1Loc d ↦{qCore c} Ubc m d) ∗ ∃ f, v4Loc d ↦[coreSet c]{fullShare} f)
def dnRes (d : Dev nD) (c : Fin 2) : sProp 𝕄 :=
  iprop((v2Loc d ↦{qCore c} Xt m d) ∗ (v1Loc d ↦{qCore c} Ubc m d) ∗ v4Loc d ↦[coreSet c]{fullShare} scOut (Xt m d) (Ubc m d))

def P : (K (F := F)).Pay (nD := nD) (Val := Elt F) (Name := ℕ) (U := UU) where
  st := fun q d c => match q with | 0 => stRes m d (Fin.cast nCore_zero c)
  dn := fun q d c => match q with | 0 => dnRes m d (Fin.cast nCore_zero c)
  go := fun q d c i => match q with | 0 => goRes m d (Fin.cast nCore_zero c) (Fin.cast nSub_zero i)
  td := fun q d c i => match q with | 0 => tdRes m d (Fin.cast nCore_zero c) (Fin.cast nSub_zero i)
  x := fun _ _ => iprop(emp)

instance P_storable : (P (F := F) m).IsStorable where
  st q d c := match q with | 0 => by show BI.Storable (upEmb : UEmb _ 𝕄) (stRes m d _); unfold stRes; infer_instance
  dn q d c := match q with | 0 => by show BI.Storable (upEmb : UEmb _ 𝕄) (dnRes m d _); unfold dnRes; infer_instance
  go q d c i := match q with | 0 => by show BI.Storable (upEmb : UEmb _ 𝕄) (goRes m d _ _); unfold goRes; infer_instance
  td q d c i := match q with | 0 => by show BI.Storable (upEmb : UEmb _ 𝕄) (tdRes m d _ _); unfold tdRes; infer_instance

end Cert.Proof.KB

end
-- ==== Proof.SplitB.lean ====
/-
  How a SparseCore's operands split among its sixteen vector subcores and how their results gather: the two tables
  go out as read shares (one token per subcore, the remainder kept aside until the results come back), the
  result's columns of SparseCore c — the chunks whose number is ≡ c mod 2 — are the disjoint union over s of the
  chunks whose number is ≡ 2 s + c mod 32.
-/
import proofs.«207427_g73340861546603_cont_9to1c4b_775_30_alg».proof.Proof.CommonB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ) (ρ : Dev nD → PrngReg)

/-! ## The index sets: a partition by chunk number -/

theorem tiles_disjoint (c : Fin 2) : ∀ s ∈ (Finset.univ : Finset (Fin 16)), ∀ s' ∈ (Finset.univ : Finset (Fin 16)), s ≠ s' →
    Disjoint (tileSet c s) (tileSet c s') := by
  intro s _ s' _ hne
  unfold tileSet
  refine Finset.disjoint_filter.2 fun n _ h1 h2 => hne (Fin.ext ?_)
  omega

theorem tiles_cover (c : Fin 2) : (Finset.univ : Finset (Fin 16)).biUnion (tileSet c) = coreSet c := by
  ext n
  simp only [Finset.mem_biUnion, Finset.mem_univ, true_and, tileSet, coreSet, Finset.mem_filter]
  constructor
  · rintro ⟨s, hs⟩; have := c.isLt; omega
  · intro h
    have hc := c.isLt
    exact ⟨⟨(n 0).val / 768 % 32 / 2, by omega⟩, by show (n 0).val / 768 % 32 = 2 * ((n 0).val / 768 % 32 / 2) + c.val; omega⟩

theorem cores_disjoint : ∀ c ∈ (Finset.univ : Finset (Fin 2)), ∀ c' ∈ (Finset.univ : Finset (Fin 2)), c ≠ c' →
    Disjoint (coreSet c) (coreSet c') := by
  intro c _ c' _ hne
  unfold coreSet
  refine Finset.disjoint_filter.2 fun n _ h1 h2 => hne (Fin.ext ?_)
  omega

theorem cores_cover : (Finset.univ : Finset (Fin 2)).biUnion coreSet = Finset.univ := by
  ext n
  simp only [Finset.mem_biUnion, Finset.mem_univ, true_and, coreSet, Finset.mem_filter, iff_true]
  exact ⟨⟨(n 0).val / 768 % 2, Nat.mod_lt _ (by decide)⟩, rfl⟩

variable [FloatOps F]

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- The split of SparseCore `c`'s operands into its subcores' and the gathering of their results. -/
theorem split_core (d : Dev nD) (c : Fin 2) :
    stRes m d c ⊢ |={Set.univ}=> iprop((bigSep Finset.univ fun s : Fin 16 => goRes m d c s)
      ∗ ((bigSep Finset.univ fun s : Fin 16 => tdRes m d c s) -∗ dnRes m d c)) := by
  unfold stRes goRes tdRes dnRes
  rw [bigSep_sep', bigSep_sep', bigSep_sep', bigSep_sep']
  iintro ⟨H2, H1, ⟨%f, H4⟩⟩
  ihave H2' := (Transfers.pointsTo_toks (qCore c) 16).1 $$ H2
  icases H2' with ⟨H2r, H2t⟩
  ihave H1' := (Transfers.pointsTo_toks (qCore c) 16).1 $$ H1
  icases H1' with ⟨H1r, H1t⟩
  have h4 : ∀ g : Buf (Elt F) (v4Loc d), (v4Loc d ↦[coreSet c]{fullShare} g : sProp 𝕄)
      = bigSep Finset.univ fun s : Fin 16 => v4Loc d ↦[tileSet c s]{fullShare} g := fun g => by
    rw [← tiles_cover c, pointsTo_biUnion Finset.univ (ℓ := v4Loc d) (tileSet c) (tiles_disjoint c)]
  have hmono : ∀ g : Buf (Elt F) (v4Loc d), (bigSep Finset.univ fun s : Fin 16 => v4Loc d ↦[tileSet c s]{fullShare} g : sProp 𝕄)
      ⊢ bigSep Finset.univ fun s : Fin 16 => iprop(∃ f, v4Loc d ↦[tileSet c s]{fullShare} f) :=
    fun g => bigSep_mono fun s _ => exists_intro (Φ := fun f : Buf (Elt F) (v4Loc d) => (v4Loc d ↦[tileSet c s]{fullShare} f : sProp 𝕄)) g
  ihave H4' := (Entails.of_eq (h4 f)) $$ H4
  imodintro
  isplitl [H2t H1t H4']
  · isplitl [H2t]; · iexact H2t
    isplitl [H1t]; · iexact H1t
    iapply (hmono f); iexact H4'
  iintro ⟨G2, G1, G4⟩
  isplitl [H2r G2]
  · iapply (Transfers.pointsTo_toks (qCore c) 16).2; isplitl [H2r] <;> iassumption
  isplitl [H1r G1]
  · iapply (Transfers.pointsTo_toks (qCore c) 16).2; isplitl [H1r] <;> iassumption
  iapply (Entails.of_eq (h4 _).symm); iexact G4

theorem vecSplit : (K (F := F)).VecSplit' (P m) 0 := by
  intro d c
  show stRes m d (Fin.cast nCore_zero c) ⊢ |={Set.univ}=> iprop(
      (bigSep Finset.univ fun i : Fin ((K (F := F)).nSub 0) => goRes m d (Fin.cast nCore_zero c) (Fin.cast nSub_zero i))
      ∗ ((bigSep Finset.univ fun i : Fin ((K (F := F)).nSub 0) => tdRes m d (Fin.cast nCore_zero c) (Fin.cast nSub_zero i))
          -∗ dnRes m d (Fin.cast nCore_zero c)))
  rw [bigSep_tasks (F := F) (fun s => goRes m d (Fin.cast nCore_zero c) s), bigSep_tasks (F := F) (fun s => tdRes m d (Fin.cast nCore_zero c) s)]
  exact split_core m d _

end Cert.Proof.KB

end
-- ==== Proof.MainB.lean ====
/-
  @main on the TensorCore, the launch element, and the program's run: the four host operations leave the user
  column, its sixteen-fold repetition, the transposed table and the column again; the SparseCore call takes the
  table and the repetition as read shares and its result whole and brings the result back at its specification;
  the TensorCore pipeline fills the other half; the concatenation joins the two.
-/
import proofs.«207427_g73340861546603_cont_9to1c4b_775_30_alg».proof.Proof.CommonB
import proofs.«207427_g73340861546603_cont_9to1c4b_775_30_alg».proof.Proof.SplitB

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ) (ρ : Dev nD → PrngReg)

open Idealize.ShloMosaic.StableHlo (held held_split held_sdiff_result wp_hlo_within)

/-! ## The TensorCore's arrays -/

abbrev a0' : DevRef τ sig := Proc.devRef .tc (main_arg0 : Ref sig .tc)
abbrev a1' : DevRef τ sig := Proc.devRef .tc (main_arg1 : Ref sig .tc)
abbrev r0' : DevRef τ sig := Proc.devRef .tc (main_v0 : Ref sig .tc)
abbrev r1' : DevRef τ sig := Proc.devRef .tc (main_v1 : Ref sig .tc)
abbrev r2' : DevRef τ sig := Proc.devRef .tc (main_v2 : Ref sig .tc)
abbrev r3' : DevRef τ sig := Proc.devRef .tc (main_v3 : Ref sig .tc)
abbrev r4' : DevRef τ sig := Proc.devRef .tc (main_v4 : Ref sig .tc)
abbrev r5' : DevRef τ sig := Proc.devRef .tc (main_v5 : Ref sig .tc)
abbrev r6' : DevRef τ sig := Proc.devRef .tc (main_v6 : Ref sig .tc)

abbrev S9 : Finset (DevRef τ sig) := {a0', a1', r0', r1', r2', r3', r4', r5', r6'}

theorem held_S9 (d : Dev nD) (W : Valuation τ sig (Elt F)) :
    (held (T d) S9 W : sProp 𝕄) = iprop((a0Loc d ↦{fullShare} W a0') ∗ (a1Loc d ↦{fullShare} W a1') ∗ (v0Loc d ↦{fullShare} W r0')
      ∗ (v1Loc d ↦{fullShare} W r1') ∗ (v2Loc d ↦{fullShare} W r2') ∗ (v3Loc d ↦{fullShare} W r3') ∗ (v4Loc d ↦{fullShare} W r4')
      ∗ (v5Loc d ↦{fullShare} W r5') ∗ v6Loc d ↦{fullShare} W r6') := by
  unfold held S9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

theorem unscopedBufs_eq (d : Dev nD) (W : (b : Ref sig .tc) → Buf (Elt F) ((d.tc : Thread nD τ).loc b)) :
    (unscopedBufs d W : sProp 𝕄) = iprop((a0Loc d ↦{fullShare} W main_arg0) ∗ (a1Loc d ↦{fullShare} W main_arg1) ∗ (v0Loc d ↦{fullShare} W main_v0)
      ∗ (v1Loc d ↦{fullShare} W main_v1) ∗ (v2Loc d ↦{fullShare} W main_v2) ∗ (v3Loc d ↦{fullShare} W main_v3) ∗ (v4Loc d ↦{fullShare} W main_v4)
      ∗ (v5Loc d ↦{fullShare} W main_v5) ∗ v6Loc d ↦{fullShare} W main_v6) := by
  unfold unscopedBufs
  rw [show (Finset.univ.filter fun b : Ref sig .tc => ¬ b.isScoped) = {main_arg0, main_arg1, main_v0, main_v1, main_v2, main_v3, main_v4, main_v5, main_v6} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

variable [FloatOps F]

/-! ## The host operations -/

abbrev op1 : HloOp τ sig (Elt F) := StableHlo.reshape main_arg1 main_v0 rfl shapeCasts_S1x64_S64x1
abbrev op2 : HloOp τ sig (Elt F) := StableHlo.unary main_v0 main_v1 (broadcastInDim S64x16 ![0, 1] bcast_S64x1_S64x16_0_1 : (⟨S64x1, .f32⟩ : BufTy).Contents (Elt F) → (⟨S64x16, .f32⟩ : BufTy).Contents (Elt F))
abbrev op3 : HloOp τ sig (Elt F) := StableHlo.unary main_arg0 main_v2 ((transpose S64x1000000 [1, 0] · transposes_S1000000x64_S64x1000000_1_0) : (⟨S1000000x64, .f32⟩ : BufTy).Contents (Elt F) → (⟨S64x1000000, .f32⟩ : BufTy).Contents (Elt F))
abbrev op4 : HloOp τ sig (Elt F) := StableHlo.reshape main_arg1 main_v3 rfl shapeCasts_S1x64_S64x1
abbrev opC : HloOp τ sig (Elt F) := StableHlo.binary main_v4 main_v5 main_v6 ((fun a b => concatenate S1000000 0 [⟨S196608, a⟩, ⟨S803392, b⟩] concatenates_S196608_S803392_S1000000_d0) : (⟨S196608, .f32⟩ : BufTy).Contents (Elt F) → (⟨S803392, .f32⟩ : BufTy).Contents (Elt F) → (⟨S1000000, .f32⟩ : BufTy).Contents (Elt F))

theorem hop1 : (op1 (F := F)).bufs ⊆ S9 := show ({a1', r0'} : Finset (DevRef τ sig)) ⊆ S9 by decide
theorem hop2 : (op2 (F := F)).bufs ⊆ S9 := show ({r0', r1'} : Finset (DevRef τ sig)) ⊆ S9 by decide
theorem hop3 : (op3 (F := F)).bufs ⊆ S9 := show ({a0', r2'} : Finset (DevRef τ sig)) ⊆ S9 by decide
theorem hop4 : (op4 (F := F)).bufs ⊆ S9 := show ({a1', r3'} : Finset (DevRef τ sig)) ⊆ S9 by decide
theorem hopC : (opC (F := F)).bufs ⊆ S9 := show ({r4', r5', r6'} : Finset (DevRef τ sig)) ⊆ S9 by decide

/-- The launch valuation, and the one after the four operations. -/
def V0 (d : Dev nD) : Valuation τ sig (Elt F) := fun b => m (d, b)
def V4 (d : Dev nD) : Valuation τ sig (Elt F) := StableHlo.after [op1, op2, op3, op4] (V0 m d)

theorem V4_a0 (d : Dev nD) : V4 m d a0' = m (a0Loc d) := by unfold V4; after_results; rfl
theorem V4_a1 (d : Dev nD) : V4 m d a1' = m (a1Loc d) := by unfold V4; after_results; rfl
theorem V4_r1 (d : Dev nD) : V4 m d r1' = Ubc m d := by unfold V4; after_results; rfl
theorem V4_r2 (d : Dev nD) : V4 m d r2' = Xt m d := by unfold V4; after_results; rfl
theorem V4_r3 (d : Dev nD) : V4 m d r3' = Ucol m d := by unfold V4; after_results; rfl

theorem V4_r4 (d : Dev nD) : V4 m d r4' = m (v4Loc d) := by unfold V4; after_results; rfl
theorem V4_r5 (d : Dev nD) : V4 m d r5' = m (v5Loc d) := by unfold V4; after_results; rfl
theorem V4_r0 (d : Dev nD) : V4 m d r0' = Ucol m d := by unfold V4; after_results; rfl
theorem V4_r6 (d : Dev nD) : V4 m d r6' = m (v6Loc d) := by unfold V4; after_results; rfl

/-- The valuation before the concatenation: the two halves at what the calls left. -/
def V5 (d : Dev nD) (f : FVec F S803392 .f32) : Valuation τ sig (Elt F) :=
  Function.update (Function.update (V4 m d) r4' (scOut (Xt m d) (Ubc m d))) r5' f

theorem V5_a0 (d : Dev nD) (f : FVec F S803392 .f32) : V5 m d f a0' = m (a0Loc d) := by
  unfold V5; rw [Function.update_of_ne (show a0' ≠ r5' by decide), Function.update_of_ne (show a0' ≠ r4' by decide), V4_a0]
theorem V5_a1 (d : Dev nD) (f : FVec F S803392 .f32) : V5 m d f a1' = m (a1Loc d) := by
  unfold V5; rw [Function.update_of_ne (show a1' ≠ r5' by decide), Function.update_of_ne (show a1' ≠ r4' by decide), V4_a1]
theorem V5_r0 (d : Dev nD) (f : FVec F S803392 .f32) : V5 m d f r0' = Ucol m d := by
  unfold V5; rw [Function.update_of_ne (show r0' ≠ r5' by decide), Function.update_of_ne (show r0' ≠ r4' by decide), V4_r0]
theorem V5_r1 (d : Dev nD) (f : FVec F S803392 .f32) : V5 m d f r1' = Ubc m d := by
  unfold V5; rw [Function.update_of_ne (show r1' ≠ r5' by decide), Function.update_of_ne (show r1' ≠ r4' by decide), V4_r1]
theorem V5_r2 (d : Dev nD) (f : FVec F S803392 .f32) : V5 m d f r2' = Xt m d := by
  unfold V5; rw [Function.update_of_ne (show r2' ≠ r5' by decide), Function.update_of_ne (show r2' ≠ r4' by decide), V4_r2]
theorem V5_r3 (d : Dev nD) (f : FVec F S803392 .f32) : V5 m d f r3' = Ucol m d := by
  unfold V5; rw [Function.update_of_ne (show r3' ≠ r5' by decide), Function.update_of_ne (show r3' ≠ r4' by decide), V4_r3]
theorem V5_r4 (d : Dev nD) (f : FVec F S803392 .f32) : V5 m d f r4' = scOut (Xt m d) (Ubc m d) := by
  unfold V5; rw [Function.update_of_ne (show r4' ≠ r5' by decide), Function.update_self]
theorem V5_r5 (d : Dev nD) (f : FVec F S803392 .f32) : V5 m d f r5' = f := by
  unfold V5; rw [Function.update_self]
theorem V5_r6 (d : Dev nD) (f : FVec F S803392 .f32) : V5 m d f r6' = m (v6Loc d) := by
  unfold V5; rw [Function.update_of_ne (show r6' ≠ r5' by decide), Function.update_of_ne (show r6' ≠ r4' by decide), V4_r6]

/-- The whole result: the SparseCore half followed by the TensorCore half. -/
def whole (d : Dev nD) (f : FVec F S803392 .f32) : FVec F S1000000 .f32 :=
  concatenate S1000000 0 [⟨S196608, scOut (Xt m d) (Ubc m d)⟩, ⟨S803392, f⟩] concatenates_S196608_S803392_S1000000_d0

theorem VC_r6 (d : Dev nD) (f : FVec F S803392 .f32) : (opC (F := F)).result (V5 m d f) r6' = whole m d f := by
  show StableHlo.after [opC] (V5 m d f) r6' = _
  after_results
  rw [V5_r4, V5_r5]; rfl
theorem VC_a0 (d : Dev nD) (f : FVec F S803392 .f32) : (opC (F := F)).result (V5 m d f) a0' = m (a0Loc d) := by
  rw [(opC (F := F)).result_of_not_mem (V5 m d f) (b := a0') (show a0' ∉ ({r6'} : Finset (DevRef τ sig)) by decide), V5_a0]
theorem VC_a1 (d : Dev nD) (f : FVec F S803392 .f32) : (opC (F := F)).result (V5 m d f) a1' = m (a1Loc d) := by
  rw [(opC (F := F)).result_of_not_mem (V5 m d f) (b := a1') (show a1' ∉ ({r6'} : Finset (DevRef τ sig)) by decide), V5_a1]

/-! ## What the call takes for the two SparseCores, and what it hands back -/

theorem st0_eq (d : Dev nD) : (bigSep Finset.univ fun c : Fin ((K (F := F)).nCore 0) => (P m).st 0 d c) = iprop(stRes m d 0 ∗ stRes m d 1) := by
  show (bigSep (Finset.univ : Finset (Fin 2)) fun c => stRes m d (Fin.cast nCore_zero c)) = _
  rw [show (Finset.univ : Finset (Fin 2)) = {0, 1} by decide, SparseCore.bigSep_insert' (by decide), bigSep_singleton]; rfl
theorem dn0_eq (d : Dev nD) : (bigSep Finset.univ fun c : Fin ((K (F := F)).nCore 0) => (P m).dn 0 d c) = iprop(dnRes m d 0 ∗ dnRes m d 1) := by
  show (bigSep (Finset.univ : Finset (Fin 2)) fun c => dnRes m d (Fin.cast nCore_zero c)) = _
  rw [show (Finset.univ : Finset (Fin 2)) = {0, 1} by decide, SparseCore.bigSep_insert' (by decide), bigSep_singleton]; rfl

omit [FloatOps F] in
theorem toks2 {ℓ : Loc nD τ sig} (f : Buf (Elt F) ℓ) :
    (ℓ ↦{fullShare} f : sProp 𝕄) ⊣⊢ iprop((ℓ ↦{Transfers.shareDrop fullShare 2} f) ∗ (ℓ ↦{qCore 0} f) ∗ ℓ ↦{qCore 1} f) := by
  have h := Transfers.pointsTo_toks (ℓ := ℓ) (S := Finset.univ) (f := f) (Ix := HIx 1) (Name := ℕ) (U := UU) (Lvl := ℕ) fullShare 2
  rw [show (Finset.univ : Finset (Fin 2)) = {0, 1} by decide, SparseCore.bigSep_insert' (by decide), bigSep_singleton] at h
  exact h

omit [FloatOps F] in
theorem v4_cores (d : Dev nD) (f : Buf (Elt F) (v4Loc d)) :
    (v4Loc d ↦{fullShare} f : sProp 𝕄) = iprop((v4Loc d ↦[coreSet 0]{fullShare} f) ∗ v4Loc d ↦[coreSet 1]{fullShare} f) := by
  rw [← cores_cover, pointsTo_biUnion Finset.univ (ℓ := v4Loc d) coreSet cores_disjoint,
    show (Finset.univ : Finset (Fin 2)) = {0, 1} by decide, SparseCore.bigSep_insert' (by decide), bigSep_singleton]

/-- The statement of the TensorCore pipeline's region (proved in its own module): from the region boundary, what the
    TensorCore owes, the staging cells' ghost state, the user column, the table, the result array and the six other
    arrays, the call runs and leaves the result array at contents satisfying `TcSpec`. -/
def RegionStmt : Prop :=
  ∀ (κ : GSem nD τ sig → ℕ) (d : Dev nD) (U3 : FVec F S64x1 .f32) (X2 : FVec F S64x1000000 .f32)
    (W : (b : Ref sig .tc) → Buf (Elt F) ((d.tc : Thread nD τ).loc b)),
    iprop((K (F := F)).ctx EH (P m) κ ∗ boundary (T d)
        ∗ (∃ Wt, ⌜(K (F := F)).WBelow (T d) Wt (8 * 1)⌝ ∗ owes (T d) ((K (F := F)).Otc d 1) Wt)
        ∗ Pipeline.cellsGhost cfgs (EP (F := F)) 0 d ∗ Pipeline.toksInit cfgs (EP (F := F)) 0 d
        ∗ (v3Loc d ↦{fullShare} U3) ∗ (v2Loc d ↦{fullShare} X2) ∗ (∃ f, v5Loc d ↦{fullShare} f)
        ∗ Pipeline.unscopedRest spec1 d W)
      ⊢ wp frame (wpE ((K (F := F)).defs (D (F := F))) 𝒱 (T d) none) Set.univ
          (Prog.lift (.customCall (SparseCore.inner (Pipeline.entry 0)) ())) fun _ =>
          iprop(boundary (T d)
            ∗ (∃ Wt, ⌜(K (F := F)).WBelow (T d) Wt (8 * 1)⌝ ∗ owes (T d) ((K (F := F)).Otc d 1) Wt)
            ∗ (v3Loc d ↦{fullShare} U3) ∗ (v2Loc d ↦{fullShare} X2)
            ∗ (∃ f, ⌜TcSpec X2 U3 f⌝ ∗ v5Loc d ↦{fullShare} f)
            ∗ Pipeline.unscopedRest spec1 d W)

omit [FloatOps F] in
/-- The statement of the staging cells' launch piece (proved with the region). -/
def GhostStmt : Prop :=
  (BI.own ((EP (F := F)) (initOf (Pipeline.cells (nD := nD) (τ := τ) cfgs cellOf_inj) (Pipeline.launchToks (nD := nD) (τ := τ) cfgs cellOf_inj))) : sProp 𝕄)
    ⊢ iprop(|==> bigSep Finset.univ fun d : Dev nD => iprop(Pipeline.cellsGhost cfgs (EP (F := F)) 0 d ∗ Pipeline.toksInit cfgs (EP (F := F)) 0 d))

/-- What @main leaves the claim: the arguments at their launch contents, the result at the two halves joined. -/
def FIN (d : Dev nD) : sProp 𝕄 :=
  iprop((a0Loc d ↦{fullShare} m (a0Loc d)) ∗ (a1Loc d ↦{fullShare} m (a1Loc d))
    ∗ ∃ f, ⌜TcSpec (Xt m d) (Ucol m d) f⌝ ∗ v6Loc d ↦{fullShare} whole m d f)

/-- What @main's proof starts from beyond the launch's deal: the pipeline's staging cells' ghost state. -/
def G (d : Dev nD) : sProp 𝕄 := iprop(Pipeline.cellsGhost cfgs (EP (F := F)) 0 d ∗ Pipeline.toksInit cfgs (EP (F := F)) 0 d)

theorem held_V4 (d : Dev nD) :
    (held (T d) S9 ((op4 (F := F)).result ((op3 (F := F)).result ((op2 (F := F)).result ((op1 (F := F)).result (V0 m d))))) : sProp 𝕄) = iprop((a0Loc d ↦{fullShare} m (a0Loc d)) ∗ (a1Loc d ↦{fullShare} m (a1Loc d)) ∗ (v0Loc d ↦{fullShare} Ucol m d)
      ∗ (v1Loc d ↦{fullShare} Ubc m d) ∗ (v2Loc d ↦{fullShare} Xt m d) ∗ (v3Loc d ↦{fullShare} Ucol m d) ∗ (v4Loc d ↦{fullShare} m (v4Loc d))
      ∗ (v5Loc d ↦{fullShare} m (v5Loc d)) ∗ v6Loc d ↦{fullShare} m (v6Loc d)) := by
  show (held (T d) S9 (V4 m d) : sProp 𝕄) = _
  rw [held_S9, V4_a0, V4_a1, V4_r0, V4_r1, V4_r2, V4_r3, V4_r4, V4_r5, V4_r6]

theorem held_V5 (d : Dev nD) (f : FVec F S803392 .f32) :
    (held (T d) S9 (V5 m d f) : sProp 𝕄) = iprop((a0Loc d ↦{fullShare} m (a0Loc d)) ∗ (a1Loc d ↦{fullShare} m (a1Loc d)) ∗ (v0Loc d ↦{fullShare} Ucol m d)
      ∗ (v1Loc d ↦{fullShare} Ubc m d) ∗ (v2Loc d ↦{fullShare} Xt m d) ∗ (v3Loc d ↦{fullShare} Ucol m d) ∗ (v4Loc d ↦{fullShare} scOut (Xt m d) (Ubc m d))
      ∗ (v5Loc d ↦{fullShare} f) ∗ v6Loc d ↦{fullShare} m (v6Loc d)) := by
  rw [held_S9, V5_a0, V5_a1, V5_r0, V5_r1, V5_r2, V5_r3, V5_r4, V5_r5, V5_r6]

theorem held_VC (d : Dev nD) (f : FVec F S803392 .f32) :
    (held (T d) S9 ((opC (F := F)).result (V5 m d f)) : sProp 𝕄)
      ⊢ iprop((a0Loc d ↦{fullShare} m (a0Loc d)) ∗ (a1Loc d ↦{fullShare} m (a1Loc d)) ∗ v6Loc d ↦{fullShare} whole m d f) := by
  rw [held_S9, VC_a0, VC_a1, VC_r6]
  iintro ⟨H0, H1, -, -, -, -, -, -, H6⟩
  isplitl [H0]; · iexact H0
  isplitl [H1]; · iexact H1
  iexact H6

theorem unscoped_held (d : Dev nD) : (unscopedBufs d (fun b => m ((SparseCore.T d).loc b)) : sProp 𝕄) = held (T d) S9 (V0 m d) := by
  rw [unscopedBufs_eq, held_S9]; rfl

/-- The six arrays the pipeline does not touch, as a valuation of the TensorCore's buffers. -/
def Wr (d : Dev nD) : (b : Ref sig .tc) → Buf (Elt F) ((d.tc : Thread nD τ).loc b) :=
  fun b => V5 m d (m (v5Loc d)) (Proc.devRef .tc b)

theorem rest_Wr (d : Dev nD) :
    (Pipeline.unscopedRest (Ix := HIx 1) (Name := ℕ) (U := UU) (Lvl := ℕ) spec1 d (Wr m d) : sProp 𝕄)
      = iprop((a0Loc d ↦{fullShare} m (a0Loc d)) ∗ (a1Loc d ↦{fullShare} m (a1Loc d)) ∗ (v0Loc d ↦{fullShare} Ucol m d)
        ∗ (v1Loc d ↦{fullShare} Ubc m d) ∗ (v4Loc d ↦{fullShare} scOut (Xt m d) (Ubc m d)) ∗ v6Loc d ↦{fullShare} m (v6Loc d)) := by
  rw [unscopedRest1_eq]
  show iprop((a0Loc d ↦{fullShare} V5 m d (m (v5Loc d)) a0') ∗ (a1Loc d ↦{fullShare} V5 m d (m (v5Loc d)) a1') ∗ (v0Loc d ↦{fullShare} V5 m d (m (v5Loc d)) r0')
    ∗ (v1Loc d ↦{fullShare} V5 m d (m (v5Loc d)) r1') ∗ (v4Loc d ↦{fullShare} V5 m d (m (v5Loc d)) r4') ∗ v6Loc d ↦{fullShare} V5 m d (m (v5Loc d)) r6') = _
  rw [V5_a0, V5_a1, V5_r0, V5_r1, V5_r4, V5_r6]

/-- The TensorCore's state before call `n`, its first component apart. -/
def tcStRest (d : Dev nD) (n : ℕ) : sProp 𝕄 :=
  iprop(atPos EH ((K (F := F)).doneCell d) n ∅ 0 ∗ reached EH ((K (F := F)).doneCell d) n
    ∗ (bigSep Finset.univ fun c : Fin τ.nSC => reached EH ((K (F := F)).startCell d c) ((K (F := F)).sRank c n))
    ∗ bigSep (SparseCore.Cfg.callsFrom n) fun q => bigSep Finset.univ fun c : Fin ((K (F := F)).nCore q) =>
        iprop(dutyTok EH ((K (F := F)).startCell d ((K (F := F)).core q c)) ((K (F := F)).sRank ((K (F := F)).core q c) q.val) 0 ∗ cred (tallyAt ((K (F := F)).doneCell d) (some q) 1)))
theorem tcSt_split (d : Dev nD) (n : ℕ) :
    ((K (F := F)).tcSt EH d n : sProp 𝕄)
      = iprop((∃ W, ⌜(K (F := F)).WBelow (T d) W (8 * n)⌝ ∗ owes (T d) ((K (F := F)).Otc d n) W) ∗ tcStRest (F := F) d n) := rfl

set_option maxRecDepth 16384 in
/-- @main on device `d`'s TensorCore. -/
theorem hmain (hR : RegionStmt (F := F) m) (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d) := by
  unfold SparseCore.Cfg.tcRes G
  rw [unscoped_held]
  simp only [main, wp_bind, wp_pure]
  iintro ⟨#Hctx, Hst, ⟨Hb, Hheld, -, -⟩, ⟨Hcg, Hti⟩⟩
  -- the four host operations before the calls
  iapply (wp_hlo_within 𝒱 (SparseCore.T d) none Set.univ (op := op1) (S := S9) hop1 (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := op2) (S := S9) hop2 (V := (op1 (F := F)).result (V0 m d))) $$ [Hb Hheld]
  · isplitl [Hb]; · iexact Hb
    iexact Hheld
  iintro ⟨Hb, Hheld⟩
  rw [wp_ret]; imodintro
  iapply (wp_hlo_within 𝒱 (SparseCore.T d) none Set.univ (op := op3) (S := S9) hop3 (V := (op2 (F := F)).result ((op1 (F := F)).result (V0 m d)))) $$ [Hb Hheld]
  · isplitl [Hb]; · iexact Hb
    iexact Hheld
  iintro ⟨Hb, Hheld⟩
  rw [wp_ret]; imodintro
  iapply (wp_hlo_within 𝒱 (SparseCore.T d) none Set.univ (op := op4) (S := S9) hop4 (V := (op3 (F := F)).result ((op2 (F := F)).result ((op1 (F := F)).result (V0 m d))))) $$ [Hb Hheld]
  · isplitl [Hb]; · iexact Hb
    iexact Hheld
  iintro ⟨Hb, Hheld⟩
  rw [wp_ret]; imodintro
  ihave Hh := (Entails.of_eq (held_V4 (F := F) m d)) $$ Hheld
  icases Hh with ⟨Ha0, Ha1, Hr0, Hr1, Hr2, Hr3, Hr4, Hr5, Hr6⟩
  -- the SparseCore call: the table and the repeated column as read shares, the result by SparseCore
  ihave H2 := (toks2 (F := F) (ℓ := v2Loc d) _).1 $$ Hr2
  icases H2 with ⟨H2r, H2a, H2b⟩
  ihave H1 := (toks2 (F := F) (ℓ := v1Loc d) _).1 $$ Hr1
  icases H1 with ⟨H1r, H1a, H1b⟩
  ihave H4 := (Entails.of_eq (v4_cores (F := F) d _)) $$ Hr4
  icases H4 with ⟨H4a, H4b⟩
  iapply ((K (F := F)).wp_run (D (F := F)) 𝒱 (EH := EH) (P := P m) κ d 0) $$ [Hst H2a H2b H1a H1b H4a H4b H2r H1r Hb Hcg Hti Ha0 Ha1 Hr0 Hr3 Hr5 Hr6]
  isplitr; · iexact Hctx
  isplitl [Hst]; · iexact Hst
  isplitl [H2a H2b H1a H1b H4a H4b]
  · rw [st0_eq]; unfold stRes
    isplitl [H2a H1a H4a]
    · isplitl [H2a]; · iexact H2a
      isplitl [H1a]; · iexact H1a
      iexists _; iexact H4a
    · isplitl [H2b]; · iexact H2b
      isplitl [H1b]; · iexact H1b
      iexists _; iexact H4b
  iintro ⟨Hst, Hdn⟩
  ihave Hdn' := (Entails.of_eq (dn0_eq m d)) $$ Hdn
  unfold dnRes
  icases Hdn' with ⟨⟨H2a, H1a, H4a⟩, ⟨H2b, H1b, H4b⟩⟩
  ihave Hr2 := (toks2 (F := F) (ℓ := v2Loc d) _).2 $$ [H2r H2a H2b]
  · isplitl [H2r]; · iexact H2r
    isplitl [H2a] <;> iassumption
  ihave Hr1 := (toks2 (F := F) (ℓ := v1Loc d) _).2 $$ [H1r H1a H1b]
  · isplitl [H1r]; · iexact H1r
    isplitl [H1a] <;> iassumption
  ihave Hr4 := (Entails.of_eq (v4_cores (F := F) d _).symm) $$ [H4a H4b]
  · isplitl [H4a] <;> iassumption
  -- the TensorCore's pipelined call
  ihave Hst' := (Entails.of_eq (show ((K (F := F)).tcSt EH d ((0 : Fin 1).val + 1) : sProp 𝕄) = _ from tcSt_split (F := F) d 1)) $$ Hst
  icases Hst' with ⟨Hows, Hstr⟩
  iapply (wp_wand_r frame _ Set.univ) $$ [Hstr Hctx Hb Hows Hcg Hti Hr3 Hr2 Hr5 Ha0 Ha1 Hr0 Hr1 Hr4 Hr6]
  isplitl [Hctx Hb Hows Hcg Hti Hr3 Hr2 Hr5 Ha0 Ha1 Hr0 Hr1 Hr4 Hr6]
  · iapply (hR κ d (Ucol m d) (Xt m d) (Wr m d)) $$ [Hctx Hb Hows Hcg Hti Hr3 Hr2 Hr5 Ha0 Ha1 Hr0 Hr1 Hr4 Hr6]
    isplitr; · iexact Hctx
    isplitl [Hb]; · iexact Hb
    isplitl [Hows]; · iexact Hows
    isplitl [Hcg]; · iexact Hcg
    isplitl [Hti]; · iexact Hti
    isplitl [Hr3]; · iexact Hr3
    isplitl [Hr2]; · iexact Hr2
    isplitl [Hr5]; · iexists _; iexact Hr5
    rw [rest_Wr]
    isplitl [Ha0]; · iexact Ha0
    isplitl [Ha1]; · iexact Ha1
    isplitl [Hr0]; · iexact Hr0
    isplitl [Hr1]; · iexact Hr1
    isplitl [Hr4]; · iexact Hr4
    iexact Hr6
  iintro %_ ⟨Hb, Hows, Hr3, Hr2, ⟨%f, %hf, Hr5⟩, Hrest⟩
  ihave Hrest' := (Entails.of_eq (rest_Wr (F := F) m d)) $$ Hrest
  icases Hrest' with ⟨Ha0, Ha1, Hr0, Hr1, Hr4, Hr6⟩
  -- the concatenation
  iapply (wp_hlo_within 𝒱 (SparseCore.T d) none Set.univ (op := opC) (S := S9) hopC (V := V5 m d f)) $$ [Hb Ha0 Ha1 Hr0 Hr1 Hr2 Hr3 Hr4 Hr5 Hr6]
  · isplitl [Hb]; · iexact Hb
    rw [held_V5]
    isplitl [Ha0]; · iexact Ha0
    isplitl [Ha1]; · iexact Ha1
    isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    iexact Hr6
  iintro ⟨Hb, Hheld⟩
  ihave Hh := (held_VC (F := F) m d f) $$ Hheld
  icases Hh with ⟨Ha0, Ha1, Hr6⟩
  rw [wp_ret]; imodintro; imodintro
  isplitl [Hows Hstr]
  · iapply (Entails.of_eq (tcSt_split (F := F) d 1).symm)
    isplitl [Hows] <;> iassumption
  unfold FIN
  isplitl [Ha0]; · iexact Ha0
  isplitl [Ha1]; · iexact Ha1
  iexists f; isplitr
  · ipureintro; exact hf
  · iexact Hr6

/-! ## The launch element: the handshakes' rounds, the pipeline's staging rounds, nothing of the kernel's own -/

def u₀ : UU := (initOf (K (F := F)).hsCells (K (F := F)).hsToks,
  (initOf (Pipeline.cells (nD := nD) (τ := τ) cfgs cellOf_inj) (Pipeline.launchToks (nD := nD) (τ := τ) cfgs cellOf_inj), 1))

omit [FloatOps F] in
theorem bigSep_emp' {I : Type} (s : Finset I) : (bigSep s fun _ => iprop(emp)) = (iprop(emp) : sProp 𝕄) := bigSep_emp_const s

omit [FloatOps F] in
theorem EP_eq : (EP (F := F)) = (Emb.inl : Emb UP (UP × Counters)).trans (embR : Emb (UP × Counters) 𝕄) := rfl

theorem hu₀ (hG : GhostStmt (F := F)) : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold GhostStmt at hG
  unfold u₀
  iintro Hu
  ihave H := (ownU_pair _ _) $$ Hu
  icases H with ⟨HH, HR⟩
  ihave HR' := (own_pair_emb (embR : Emb (UP × Counters) 𝕄) _ _) $$ HR
  icases HR' with ⟨HP, -⟩
  ihave HP' := (Entails.of_eq (congrArg (fun e : Emb UP 𝕄 => (BI.own (e (initOf (Pipeline.cells (nD := nD) (τ := τ) cfgs cellOf_inj) (Pipeline.launchToks (nD := nD) (τ := τ) cfgs cellOf_inj))) : sProp 𝕄)) (EP_eq (F := F)).symm)) $$ HP
  imod hG $$ HP' with HG
  imodintro
  isplitl [HH]; · iexact HH
  isplitl [HG]; · unfold G; iexact HG
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## Reading the claim off the final memory -/

def fq (d : Dev nD) (s' : Phys nD τ sig (Elt F)) : Prop :=
  s'.mem.mem (a0Loc d) = m (a0Loc d) ∧ s'.mem.mem (a1Loc d) = m (a1Loc d)
    ∧ ∃ f, TcSpec (Xt m d) (Ucol m d) f ∧ s'.mem.mem (v6Loc d) = whole m d f

set_option maxRecDepth 16384 in
theorem hfin (d : Dev nD) (s' : Phys nD τ sig (Elt F)) : iprop(FIN m d ∗ SI s') ⊢ (⌜fq m d s'⌝ : sProp 𝕄) := by
  unfold FIN
  iintro ⟨⟨H0, H1, ⟨%f, %hf, H6⟩⟩, HSI⟩
  ihave H := (persistent_entails_right (SI_pointsTo_agree (st := s') (ℓ := a0Loc d) (I := Finset.univ) (q := fullShare) (f := m (a0Loc d)))) $$ [HSI H0]
  · isplitl [HSI] <;> iassumption
  icases H with ⟨%h0, HSI, -⟩
  ihave H := (persistent_entails_right (SI_pointsTo_agree (st := s') (ℓ := a1Loc d) (I := Finset.univ) (q := fullShare) (f := m (a1Loc d)))) $$ [HSI H1]
  · isplitl [HSI] <;> iassumption
  icases H with ⟨%h1, HSI, -⟩
  ihave H := (SI_pointsTo_agree (st := s') (ℓ := v6Loc d) (I := Finset.univ) (q := fullShare) (f := whole m d f)) $$ [HSI H6]
  · isplitl [HSI] <;> iassumption
  icases H with %h6
  ipureintro
  exact ⟨funext fun i => h0 i (Finset.mem_univ i), funext fun i => h1 i (Finset.mem_univ i), f, hf, funext fun i => h6 i (Finset.mem_univ i)⟩

/-! ## The program's run -/

def QC : PUnit × MemSt nD τ sig (Elt F) → Prop := fun r => ∀ c : Dev nD,
  r.2.mem (a0Loc c) = m (a0Loc c) ∧ r.2.mem (a1Loc c) = m (a1Loc c)
    ∧ ∃ f, TcSpec (Xt m c) (Ucol m c) f ∧ r.2.mem (v6Loc c) = whole m c f

theorem run_main [∀ e, Nonempty (Elt F e)] (hT : (K (F := F)).TileObl (D (F := F)) 𝒱 (P m) v₀ 0) (hR : RegionStmt (F := F) m) (hG : GhostStmt (F := F)) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => hT)
    (fun q _ => match q with | 0 => SparseCore.Cfg.VecSplit.of_plain (vecSplit m))
    m ρ main (G (F := F)) (FIN m) (u₀ (F := F)) (sep_elim_left.trans (hu₀ m hG)) (hmain m ρ hR) (fq m) (hfin m) (QC m) (fun _ h => h)

end Cert.Proof.KB

end
-- ==== Proof.Tile.lean ====
/-
  The task of one vector subcore: it copies the repeated user column into its own memory, then works through its
  eight chunks of 768 table columns with two input buffers and two output buffers: while chunk j is being
  accumulated (six passes of 128 columns, each pass eight blocks of eight table rows, the eight accumulators of a
  pass carried from block to block), chunk j + 1 is already being copied in and chunk j - 1 copied out. Per column
  the accumulator runs acc ← acc + x_d · u_d for d = 0 … 63 from zero, so what lands in the result is the
  specification's value at every column of the subcore's chunks.
-/
import proofs.«207427_g73340861546603_cont_9to1c4b_775_30_alg».proof.Proof.Common
import Idealize.ShloMosaic.Lib.Pipeline.Value

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The SparseCore and the subcore of a grid point, as numbers below 2 and 16. -/
abbrev cL (L : grid0.Coords) : Fin 2 := Fin.cast bound_zero (L 0)
abbrev sL (L : grid0.Coords) : Fin 16 := Fin.cast bound_one (L 1)

/-- The operands and scratch buffers as the task addresses them. -/
abbrev xM : Memref sig .scVector .hbm S64x1000000 .f32 := Memref.whole main_v2_scv
abbrev uM : Memref sig .scVector .hbm S64x16 .f32 := Memref.whole main_v1_scv
abbrev oM : Memref sig .scVector .hbm S196608 .f32 := Memref.whole main_v4_scv
abbrev b0 : Memref sig .scVector .vmem S64x768 .f32 := Memref.whole cc0_scratch0
abbrev b1 : Memref sig .scVector .vmem S64x768 .f32 := Memref.whole cc0_scratch1
abbrev b2 : Memref sig .scVector .vmem S768 .f32 := Memref.whole cc0_scratch2
abbrev b3 : Memref sig .scVector .vmem S768 .f32 := Memref.whole cc0_scratch3
abbrev b4 : Memref sig .scVector .vmem S64x16 .f32 := Memref.whole cc0_scratch4
abbrev cell0 (d : Dev nD) (c : Fin τ.nSC) (i : Fin τ.nSub) : GSem nD τ sig := (V d c i, .dma cc0_scratch5.sem)
abbrev cell1 (d : Dev nD) (c : Fin τ.nSC) (i : Fin τ.nSub) : GSem nD τ sig := (V d c i, .dma cc0_scratch6.sem)
abbrev cell2 (d : Dev nD) (c : Fin τ.nSC) (i : Fin τ.nSub) : GSem nD τ sig := (V d c i, .dma cc0_scratch7.sem)
abbrev cell3 (d : Dev nD) (c : Fin τ.nSC) (i : Fin τ.nSub) : GSem nD τ sig := (V d c i, .dma cc0_scratch8.sem)
abbrev cell4 (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0
          ∗ bigSep ((((((ownCells (V d (cV L) (jV L))).erase (cell0 d (cV L) (jV L))).erase (cell1 d (cV L) (jV L))).erase (cell2 d (cV L) (jV L))).erase (cell3 d (cV L) (jV L))).erase (cell4 d (cV L) (jV L))) fun g => semVal g 0) := by
  unfold SparseCore.Cfg.ownSems0
  rw [SparseCore.bigSep_erase' ((mem_ownCells (g := cell0 d (cV L) (jV L))).mpr ⟨rfl, by show (SemLoc.dma cc0_scratch5.sem : SemLoc sig).isScoped .scVector = true; decide⟩),
    SparseCore.bigSep_erase' (Finset.mem_erase.mpr ⟨by simp [cell0, cell1]; decide, (mem_ownCells (g := cell1 d (cV L) (jV L))).mpr ⟨rfl, by show (SemLoc.dma cc0_scratch6.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := cell2 d (cV L) (jV L))).mpr ⟨rfl, by show (SemLoc.dma cc0_scratch7.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d (cV L) (jV L))).mpr ⟨rfl, by show (SemLoc.dma cc0_scratch8.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d (cV L) (jV L))).mpr ⟨rfl, by show (SemLoc.dma cc0_scoped0.sem : SemLoc sig).isScoped .scVector = true; decide⟩⟩⟩⟩⟩)]

omit [FloatOps F] in
/-- The five scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := ((Proc.scVector (cV L) (jV L)).devRef cc0_scratch4)) rfl⟩⟩⟩⟩)]

/-! ## The arithmetic of a chunk, and the running accumulators -/

/-- The table column that local column `q` of chunk `j` of subcore `(c, s)` is. -/
def colG (c : Fin 2) (s : Fin 16) (j q : ℕ) : ℕ := 768 * (2 * s.val + c.val + 32 * j) + q

omit [FloatOps F] in
theorem colG_lt (c : Fin 2) (s : Fin 16) (j : Fin 8) (q : Fin 768) : colG c s j.val q.val < 1000000 := by
  unfold colG; omega

/-- An input buffer holds chunk `j`: row by row the table's columns of the chunk. -/
def InOK (X : FVec F S64x1000000 .f32) (c : Fin 2) (s : Fin 16) (j : Fin 8) (fin : FVec F S64x768 .f32) : Prop :=
  ∀ (r : Fin 64) (q : Fin 768), fin (ix2 r q) = X (ix2 r ⟨colG c s j.val q.val, colG_lt c s j q⟩)

/-- The accumulator of local column `q` (on lane `l`) of chunk `j` after the first `k` table rows. -/
def accQ (X : FVec F S64x1000000 .f32) (Uc : FVec F S64x16 .f32) (c : Fin 2) (s : Fin 16) (j : Fin 8) (q : Fin 768) (l : Fin 16) (k : ℕ) : F .f32 :=
  accUpTo X Uc ⟨colG c s j.val q.val, colG_lt c s j q⟩ l k

theorem accQ_zero (X : FVec F S64x1000000 .f32) (Uc : FVec F S64x16 .f32) (c : Fin 2) (s : Fin 16) (j : Fin 8) (q : Fin 768) (l : Fin 16) :
    accQ X Uc c s j q l 0 = FloatOps.ofBits .f32 0x00000000#32 := rfl

/-- One more table row: acc + x · u, with x read from an input buffer that holds the chunk. -/
theorem accQ_succ (X : FVec F S64x1000000 .f32) (Uc : FVec F S64x16 .f32) (c : Fin 2) (s : Fin 16) (j : Fin 8) (q : Fin 768) (l : Fin 16)
    (fin : FVec F S64x768 .f32) (hin : InOK X c s j fin) (k : ℕ) (r : Fin 64) (hr : r.val = k) :
    accQ X Uc c s j q l (k + 1) = FloatOps.addf (accQ X Uc c s j q l k) (FloatOps.mulf (fin (ix2 r q)) (Uc (ix2 r l))) := by
  subst hr
  unfold accQ
  rw [accUpTo, dif_pos r.isLt, hin r q]

/-- The eight accumulators of pass `p`: accumulator `g` holds local columns 128 p + 16 g + l, lane by lane. -/
def accV (X : FVec F S64x1000000 .f32) (Uc : FVec F S64x16 .f32) (c : Fin 2) (s : Fin 16) (j : Fin 8) (p : Fin 6) (g : Fin 8) (k : ℕ) : FVec F S16 .f32 :=
  fun l => accQ X Uc c s j ⟨128 * p.val + 16 * g.val + (l 0).val, by have := (l 0).isLt; have : (l 0).val < 16 := this; omega⟩ ⟨(l 0).val, (l 0).isLt⟩ k

/-! ## Rows of the buffers as lane vectors, and the accumulators as the pass carries them -/

/-- Sixteen consecutive entries of row `r` of an input buffer from column `q0`. -/
def rowX (fin : FVec F S64x768 .f32) (r q0 : ℕ) : FVec F S16 .f32 :=
  fun l => if h : r < 64 ∧ q0 + (l 0).val < 768 then fin (ix2 ⟨r, h.1⟩ ⟨q0 + (l 0).val, h.2⟩) else FloatOps.ofBits .f32 0x00000000#32
/-- Row `r` of the repeated user column. -/
def rowU (fu : FVec F S64x16 .f32) (r : ℕ) : FVec F S16 .f32 :=
  fun l => if h : r < 64 then fu (ix2 ⟨r, h⟩ ⟨(l 0).val, (l 0).isLt⟩) else FloatOps.ofBits .f32 0x00000000#32

/-- The accumulator of the sixteen columns from `q0` after the first `k` rows, as a lane vector: from zero,
    acc + x_r · u_r. -/
def accVec (fin : FVec F S64x768 .f32) (fu : FVec F S64x16 .f32) (q0 : ℕ) : ℕ → FVec F S16 .f32
  | 0 => broadcast S16 (Scalar.ofBits .f32 0x00000000#32)
  | k + 1 => addf (accVec fin fu q0 k) (mulf (rowX fin k q0) (rowU fu k))

theorem accVec_succ (fin : FVec F S64x768 .f32) (fu : FVec F S64x16 .f32) (q0 k : ℕ) :
    accVec fin fu q0 (k + 1) = addf (accVec fin fu q0 k) (mulf (rowX fin k q0) (rowU fu k)) := rfl

/-- A 16-lane row load of an input buffer is that row as a lane vector. -/
theorem ldrowX (fin : FVec F S64x768 .f32) (off : Fin 2 → ℕ) (inb : ∀ a, off a + S1x16.size a ≤ S64x768.size a) (r q0 : ℕ) (h : off = ![r, q0]) :
    shapeCast S16 (View.readAt (Elt F) (b0).view (Rect.unit (s := S64x768) off S1x16.size inb).toLoadRect fin) shapeCasts_S1x16_S16 = rowX fin r q0 := by
  subst h
  funext l
  have h0 : r + 1 ≤ 64 := inb 0
  have h1 : q0 + 16 ≤ 768 := inb 1
  have hl : (l 0).val < 16 := (l 0).isLt
  unfold rowX
  rw [dif_pos ⟨by omega, by omega⟩]
  rw [shapeCast_apply _ _ l (ix2 0 ⟨(l 0).val, hl⟩) (by simp [Shape.rowMajor_val_two, Shape.rowMajor_val_one])]
  show fin _ = fin _
  congr 1; funext a; apply Fin.ext
  match a with
  | ⟨0, _⟩ => show r + 1 * 0 = r; omega
  | ⟨1, _⟩ => show q0 + 1 * (l 0).val = q0 + (l 0).val; omega

/-- A row load of the user buffer is that row as a lane vector. -/
theorem ldrowU (fu : FVec F S64x16 .f32) (off : Fin 2 → ℕ) (inb : ∀ a, off a + S1x16.size a ≤ S64x16.size a) (r : ℕ) (h : off = ![r, 0]) :
    shapeCast S16 (View.readAt (Elt F) (b4).view (Rect.unit (s := S64x16) off S1x16.size inb).toLoadRect fu) shapeCasts_S1x16_S16 = rowU fu r := by
  subst h
  funext l
  have h0 : r + 1 ≤ 64 := inb 0
  have hl : (l 0).val < 16 := (l 0).isLt
  unfold rowU
  rw [dif_pos (by omega)]
  rw [shapeCast_apply _ _ l (ix2 0 ⟨(l 0).val, hl⟩) (by simp [Shape.rowMajor_val_two, Shape.rowMajor_val_one])]
  show fu _ = fu _
  congr 1; funext a; apply Fin.ext
  match a with
  | ⟨0, _⟩ => show r + 1 * 0 = r; omega
  | ⟨1, _⟩ => show 0 + 1 * (l 0).val = (l 0).val; omega

/-- What an out buffer holds at local column `q` once the pass that owns it is done: the accumulator of its block of
    sixteen columns after all 64 rows, on its lane. -/
def outG (fin : FVec F S64x768 .f32) (fu : FVec F S64x16 .f32) : FVec F S768 .f32 :=
  fun q => accVec fin fu (16 * ((q 0).val / 16)) 64 (ix1 ⟨(q 0).val % 16, Nat.mod_lt _ (by decide)⟩)

/-! ## A pass's eight stores, read back -/

omit [FloatOps F] in
theorem mem_unit16 {off : Fin 1 → ℕ} {inb : ∀ a, off a + S16.size a ≤ S768.size a} {q : S768.Idx} :
    q ∈ (Rect.unit (s := S768) off S16.size inb).set ↔ off 0 ≤ (q 0).val ∧ (q 0).val < off 0 + 16 := by
  rw [Rect.mem_set_unit]
  constructor
  · intro h; exact h 0
  · intro h a; match a with | ⟨0, _⟩ => exact h

/-- At a column of the block of sixteen that starts at `q0`, the finished out buffer holds that block's accumulator. -/
theorem outG_at (fin : FVec F S64x768 .f32) (fu : FVec F S64x16 .f32) (q : S768.Idx) (q0 x : ℕ) (hx : x < 16) (h16 : 16 ∣ q0)
    (hq : (q 0).val = q0 + x) : outG fin fu q = accVec fin fu q0 64 (ix1 ⟨x, hx⟩) := by
  unfold outG
  have h2 : (q 0).val % 16 = x := by omega
  have h1 : 16 * ((q 0).val / 16) = q0 := by omega
  subst h2
  rw [h1]

omit [FloatOps F] in
/-- One store peeled off a list of stores: under it the payload, beside it what the earlier stores left. -/
theorem writes_cons_step {κ : Kind} {sp : Space} {s : Shape} {e : EltTy} (v : View sig κ sp s e) (f : v.ty.Contents (Elt F))
    (r : Rect s) (w : r.shape.Idx → Elt F e) (Ls : List (View.Piece (Elt F) s e)) (G : s.Idx → Elt F e) (y : s.Idx)
    (hG : ∀ x, w x = G (r.emb x)) (hrest : y ∉ r.set → v.read (Elt F) (v.writes (Elt F) f Ls) y = G y) :
    v.read (Elt F) (v.writes (Elt F) f (⟨r, w⟩ :: Ls)) y = G y := by
  by_cases hy : y ∈ r.set
  · obtain ⟨x, rfl⟩ : ∃ x, r.emb x = y := r.exists_idx_of_mem hy
    rw [View.read_writes_cons_emb]; exact hG x
  · rw [View.writes_cons, View.read_slice_write_of_not_mem r _ _ _ (by rwa [Rect.map_emb_univ])]
    exact hrest hy

/-- After pass `P` the first `128 (P + 1)` columns of the out buffer are done. -/
theorem out_pass (fin : FVec F S64x768 .f32) (fu : FVec F S64x16 .f32) (fo : FVec F S768 .f32) (P : ℕ) (hP : P < 6)
    (o0 : Fin 1 → ℕ) (i0 : ∀ a, o0 a + S16.size a ≤ S768.size a) (w0 : FVec F S16 .f32) (ho0 : o0 = ![128 * P + 0]) (hw0 : w0 = accVec fin fu (128 * P + 0) 64)
    (o1 : Fin 1 → ℕ) (i1 : ∀ a, o1 a + S16.size a ≤ S768.size a) (w1 : FVec F S16 .f32) (ho1 : o1 = ![128 * P + 16]) (hw1 : w1 = accVec fin fu (128 * P + 16) 64)
    (o2 : Fin 1 → ℕ) (i2 : ∀ a, o2 a + S16.size a ≤ S768.size a) (w2 : FVec F S16 .f32) (ho2 : o2 = ![128 * P + 32]) (hw2 : w2 = accVec fin fu (128 * P + 32) 64)
    (o3 : Fin 1 → ℕ) (i3 : ∀ a, o3 a + S16.size a ≤ S768.size a) (w3 : FVec F S16 .f32) (ho3 : o3 = ![128 * P + 48]) (hw3 : w3 = accVec fin fu (128 * P + 48) 64)
    (o4 : Fin 1 → ℕ) (i4 : ∀ a, o4 a + S16.size a ≤ S768.size a) (w4 : FVec F S16 .f32) (ho4 : o4 = ![128 * P + 64]) (hw4 : w4 = accVec fin fu (128 * P + 64) 64)
    (o5 : Fin 1 → ℕ) (i5 : ∀ a, o5 a + S16.size a ≤ S768.size a) (w5 : FVec F S16 .f32) (ho5 : o5 = ![128 * P + 80]) (hw5 : w5 = accVec fin fu (128 * P + 80) 64)
    (o6 : Fin 1 → ℕ) (i6 : ∀ a, o6 a + S16.size a ≤ S768.size a) (w6 : FVec F S16 .f32) (ho6 : o6 = ![128 * P + 96]) (hw6 : w6 = accVec fin fu (128 * P + 96) 64)
    (o7 : Fin 1 → ℕ) (i7 : ∀ a, o7 a + S16.size a ≤ S768.size a) (w7 : FVec F S16 .f32) (ho7 : o7 = ![128 * P + 112]) (hw7 : w7 = accVec fin fu (128 * P + 112) 64)
    (hfo : ∀ q : S768.Idx, (q 0).val < 128 * P → fo q = outG fin fu q) :
    ∀ q : S768.Idx, (q 0).val < 128 * (P + 1) →
      (b2).view.read (Elt F) ((b2).view.writes (Elt F) fo [⟨Rect.unit (s := S768) o7 S16.size i7, w7⟩, ⟨Rect.unit (s := S768) o6 S16.size i6, w6⟩, ⟨Rect.unit (s := S768) o5 S16.size i5, w5⟩, ⟨Rect.unit (s := S768) o4 S16.size i4, w4⟩, ⟨Rect.unit (s := S768) o3 S16.size i3, w3⟩, ⟨Rect.unit (s := S768) o2 S16.size i2, w2⟩, ⟨Rect.unit (s := S768) o1 S16.size i1, w1⟩, ⟨Rect.unit (s := S768) o0 S16.size i0, w0⟩]) q = outG fin fu q := by
  subst ho0 hw0 ho1 hw1 ho2 hw2 ho3 hw3 ho4 hw4 ho5 hw5 ho6 hw6 ho7 hw7
  intro q hq
  refine writes_cons_step _ _ _ _ _ _ q (fun x => (congrArg (accVec fin fu (128 * P + 112) 64) (ValueIdx.eq_ix1 x)).trans (outG_at fin fu _ (128 * P + 112) (x 0).val (x 0).isLt (by omega) (by show (128 * P + 112) + 1 * (x 0).val = 128 * P + 112 + (x 0).val; omega)).symm) (fun h7 => ?_)
  rw [mem_unit16] at h7; simp only [Matrix.cons_val_zero, Matrix.cons_val_fin_one] at h7
  refine writes_cons_step _ _ _ _ _ _ q (fun x => (congrArg (accVec fin fu (128 * P + 96) 64) (ValueIdx.eq_ix1 x)).trans (outG_at fin fu _ (128 * P + 96) (x 0).val (x 0).isLt (by omega) (by show (128 * P + 96) + 1 * (x 0).val = 128 * P + 96 + (x 0).val; omega)).symm) (fun h6 => ?_)
  rw [mem_unit16] at h6; simp only [Matrix.cons_val_zero, Matrix.cons_val_fin_one] at h6
  refine writes_cons_step _ _ _ _ _ _ q (fun x => (congrArg (accVec fin fu (128 * P + 80) 64) (ValueIdx.eq_ix1 x)).trans (outG_at fin fu _ (128 * P + 80) (x 0).val (x 0).isLt (by omega) (by show (128 * P + 80) + 1 * (x 0).val = 128 * P + 80 + (x 0).val; omega)).symm) (fun h5 => ?_)
  rw [mem_unit16] at h5; simp only [Matrix.cons_val_zero, Matrix.cons_val_fin_one] at h5
  refine writes_cons_step _ _ _ _ _ _ q (fun x => (congrArg (accVec fin fu (128 * P + 64) 64) (ValueIdx.eq_ix1 x)).trans (outG_at fin fu _ (128 * P + 64) (x 0).val (x 0).isLt (by omega) (by show (128 * P + 64) + 1 * (x 0).val = 128 * P + 64 + (x 0).val; omega)).symm) (fun h4 => ?_)
  rw [mem_unit16] at h4; simp only [Matrix.cons_val_zero, Matrix.cons_val_fin_one] at h4
  refine writes_cons_step _ _ _ _ _ _ q (fun x => (congrArg (accVec fin fu (128 * P + 48) 64) (ValueIdx.eq_ix1 x)).trans (outG_at fin fu _ (128 * P + 48) (x 0).val (x 0).isLt (by omega) (by show (128 * P + 48) + 1 * (x 0).val = 128 * P + 48 + (x 0).val; omega)).symm) (fun h3 => ?_)
  rw [mem_unit16] at h3; simp only [Matrix.cons_val_zero, Matrix.cons_val_fin_one] at h3
  refine writes_cons_step _ _ _ _ _ _ q (fun x => (congrArg (accVec fin fu (128 * P + 32) 64) (ValueIdx.eq_ix1 x)).trans (outG_at fin fu _ (128 * P + 32) (x 0).val (x 0).isLt (by omega) (by show (128 * P + 32) + 1 * (x 0).val = 128 * P + 32 + (x 0).val; omega)).symm) (fun h2 => ?_)
  rw [mem_unit16] at h2; simp only [Matrix.cons_val_zero, Matrix.cons_val_fin_one] at h2
  refine writes_cons_step _ _ _ _ _ _ q (fun x => (congrArg (accVec fin fu (128 * P + 16) 64) (ValueIdx.eq_ix1 x)).trans (outG_at fin fu _ (128 * P + 16) (x 0).val (x 0).isLt (by omega) (by show (128 * P + 16) + 1 * (x 0).val = 128 * P + 16 + (x 0).val; omega)).symm) (fun h1 => ?_)
  rw [mem_unit16] at h1; simp only [Matrix.cons_val_zero, Matrix.cons_val_fin_one] at h1
  refine writes_cons_step _ _ _ _ _ _ q (fun x => (congrArg (accVec fin fu (128 * P + 0) 64) (ValueIdx.eq_ix1 x)).trans (outG_at fin fu _ (128 * P + 0) (x 0).val (x 0).isLt (by omega) (by show (128 * P + 0) + 1 * (x 0).val = 128 * P + 0 + (x 0).val; omega)).symm) (fun h0 => ?_)
  rw [mem_unit16] at h0; simp only [Matrix.cons_val_zero, Matrix.cons_val_fin_one] at h0
  exact hfo q (by omega)

/-- What the inner loop of a pass carries and reads: the eight accumulators after the first `8 k` rows, the input
    buffer and the user buffer. -/
def I3 (fin : FVec F S64x768 .f32) (fu : FVec F S64x16 .f32) (p : Fin k0_t2_loop.trips) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(⌜acc = (accVec fin fu (128 * p.val + 0) (8 * k), accVec fin fu (128 * p.val + 16) (8 * k), accVec fin fu (128 * p.val + 32) (8 * k), accVec fin fu (128 * p.val + 48) (8 * k), accVec fin fu (128 * p.val + 64) (8 * k), accVec fin fu (128 * p.val + 80) (8 * k), accVec fin fu (128 * p.val + 96) (8 * k), accVec fin fu (128 * p.val + 112) (8 * k))⌝
    ∗ ((b0).view.loc (V d (cV L) (jV L)) ↦{fullShare} fin) ∗ ((b4).view.loc (V d (cV L) (jV L)) ↦{fullShare} fu))

set_option maxHeartbeats 4000000 in
set_option maxRecDepth 65536 in
/-- One block of eight table rows: each accumulator takes its eight steps acc + x_r · u_r. -/
theorem t3_trip (fin : FVec F S64x768 .f32) (fu : FVec F S64x16 .f32) (p : Fin k0_t2_loop.trips) (v60 : BitVec 32)
    (k : Fin k0_t3_loop.trips) (acc : FVec F S16 .f32 × FVec F S16 .f32 × FVec F S16 .f32 × FVec F S16 .f32 × FVec F S16 .f32 × FVec F S16 .f32 × FVec F S16 .f32 × FVec F S16 .f32) :
    I3 d L fin fu p k.val acc
      ⊢ wp frame (wpE (defs₀ (F := F)) 𝒱₀ (V d (cV L) (jV L)) none) Set.univ
          (k0_t3_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 0#32 1#32 p v60 k acc) (I3 d L fin fu p (k.val + 1)) := by
  have e0_0 : k0_off6 p k 0#32 0#32 = ![8 * k.val + 0, 128 * p.val + 0] := k0_off6_eq p k ⟨0, by decide⟩ ⟨0, by decide⟩
  have e0_1 : k0_off6 p k 0#32 16#32 = ![8 * k.val + 0, 128 * p.val + 16] := k0_off6_eq p k ⟨0, by decide⟩ ⟨1, by decide⟩
  have e0_2 : k0_off6 p k 0#32 32#32 = ![8 * k.val + 0, 128 * p.val + 32] := k0_off6_eq p k ⟨0, by decide⟩ ⟨2, by decide⟩
  have e0_3 : k0_off6 p k 0#32 48#32 = ![8 * k.val + 0, 128 * p.val + 48] := k0_off6_eq p k ⟨0, by decide⟩ ⟨3, by decide⟩
  have e0_4 : k0_off6 p k 0#32 64#32 = ![8 * k.val + 0, 128 * p.val + 64] := k0_off6_eq p k ⟨0, by decide⟩ ⟨4, by decide⟩
  have e0_5 : k0_off6 p k 0#32 80#32 = ![8 * k.val + 0, 128 * p.val + 80] := k0_off6_eq p k ⟨0, by decide⟩ ⟨5, by decide⟩
  have e0_6 : k0_off6 p k 0#32 96#32 = ![8 * k.val + 0, 128 * p.val + 96] := k0_off6_eq p k ⟨0, by decide⟩ ⟨6, by decide⟩
  have e0_7 : k0_off6 p k 0#32 112#32 = ![8 * k.val + 0, 128 * p.val + 112] := k0_off6_eq p k ⟨0, by decide⟩ ⟨7, by decide⟩
  have e1_0 : k0_off6 p k 1#32 0#32 = ![8 * k.val + 1, 128 * p.val + 0] := k0_off6_eq p k ⟨1, by decide⟩ ⟨0, by decide⟩
  have e1_1 : k0_off6 p k 1#32 16#32 = ![8 * k.val + 1, 128 * p.val + 16] := k0_off6_eq p k ⟨1, by decide⟩ ⟨1, by decide⟩
  have e1_2 : k0_off6 p k 1#32 32#32 = ![8 * k.val + 1, 128 * p.val + 32] := k0_off6_eq p k ⟨1, by decide⟩ ⟨2, by decide⟩
  have e1_3 : k0_off6 p k 1#32 48#32 = ![8 * k.val + 1, 128 * p.val + 48] := k0_off6_eq p k ⟨1, by decide⟩ ⟨3, by decide⟩
  have e1_4 : k0_off6 p k 1#32 64#32 = ![8 * k.val + 1, 128 * p.val + 64] := k0_off6_eq p k ⟨1, by decide⟩ ⟨4, by decide⟩
  have e1_5 : k0_off6 p k 1#32 80#32 = ![8 * k.val + 1, 128 * p.val + 80] := k0_off6_eq p k ⟨1, by decide⟩ ⟨5, by decide⟩
  have e1_6 : k0_off6 p k 1#32 96#32 = ![8 * k.val + 1, 128 * p.val + 96] := k0_off6_eq p k ⟨1, by decide⟩ ⟨6, by decide⟩
  have e1_7 : k0_off6 p k 1#32 112#32 = ![8 * k.val + 1, 128 * p.val + 112] := k0_off6_eq p k ⟨1, by decide⟩ ⟨7, by decide⟩
  have e2_0 : k0_off6 p k 2#32 0#32 = ![8 * k.val + 2, 128 * p.val + 0] := k0_off6_eq p k ⟨2, by decide⟩ ⟨0, by decide⟩
  have e2_1 : k0_off6 p k 2#32 16#32 = ![8 * k.val + 2, 128 * p.val + 16] := k0_off6_eq p k ⟨2, by decide⟩ ⟨1, by decide⟩
  have e2_2 : k0_off6 p k 2#32 32#32 = ![8 * k.val + 2, 128 * p.val + 32] := k0_off6_eq p k ⟨2, by decide⟩ ⟨2, by decide⟩
  have e2_3 : k0_off6 p k 2#32 48#32 = ![8 * k.val + 2, 128 * p.val + 48] := k0_off6_eq p k ⟨2, by decide⟩ ⟨3, by decide⟩
  have e2_4 : k0_off6 p k 2#32 64#32 = ![8 * k.val + 2, 128 * p.val + 64] := k0_off6_eq p k ⟨2, by decide⟩ ⟨4, by decide⟩
  have e2_5 : k0_off6 p k 2#32 80#32 = ![8 * k.val + 2, 128 * p.val + 80] := k0_off6_eq p k ⟨2, by decide⟩ ⟨5, by decide⟩
  have e2_6 : k0_off6 p k 2#32 96#32 = ![8 * k.val + 2, 128 * p.val + 96] := k0_off6_eq p k ⟨2, by decide⟩ ⟨6, by decide⟩
  have e2_7 : k0_off6 p k 2#32 112#32 = ![8 * k.val + 2, 128 * p.val + 112] := k0_off6_eq p k ⟨2, by decide⟩ ⟨7, by decide⟩
  have e3_0 : k0_off6 p k 3#32 0#32 = ![8 * k.val + 3, 128 * p.val + 0] := k0_off6_eq p k ⟨3, by decide⟩ ⟨0, by decide⟩
  have e3_1 : k0_off6 p k 3#32 16#32 = ![8 * k.val + 3, 128 * p.val + 16] := k0_off6_eq p k ⟨3, by decide⟩ ⟨1, by decide⟩
  have e3_2 : k0_off6 p k 3#32 32#32 = ![8 * k.val + 3, 128 * p.val + 32] := k0_off6_eq p k ⟨3, by decide⟩ ⟨2, by decide⟩
  have e3_3 : k0_off6 p k 3#32 48#32 = ![8 * k.val + 3, 128 * p.val + 48] := k0_off6_eq p k ⟨3, by decide⟩ ⟨3, by decide⟩
  have e3_4 : k0_off6 p k 3#32 64#32 = ![8 * k.val + 3, 128 * p.val + 64] := k0_off6_eq p k ⟨3, by decide⟩ ⟨4, by decide⟩
  have e3_5 : k0_off6 p k 3#32 80#32 = ![8 * k.val + 3, 128 * p.val + 80] := k0_off6_eq p k ⟨3, by decide⟩ ⟨5, by decide⟩
  have e3_6 : k0_off6 p k 3#32 96#32 = ![8 * k.val + 3, 128 * p.val + 96] := k0_off6_eq p k ⟨3, by decide⟩ ⟨6, by decide⟩
  have e3_7 : k0_off6 p k 3#32 112#32 = ![8 * k.val + 3, 128 * p.val + 112] := k0_off6_eq p k ⟨3, by decide⟩ ⟨7, by decide⟩
  have e4_0 : k0_off6 p k 4#32 0#32 = ![8 * k.val + 4, 128 * p.val + 0] := k0_off6_eq p k ⟨4, by decide⟩ ⟨0, by decide⟩
  have e4_1 : k0_off6 p k 4#32 16#32 = ![8 * k.val + 4, 128 * p.val + 16] := k0_off6_eq p k ⟨4, by decide⟩ ⟨1, by decide⟩
  have e4_2 : k0_off6 p k 4#32 32#32 = ![8 * k.val + 4, 128 * p.val + 32] := k0_off6_eq p k ⟨4, by decide⟩ ⟨2, by decide⟩
  have e4_3 : k0_off6 p k 4#32 48#32 = ![8 * k.val + 4, 128 * p.val + 48] := k0_off6_eq p k ⟨4, by decide⟩ ⟨3, by decide⟩
  have e4_4 : k0_off6 p k 4#32 64#32 = ![8 * k.val + 4, 128 * p.val + 64] := k0_off6_eq p k ⟨4, by decide⟩ ⟨4, by decide⟩
  have e4_5 : k0_off6 p k 4#32 80#32 = ![8 * k.val + 4, 128 * p.val + 80] := k0_off6_eq p k ⟨4, by decide⟩ ⟨5, by decide⟩
  have e4_6 : k0_off6 p k 4#32 96#32 = ![8 * k.val + 4, 128 * p.val + 96] := k0_off6_eq p k ⟨4, by decide⟩ ⟨6, by decide⟩
  have e4_7 : k0_off6 p k 4#32 112#32 = ![8 * k.val + 4, 128 * p.val + 112] := k0_off6_eq p k ⟨4, by decide⟩ ⟨7, by decide⟩
  have e5_0 : k0_off6 p k 5#32 0#32 = ![8 * k.val + 5, 128 * p.val + 0] := k0_off6_eq p k ⟨5, by decide⟩ ⟨0, by decide⟩
  have e5_1 : k0_off6 p k 5#32 16#32 = ![8 * k.val + 5, 128 * p.val + 16] := k0_off6_eq p k ⟨5, by decide⟩ ⟨1, by decide⟩
  have e5_2 : k0_off6 p k 5#32 32#32 = ![8 * k.val + 5, 128 * p.val + 32] := k0_off6_eq p k ⟨5, by decide⟩ ⟨2, by decide⟩
  have e5_3 : k0_off6 p k 5#32 48#32 = ![8 * k.val + 5, 128 * p.val + 48] := k0_off6_eq p k ⟨5, by decide⟩ ⟨3, by decide⟩
  have e5_4 : k0_off6 p k 5#32 64#32 = ![8 * k.val + 5, 128 * p.val + 64] := k0_off6_eq p k ⟨5, by decide⟩ ⟨4, by decide⟩
  have e5_5 : k0_off6 p k 5#32 80#32 = ![8 * k.val + 5, 128 * p.val + 80] := k0_off6_eq p k ⟨5, by decide⟩ ⟨5, by decide⟩
  have e5_6 : k0_off6 p k 5#32 96#32 = ![8 * k.val + 5, 128 * p.val + 96] := k0_off6_eq p k ⟨5, by decide⟩ ⟨6, by decide⟩
  have e5_7 : k0_off6 p k 5#32 112#32 = ![8 * k.val + 5, 128 * p.val + 112] := k0_off6_eq p k ⟨5, by decide⟩ ⟨7, by decide⟩
  have e6_0 : k0_off6 p k 6#32 0#32 = ![8 * k.val + 6, 128 * p.val + 0] := k0_off6_eq p k ⟨6, by decide⟩ ⟨0, by decide⟩
  have e6_1 : k0_off6 p k 6#32 16#32 = ![8 * k.val + 6, 128 * p.val + 16] := k0_off6_eq p k ⟨6, by decide⟩ ⟨1, by decide⟩
  have e6_2 : k0_off6 p k 6#32 32#32 = ![8 * k.val + 6, 128 * p.val + 32] := k0_off6_eq p k ⟨6, by decide⟩ ⟨2, by decide⟩
  have e6_3 : k0_off6 p k 6#32 48#32 = ![8 * k.val + 6, 128 * p.val + 48] := k0_off6_eq p k ⟨6, by decide⟩ ⟨3, by decide⟩
  have e6_4 : k0_off6 p k 6#32 64#32 = ![8 * k.val + 6, 128 * p.val + 64] := k0_off6_eq p k ⟨6, by decide⟩ ⟨4, by decide⟩
  have e6_5 : k0_off6 p k 6#32 80#32 = ![8 * k.val + 6, 128 * p.val + 80] := k0_off6_eq p k ⟨6, by decide⟩ ⟨5, by decide⟩
  have e6_6 : k0_off6 p k 6#32 96#32 = ![8 * k.val + 6, 128 * p.val + 96] := k0_off6_eq p k ⟨6, by decide⟩ ⟨6, by decide⟩
  have e6_7 : k0_off6 p k 6#32 112#32 = ![8 * k.val + 6, 128 * p.val + 112] := k0_off6_eq p k ⟨6, by decide⟩ ⟨7, by decide⟩
  have e7_0 : k0_off6 p k 7#32 0#32 = ![8 * k.val + 7, 128 * p.val + 0] := k0_off6_eq p k ⟨7, by decide⟩ ⟨0, by decide⟩
  have e7_1 : k0_off6 p k 7#32 16#32 = ![8 * k.val + 7, 128 * p.val + 16] := k0_off6_eq p k ⟨7, by decide⟩ ⟨1, by decide⟩
  have e7_2 : k0_off6 p k 7#32 32#32 = ![8 * k.val + 7, 128 * p.val + 32] := k0_off6_eq p k ⟨7, by decide⟩ ⟨2, by decide⟩
  have e7_3 : k0_off6 p k 7#32 48#32 = ![8 * k.val + 7, 128 * p.val + 48] := k0_off6_eq p k ⟨7, by decide⟩ ⟨3, by decide⟩
  have e7_4 : k0_off6 p k 7#32 64#32 = ![8 * k.val + 7, 128 * p.val + 64] := k0_off6_eq p k ⟨7, by decide⟩ ⟨4, by decide⟩
  have e7_5 : k0_off6 p k 7#32 80#32 = ![8 * k.val + 7, 128 * p.val + 80] := k0_off6_eq p k ⟨7, by decide⟩ ⟨5, by decide⟩
  have e7_6 : k0_off6 p k 7#32 96#32 = ![8 * k.val + 7, 128 * p.val + 96] := k0_off6_eq p k ⟨7, by decide⟩ ⟨6, by decide⟩
  have e7_7 : k0_off6 p k 7#32 112#32 = ![8 * k.val + 7, 128 * p.val + 112] := k0_off6_eq p k ⟨7, by decide⟩ ⟨7, by decide⟩
  have u0 : k0_off5 k 0#32 = ![8 * k.val + 0, 0] := k0_off5_eq k ⟨0, by decide⟩
  have u1 : k0_off5 k 1#32 = ![8 * k.val + 1, 0] := k0_off5_eq k ⟨1, by decide⟩
  have u2 : k0_off5 k 2#32 = ![8 * k.val + 2, 0] := k0_off5_eq k ⟨2, by decide⟩
  have u3 : k0_off5 k 3#32 = ![8 * k.val + 3, 0] := k0_off5_eq k ⟨3, by decide⟩
  have u4 : k0_off5 k 4#32 = ![8 * k.val + 4, 0] := k0_off5_eq k ⟨4, by decide⟩
  have u5 : k0_off5 k 5#32 = ![8 * k.val + 5, 0] := k0_off5_eq k ⟨5, by decide⟩
  have u6 : k0_off5 k 6#32 = ![8 * k.val + 6, 0] := k0_off5_eq k ⟨6, by decide⟩
  have u7 : k0_off5 k 7#32 = ![8 * k.val + 7, 0] := k0_off5_eq k ⟨7, by decide⟩
  unfold I3 k0_t3_body
  iintro ⟨%hacc, H0, H4⟩
  subst hacc
  sl_exec
  sl_step
  isplitr
  · ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [ldrowX fin _ _ _ _ e0_0, ldrowX fin _ _ _ _ e0_1, ldrowX fin _ _ _ _ e0_2, ldrowX fin _ _ _ _ e0_3, ldrowX fin _ _ _ _ e0_4, ldrowX fin _ _ _ _ e0_5, ldrowX fin _ _ _ _ e0_6, ldrowX fin _ _ _ _ e0_7, ldrowX fin _ _ _ _ e1_0, ldrowX fin _ _ _ _ e1_1, ldrowX fin _ _ _ _ e1_2, ldrowX fin _ _ _ _ e1_3, ldrowX fin _ _ _ _ e1_4, ldrowX fin _ _ _ _ e1_5, ldrowX fin _ _ _ _ e1_6, ldrowX fin _ _ _ _ e1_7, ldrowX fin _ _ _ _ e2_0, ldrowX fin _ _ _ _ e2_1, ldrowX fin _ _ _ _ e2_2, ldrowX fin _ _ _ _ e2_3, ldrowX fin _ _ _ _ e2_4, ldrowX fin _ _ _ _ e2_5, ldrowX fin _ _ _ _ e2_6, ldrowX fin _ _ _ _ e2_7, ldrowX fin _ _ _ _ e3_0, ldrowX fin _ _ _ _ e3_1, ldrowX fin _ _ _ _ e3_2, ldrowX fin _ _ _ _ e3_3, ldrowX fin _ _ _ _ e3_4, ldrowX fin _ _ _ _ e3_5, ldrowX fin _ _ _ _ e3_6, ldrowX fin _ _ _ _ e3_7, ldrowX fin _ _ _ _ e4_0, ldrowX fin _ _ _ _ e4_1, ldrowX fin _ _ _ _ e4_2, ldrowX fin _ _ _ _ e4_3, ldrowX fin _ _ _ _ e4_4, ldrowX fin _ _ _ _ e4_5, ldrowX fin _ _ _ _ e4_6, ldrowX fin _ _ _ _ e4_7, ldrowX fin _ _ _ _ e5_0, ldrowX fin _ _ _ _ e5_1, ldrowX fin _ _ _ _ e5_2, ldrowX fin _ _ _ _ e5_3, ldrowX fin _ _ _ _ e5_4, ldrowX fin _ _ _ _ e5_5, ldrowX fin _ _ _ _ e5_6, ldrowX fin _ _ _ _ e5_7, ldrowX fin _ _ _ _ e6_0, ldrowX fin _ _ _ _ e6_1, ldrowX fin _ _ _ _ e6_2, ldrowX fin _ _ _ _ e6_3, ldrowX fin _ _ _ _ e6_4, ldrowX fin _ _ _ _ e6_5, ldrowX fin _ _ _ _ e6_6, ldrowX fin _ _ _ _ e6_7, ldrowX fin _ _ _ _ e7_0, ldrowX fin _ _ _ _ e7_1, ldrowX fin _ _ _ _ e7_2, ldrowX fin _ _ _ _ e7_3, ldrowX fin _ _ _ _ e7_4, ldrowX fin _ _ _ _ e7_5, ldrowX fin _ _ _ _ e7_6, ldrowX fin _ _ _ _ e7_7,
      ldrowU fu _ _ _ u0, ldrowU fu _ _ _ u1, ldrowU fu _ _ _ u2, ldrowU fu _ _ _ u3, ldrowU fu _ _ _ u4, ldrowU fu _ _ _ u5, ldrowU fu _ _ _ u6, ldrowU fu _ _ _ u7]
    rw [show 8 * (k.val + 1) = 8 * k.val + 7 + 1 from by omega]
    simp only [accVec_succ]
    rfl
  isplitl [H0] <;> iassumption

/-- Before pass `k`: the first `128 k` columns of the out buffer are done. -/
def I2 (fin : FVec F S64x768 .f32) (fu : FVec F S64x16 .f32) (k : ℕ) (_ : BitVec 32) : sProp 𝕄 :=
  iprop(((b0).view.loc (V d (cV L) (jV L)) ↦{fullShare} fin) ∗ ((b4).view.loc (V d (cV L) (jV L)) ↦{fullShare} fu)
    ∗ ∃ fo : FVec F S768 .f32, ((b2).view.loc (V d (cV L) (jV L)) ↦{fullShare} fo) ∗ ⌜∀ q : S768.Idx, (q 0).val < 128 * k → fo q = outG fin fu q⌝)

set_option maxHeartbeats 4000000 in
set_option maxRecDepth 65536 in
/-- One pass: the eight accumulators run over all 64 rows from zero and are stored at columns 128 p + 16 g. -/
theorem t2_trip (fin : FVec F S64x768 .f32) (fu : FVec F S64x16 .f32) (v1 : BitVec 32) (jp : Fin k0_t1_loop.trips)
    (p : Fin k0_t2_loop.trips) (a : BitVec 32) :
    I2 d L fin fu p.val a
      ⊢ wp frame (wpE (defs₀ (F := F)) 𝒱₀ (V d (cV L) (jV L)) none) Set.univ
          (k0_t2_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 v1 0#32 1#32 jp p a) (I2 d L fin fu (p.val + 1)) := by
  have s0 : k0_off7 p 0#32 = ![128 * p.val + 0] := k0_off7_eq p ⟨0, by decide⟩
  have s1 : k0_off7 p 16#32 = ![128 * p.val + 16] := k0_off7_eq p ⟨1, by decide⟩
  have s2 : k0_off7 p 32#32 = ![128 * p.val + 32] := k0_off7_eq p ⟨2, by decide⟩
  have s3 : k0_off7 p 48#32 = ![128 * p.val + 48] := k0_off7_eq p ⟨3, by decide⟩
  have s4 : k0_off7 p 64#32 = ![128 * p.val + 64] := k0_off7_eq p ⟨4, by decide⟩
  have s5 : k0_off7 p 80#32 = ![128 * p.val + 80] := k0_off7_eq p ⟨5, by decide⟩
  have s6 : k0_off7 p 96#32 = ![128 * p.val + 96] := k0_off7_eq p ⟨6, by decide⟩
  have s7 : k0_off7 p 112#32 = ![128 * p.val + 112] := k0_off7_eq p ⟨7, by decide⟩
  unfold I2 k0_t2_body
  iintro ⟨H0, H4, %fo, H2, %hfo⟩
  sl_exec
  sl_for (I3 d L fin fu p) $$ [H0 H4]
  case region => exact fun k acc => t3_trip d L fin fu p _ k acc
  · unfold I3
    isplitr
    · ipureintro; rfl
    isplitl [H0] <;> iassumption
  iintro %acc HI
  unfold I3
  icases HI with ⟨%hacc, H0, H4⟩
  subst hacc
  sl_exec
  sl_step
  isplitl [H0]; · iexact H0
  isplitl [H4]; · iexact H4
  iexists _
  isplitl [H2]; · iexact H2
  ipureintro
  exact out_pass fin fu fo p.val p.isLt _ _ _ s0 rfl _ _ _ s1 rfl _ _ _ s2 rfl _ _ _ s3 rfl _ _ _ s4 rfl _ _ _ s5 rfl _ _ _ s6 rfl _ _ _ s7 rfl hfo

/-! ## The subcore's columns of the result, chunk by chunk -/

/-- Chunk `2 jp + b` of the result as the task addresses it when it copies an out buffer there. -/
abbrev oSl (jp : Fin k0_t1_loop.trips) (b : Fin 2) : Memref sig .scVector .hbm S768 .f32 :=
  oM.slice (Rect.unit (s := S196608) (k0_off8 L jp (BitVec.ofNat 32 b.val)) S768.size (k0_off8_inb L jp b)) (fun _ => rfl)

/-- The chunks of subcore `(c, s)` not yet started before trip `k`: chunks `j ≥ 2 k`. -/
def todoSet (c : Fin 2) (s : Fin 16) (k : ℕ) : Finset S196608.Idx :=
  Finset.univ.filter fun n => (n 0).val / 768 % 32 = 2 * s.val + c.val ∧ 2 * k ≤ (n 0).val / 768 / 32
/-- The chunks finished and waited for before trip `k`: chunks `j + 2 < 2 k`. -/
def doneSet (c : Fin 2) (s : Fin 16) (k : ℕ) : Finset S196608.Idx :=
  Finset.univ.filter fun n => (n 0).val / 768 % 32 = 2 * s.val + c.val ∧ (n 0).val / 768 / 32 + 2 < 2 * k

omit [FloatOps F] in
theorem trips1 : k0_t1_loop.trips = 4 := by decide

omit [FloatOps F] in
theorem set_oSl (jp : Fin k0_t1_loop.trips) (b : Fin 2) :
    (oSl L jp b).view.set = chunkSet (cL L) (sL L) ⟨2 * jp.val + b.val, by have := jp.isLt; have : jp.val < 4 := this; omega⟩ := by
  show ((View.whole (main_v4_scv : Ref sig .scVector)).slice (Rect.unit (s := S196608) (k0_off8 L jp (BitVec.ofNat 32 b.val)) S768.size (k0_off8_inb L jp b))).set = _
  rw [View.set_slice]
  refine Finset.map_refl.trans ?_
  ext n
  rw [Rect.mem_set_unit, k0_off8_eq]
  have hn : (n 0).val < 196608 := (n 0).isLt
  have hc : (L 0).val < 2 := (L 0).isLt
  have hs : (L 1).val < 16 := (L 1).isLt
  have hj : jp.val < 4 := jp.isLt
  have hb := b.isLt
  simp only [chunkSet, Finset.mem_filter, Finset.mem_univ, true_and, Fin.val_cast]
  constructor
  · intro h
    have h0 := h 0
    simp only [Matrix.cons_val_zero, Matrix.cons_val_fin_one] at h0
    have h1 : (1536 * (L 1).val + 768 * (L 0).val + 49152 * jp.val + 24576 * b.val) + 768 > (n 0).val := h0.2
    have h2 : 1536 * (L 1).val + 768 * (L 0).val + 49152 * jp.val + 24576 * b.val ≤ (n 0).val := h0.1
    omega
  · intro h a
    match a with
    | ⟨0, _⟩ =>
      simp only [Matrix.cons_val_zero, Matrix.cons_val_fin_one]
      refine ⟨?_, ?_⟩
      · show 1536 * (L 1).val + 768 * (L 0).val + 49152 * jp.val + 24576 * b.val ≤ (n 0).val; omega
      · show (n 0).val < 1536 * (L 1).val + 768 * (L 0).val + 49152 * jp.val + 24576 * b.val + 768; omega

omit [FloatOps F] in
theorem todoSet_zero (c : Fin 2) (s : Fin 16) : todoSet c s 0 = tileSet c s := by
  ext n; simp [todoSet, tileSet]

omit [FloatOps F] in
theorem chunk_sub_todo (c : Fin 2) (s : Fin 16) (k : ℕ) (j : Fin 8) (hj : 2 * k ≤ j.val) : chunkSet c s j ⊆ todoSet c s k := by
  intro n; simp only [chunkSet, todoSet, Finset.mem_filter, Finset.mem_univ, true_and]; intro h
  have := c.isLt; have := s.isLt; omega

omit [FloatOps F] in
theorem todo_sdiff (c : Fin 2) (s : Fin 16) (k : ℕ) (j0 j1 : Fin 8) (h0 : j0.val = 2 * k) (h1 : j1.val = 2 * k + 1) :
    (todoSet c s k \ chunkSet c s j0) \ chunkSet c s j1 = todoSet c s (k + 1) := by
  ext n; simp only [chunkSet, todoSet, Finset.mem_sdiff, Finset.mem_filter, Finset.mem_univ, true_and]
  have := c.isLt; have := s.isLt; omega

/-! ## From the buffers to the table and the specification -/

theorem accUpTo_congr (X : FVec F S64x1000000 .f32) (Uc : FVec F S64x16 .f32) {n n' : Fin 1000000} {l l' : Fin 16} (k : ℕ)
    (h1 : n.val = n'.val) (h2 : l.val = l'.val) : accUpTo X Uc n l k = accUpTo X Uc n' l' k := by
  obtain rfl := Fin.ext h1; obtain rfl := Fin.ext h2; rfl

/-- The lane vectors of the pass are, lane by lane, the specification's running accumulators. -/
theorem accVec_apply (X : FVec F S64x1000000 .f32) (Uc : FVec F S64x16 .f32) (c : Fin 2) (s : Fin 16) (j : Fin 8)
    (fin : FVec F S64x768 .f32) (hin : InOK X c s j fin) (q0 x : ℕ) (hx : x < 16) (hq : q0 + x < 768) :
    ∀ k, k ≤ 64 → accVec fin Uc q0 k (ix1 ⟨x, hx⟩) = accQ X Uc c s j ⟨q0 + x, hq⟩ ⟨x, hx⟩ k
  | 0, _ => rfl
  | k + 1, hk => by
    have hk' : k < 64 := by omega
    rw [accVec_succ, accQ_succ X Uc c s j _ _ fin hin k ⟨k, hk'⟩ rfl, ← accVec_apply X Uc c s j fin hin q0 x hx hq k (by omega)]
    show FloatOps.addf _ (FloatOps.mulf (rowX fin k q0 (ix1 ⟨x, hx⟩)) (rowU Uc k (ix1 ⟨x, hx⟩))) = _
    unfold rowX rowU
    rw [dif_pos ⟨hk', hq⟩, dif_pos hk']

/-- A finished out buffer holds, column by column, what the specification puts at the chunk's columns. -/
theorem outG_scOut (X : FVec F S64x1000000 .f32) (Uc : FVec F S64x16 .f32) (c : Fin 2) (s : Fin 16) (j : Fin 8)
    (fin : FVec F S64x768 .f32) (hin : InOK X c s j fin) (q : S768.Idx) (n : S196608.Idx)
    (hn : (n 0).val = 768 * (2 * s.val + c.val + 32 * j.val) + (q 0).val) :
    outG fin Uc q = scOut X Uc n := by
  have hq : (q 0).val < 768 := (q 0).isLt
  unfold outG scOut
  rw [accVec_apply X Uc c s j fin hin (16 * ((q 0).val / 16)) ((q 0).val % 16) (Nat.mod_lt _ (by decide)) (by omega) 64 (le_refl _)]
  unfold accQ colG
  exact accUpTo_congr X Uc 64 (by show 768 * (2 * s.val + c.val + 32 * j.val) + (16 * ((q 0).val / 16) + (q 0).val % 16) = (n 0).val; omega) (by show (q 0).val % 16 = (n 0).val % 16; omega)

/-- A chunk of the table copied whole into an input buffer is that chunk. -/
theorem InOK_slice (c : Fin 2) (s : Fin 16) (j : Fin 8) (off : Fin 2 → ℕ) (inb : ∀ a, off a + S64x768.size a ≤ S64x1000000.size a)
    (h : off = ![0, 768 * (2 * s.val + c.val + 32 * j.val)]) (X : FVec F S64x1000000 .f32) :
    InOK X c s j ((xM.slice (Rect.unit (s := S64x1000000) off S64x768.size inb) (fun _ => rfl)).view.read (Elt F) X) := by
  subst h
  intro r q
  show X _ = X _
  congr 1; funext a; apply Fin.ext
  match a with
  | ⟨0, _⟩ => show 0 + 1 * r.val = r.val; omega
  | ⟨1, _⟩ => show 768 * (2 * s.val + c.val + 32 * j.val) + 1 * q.val = colG c s j.val q.val; unfold colG; omega
/-- The same for the second input buffer: is that row as a lane vector. -/
theorem ldrowX1 (fin : FVec F S64x768 .f32) (off : Fin 2 → ℕ) (inb : ∀ a, off a + S1x16.size a ≤ S64x768.size a) (r q0 : ℕ) (h : off = ![r, q0]) :
    shapeCast S16 (View.readAt (Elt F) (b1).view (Rect.unit (s := S64x768) off S1x16.size inb).toLoadRect fin) shapeCasts_S1x16_S16 = rowX fin r q0 := by
  subst h
  funext l
  have h0 : r + 1 ≤ 64 := inb 0
  have h1 : q0 + 16 ≤ 768 := inb 1
  have hl : (l 0).val < 16 := (l 0).isLt
  unfold rowX
  rw [dif_pos ⟨by omega, by omega⟩]
  rw [shapeCast_apply _ _ l (ix2 0 ⟨(l 0).val, hl⟩) (by simp [Shape.rowMajor_val_two, Shape.rowMajor_val_one])]
  show fin _ = fin _
  congr 1; funext a; apply Fin.ext
  match a with
  | ⟨0, _⟩ => show r + 1 * 0 = r; omega
  | ⟨1, _⟩ => show q0 + 1 * (l 0).val = q0 + (l 0).val; omega

/-- After pass `P` the first `128 (P + 1)` columns of the out buffer are done. -/
theorem out_pass1 (fin : FVec F S64x768 .f32) (fu : FVec F S64x16 .f32) (fo : FVec F S768 .f32) (P : ℕ) (hP : P < 6)
    (o0 : Fin 1 → ℕ) (i0 : ∀ a, o0 a + S16.size a ≤ S768.size a) (w0 : FVec F S16 .f32) (ho0 : o0 = ![128 * P + 0]) (hw0 : w0 = accVec fin fu (128 * P + 0) 64)
    (o1 : Fin 1 → ℕ) (i1 : ∀ a, o1 a + S16.size a ≤ S768.size a) (w1 : FVec F S16 .f32) (ho1 : o1 = ![128 * P + 16]) (hw1 : w1 = accVec fin fu (128 * P + 16) 64)
    (o2 : Fin 1 → ℕ) (i2 : ∀ a, o2 a + S16.size a ≤ S768.size a) (w2 : FVec F S16 .f32) (ho2 : o2 = ![128 * P + 32]) (hw2 : w2 = accVec fin fu (128 * P + 32) 64)
    (o3 : Fin 1 → ℕ) (i3 : ∀ a, o3 a + S16.size a ≤ S768.size a) (w3 : FVec F S16 .f32) (ho3 : o3 = ![128 * P + 48]) (hw3 : w3 = accVec fin fu (128 * P + 48) 64)
    (o4 : Fin 1 → ℕ) (i4 : ∀ a, o4 a + S16.size a ≤ S768.size a) (w4 : FVec F S16 .f32) (ho4 : o4 = ![128 * P + 64]) (hw4 : w4 = accVec fin fu (128 * P + 64) 64)
    (o5 : Fin 1 → ℕ) (i5 : ∀ a, o5 a + S16.size a ≤ S768.size a) (w5 : FVec F S16 .f32) (ho5 : o5 = ![128 * P + 80]) (hw5 : w5 = accVec fin fu (128 * P + 80) 64)
    (o6 : Fin 1 → ℕ) (i6 : ∀ a, o6 a + S16.size a ≤ S768.size a) (w6 : FVec F S16 .f32) (ho6 : o6 = ![128 * P + 96]) (hw6 : w6 = accVec fin fu (128 * P + 96) 64)
    (o7 : Fin 1 → ℕ) (i7 : ∀ a, o7 a + S16.size a ≤ S768.size a) (w7 : FVec F S16 .f32) (ho7 : o7 = ![128 * P + 112]) (hw7 : w7 = accVec fin fu (128 * P + 112) 64)
    (hfo : ∀ q : S768.Idx, (q 0).val < 128 * P → fo q = outG fin fu q) :
    ∀ q : S768.Idx, (q 0).val < 128 * (P + 1) →
      (b3).view.read (Elt F) ((b3).view.writes (Elt F) fo [⟨Rect.unit (s := S768) o7 S16.size i7, w7⟩, ⟨Rect.unit (s := S768) o6 S16.size i6, w6⟩, ⟨Rect.unit (s := S768) o5 S16.size i5, w5⟩, ⟨Rect.unit (s := S768) o4 S16.size i4, w4⟩, ⟨Rect.unit (s := S768) o3 S16.size i3, w3⟩, ⟨Rect.unit (s := S768) o2 S16.size i2, w2⟩, ⟨Rect.unit (s := S768) o1 S16.size i1, w1⟩, ⟨Rect.unit (s := S768) o0 S16.size i0, w0⟩]) q = outG fin fu q := by
  subst ho0 hw0 ho1 hw1 ho2 hw2 ho3 hw3 ho4 hw4 ho5 hw5 ho6 hw6 ho7 hw7
  intro q hq
  refine writes_cons_step _ _ _ _ _ _ q (fun x => (congrArg (accVec fin fu (128 * P + 112) 64) (ValueIdx.eq_ix1 x)).trans (outG_at fin fu _ (128 * P + 112) (x 0).val (x 0).isLt (by omega) (by show (128 * P + 112) + 1 * (x 0).val = 128 * P + 112 + (x 0).val; omega)).symm) (fun h7 => ?_)
  rw [mem_unit16] at h7; simp only [Matrix.cons_val_zero, Matrix.cons_val_fin_one] at h7
  refine writes_cons_step _ _ _ _ _ _ q (fun x => (congrArg (accVec fin fu (128 * P + 96) 64) (ValueIdx.eq_ix1 x)).trans (outG_at fin fu _ (128 * P + 96) (x 0).val (x 0).isLt (by omega) (by show (128 * P + 96) + 1 * (x 0).val = 128 * P + 96 + (x 0).val; omega)).symm) (fun h6 => ?_)
  rw [mem_unit16] at h6; simp only [Matrix.cons_val_zero, Matrix.cons_val_fin_one] at h6
  refine writes_cons_step _ _ _ _ _ _ q (fun x => (congrArg (accVec fin fu (128 * P + 80) 64) (ValueIdx.eq_ix1 x)).trans (outG_at fin fu _ (128 * P + 80) (x 0).val (x 0).isLt (by omega) (by show (128 * P + 80) + 1 * (x 0).val = 128 * P + 80 + (x 0).val; omega)).symm) (fun h5 => ?_)
  rw [mem_unit16] at h5; simp only [Matrix.cons_val_zero, Matrix.cons_val_fin_one] at h5
  refine writes_cons_step _ _ _ _ _ _ q (fun x => (congrArg (accVec fin fu (128 * P + 64) 64) (ValueIdx.eq_ix1 x)).trans (outG_at fin fu _ (128 * P + 64) (x 0).val (x 0).isLt (by omega) (by show (128 * P + 64) + 1 * (x 0).val = 128 * P + 64 + (x 0).val; omega)).symm) (fun h4 => ?_)
  rw [mem_unit16] at h4; simp only [Matrix.cons_val_zero, Matrix.cons_val_fin_one] at h4
  refine writes_cons_step _ _ _ _ _ _ q (fun x => (congrArg (accVec fin fu (128 * P + 48) 64) (ValueIdx.eq_ix1 x)).trans (outG_at fin fu _ (128 * P + 48) (x 0).val (x 0).isLt (by omega) (by show (128 * P + 48) + 1 * (x 0).val = 128 * P + 48 + (x 0).val; omega)).symm) (fun h3 => ?_)
  rw [mem_unit16] at h3; simp only [Matrix.cons_val_zero, Matrix.cons_val_fin_one] at h3
  refine writes_cons_step _ _ _ _ _ _ q (fun x => (congrArg (accVec fin fu (128 * P + 32) 64) (ValueIdx.eq_ix1 x)).trans (outG_at fin fu _ (128 * P + 32) (x 0).val (x 0).isLt (by omega) (by show (128 * P + 32) + 1 * (x 0).val = 128 * P + 32 + (x 0).val; omega)).symm) (fun h2 => ?_)
  rw [mem_unit16] at h2; simp only [Matrix.cons_val_zero, Matrix.cons_val_fin_one] at h2
  refine writes_cons_step _ _ _ _ _ _ q (fun x => (congrArg (accVec fin fu (128 * P + 16) 64) (ValueIdx.eq_ix1 x)).trans (outG_at fin fu _ (128 * P + 16) (x 0).val (x 0).isLt (by omega) (by show (128 * P + 16) + 1 * (x 0).val = 128 * P + 16 + (x 0).val; omega)).symm) (fun h1 => ?_)
  rw [mem_unit16] at h1; simp only [Matrix.cons_val_zero, Matrix.cons_val_fin_one] at h1
  refine writes_cons_step _ _ _ _ _ _ q (fun x => (congrArg (accVec fin fu (128 * P + 0) 64) (ValueIdx.eq_ix1 x)).trans (outG_at fin fu _ (128 * P + 0) (x 0).val (x 0).isLt (by omega) (by show (128 * P + 0) + 1 * (x 0).val = 128 * P + 0 + (x 0).val; omega)).symm) (fun h0 => ?_)
  rw [mem_unit16] at h0; simp only [Matrix.cons_val_zero, Matrix.cons_val_fin_one] at h0
  exact hfo q (by omega)

/-- What the inner loop of a pass carries and reads: the eight accumulators after the first `8 k` rows, the input
    buffer and the user buffer. -/
def I31 (fin : FVec F S64x768 .f32) (fu : FVec F S64x16 .f32) (p : Fin k0_t4_loop.trips) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(⌜acc = (accVec fin fu (128 * p.val + 0) (8 * k), accVec fin fu (128 * p.val + 16) (8 * k), accVec fin fu (128 * p.val + 32) (8 * k), accVec fin fu (128 * p.val + 48) (8 * k), accVec fin fu (128 * p.val + 64) (8 * k), accVec fin fu (128 * p.val + 80) (8 * k), accVec fin fu (128 * p.val + 96) (8 * k), accVec fin fu (128 * p.val + 112) (8 * k))⌝
    ∗ ((b1).view.loc (V d (cV L) (jV L)) ↦{fullShare} fin) ∗ ((b4).view.loc (V d (cV L) (jV L)) ↦{fullShare} fu))

set_option maxHeartbeats 4000000 in
set_option maxRecDepth 65536 in
/-- One block of eight table rows: each accumulator takes its eight steps acc + x_r · u_r. -/
theorem t3_trip1 (fin : FVec F S64x768 .f32) (fu : FVec F S64x16 .f32) (p : Fin k0_t4_loop.trips) (v60 : BitVec 32)
    (k : Fin k0_t5_loop.trips) (acc : FVec F S16 .f32 × FVec F S16 .f32 × FVec F S16 .f32 × FVec F S16 .f32 × FVec F S16 .f32 × FVec F S16 .f32 × FVec F S16 .f32 × FVec F S16 .f32) :
    I31 d L fin fu p k.val acc
      ⊢ wp frame (wpE (defs₀ (F := F)) 𝒱₀ (V d (cV L) (jV L)) none) Set.univ
          (k0_t5_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 0#32 1#32 p v60 k acc) (I31 d L fin fu p (k.val + 1)) := by
  have e0_0 : k0_off12 p k 0#32 0#32 = ![8 * k.val + 0, 128 * p.val + 0] := k0_off12_eq p k ⟨0, by decide⟩ ⟨0, by decide⟩
  have e0_1 : k0_off12 p k 0#32 16#32 = ![8 * k.val + 0, 128 * p.val + 16] := k0_off12_eq p k ⟨0, by decide⟩ ⟨1, by decide⟩
  have e0_2 : k0_off12 p k 0#32 32#32 = ![8 * k.val + 0, 128 * p.val + 32] := k0_off12_eq p k ⟨0, by decide⟩ ⟨2, by decide⟩
  have e0_3 : k0_off12 p k 0#32 48#32 = ![8 * k.val + 0, 128 * p.val + 48] := k0_off12_eq p k ⟨0, by decide⟩ ⟨3, by decide⟩
  have e0_4 : k0_off12 p k 0#32 64#32 = ![8 * k.val + 0, 128 * p.val + 64] := k0_off12_eq p k ⟨0, by decide⟩ ⟨4, by decide⟩
  have e0_5 : k0_off12 p k 0#32 80#32 = ![8 * k.val + 0, 128 * p.val + 80] := k0_off12_eq p k ⟨0, by decide⟩ ⟨5, by decide⟩
  have e0_6 : k0_off12 p k 0#32 96#32 = ![8 * k.val + 0, 128 * p.val + 96] := k0_off12_eq p k ⟨0, by decide⟩ ⟨6, by decide⟩
  have e0_7 : k0_off12 p k 0#32 112#32 = ![8 * k.val + 0, 128 * p.val + 112] := k0_off12_eq p k ⟨0, by decide⟩ ⟨7, by decide⟩
  have e1_0 : k0_off12 p k 1#32 0#32 = ![8 * k.val + 1, 128 * p.val + 0] := k0_off12_eq p k ⟨1, by decide⟩ ⟨0, by decide⟩
  have e1_1 : k0_off12 p k 1#32 16#32 = ![8 * k.val + 1, 128 * p.val + 16] := k0_off12_eq p k ⟨1, by decide⟩ ⟨1, by decide⟩
  have e1_2 : k0_off12 p k 1#32 32#32 = ![8 * k.val + 1, 128 * p.val + 32] := k0_off12_eq p k ⟨1, by decide⟩ ⟨2, by decide⟩
  have e1_3 : k0_off12 p k 1#32 48#32 = ![8 * k.val + 1, 128 * p.val + 48] := k0_off12_eq p k ⟨1, by decide⟩ ⟨3, by decide⟩
  have e1_4 : k0_off12 p k 1#32 64#32 = ![8 * k.val + 1, 128 * p.val + 64] := k0_off12_eq p k ⟨1, by decide⟩ ⟨4, by decide⟩
  have e1_5 : k0_off12 p k 1#32 80#32 = ![8 * k.val + 1, 128 * p.val + 80] := k0_off12_eq p k ⟨1, by decide⟩ ⟨5, by decide⟩
  have e1_6 : k0_off12 p k 1#32 96#32 = ![8 * k.val + 1, 128 * p.val + 96] := k0_off12_eq p k ⟨1, by decide⟩ ⟨6, by decide⟩
  have e1_7 : k0_off12 p k 1#32 112#32 = ![8 * k.val + 1, 128 * p.val + 112] := k0_off12_eq p k ⟨1, by decide⟩ ⟨7, by decide⟩
  have e2_0 : k0_off12 p k 2#32 0#32 = ![8 * k.val + 2, 128 * p.val + 0] := k0_off12_eq p k ⟨2, by decide⟩ ⟨0, by decide⟩
  have e2_1 : k0_off12 p k 2#32 16#32 = ![8 * k.val + 2, 128 * p.val + 16] := k0_off12_eq p k ⟨2, by decide⟩ ⟨1, by decide⟩
  have e2_2 : k0_off12 p k 2#32 32#32 = ![8 * k.val + 2, 128 * p.val + 32] := k0_off12_eq p k ⟨2, by decide⟩ ⟨2, by decide⟩
  have e2_3 : k0_off12 p k 2#32 48#32 = ![8 * k.val + 2, 128 * p.val + 48] := k0_off12_eq p k ⟨2, by decide⟩ ⟨3, by decide⟩
  have e2_4 : k0_off12 p k 2#32 64#32 = ![8 * k.val + 2, 128 * p.val + 64] := k0_off12_eq p k ⟨2, by decide⟩ ⟨4, by decide⟩
  have e2_5 : k0_off12 p k 2#32 80#32 = ![8 * k.val + 2, 128 * p.val + 80] := k0_off12_eq p k ⟨2, by decide⟩ ⟨5, by decide⟩
  have e2_6 : k0_off12 p k 2#32 96#32 = ![8 * k.val + 2, 128 * p.val + 96] := k0_off12_eq p k ⟨2, by decide⟩ ⟨6, by decide⟩
  have e2_7 : k0_off12 p k 2#32 112#32 = ![8 * k.val + 2, 128 * p.val + 112] := k0_off12_eq p k ⟨2, by decide⟩ ⟨7, by decide⟩
  have e3_0 : k0_off12 p k 3#32 0#32 = ![8 * k.val + 3, 128 * p.val + 0] := k0_off12_eq p k ⟨3, by decide⟩ ⟨0, by decide⟩
  have e3_1 : k0_off12 p k 3#32 16#32 = ![8 * k.val + 3, 128 * p.val + 16] := k0_off12_eq p k ⟨3, by decide⟩ ⟨1, by decide⟩
  have e3_2 : k0_off12 p k 3#32 32#32 = ![8 * k.val + 3, 128 * p.val + 32] := k0_off12_eq p k ⟨3, by decide⟩ ⟨2, by decide⟩
  have e3_3 : k0_off12 p k 3#32 48#32 = ![8 * k.val + 3, 128 * p.val + 48] := k0_off12_eq p k ⟨3, by decide⟩ ⟨3, by decide⟩
  have e3_4 : k0_off12 p k 3#32 64#32 = ![8 * k.val + 3, 128 * p.val + 64] := k0_off12_eq p k ⟨3, by decide⟩ ⟨4, by decide⟩
  have e3_5 : k0_off12 p k 3#32 80#32 = ![8 * k.val + 3, 128 * p.val + 80] := k0_off12_eq p k ⟨3, by decide⟩ ⟨5, by decide⟩
  have e3_6 : k0_off12 p k 3#32 96#32 = ![8 * k.val + 3, 128 * p.val + 96] := k0_off12_eq p k ⟨3, by decide⟩ ⟨6, by decide⟩
  have e3_7 : k0_off12 p k 3#32 112#32 = ![8 * k.val + 3, 128 * p.val + 112] := k0_off12_eq p k ⟨3, by decide⟩ ⟨7, by decide⟩
  have e4_0 : k0_off12 p k 4#32 0#32 = ![8 * k.val + 4, 128 * p.val + 0] := k0_off12_eq p k ⟨4, by decide⟩ ⟨0, by decide⟩
  have e4_1 : k0_off12 p k 4#32 16#32 = ![8 * k.val + 4, 128 * p.val + 16] := k0_off12_eq p k ⟨4, by decide⟩ ⟨1, by decide⟩
  have e4_2 : k0_off12 p k 4#32 32#32 = ![8 * k.val + 4, 128 * p.val + 32] := k0_off12_eq p k ⟨4, by decide⟩ ⟨2, by decide⟩
  have e4_3 : k0_off12 p k 4#32 48#32 = ![8 * k.val + 4, 128 * p.val + 48] := k0_off12_eq p k ⟨4, by decide⟩ ⟨3, by decide⟩
  have e4_4 : k0_off12 p k 4#32 64#32 = ![8 * k.val + 4, 128 * p.val + 64] := k0_off12_eq p k ⟨4, by decide⟩ ⟨4, by decide⟩
  have e4_5 : k0_off12 p k 4#32 80#32 = ![8 * k.val + 4, 128 * p.val + 80] := k0_off12_eq p k ⟨4, by decide⟩ ⟨5, by decide⟩
  have e4_6 : k0_off12 p k 4#32 96#32 = ![8 * k.val + 4, 128 * p.val + 96] := k0_off12_eq p k ⟨4, by decide⟩ ⟨6, by decide⟩
  have e4_7 : k0_off12 p k 4#32 112#32 = ![8 * k.val + 4, 128 * p.val + 112] := k0_off12_eq p k ⟨4, by decide⟩ ⟨7, by decide⟩
  have e5_0 : k0_off12 p k 5#32 0#32 = ![8 * k.val + 5, 128 * p.val + 0] := k0_off12_eq p k ⟨5, by decide⟩ ⟨0, by decide⟩
  have e5_1 : k0_off12 p k 5#32 16#32 = ![8 * k.val + 5, 128 * p.val + 16] := k0_off12_eq p k ⟨5, by decide⟩ ⟨1, by decide⟩
  have e5_2 : k0_off12 p k 5#32 32#32 = ![8 * k.val + 5, 128 * p.val + 32] := k0_off12_eq p k ⟨5, by decide⟩ ⟨2, by decide⟩
  have e5_3 : k0_off12 p k 5#32 48#32 = ![8 * k.val + 5, 128 * p.val + 48] := k0_off12_eq p k ⟨5, by decide⟩ ⟨3, by decide⟩
  have e5_4 : k0_off12 p k 5#32 64#32 = ![8 * k.val + 5, 128 * p.val + 64] := k0_off12_eq p k ⟨5, by decide⟩ ⟨4, by decide⟩
  have e5_5 : k0_off12 p k 5#32 80#32 = ![8 * k.val + 5, 128 * p.val + 80] := k0_off12_eq p k ⟨5, by decide⟩ ⟨5, by decide⟩
  have e5_6 : k0_off12 p k 5#32 96#32 = ![8 * k.val + 5, 128 * p.val + 96] := k0_off12_eq p k ⟨5, by decide⟩ ⟨6, by decide⟩
  have e5_7 : k0_off12 p k 5#32 112#32 = ![8 * k.val + 5, 128 * p.val + 112] := k0_off12_eq p k ⟨5, by decide⟩ ⟨7, by decide⟩
  have e6_0 : k0_off12 p k 6#32 0#32 = ![8 * k.val + 6, 128 * p.val + 0] := k0_off12_eq p k ⟨6, by decide⟩ ⟨0, by decide⟩
  have e6_1 : k0_off12 p k 6#32 16#32 = ![8 * k.val + 6, 128 * p.val + 16] := k0_off12_eq p k ⟨6, by decide⟩ ⟨1, by decide⟩
  have e6_2 : k0_off12 p k 6#32 32#32 = ![8 * k.val + 6, 128 * p.val + 32] := k0_off12_eq p k ⟨6, by decide⟩ ⟨2, by decide⟩
  have e6_3 : k0_off12 p k 6#32 48#32 = ![8 * k.val + 6, 128 * p.val + 48] := k0_off12_eq p k ⟨6, by decide⟩ ⟨3, by decide⟩
  have e6_4 : k0_off12 p k 6#32 64#32 = ![8 * k.val + 6, 128 * p.val + 64] := k0_off12_eq p k ⟨6, by decide⟩ ⟨4, by decide⟩
  have e6_5 : k0_off12 p k 6#32 80#32 = ![8 * k.val + 6, 128 * p.val + 80] := k0_off12_eq p k ⟨6, by decide⟩ ⟨5, by decide⟩
  have e6_6 : k0_off12 p k 6#32 96#32 = ![8 * k.val + 6, 128 * p.val + 96] := k0_off12_eq p k ⟨6, by decide⟩ ⟨6, by decide⟩
  have e6_7 : k0_off12 p k 6#32 112#32 = ![8 * k.val + 6, 128 * p.val + 112] := k0_off12_eq p k ⟨6, by decide⟩ ⟨7, by decide⟩
  have e7_0 : k0_off12 p k 7#32 0#32 = ![8 * k.val + 7, 128 * p.val + 0] := k0_off12_eq p k ⟨7, by decide⟩ ⟨0, by decide⟩
  have e7_1 : k0_off12 p k 7#32 16#32 = ![8 * k.val + 7, 128 * p.val + 16] := k0_off12_eq p k ⟨7, by decide⟩ ⟨1, by decide⟩
  have e7_2 : k0_off12 p k 7#32 32#32 = ![8 * k.val + 7, 128 * p.val + 32] := k0_off12_eq p k ⟨7, by decide⟩ ⟨2, by decide⟩
  have e7_3 : k0_off12 p k 7#32 48#32 = ![8 * k.val + 7, 128 * p.val + 48] := k0_off12_eq p k ⟨7, by decide⟩ ⟨3, by decide⟩
  have e7_4 : k0_off12 p k 7#32 64#32 = ![8 * k.val + 7, 128 * p.val + 64] := k0_off12_eq p k ⟨7, by decide⟩ ⟨4, by decide⟩
  have e7_5 : k0_off12 p k 7#32 80#32 = ![8 * k.val + 7, 128 * p.val + 80] := k0_off12_eq p k ⟨7, by decide⟩ ⟨5, by decide⟩
  have e7_6 : k0_off12 p k 7#32 96#32 = ![8 * k.val + 7, 128 * p.val + 96] := k0_off12_eq p k ⟨7, by decide⟩ ⟨6, by decide⟩
  have e7_7 : k0_off12 p k 7#32 112#32 = ![8 * k.val + 7, 128 * p.val + 112] := k0_off12_eq p k ⟨7, by decide⟩ ⟨7, by decide⟩
  have u0 : k0_off11 k 0#32 = ![8 * k.val + 0, 0] := k0_off11_eq k ⟨0, by decide⟩
  have u1 : k0_off11 k 1#32 = ![8 * k.val + 1, 0] := k0_off11_eq k ⟨1, by decide⟩
  have u2 : k0_off11 k 2#32 = ![8 * k.val + 2, 0] := k0_off11_eq k ⟨2, by decide⟩
  have u3 : k0_off11 k 3#32 = ![8 * k.val + 3, 0] := k0_off11_eq k ⟨3, by decide⟩
  have u4 : k0_off11 k 4#32 = ![8 * k.val + 4, 0] := k0_off11_eq k ⟨4, by decide⟩
  have u5 : k0_off11 k 5#32 = ![8 * k.val + 5, 0] := k0_off11_eq k ⟨5, by decide⟩
  have u6 : k0_off11 k 6#32 = ![8 * k.val + 6, 0] := k0_off11_eq k ⟨6, by decide⟩
  have u7 : k0_off11 k 7#32 = ![8 * k.val + 7, 0] := k0_off11_eq k ⟨7, by decide⟩
  unfold I31 k0_t5_body
  iintro ⟨%hacc, H0, H4⟩
  subst hacc
  sl_exec
  sl_step
  isplitr
  · ipureintro
    sl_unfold_run_names
    simp only [k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
    simp only [ldrowX1 fin _ _ _ _ e0_0, ldrowX1 fin _ _ _ _ e0_1, ldrowX1 fin _ _ _ _ e0_2, ldrowX1 fin _ _ _ _ e0_3, ldrowX1 fin _ _ _ _ e0_4, ldrowX1 fin _ _ _ _ e0_5, ldrowX1 fin _ _ _ _ e0_6, ldrowX1 fin _ _ _ _ e0_7, ldrowX1 fin _ _ _ _ e1_0, ldrowX1 fin _ _ _ _ e1_1, ldrowX1 fin _ _ _ _ e1_2, ldrowX1 fin _ _ _ _ e1_3, ldrowX1 fin _ _ _ _ e1_4, ldrowX1 fin _ _ _ _ e1_5, ldrowX1 fin _ _ _ _ e1_6, ldrowX1 fin _ _ _ _ e1_7, ldrowX1 fin _ _ _ _ e2_0, ldrowX1 fin _ _ _ _ e2_1, ldrowX1 fin _ _ _ _ e2_2, ldrowX1 fin _ _ _ _ e2_3, ldrowX1 fin _ _ _ _ e2_4, ldrowX1 fin _ _ _ _ e2_5, ldrowX1 fin _ _ _ _ e2_6, ldrowX1 fin _ _ _ _ e2_7, ldrowX1 fin _ _ _ _ e3_0, ldrowX1 fin _ _ _ _ e3_1, ldrowX1 fin _ _ _ _ e3_2, ldrowX1 fin _ _ _ _ e3_3, ldrowX1 fin _ _ _ _ e3_4, ldrowX1 fin _ _ _ _ e3_5, ldrowX1 fin _ _ _ _ e3_6, ldrowX1 fin _ _ _ _ e3_7, ldrowX1 fin _ _ _ _ e4_0, ldrowX1 fin _ _ _ _ e4_1, ldrowX1 fin _ _ _ _ e4_2, ldrowX1 fin _ _ _ _ e4_3, ldrowX1 fin _ _ _ _ e4_4, ldrowX1 fin _ _ _ _ e4_5, ldrowX1 fin _ _ _ _ e4_6, ldrowX1 fin _ _ _ _ e4_7, ldrowX1 fin _ _ _ _ e5_0, ldrowX1 fin _ _ _ _ e5_1, ldrowX1 fin _ _ _ _ e5_2, ldrowX1 fin _ _ _ _ e5_3, ldrowX1 fin _ _ _ _ e5_4, ldrowX1 fin _ _ _ _ e5_5, ldrowX1 fin _ _ _ _ e5_6, ldrowX1 fin _ _ _ _ e5_7, ldrowX1 fin _ _ _ _ e6_0, ldrowX1 fin _ _ _ _ e6_1, ldrowX1 fin _ _ _ _ e6_2, ldrowX1 fin _ _ _ _ e6_3, ldrowX1 fin _ _ _ _ e6_4, ldrowX1 fin _ _ _ _ e6_5, ldrowX1 fin _ _ _ _ e6_6, ldrowX1 fin _ _ _ _ e6_7, ldrowX1 fin _ _ _ _ e7_0, ldrowX1 fin _ _ _ _ e7_1, ldrowX1 fin _ _ _ _ e7_2, ldrowX1 fin _ _ _ _ e7_3, ldrowX1 fin _ _ _ _ e7_4, ldrowX1 fin _ _ _ _ e7_5, ldrowX1 fin _ _ _ _ e7_6, ldrowX1 fin _ _ _ _ e7_7,
      ldrowU fu _ _ _ u0, ldrowU fu _ _ _ u1, ldrowU fu _ _ _ u2, ldrowU fu _ _ _ u3, ldrowU fu _ _ _ u4, ldrowU fu _ _ _ u5, ldrowU fu _ _ _ u6, ldrowU fu _ _ _ u7]
    rw [show 8 * (k.val + 1) = 8 * k.val + 7 + 1 from by omega]
    simp only [accVec_succ]
    rfl
  isplitl [H0] <;> iassumption

/-- Before pass `k`: the first `128 k` columns of the out buffer are done. -/
def I21 (fin : FVec F S64x768 .f32) (fu : FVec F S64x16 .f32) (k : ℕ) (_ : BitVec 32) : sProp 𝕄 :=
  iprop(((b1).view.loc (V d (cV L) (jV L)) ↦{fullShare} fin) ∗ ((b4).view.loc (V d (cV L) (jV L)) ↦{fullShare} fu)
    ∗ ∃ fo : FVec F S768 .f32, ((b3).view.loc (V d (cV L) (jV L)) ↦{fullShare} fo) ∗ ⌜∀ q : S768.Idx, (q 0).val < 128 * k → fo q = outG fin fu q⌝)

set_option maxHeartbeats 4000000 in
set_option maxRecDepth 65536 in
/-- One pass: the eight accumulators run over all 64 rows from zero and are stored at columns 128 p + 16 g. -/
theorem t2_trip1 (fin : FVec F S64x768 .f32) (fu : FVec F S64x16 .f32)
    (p : Fin k0_t4_loop.trips) (a : BitVec 32) :
    I21 d L fin fu p.val a
      ⊢ wp frame (wpE (defs₀ (F := F)) 𝒱₀ (V d (cV L) (jV L)) none) Set.univ
          (k0_t4_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0  p a) (I21 d L fin fu (p.val + 1)) := by
  have s0 : k0_off13 p 0#32 = ![128 * p.val + 0] := k0_off13_eq p ⟨0, by decide⟩
  have s1 : k0_off13 p 16#32 = ![128 * p.val + 16] := k0_off13_eq p ⟨1, by decide⟩
  have s2 : k0_off13 p 32#32 = ![128 * p.val + 32] := k0_off13_eq p ⟨2, by decide⟩
  have s3 : k0_off13 p 48#32 = ![128 * p.val + 48] := k0_off13_eq p ⟨3, by decide⟩
  have s4 : k0_off13 p 64#32 = ![128 * p.val + 64] := k0_off13_eq p ⟨4, by decide⟩
  have s5 : k0_off13 p 80#32 = ![128 * p.val + 80] := k0_off13_eq p ⟨5, by decide⟩
  have s6 : k0_off13 p 96#32 = ![128 * p.val + 96] := k0_off13_eq p ⟨6, by decide⟩
  have s7 : k0_off13 p 112#32 = ![128 * p.val + 112] := k0_off13_eq p ⟨7, by decide⟩
  unfold I21 k0_t4_body
  iintro ⟨H0, H4, %fo, H2, %hfo⟩
  sl_exec
  sl_for (I31 d L fin fu p) $$ [H0 H4]
  case region => exact fun k acc => t3_trip1 d L fin fu p _ k acc
  · unfold I31
    isplitr
    · ipureintro; rfl
    isplitl [H0] <;> iassumption
  iintro %acc HI
  unfold I31
  icases HI with ⟨%hacc, H0, H4⟩
  subst hacc
  sl_exec
  sl_step
  isplitl [H0]; · iexact H0
  isplitl [H4]; · iexact H4
  iexists _
  isplitl [H2]; · iexact H2
  ipureintro
  exact out_pass1 fin fu fo p.val p.isLt _ _ _ s0 rfl _ _ _ s1 rfl _ _ _ s2 rfl _ _ _ s3 rfl _ _ _ s4 rfl _ _ _ s5 rfl _ _ _ s6 rfl _ _ _ s7 rfl hfo

/-! ## The loop over pairs of chunks: what is in flight between trips -/

/-- Chunk `2 jp + b` of the table as the task slices it. -/
abbrev iSl (jp : Fin k0_t1_loop.trips) (b : Fin 2) : Memref sig .scVector .hbm S64x768 .f32 :=
  xM.slice (Rect.unit (s := S64x1000000) (k0_off3 L jp (BitVec.ofNat 32 b.val)) S64x768.size (k0_off3_inb L jp b)) (fun _ => rfl)

/-- The two read tokens of the subcore's share of the table, one per input semaphore. -/
abbrev tok (i : Fin 2) : PosShare TreeShare := Transfers.shareTok (qTile (cL L) (sL L)) 2 i

omit [FloatOps F] in
theorem lt_trips1 {k : ℕ} (h : k < 4) : k < k0_t1_loop.trips := trips1 ▸ h

/-- Chunk `2 k` on its way into the first input buffer. -/
def InFlSt (k : ℕ) (h : k < 4) : sProp 𝕄 :=
  iprop(∃ f0 : Buf (Elt F) ((b0).view.loc (V d (cV L) (jV L))),
    Transfers.Flight countersEmb (V d (cV L) (jV L)) (SemLoc.dma cc0_scratch5.sem) (default : HIx 1) 1572864
      iprop(((b0).view.loc (V d (cV L) (jV L)) ↦{fullShare} View.write (Elt F) (b0).view f0 ((iSl L ⟨k, lt_trips1 h⟩ 0).view.read (Elt F) (Xt m d)) Finset.univ)
        ∗ ((xM).view.loc (V d (cV L) (jV L)) ↦[(iSl L ⟨k, lt_trips1 h⟩ 0).view.set]{tok L 0} Xt m d))
    ∗ ((xM).view.loc (V d (cV L) (jV L)) ↦[Finset.univ \ (iSl L ⟨k, lt_trips1 h⟩ 0).view.set]{tok L 0} Xt m d))
/-- The first input buffer idle. -/
def InIdle : sProp 𝕄 :=
  iprop(semVal (cell0 d (cV L) (jV L)) 0 ∗ (∃ f0, (b0).view.loc (V d (cV L) (jV L)) ↦{fullShare} f0) ∗ ((xM).view.loc (V d (cV L) (jV L)) ↦{tok L 0} Xt m d))
/-- The first input buffer before trip `k`: chunk `2 k` is on its way into it, or (after the last trip) it is idle. -/
def InSt (k : ℕ) : sProp 𝕄 := if h : k < 4 then InFlSt m d L k h else InIdle m d L
theorem InSt_lt {k : ℕ} (h : k < 4) : InSt m d L k = InFlSt m d L k h := dif_pos h
theorem InSt_ge {k : ℕ} (h : ¬ k < 4) : InSt m d L k = InIdle m d L := dif_neg h

/-- An out buffer whose copy to chunk `2 jp + b` of the result is on its way: it delivers the chunk at the
    specification and the buffer back. -/
def OutFl (bo : Memref sig .scVector .vmem S768 .f32) (sm : DmaSems sig S_) (jp : Fin k0_t1_loop.trips) (b : Fin 2) : sProp 𝕄 :=
  iprop(∃ fo2 : Buf (Elt F) ((bo).view.loc (V d (cV L) (jV L))),
    Transfers.Flight countersEmb (V d (cV L) (jV L)) (SemLoc.dma sm.sem) (default : HIx 1) 24576
      iprop(((oSl L jp b).view.loc (V d (cV L) (jV L)) ↦[(oSl L jp b).view.set]{fullShare} scOut (Xt m d) (Ubc m d))
        ∗ ((bo).view.loc (V d (cV L) (jV L)) ↦[(bo).view.set]{fullShare} fo2))
    ∗ ((bo).view.loc (V d (cV L) (jV L)) ↦[Finset.univ \ (bo).view.set]{fullShare} fo2))

/-- The two out buffers copying out the chunks of trip `k - 1`. -/
def OutFlSt (k : ℕ) (h : 0 < k ∧ k ≤ 4) : sProp 𝕄 :=
  iprop(OutFl m d L b2 cc0_scratch7 ⟨k - 1, lt_trips1 (by omega)⟩ 0 ∗ OutFl m d L b3 cc0_scratch8 ⟨k - 1, lt_trips1 (by omega)⟩ 1)
/-- The two out buffers idle. -/
def OutIdle : sProp 𝕄 :=
  iprop(semVal (cell2 d (cV L) (jV L)) 0 ∗ (∃ f, (b2).view.loc (V d (cV L) (jV L)) ↦{fullShare} f) ∗ semVal (cell3 d (cV L) (jV L)) 0 ∗ (∃ f, (b3).view.loc (V d (cV L) (jV L)) ↦{fullShare} f))
/-- The two out buffers before trip `k`: idle before the first trip, else copying out the previous trip's chunks. -/
def OutSt (k : ℕ) : sProp 𝕄 := if h : 0 < k ∧ k ≤ 4 then OutFlSt m d L k h else OutIdle d L
theorem OutSt_pos {k : ℕ} (h : 0 < k ∧ k ≤ 4) : OutSt m d L k = OutFlSt m d L k h := dif_pos h
theorem OutSt_neg {k : ℕ} (h : ¬ (0 < k ∧ k ≤ 4)) : OutSt m d L k = OutIdle d L := dif_neg h

/-- The subcore's part of the result before trip `k`: the chunks waited for at the specification, the chunks not yet
    started at some contents. -/
def OmSt (k : ℕ) : sProp 𝕄 :=
  iprop((v4Loc d ↦[doneSet (cL L) (sL L) k]{fullShare} scOut (Xt m d) (Ubc m d)) ∗ ∃ f, v4Loc d ↦[todoSet (cL L) (sL L) k]{fullShare} f)

/-- Before trip `k` of the loop over pairs of chunks. -/
def I1 (O : CellTallies nD τ sig (HIx 1)) (W : Waits sig (HIx 1)) (k : ℕ) (_ : BitVec 32) : sProp 𝕄 :=
  iprop(Transfers.MayWaits (V d (cV L) (jV L)) (default : HIx 1) O ∗ InSt m d L k
    ∗ (semVal (cell1 d (cV L) (jV L)) 0 ∗ (∃ f1, (b1).view.loc (V d (cV L) (jV L)) ↦{fullShare} f1) ∗ ((xM).view.loc (V d (cV L) (jV L)) ↦{tok L 1} Xt m d))
    ∗ OutSt m d L k ∗ ((b4).view.loc (V d (cV L) (jV L)) ↦{fullShare} Ubc m d) ∗ OmSt m d L k
    ∗ ∃ W', ⌜∀ p ∈ W', p ∈ W ∨ p.2 = none⌝ ∗ owes (V d (cV L) (jV L)) O W')

omit [FloatOps F] in
theorem cond_all (k : Fin k0_t1_loop.trips) : k0_cond1 k = 1#1 ∧ (k0_cond2 k = 1#1 ↔ 0 < k.val) ∧ (k0_cond3 k = 1#1 ↔ k.val < 3) ∧ (k0_cond4 k = 1#1 ↔ 0 < k.val) := by
  revert k; decide

omit [FloatOps F] in
theorem sub_todo0 (k : Fin k0_t1_loop.trips) : (oSl L k 0).view.set ⊆ todoSet (cL L) (sL L) k.val := by
  rw [set_oSl]; exact chunk_sub_todo _ _ _ _ (by simp)

omit [FloatOps F] in
theorem sub_todo1 (k : Fin k0_t1_loop.trips) : (oSl L k 1).view.set ⊆ todoSet (cL L) (sL L) k.val \ (oSl L k 0).view.set := by
  rw [set_oSl, set_oSl]
  intro n
  simp only [chunkSet, todoSet, Finset.mem_sdiff, Finset.mem_filter, Finset.mem_univ, true_and]
  have := (cL L).isLt; have := (sL L).isLt; have : k.val < 4 := k.isLt
  intro h; simp at h ⊢; omega

omit [FloatOps F] in
theorem todo_next (k : Fin k0_t1_loop.trips) :
    (todoSet (cL L) (sL L) k.val \ (oSl L k 0).view.set) \ (oSl L k 1).view.set = todoSet (cL L) (sL L) (k.val + 1) := by
  rw [set_oSl, set_oSl]; exact todo_sdiff _ _ _ _ _ (by simp) (by simp)

omit [FloatOps F] in
theorem pts_oSl (k : Fin k0_t1_loop.trips) (b : Fin 2) (f : Buf (Elt F) (v4Loc d)) :
    ((v4Loc d ↦[(oSl L k b).view.set]{fullShare} f) : sProp 𝕄) = ((oSl L k b).view.loc (V d (cV L) (jV L)) ↦[(oSl L k b).view.set]{fullShare} f) := rfl

omit [FloatOps F] in
theorem off2_eq_off3 (k : Fin k0_t1_loop.trips) : k0_off2 L k = k0_off3 L k (BitVec.ofNat 32 (1 : Fin 2).val) := by
  rw [k0_off2_eq, k0_off3_eq]; simp

omit [FloatOps F] in
theorem off9_eq_off3 (k : Fin k0_t1_loop.trips) (h : k.val + 1 < 4) :
    k0_off9 L k = k0_off3 L ⟨k.val + 1, lt_trips1 h⟩ (BitVec.ofNat 32 (0 : Fin 2).val) := by
  rw [k0_off9_eq, k0_off3_eq]; simp; omega

omit [FloatOps F] in
theorem off1_eq_off3 : k0_off1 L = k0_off3 L ⟨0, lt_trips1 (by omega)⟩ (BitVec.ofNat 32 (0 : Fin 2).val) := by
  rw [k0_off1_eq, k0_off3_eq]; simp

/-- A table chunk landed whole in the second input buffer, its source slice spelt at another offset vector that is the same. -/
theorem landed1 (f0 : Buf (Elt F) ((b1).view.loc (V d (cV L) (jV L)))) (w : S64x768.Idx → Elt F .f32)
    (off off' : Fin 2 → ℕ) (inb : ∀ a, off a + S64x768.size a ≤ S64x1000000.size a) (inb' : ∀ a, off' a + S64x768.size a ≤ S64x1000000.size a)
    (h : off = off') (hw : w = (xM.slice (Rect.unit (s := S64x1000000) off S64x768.size inb) (fun _ => rfl)).view.read (Elt F) (Xt m d)) :
    (((b1).view.loc (V d (cV L) (jV L)) ↦{fullShare} View.write (Elt F) (b1).view f0 w Finset.univ) : sProp 𝕄)
      ⊢ ((b1).view.loc (V d (cV L) (jV L)) ↦{fullShare} (xM.slice (Rect.unit (s := S64x1000000) off' S64x768.size inb') (fun _ => rfl)).view.read (Elt F) (Xt m d)) := by
  subst h hw
  exact Entails.of_eq (congrArg (fun g => (((b1).view.loc (V d (cV L) (jV L)) ↦{fullShare} g) : sProp 𝕄)) (View.write_whole_univ (Val := Elt F) cc0_scratch1 f0 _))

omit [FloatOps F] in
theorem sub_done0 (j : Fin k0_t1_loop.trips) (k : ℕ) (hk : k = j.val + 1) : (oSl L j 0).view.set ⊆ doneSet (cL L) (sL L) (k + 1) := by
  rw [set_oSl]; intro n
  simp only [chunkSet, doneSet, Finset.mem_filter, Finset.mem_univ, true_and]
  have := (cL L).isLt; have := (sL L).isLt; have : j.val < 4 := j.isLt
  intro h; simp at h ⊢; omega

omit [FloatOps F] in
theorem sub_done1 (j : Fin k0_t1_loop.trips) (k : ℕ) (hk : k = j.val + 1) :
    (oSl L j 1).view.set ⊆ doneSet (cL L) (sL L) (k + 1) \ (oSl L j 0).view.set := by
  rw [set_oSl, set_oSl]; intro n
  simp only [chunkSet, doneSet, Finset.mem_sdiff, Finset.mem_filter, Finset.mem_univ, true_and]
  have := (cL L).isLt; have := (sL L).isLt; have : j.val < 4 := j.isLt
  intro h; simp at h ⊢; omega

omit [FloatOps F] in
theorem done_prev (j : Fin k0_t1_loop.trips) (k : ℕ) (hk : k = j.val + 1) :
    (doneSet (cL L) (sL L) (k + 1) \ (oSl L j 0).view.set) \ (oSl L j 1).view.set = doneSet (cL L) (sL L) k := by
  rw [set_oSl, set_oSl]; ext n
  simp only [chunkSet, doneSet, Finset.mem_sdiff, Finset.mem_filter, Finset.mem_univ, true_and]
  have := (cL L).isLt; have := (sL L).isLt; have : j.val < 4 := j.isLt
  simp; omega

omit [FloatOps F] in
theorem doneSet_one (c : Fin 2) (s : Fin 16) : doneSet c s 1 = doneSet c s 0 := by
  ext n; simp only [doneSet, Finset.mem_filter, Finset.mem_univ, true_and]; omega

omit [FloatOps F] in
theorem pts_oSl' (k : Fin k0_t1_loop.trips) (b : Fin 2) (f : Buf (Elt F) (v4Loc d)) :
    (((oSl L k b).view.loc (V d (cV L) (jV L)) ↦[(oSl L k b).view.set]{fullShare} f) : sProp 𝕄) = (v4Loc d ↦[(oSl L k b).view.set]{fullShare} f) := rfl

omit [FloatOps F] in
theorem doneSet_zero (c : Fin 2) (s : Fin 16) : doneSet c s 0 = ∅ := by
  ext n; simp [doneSet]

omit [FloatOps F] in
theorem sub_tile0 (j : Fin k0_t1_loop.trips) : (oSl L j 0).view.set ⊆ tileSet (cL L) (sL L) := by
  rw [set_oSl]; intro n
  simp only [chunkSet, tileSet, Finset.mem_filter, Finset.mem_univ, true_and]
  have := (cL L).isLt; have := (sL L).isLt; have : j.val < 4 := j.isLt
  intro h; simp at h ⊢; omega

omit [FloatOps F] in
theorem sub_tile1 (j : Fin k0_t1_loop.trips) : (oSl L j 1).view.set ⊆ tileSet (cL L) (sL L) \ (oSl L j 0).view.set := by
  rw [set_oSl, set_oSl]; intro n
  simp only [chunkSet, tileSet, Finset.mem_sdiff, Finset.mem_filter, Finset.mem_univ, true_and]
  have := (cL L).isLt; have := (sL L).isLt; have : j.val < 4 := j.isLt
  intro h; simp at h ⊢; omega

omit [FloatOps F] in
theorem tile_prev (j : Fin k0_t1_loop.trips) (hj : j.val = 3) :
    (tileSet (cL L) (sL L) \ (oSl L j 0).view.set) \ (oSl L j 1).view.set = doneSet (cL L) (sL L) 4 := by
  rw [set_oSl, set_oSl]; ext n
  simp only [chunkSet, tileSet, doneSet, Finset.mem_sdiff, Finset.mem_filter, Finset.mem_univ, true_and]
  have := (cL L).isLt; have := (sL L).isLt; have hn : (n 0).val < 196608 := (n 0).isLt
  simp; omega

/-! ## Restating what is in flight at the end of a trip -/

/-- An input copy in flight, its source slice spelt at another offset vector that is the same. -/
theorem inFl_respell (bi : Memref sig .scVector .vmem S64x768 .f32) (sm : SemLoc sig) (q : PosShare TreeShare)
    (f0 : Buf (Elt F) ((bi).view.loc (V d (cV L) (jV L)))) (w : S64x768.Idx → Elt F .f32)
    (off off' : Fin 2 → ℕ) (inb : ∀ a, off a + S64x768.size a ≤ S64x1000000.size a) (inb' : ∀ a, off' a + S64x768.size a ≤ S64x1000000.size a)
    (h : off = off') (hw : w = (xM.slice (Rect.unit (s := S64x1000000) off S64x768.size inb) (fun _ => rfl)).view.read (Elt F) (Xt m d)) :
    iprop(Transfers.Flight countersEmb (V d (cV L) (jV L)) sm (default : HIx 1) 1572864
          iprop(((bi).view.loc (V d (cV L) (jV L)) ↦{fullShare} View.write (Elt F) (bi).view f0 w Finset.univ)
            ∗ ((xM).view.loc (V d (cV L) (jV L)) ↦[(xM.slice (Rect.unit (s := S64x1000000) off S64x768.size inb) (fun _ => rfl)).view.set]{q} Xt m d))
        ∗ ((xM).view.loc (V d (cV L) (jV L)) ↦[Finset.univ \ (xM.slice (Rect.unit (s := S64x1000000) off S64x768.size inb) (fun _ => rfl)).view.set]{q} Xt m d))
      ⊢ (iprop(Transfers.Flight countersEmb (V d (cV L) (jV L)) sm (default : HIx 1) 1572864
          iprop(((bi).view.loc (V d (cV L) (jV L)) ↦{fullShare} View.write (Elt F) (bi).view f0 ((xM.slice (Rect.unit (s := S64x1000000) off' S64x768.size inb') (fun _ => rfl)).view.read (Elt F) (Xt m d)) Finset.univ)
            ∗ ((xM).view.loc (V d (cV L) (jV L)) ↦[(xM.slice (Rect.unit (s := S64x1000000) off' S64x768.size inb') (fun _ => rfl)).view.set]{q} Xt m d))
        ∗ ((xM).view.loc (V d (cV L) (jV L)) ↦[Finset.univ \ (xM.slice (Rect.unit (s := S64x1000000) off' S64x768.size inb') (fun _ => rfl)).view.set]{q} Xt m d)) : sProp 𝕄) := by
  subst h hw
  exact BI.Entails.refl _

omit [FloatOps F] in
/-- What one whole write through a view lands, on the view's elements, is any contents that read as the payload. -/
theorem land_generic {sp : Space} {s : Shape} {e : EltTy} (c : Thread nD τ) (v : View sig c.2.kind sp s e) (q : PosShare TreeShare)
    (fprev g : Buf (Elt F) (v.loc c)) (w : s.Idx → Elt F e) (hw : ∀ x, w x = v.read (Elt F) g x) :
    ((v.loc c ↦[v.set]{q} v.writes (Elt F) fprev [⟨Rect.whole s, w⟩]) : sProp 𝕄) = (v.loc c ↦[v.set]{q} g) :=
  pointsTo_congr fun i hi => by
    obtain ⟨x, -, rfl⟩ := Finset.mem_map.mp hi
    have h1 := View.read_writes_cons_emb v fprev (Rect.whole s) w [] x
    rw [Rect.emb_whole_apply] at h1
    have h2 := h1.trans (hw x)
    rw [View.read_apply, View.read_apply] at h2
    exact (cast_inj _).1 h2

/-- The copy of a finished out buffer to its chunk, in flight: it delivers the specification on that chunk. -/
theorem outFl_conv (bo : Memref sig .scVector .vmem S768 .f32) (sm : SemLoc sig) (jp : Fin k0_t1_loop.trips) (b : Fin 2)
    (fprev : Buf (Elt F) ((oSl L jp b).view.loc (V d (cV L) (jV L)))) (w : S768.Idx → F .f32) (fo2 : Buf (Elt F) ((bo).view.loc (V d (cV L) (jV L))))
    (hw : ∀ q : S768.Idx, w q = (oSl L jp b).view.read (Elt F) (scOut (Xt m d) (Ubc m d)) q) :
    (Transfers.Flight countersEmb (V d (cV L) (jV L)) sm (default : HIx 1) 24576
        iprop(((oSl L jp b).view.loc (V d (cV L) (jV L)) ↦[(oSl L jp b).view.set]{fullShare} (oSl L jp b).view.writes (Elt F) fprev [⟨Rect.whole S768, w⟩])
          ∗ ((bo).view.loc (V d (cV L) (jV L)) ↦[(bo).view.set]{fullShare} fo2)) : sProp 𝕄)
      ⊢ Transfers.Flight countersEmb (V d (cV L) (jV L)) sm (default : HIx 1) 24576
        iprop(((oSl L jp b).view.loc (V d (cV L) (jV L)) ↦[(oSl L jp b).view.set]{fullShare} scOut (Xt m d) (Ubc m d))
          ∗ ((bo).view.loc (V d (cV L) (jV L)) ↦[(bo).view.set]{fullShare} fo2)) := by
  rw [land_generic (V d (cV L) (jV L)) (oSl L jp b).view fullShare fprev (scOut (Xt m d) (Ubc m d)) w hw]

/-- The finished out buffer of chunk `2 jp + b` holds the specification at the chunk's columns. -/
theorem out_value (jp : Fin k0_t1_loop.trips) (b : Fin 2) (fin : FVec F S64x768 .f32) (fo2 : FVec F S768 .f32) (w : S768.Idx → F .f32) (hwf : w = fo2)
    (hin : fin = (iSl L jp b).view.read (Elt F) (Xt m d))
    (hfo : ∀ q : S768.Idx, (q 0).val < 128 * 6 → fo2 q = outG fin (Ubc m d) q) :
    ∀ q : S768.Idx, w q = (oSl L jp b).view.read (Elt F) (scOut (Xt m d) (Ubc m d)) q := by
  subst hwf hin
  intro q
  have hq : (q 0).val < 768 := (q 0).isLt
  have hj : jp.val < 4 := jp.isLt
  have hb := b.isLt
  rw [hfo q (by omega)]
  show _ = scOut (Xt m d) (Ubc m d) ((oSl L jp b).view.emb q)
  refine outG_scOut (Xt m d) (Ubc m d) (cL L) (sL L) ⟨2 * jp.val + b.val, by omega⟩ _
    (InOK_slice (cL L) (sL L) ⟨2 * jp.val + b.val, by omega⟩ _ _ ((k0_off3_eq L jp b).trans (congrArg (fun t => ![0, t]) (by
      show _ = 768 * (2 * (L 1).val + (L 0).val + 32 * (2 * jp.val + b.val)); omega))) (Xt m d)) q _ ?_
  have h8 : k0_off8 L jp (BitVec.ofNat 32 b.val) 0 = 1536 * (L 1).val + 768 * (L 0).val + 49152 * jp.val + 24576 * b.val := by
    rw [k0_off8_eq]; rfl
  show (k0_off8 L jp (BitVec.ofNat 32 b.val) 0 + 1 * (q 0).val) = 768 * (2 * (L 1).val + (L 0).val + 32 * (2 * jp.val + b.val)) + (q 0).val
  rw [h8]
  omega

set_option maxHeartbeats 4000000 in
set_option maxRecDepth 65536 in
theorem t1_trip_mid (O : CellTallies nD τ sig (HIx 1)) (W : Waits sig (HIx 1)) (v1 a : BitVec 32) (k : Fin k0_t1_loop.trips)
    (h0 : 0 < k.val) (h3 : k.val < 3) :
    I1 m d L O W k.val a
      ⊢ wp frame (wpE (defs₀ (F := F)) 𝒱₀ (V d (cV L) (jV L)) none) Set.univ
          (k0_t1_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 v1 k a) (I1 m d L O W (k.val + 1)) := by
  obtain ⟨hc1, hc2, hc3, hc4⟩ := cond_all k
  have hc2 : k0_cond2 k = 1#1 := hc2.mpr h0
  have hc3 : k0_cond3 k = 1#1 := hc3.mpr h3
  have hc4 : k0_cond4 k = 1#1 := hc4.mpr h0
  have hk4 : k.val < 4 := by omega
  unfold I1
  rw [InSt_lt m d L hk4, OutSt_pos m d L (k := k.val) ⟨h0, by omega⟩]
  unfold InFlSt OutFlSt OutFl OmSt
  iintro ⟨#Hmw, ⟨%f0, Hf5, Hxr⟩, ⟨Hs6, ⟨%f1, H1⟩, Hx1⟩, ⟨⟨%fo2, Hf7, H2r⟩, ⟨%fo3, Hf8, H3r⟩⟩, H4, ⟨Hdone, %ftodo, Htodo⟩, %W', %hW', HO⟩
  ihave Hsp := (pointsTo_split_subset (q := fullShare) (f := ftodo) (sub_todo0 L k)).1 $$ Htodo
  icases Hsp with ⟨Ho0, Htodo⟩
  ihave Hsp := (pointsTo_split_subset (q := fullShare) (f := ftodo) (sub_todo1 L k)).1 $$ Htodo
  icases Hsp with ⟨Ho1, Htodo⟩
  ihave Ho0 := (Entails.of_eq (pts_oSl (F := F) d L k 0 ftodo)) $$ Ho0
  ihave Ho1 := (Entails.of_eq (pts_oSl (F := F) d L k 1 ftodo)) $$ Ho1
  unfold k0_t1_body
  sl_exec
  sl_for (I2 d L (View.write (Elt F) (b0).view f0 ((iSl L ⟨k.val, lt_trips1 hk4⟩ 0).view.read (Elt F) (Xt m d)) Finset.univ) (Ubc m d)) $$ [Hf5_dst H4 H2r]
  case region => exact fun p acc => t2_trip d L _ _ v1 k p acc
  · unfold I2
    isplitl [Hf5_dst]; · iexact Hf5_dst
    isplitl [H4]; · iexact H4
    iexists fo2
    isplitl [H2r]; · iexact H2r
    ipureintro; intro q hq; omega
  iintro %a2 HI
  unfold I2
  icases HI with ⟨H0, H4, %fo2', H2, %hfo2'⟩
  sl_exec
  ihave H1 := (landed1 m d L f1 (t1_trip_mid.sl.dma0 m d L k hc1) (k0_off2 L k) (k0_off3 L k (BitVec.ofNat 32 (1 : Fin 2).val)) (k0_off2_inb L k hc1) (k0_off3_inb L k 1) (off2_eq_off3 L k) rfl) $$ H1
  sl_for (I21 d L ((iSl L k 1).view.read (Elt F) (Xt m d)) (Ubc m d)) $$ [H1 H4 H3r]
  case region => exact fun p acc => t2_trip1 d L _ _ p acc
  · unfold I21
    isplitl [H1]; · iexact H1
    isplitl [H4]; · iexact H4
    iexists fo3
    isplitl [H3r]; · iexact H3r
    ipureintro; intro q hq; omega
  iintro %a3 HI
  unfold I21
  icases HI with ⟨H1, H4, %fo3', H3, %hfo3'⟩
  sl_exec
  sl_step
  have ek : (⟨k.val + 1 - 1, lt_trips1 (by omega)⟩ : Fin k0_t1_loop.trips) = k := Fin.ext (by show k.val + 1 - 1 = k.val; omega)
  have hv0 := out_value m d L k 0 _ fo2' (t1_trip_mid.sl.dma0_1 fo2') rfl (View.write_whole_univ (Val := Elt F) cc0_scratch0 f0 _) (fun q hq => hfo2' q hq)
  have hv1 := out_value m d L k 1 _ fo3' (t1_trip_mid.sl.dma0_3 fo3') rfl rfl (fun q hq => hfo3' q hq)
  isplitl []; · iexact Hmw
  isplitl [Hf5 Hxr]
  · rw [InSt_lt m d L (k := k.val + 1) (by omega)]; unfold InFlSt
    iexists _
    iapply (inFl_respell m d L b0 (SemLoc.dma cc0_scratch5.sem) (tok L 0) _ (t1_trip_mid.sl.dma0_2 m d L k hc3) (k0_off9 L k) (k0_off3 L ⟨k.val + 1, lt_trips1 (by omega)⟩ (BitVec.ofNat 32 (0 : Fin 2).val)) (k0_off9_inb L k hc3) (k0_off3_inb L _ 0) (off9_eq_off3 L k (by omega)) rfl)
    isplitl [Hf5]
    · iexact Hf5
    · iexact Hxr
  isplitl [Hs6 H1 Hx1]
  · isplitl [Hs6]; · iexact Hs6
    isplitl [H1]; · iexists _; iexact H1
    iexact Hx1
  isplitl [Hf7 H2 Hf8 H3]
  · rw [OutSt_pos m d L (k := k.val + 1) ⟨by omega, by omega⟩]; unfold OutFlSt OutFl
    rw [ek]
    isplitl [Hf7 H2]
    · iexists _
      isplitl [Hf7]
      · iapply (outFl_conv m d L b2 _ k 0 _ _ _ hv0) $$ Hf7
      · iexact H2
    · iexists _
      isplitl [Hf8]
      · iapply (outFl_conv m d L b3 _ k 1 _ _ _ hv1) $$ Hf8
      · iexact H3
  isplitl [H4]; · iexact H4
  isplitl [Hdone Hf7_dst Hf8_dst Htodo]
  · isplitl [Hdone Hf7_dst Hf8_dst]
    · have ej : k.val = (⟨k.val - 1, lt_trips1 (by omega)⟩ : Fin k0_t1_loop.trips).val + 1 := by show k.val = k.val - 1 + 1; omega
      iapply (pointsTo_split_subset (q := fullShare) (sub_done0 L ⟨k.val - 1, lt_trips1 (by omega)⟩ k.val ej)).2
      isplitl [Hf7_dst]; · iapply (Entails.of_eq (pts_oSl' (F := F) d L _ 0 _)) $$ Hf7_dst
      iapply (pointsTo_split_subset (q := fullShare) (sub_done1 L ⟨k.val - 1, lt_trips1 (by omega)⟩ k.val ej)).2
      isplitl [Hf8_dst]; · iapply (Entails.of_eq (pts_oSl' (F := F) d L _ 1 _)) $$ Hf8_dst
      rw [done_prev L ⟨k.val - 1, lt_trips1 (by omega)⟩ k.val ej]
      iexact Hdone
    · iexists ftodo
      rw [← todo_next L k]
      iexact Htodo
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
set_option maxRecDepth 65536 in
theorem t1_trip_first (O : CellTallies nD τ sig (HIx 1)) (W : Waits sig (HIx 1)) (v1 a : BitVec 32) (k : Fin k0_t1_loop.trips)
    (h0 : k.val = 0) (h3 : k.val < 3) :
    I1 m d L O W k.val a
      ⊢ wp frame (wpE (defs₀ (F := F)) 𝒱₀ (V d (cV L) (jV L)) none) Set.univ
          (k0_t1_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 v1 k a) (I1 m d L O W (k.val + 1)) := by
  obtain ⟨hc1, hc2, hc3, hc4⟩ := cond_all k
  have hc2 : ¬ k0_cond2 k = 1#1 := fun h => absurd (hc2.mp h) (by omega)
  have hc3 : k0_cond3 k = 1#1 := hc3.mpr h3
  have hc4 : ¬ k0_cond4 k = 1#1 := fun h => absurd (hc4.mp h) (by omega)
  have hk4 : k.val < 4 := by omega
  unfold I1
  rw [InSt_lt m d L hk4, OutSt_neg m d L (k := k.val) (by omega)]
  unfold InFlSt OutIdle OmSt
  iintro ⟨#Hmw, ⟨%f0, Hf5, Hxr⟩, ⟨Hs6, ⟨%f1, H1⟩, Hx1⟩, ⟨Hf7, ⟨%fo2, H2r⟩, Hf8, ⟨%fo3, H3r⟩⟩, H4, ⟨Hdone, %ftodo, Htodo⟩, %W', %hW', HO⟩
  ihave Hsp := (pointsTo_split_subset (q := fullShare) (f := ftodo) (sub_todo0 L k)).1 $$ Htodo
  icases Hsp with ⟨Ho0, Htodo⟩
  ihave Hsp := (pointsTo_split_subset (q := fullShare) (f := ftodo) (sub_todo1 L k)).1 $$ Htodo
  icases Hsp with ⟨Ho1, Htodo⟩
  ihave Ho0 := (Entails.of_eq (pts_oSl (F := F) d L k 0 ftodo)) $$ Ho0
  ihave Ho1 := (Entails.of_eq (pts_oSl (F := F) d L k 1 ftodo)) $$ Ho1
  unfold k0_t1_body
  sl_exec
  sl_for (I2 d L (View.write (Elt F) (b0).view f0 ((iSl L ⟨k.val, lt_trips1 hk4⟩ 0).view.read (Elt F) (Xt m d)) Finset.univ) (Ubc m d)) $$ [Hf5_dst H4 H2r]
  case region => exact fun p acc => t2_trip d L _ _ v1 k p acc
  · unfold I2
    isplitl [Hf5_dst]; · iexact Hf5_dst
    isplitl [H4]; · iexact H4
    iexists fo2
    isplitl [H2r]; · iexact H2r
    ipureintro; intro q hq; omega
  iintro %a2 HI
  unfold I2
  icases HI with ⟨H0, H4, %fo2', H2, %hfo2'⟩
  sl_exec
  ihave H1 := (landed1 m d L f1 (t1_trip_first.sl.dma0 m d L k hc1) (k0_off2 L k) (k0_off3 L k (BitVec.ofNat 32 (1 : Fin 2).val)) (k0_off2_inb L k hc1) (k0_off3_inb L k 1) (off2_eq_off3 L k) rfl) $$ H1
  sl_for (I21 d L ((iSl L k 1).view.read (Elt F) (Xt m d)) (Ubc m d)) $$ [H1 H4 H3r]
  case region => exact fun p acc => t2_trip1 d L _ _ p acc
  · unfold I21
    isplitl [H1]; · iexact H1
    isplitl [H4]; · iexact H4
    iexists fo3
    isplitl [H3r]; · iexact H3r
    ipureintro; intro q hq; omega
  iintro %a3 HI
  unfold I21
  icases HI with ⟨H1, H4, %fo3', H3, %hfo3'⟩
  sl_exec
  sl_step
  have ek : (⟨k.val + 1 - 1, lt_trips1 (by omega)⟩ : Fin k0_t1_loop.trips) = k := Fin.ext (by show k.val + 1 - 1 = k.val; omega)
  have hv0 := out_value m d L k 0 _ fo2' (t1_trip_first.sl.dma0_1 fo2') rfl (View.write_whole_univ (Val := Elt F) cc0_scratch0 f0 _) (fun q hq => hfo2' q hq)
  have hv1 := out_value m d L k 1 _ fo3' (t1_trip_first.sl.dma0_3 fo3') rfl rfl (fun q hq => hfo3' q hq)
  isplitl []; · iexact Hmw
  isplitl [Hf5 Hxr]
  · rw [InSt_lt m d L (k := k.val + 1) (by omega)]; unfold InFlSt
    iexists _
    iapply (inFl_respell m d L b0 (SemLoc.dma cc0_scratch5.sem) (tok L 0) _ (t1_trip_first.sl.dma0_2 m d L k hc3) (k0_off9 L k) (k0_off3 L ⟨k.val + 1, lt_trips1 (by omega)⟩ (BitVec.ofNat 32 (0 : Fin 2).val)) (k0_off9_inb L k hc3) (k0_off3_inb L _ 0) (off9_eq_off3 L k (by omega)) rfl)
    isplitl [Hf5]
    · iexact Hf5
    · iexact Hxr
  isplitl [Hs6 H1 Hx1]
  · isplitl [Hs6]; · iexact Hs6
    isplitl [H1]; · iexists _; iexact H1
    iexact Hx1
  isplitl [Hf7 H2 Hf8 H3]
  · rw [OutSt_pos m d L (k := k.val + 1) ⟨by omega, by omega⟩]; unfold OutFlSt OutFl
    rw [ek]
    isplitl [Hf7 H2]
    · iexists _
      isplitl [Hf7]
      · iapply (outFl_conv m d L b2 _ k 0 _ _ _ hv0) $$ Hf7
      · iexact H2
    · iexists _
      isplitl [Hf8]
      · iapply (outFl_conv m d L b3 _ k 1 _ _ _ hv1) $$ Hf8
      · iexact H3
  isplitl [H4]; · iexact H4
  isplitl [Hdone Htodo]
  · isplitl [Hdone]
    · rw [show doneSet (cL L) (sL L) (k.val + 1) = doneSet (cL L) (sL L) k.val from by rw [h0]; exact doneSet_one _ _]
      iexact Hdone
    · iexists ftodo
      rw [← todo_next L k]
      iexact Htodo
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
set_option maxRecDepth 65536 in
theorem t1_trip_last (O : CellTallies nD τ sig (HIx 1)) (W : Waits sig (HIx 1)) (v1 a : BitVec 32) (k : Fin k0_t1_loop.trips)
    (h0 : 0 < k.val) (h3 : k.val = 3) :
    I1 m d L O W k.val a
      ⊢ wp frame (wpE (defs₀ (F := F)) 𝒱₀ (V d (cV L) (jV L)) none) Set.univ
          (k0_t1_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 v1 k a) (I1 m d L O W (k.val + 1)) := by
  obtain ⟨hc1, hc2, hc3, hc4⟩ := cond_all k
  have hc2 : k0_cond2 k = 1#1 := hc2.mpr h0
  have hc3 : ¬ k0_cond3 k = 1#1 := fun h => absurd (hc3.mp h) (by omega)
  have hc4 : k0_cond4 k = 1#1 := hc4.mpr h0
  have hk4 : k.val < 4 := by omega
  unfold I1
  rw [InSt_lt m d L hk4, OutSt_pos m d L (k := k.val) ⟨h0, by omega⟩]
  unfold InFlSt OutFlSt OutFl OmSt
  iintro ⟨#Hmw, ⟨%f0, Hf5, Hxr⟩, ⟨Hs6, ⟨%f1, H1⟩, Hx1⟩, ⟨⟨%fo2, Hf7, H2r⟩, ⟨%fo3, Hf8, H3r⟩⟩, H4, ⟨Hdone, %ftodo, Htodo⟩, %W', %hW', HO⟩
  ihave Hsp := (pointsTo_split_subset (q := fullShare) (f := ftodo) (sub_todo0 L k)).1 $$ Htodo
  icases Hsp with ⟨Ho0, Htodo⟩
  ihave Hsp := (pointsTo_split_subset (q := fullShare) (f := ftodo) (sub_todo1 L k)).1 $$ Htodo
  icases Hsp with ⟨Ho1, Htodo⟩
  ihave Ho0 := (Entails.of_eq (pts_oSl (F := F) d L k 0 ftodo)) $$ Ho0
  ihave Ho1 := (Entails.of_eq (pts_oSl (F := F) d L k 1 ftodo)) $$ Ho1
  unfold k0_t1_body
  sl_exec
  sl_for (I2 d L (View.write (Elt F) (b0).view f0 ((iSl L ⟨k.val, lt_trips1 hk4⟩ 0).view.read (Elt F) (Xt m d)) Finset.univ) (Ubc m d)) $$ [Hf5_dst H4 H2r]
  case region => exact fun p acc => t2_trip d L _ _ v1 k p acc
  · unfold I2
    isplitl [Hf5_dst]; · iexact Hf5_dst
    isplitl [H4]; · iexact H4
    iexists fo2
    isplitl [H2r]; · iexact H2r
    ipureintro; intro q hq; omega
  iintro %a2 HI
  unfold I2
  icases HI with ⟨H0, H4, %fo2', H2, %hfo2'⟩
  sl_exec
  ihave H1 := (landed1 m d L f1 (t1_trip_last.sl.dma0 m d L k hc1) (k0_off2 L k) (k0_off3 L k (BitVec.ofNat 32 (1 : Fin 2).val)) (k0_off2_inb L k hc1) (k0_off3_inb L k 1) (off2_eq_off3 L k) rfl) $$ H1
  sl_for (I21 d L ((iSl L k 1).view.read (Elt F) (Xt m d)) (Ubc m d)) $$ [H1 H4 H3r]
  case region => exact fun p acc => t2_trip1 d L _ _ p acc
  · unfold I21
    isplitl [H1]; · iexact H1
    isplitl [H4]; · iexact H4
    iexists fo3
    isplitl [H3r]; · iexact H3r
    ipureintro; intro q hq; omega
  iintro %a3 HI
  unfold I21
  icases HI with ⟨H1, H4, %fo3', H3, %hfo3'⟩
  sl_exec
  sl_step
  have ek : (⟨k.val + 1 - 1, lt_trips1 (by omega)⟩ : Fin k0_t1_loop.trips) = k := Fin.ext (by show k.val + 1 - 1 = k.val; omega)
  have hv0 := out_value m d L k 0 _ fo2' (t1_trip_last.sl.dma0_1 fo2') rfl (View.write_whole_univ (Val := Elt F) cc0_scratch0 f0 _) (fun q hq => hfo2' q hq)
  have hv1 := out_value m d L k 1 _ fo3' (t1_trip_last.sl.dma0_2 fo3') rfl rfl (fun q hq => hfo3' q hq)
  isplitl []; · iexact Hmw
  isplitl [Hf5 Hxr H0]
  · rw [InSt_ge m d L (k := k.val + 1) (by omega)]; unfold InIdle
    isplitl [Hf5]; · iexact Hf5
    isplitl [H0]; · iexists _; iexact H0
    iexact Hxr
  isplitl [Hs6 H1 Hx1]
  · isplitl [Hs6]; · iexact Hs6
    isplitl [H1]; · iexists _; iexact H1
    iexact Hx1
  isplitl [Hf7 H2 Hf8 H3]
  · rw [OutSt_pos m d L (k := k.val + 1) ⟨by omega, by omega⟩]; unfold OutFlSt OutFl
    rw [ek]
    isplitl [Hf7 H2]
    · iexists _
      isplitl [Hf7]
      · iapply (outFl_conv m d L b2 _ k 0 _ _ _ hv0) $$ Hf7
      · iexact H2
    · iexists _
      isplitl [Hf8]
      · iapply (outFl_conv m d L b3 _ k 1 _ _ _ hv1) $$ Hf8
      · iexact H3
  isplitl [H4]; · iexact H4
  isplitl [Hdone Hf7_dst Hf8_dst Htodo]
  · isplitl [Hdone Hf7_dst Hf8_dst]
    · have ej : k.val = (⟨k.val - 1, lt_trips1 (by omega)⟩ : Fin k0_t1_loop.trips).val + 1 := by show k.val = k.val - 1 + 1; omega
      iapply (pointsTo_split_subset (q := fullShare) (sub_done0 L ⟨k.val - 1, lt_trips1 (by omega)⟩ k.val ej)).2
      isplitl [Hf7_dst]; · iapply (Entails.of_eq (pts_oSl' (F := F) d L _ 0 _)) $$ Hf7_dst
      iapply (pointsTo_split_subset (q := fullShare) (sub_done1 L ⟨k.val - 1, lt_trips1 (by omega)⟩ k.val ej)).2
      isplitl [Hf8_dst]; · iapply (Entails.of_eq (pts_oSl' (F := F) d L _ 1 _)) $$ Hf8_dst
      rw [done_prev L ⟨k.val - 1, lt_trips1 (by omega)⟩ k.val ej]
      iexact Hdone
    · iexists ftodo
      rw [← todo_next L k]
      iexact Htodo
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

omit [FloatOps F] in
theorem todoSet_four (c : Fin 2) (s : Fin 16) : todoSet c s 4 = ∅ := by
  ext n; have hn : (n 0).val < 196608 := (n 0).isLt
  simp only [todoSet, Finset.mem_filter, Finset.mem_univ, true_and, Finset.notMem_empty, iff_false]; omega

/-- The user column landed whole in its buffer. -/
theorem landedU (f4 : Buf (Elt F) ((b4).view.loc (V d (cV L) (jV L)))) (w : S64x16.Idx → Elt F .f32) (hw : w = Ubc m d) :
    (((b4).view.loc (V d (cV L) (jV L)) ↦{fullShare} View.write (Elt F) (b4).view f4 w Finset.univ) : sProp 𝕄)
      ⊢ ((b4).view.loc (V d (cV L) (jV L)) ↦{fullShare} Ubc m d) := by
  subst hw
  exact Entails.of_eq (congrArg (fun g => (((b4).view.loc (V d (cV L) (jV L)) ↦{fullShare} g) : sProp 𝕄)) (View.write_whole_univ (Val := Elt F) cc0_scratch4 f4 _))

omit [FloatOps F] in
theorem pts_b (b : Ref sig .scVector) (f : Buf (Elt F) ((Memref.whole b).view.loc (V d (cV L) (jV L)))) :
    (((Memref.whole b).view.loc (V d (cV L) (jV L)) ↦{fullShare} f) : sProp 𝕄) = ((V d (cV L) (jV L)).loc b ↦{fullShare} f) := rfl

set_option maxHeartbeats 4000000 in
set_option maxRecDepth 65536 in
/-- The task on vector subcore `(L 0, L 1)` of device `d`: from the read shares of the two tables and its chunks
    of the result at any contents, to the shares and its chunks at the specification. -/
theorem tile_body (hF : (K (F := F)).Facts) (O : CellTallies nD τ sig (HIx 1)) (W : Waits sig (HIx 1)) (hO : ∀ g, O g none = 0) :
    iprop(levAts (K (F := F)).L (K (F := F)).lev ∗ emp
        ∗ goRes m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L (Memref.whole main_v2_scv) (Memref.isWhole_whole _) (Memref.whole main_v1_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0)
          fun _ => iprop(tdRes m d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hshare : ∀ (f : Buf (Elt F) ((xM).view.loc (V d (cV L) (jV L)))),
      (((xM).view.loc (V d (cV L) (jV L)) ↦{qTile (cL L) (sL L)} f) : sProp 𝕄)
        ⊣⊢ iprop((((xM).view.loc (V d (cV L) (jV L)) ↦{(qTile (cL L) (sL L)).left.left} f) ∗ ((xM).view.loc (V d (cV L) (jV L)) ↦{tok L 1} f)) ∗ ((xM).view.loc (V d (cV L) (jV L)) ↦{tok L 0} f)) := fun f =>
    ⟨(pointsTo_share (PosShare.mem_left_op_right _)).1.trans (sep_mono_left (pointsTo_share (PosShare.mem_left_op_right _)).1),
     (sep_mono_left (pointsTo_share (PosShare.mem_left_op_right _)).2).trans (pointsTo_share (PosShare.mem_left_op_right _)).2⟩
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold goRes
  iintro ⟨#Hlv, Hemp, ⟨Hx, Hu, %fo, Ho⟩, ⟨⟨%f0, H0⟩, ⟨%f1, H1⟩, ⟨%f2, H2⟩, ⟨%f3, H3⟩, ⟨%f4, H4⟩, Hbufs⟩, ⟨Hs5, Hs6, Hs7, Hs8, Hs0, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hdone := (show (emp : sProp 𝕄) ⊢ (v4Loc d ↦[doneSet (cL L) (sL L) 0]{fullShare} scOut (Xt m d) (Ubc m d)) from
    Entails.of_eq (by rw [doneSet_zero, pointsTo_empty])) $$ Hemp
  ihave Hx' := (Entails.of_eq (show (v2Loc d ↦{qTile (cL L) (sL L)} Xt m d : sProp 𝕄) = ((xM).view.loc (V d (cV L) (jV L)) ↦{qTile (cL L) (sL L)} Xt m d) from rfl)) $$ Hx
  ihave Hx' := (hshare _).1 $$ Hx'
  icases Hx' with ⟨Hxrest, Hx0⟩
  ihave Hu' := (Entails.of_eq (show (v1Loc d ↦{qTile (cL L) (sL L)} Ubc m d : sProp 𝕄) = ((uM).view.loc (V d (cV L) (jV L)) ↦{qTile (cL L) (sL L)} Ubc m d) from rfl)) $$ Hu
  ihave H0' := (Entails.of_eq (show ((V d (cV L) (jV L)).loc cc0_scratch0 ↦{fullShare} f0 : sProp 𝕄) = ((b0).view.loc (V d (cV L) (jV L)) ↦{fullShare} f0) from rfl)) $$ H0
  ihave H1' := (Entails.of_eq (show ((V d (cV L) (jV L)).loc cc0_scratch1 ↦{fullShare} f1 : sProp 𝕄) = ((b1).view.loc (V d (cV L) (jV L)) ↦{fullShare} f1) from rfl)) $$ H1
  ihave H2' := (Entails.of_eq (show ((V d (cV L) (jV L)).loc cc0_scratch2 ↦{fullShare} f2 : sProp 𝕄) = ((b2).view.loc (V d (cV L) (jV L)) ↦{fullShare} f2) from rfl)) $$ H2
  ihave H3' := (Entails.of_eq (show ((V d (cV L) (jV L)).loc cc0_scratch3 ↦{fullShare} f3 : sProp 𝕄) = ((b3).view.loc (V d (cV L) (jV L)) ↦{fullShare} f3) from rfl)) $$ H3
  ihave H4' := (Entails.of_eq (show ((V d (cV L) (jV L)).loc cc0_scratch4 ↦{fullShare} f4 : sProp 𝕄) = ((b4).view.loc (V d (cV L) (jV L)) ↦{fullShare} f4) from rfl)) $$ H4
  sl_exec
  ihave H4' := (landedU m d L f4 (tile_body.sl.dma0 m d) rfl) $$ H4'
  ihave Hin := (inFl_respell m d L b0 (SemLoc.dma cc0_scratch5.sem) (tok L 0) f0 (tile_body.sl.dma0_1 m d L) (k0_off1 L) (k0_off3 L ⟨0, lt_trips1 (by omega)⟩ (BitVec.ofNat 32 (0 : Fin 2).val)) (k0_off1_inb L) (k0_off3_inb L _ 0) (off1_eq_off3 L) rfl) $$ [Hs5 Hx0]
  · isplitl [Hs5]; · iexact Hs5
    iexact Hx0
  icases Hxrest with ⟨Hxd, Hx1⟩
  sl_for (I1 m d L O W) $$ [Hmw Hin Hs6 H1' Hx1 Hs7 H2' Hs8 H3' H4' Hdone Ho HO]
  case region =>
    intro k a
    by_cases h0 : k.val = 0
    · exact t1_trip_first m d L O W _ a k h0 (by omega)
    by_cases h3 : k.val = 3
    · exact t1_trip_last m d L O W _ a k (by omega) h3
    exact t1_trip_mid m d L O W _ a k (by omega) (by have := k.isLt; have : k.val < 4 := this; omega)
  · unfold I1
    rw [InSt_lt m d L (k := 0) (by omega), OutSt_neg m d L (k := 0) (by omega)]
    unfold InFlSt OutIdle OmSt
    isplitl [Hmw]; · iexact Hmw
    isplitl [Hin]; · iexists _; iexact Hin
    isplitl [Hs6 H1' Hx1]
    · isplitl [Hs6]; · iexact Hs6
      isplitl [H1']; · iexists _; iexact H1'
      iexact Hx1
    isplitl [Hs7 H2' Hs8 H3']
    · isplitl [Hs7]; · iexact Hs7
      isplitl [H2']; · iexists _; iexact H2'
      isplitl [Hs8]; · iexact Hs8
      iexists _; iexact H3'
    isplitl [H4']; · iexact H4'
    isplitl [Hdone Ho]
    · isplitl [Hdone]; · iexact Hdone
      iexists fo; rw [todoSet_zero]; iexact Ho
    iexists _; isplitr
    swap; · iexact HO
    ipureintro; intro p hp
    rcases Finset.mem_insert.mp hp with hp | hp; · exact .inr (hp ▸ rfl)
    exact .inl hp
  iintro %a HI
  have e4 : Scf.trips k0_t1_loop.lb k0_t1_loop.ub k0_t1_loop.st = 4 := trips1
  rw [e4]
  unfold I1
  rw [InSt_ge m d L (k := 4) (by omega), OutSt_pos m d L (k := 4) ⟨by omega, by omega⟩]
  unfold InIdle OutFlSt OutFl OmSt
  icases HI with ⟨#Hmw2, ⟨Hs5, ⟨%f0', H0⟩, Hx0⟩, ⟨Hs6, ⟨%f1', H1⟩, Hx1⟩, ⟨⟨%fo2, Hf7, H2r⟩, ⟨%fo3, Hf8, H3r⟩⟩, H4, ⟨Hdone, %ftodo, Htodo⟩, %W', %hW', HO⟩
  sl_exec
  sl_step
  unfold tdRes
  ihave Hemp2 := (Entails.of_eq (show ((v4Loc d ↦[todoSet (cL L) (sL L) 4]{fullShare} ftodo) : sProp 𝕄) = (iprop(emp) : sProp 𝕄) from by rw [todoSet_four, pointsTo_empty])) $$ Htodo
  icases Hemp2 with -
  isplitl [Hxd Hx1 Hx0 Hu' Hdone Hf7_dst Hf8_dst]
  · isplitl [Hxd Hx1 Hx0]
    · iapply (Entails.of_eq (show (((xM).view.loc (V d (cV L) (jV L)) ↦{qTile (cL L) (sL L)} Xt m d) : sProp 𝕄) = (v2Loc d ↦{qTile (cL L) (sL L)} Xt m d) from rfl))
      iapply (hshare _).2
      isplitl [Hxd Hx1]
      · isplitl [Hxd]; · iexact Hxd
        iexact Hx1
      iexact Hx0
    isplitl [Hu']
    · iapply (Entails.of_eq (show (((uM).view.loc (V d (cV L) (jV L)) ↦{qTile (cL L) (sL L)} Ubc m d) : sProp 𝕄) = (v1Loc d ↦{qTile (cL L) (sL L)} Ubc m d) from rfl))
      iexact Hu'
    iapply (pointsTo_split_subset (q := fullShare) (sub_tile0 L ⟨4 - 1, lt_trips1 (by omega)⟩)).2
    isplitl [Hf7_dst]; · iapply (Entails.of_eq (pts_oSl' (F := F) d L _ 0 _)) $$ Hf7_dst
    iapply (pointsTo_split_subset (q := fullShare) (sub_tile1 L ⟨4 - 1, lt_trips1 (by omega)⟩)).2
    isplitl [Hf8_dst]; · iapply (Entails.of_eq (pts_oSl' (F := F) d L _ 1 _)) $$ Hf8_dst
    rw [tile_prev L ⟨4 - 1, lt_trips1 (by omega)⟩ rfl]
    iexact Hdone
  isplitl [H0 H1 H2r H3r H4 Hbufs]
  · isplitl [H0]; · iexists _; iapply (Entails.of_eq (pts_b (F := F) d L cc0_scratch0 _)); iexact H0
    isplitl [H1]; · iexists _; iapply (Entails.of_eq (pts_b (F := F) d L cc0_scratch1 _)); iexact H1
    isplitl [H2r]; · iexists _; iapply (Entails.of_eq (pts_b (F := F) d L cc0_scratch2 _)); iexact H2r
    isplitl [H3r]; · iexists _; iapply (Entails.of_eq (pts_b (F := F) d L cc0_scratch3 _)); iexact H3r
    isplitl [H4]; · iexists _; iapply (Entails.of_eq (pts_b (F := F) d L cc0_scratch4 _)); iexact H4
    iexact Hbufs
  isplitl [Hs5 Hs6 Hf7 Hf8 Hs0 Hsems]
  · isplitl [Hs5]; · iexact Hs5
    isplitl [Hs6]; · iexact Hs6
    isplitl [Hf7]; · iexact Hf7
    isplitl [Hf8]; · iexact Hf8
    isplitl [Hs0]; · iexact Hs0
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v2_scv) (Memref.isWhole_whole _) (Memref.whole main_v1_scv) (Memref.isWhole_whole _)
          (Memref.whole main_v4_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

end Cert.Proof.KI

end
-- ==== Proof.TileB.lean ====
/-
  The task of one vector subcore: it copies the repeated user column into its own memory, then works through its
  eight chunks of 768 table columns with two input buffers and two output buffers: while chunk j is being
  accumulated (six passes of 128 columns, each pass eight blocks of eight table rows, the eight accumulators of a
  pass carried from block to block), chunk j + 1 is already being copied in and chunk j - 1 copied out. Per column
  the accumulator runs acc ← acc + x_d · u_d for d = 0 … 63 from zero, so what lands in the result is the
  specification's value at every column of the subcore's chunks.
-/
import proofs.«207427_g73340861546603_cont_9to1c4b_775_30_alg».proof.Proof.CommonB
import Idealize.ShloMosaic.Lib.Pipeline.Value

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ)
variable [FloatOps F]

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
/-- The SparseCore and the subcore of a grid point, as numbers below 2 and 16. -/
abbrev cL (L : grid0.Coords) : Fin 2 := Fin.cast bound_zero (L 0)
abbrev sL (L : grid0.Coords) : Fin 16 := Fin.cast bound_one (L 1)

/-- The operands and scratch buffers as the task addresses them. -/
abbrev xM : Memref sig .scVector .hbm S64x1000000 .f32 := Memref.whole main_v2_scv
abbrev uM : Memref sig .scVector .hbm S64x16 .f32 := Memref.whole main_v1_scv
abbrev oM : Memref sig .scVector .hbm S196608 .f32 := Memref.whole main_v4_scv
abbrev b0 : Memref sig .scVector .vmem S64x768 .f32 := Memref.whole cc0_scratch0
abbrev b1 : Memref sig .scVector .vmem S64x768 .f32 := Memref.whole cc0_scratch1
abbrev b2 : Memref sig .scVector .vmem S768 .f32 := Memref.whole cc0_scratch2
abbrev b3 : Memref sig .scVector .vmem S768 .f32 := Memref.whole cc0_scratch3
abbrev b4 : Memref sig .scVector .vmem S64x16 .f32 := Memref.whole cc0_scratch4
abbrev cell0 (d : Dev nD) (c : Fin τ.nSC) (i : Fin τ.nSub) : GSem nD τ sig := (V d c i, .dma cc0_scratch5.sem)
abbrev cell1 (d : Dev nD) (c : Fin τ.nSC) (i : Fin τ.nSub) : GSem nD τ sig := (V d c i, .dma cc0_scratch6.sem)
abbrev cell2 (d : Dev nD) (c : Fin τ.nSC) (i : Fin τ.nSub) : GSem nD τ sig := (V d c i, .dma cc0_scratch7.sem)
abbrev cell3 (d : Dev nD) (c : Fin τ.nSC) (i : Fin τ.nSub) : GSem nD τ sig := (V d c i, .dma cc0_scratch8.sem)
abbrev cell4 (d : Dev nD) (c : Fin τ.nSC) (i : Fin τ.nSub) : GSem nD τ sig := (V d c i, .dma cc0_scoped0.sem)

omit [FloatOps F] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0 ∗ semVal (cell4 d (cV L) (jV L)) 0
          ∗ bigSep ((((((ownCells (V d (cV L) (jV L))).erase (cell0 d (cV L) (jV L))).erase (cell1 d (cV L) (jV L))).erase (cell2 d (cV L) (jV L))).erase (cell3 d (cV L) (jV L))).erase (cell4 d (cV L) (jV L))) fun g => semVal g 0) := by
  unfold SparseCore.Cfg.ownSems0
  rw [SparseCore.bigSep_erase' ((mem_ownCells (g := cell0 d (cV L) (jV L))).mpr ⟨rfl, by show (SemLoc.dma cc0_scratch5.sem : SemLoc sig).isScoped .scVector = true; decide⟩),
    SparseCore.bigSep_erase' (Finset.mem_erase.mpr ⟨by simp [cell0, cell1]; decide, (mem_ownCells (g := cell1 d (cV L) (jV L))).mpr ⟨rfl, by show (SemLoc.dma cc0_scratch6.sem : SemLoc sig).isScoped .scVector = true; decide⟩⟩),
    SparseCore.bigSep_erase' (Finset.mem_erase.mpr ⟨by simp [cell1, cell2]; decide, Finset.mem_erase.mpr ⟨by simp [cell0, cell2]; decide, (mem_ownCells (g := cell2 d (cV L) (jV L))).mpr ⟨rfl, by show (SemLoc.dma cc0_scratch7.sem : SemLoc sig).isScoped .scVector = true; decide⟩⟩⟩),
    SparseCore.bigSep_erase' (Finset.mem_erase.mpr ⟨by simp [cell2, cell3]; decide, Finset.mem_erase.mpr ⟨by simp [cell1, cell3]; decide, Finset.mem_erase.mpr ⟨by simp [cell0, cell3]; decide, (mem_ownCells (g := cell3 d (cV L) (jV L))).mpr ⟨rfl, by show (SemLoc.dma cc0_scratch8.sem : SemLoc sig).isScoped .scVector = true; decide⟩⟩⟩⟩),
    SparseCore.bigSep_erase' (Finset.mem_erase.mpr ⟨by simp [cell3, cell4]; decide, Finset.mem_erase.mpr ⟨by simp [cell2, cell4]; decide, Finset.mem_erase.mpr ⟨by simp [cell1, cell4]; decide, Finset.mem_erase.mpr ⟨by simp [cell0, cell4]; decide, (mem_ownCells (g := cell4 d (cV L) (jV L))).mpr ⟨rfl, by show (SemLoc.dma cc0_scoped0.sem : SemLoc sig).isScoped .scVector = true; decide⟩⟩⟩⟩⟩)]

omit [FloatOps F] in
/-- The five scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f) ∗ (∃ f, (V d (cV L) (jV L)).loc cc0_scratch2 ↦{fullShare} f) ∗ (∃ f, (V d (cV L) (jV L)).loc cc0_scratch3 ↦{fullShare} f) ∗ (∃ f, (V d (cV L) (jV L)).loc cc0_scratch4 ↦{fullShare} f)
          ∗ bigSep ((((((ownRefs (τ := τ) (.scVector (cV L) (jV L))).erase ((Proc.scVector (cV L) (jV L)).devRef cc0_scratch0)).erase ((Proc.scVector (cV L) (jV L)).devRef cc0_scratch1)).erase ((Proc.scVector (cV L) (jV L)).devRef cc0_scratch2)).erase ((Proc.scVector (cV L) (jV L)).devRef cc0_scratch3)).erase ((Proc.scVector (cV L) (jV L)).devRef cc0_scratch4))
              fun b => iprop(∃ f, ((d, b) : Loc nD τ sig) ↦{fullShare} f)) := by
  unfold SparseCore.Cfg.ownBufs
  refine (SparseCore.bigSep_erase' (SparseCore.Cfg.mem_ownRefs_of_owner (p := (Proc.scVector (cV L) (jV L))) (b := ((Proc.scVector (cV L) (jV L)).devRef cc0_scratch0)) rfl)).trans ?_
  rw [SparseCore.bigSep_erase' (Finset.mem_erase.mpr ⟨fun e => absurd (Proc.devRef_injective _ e) (show (cc0_scratch1 : Ref sig .scVector) ≠ cc0_scratch0 by decide), SparseCore.Cfg.mem_ownRefs_of_owner (p := (Proc.scVector (cV L) (jV L))) (b := ((Proc.scVector (cV L) (jV L)).devRef cc0_scratch1)) rfl⟩),
    SparseCore.bigSep_erase' (Finset.mem_erase.mpr ⟨fun e => absurd (Proc.devRef_injective _ e) (show (cc0_scratch2 : Ref sig .scVector) ≠ cc0_scratch1 by decide), Finset.mem_erase.mpr ⟨fun e => absurd (Proc.devRef_injective _ e) (show (cc0_scratch2 : Ref sig .scVector) ≠ cc0_scratch0 by decide), SparseCore.Cfg.mem_ownRefs_of_owner (p := (Proc.scVector (cV L) (jV L))) (b := ((Proc.scVector (cV L) (jV L)).devRef cc0_scratch2)) rfl⟩⟩),
    SparseCore.bigSep_erase' (Finset.mem_erase.mpr ⟨fun e => absurd (Proc.devRef_injective _ e) (show (cc0_scratch3 : Ref sig .scVector) ≠ cc0_scratch2 by decide), Finset.mem_erase.mpr ⟨fun e => absurd (Proc.devRef_injective _ e) (show (cc0_scratch3 : Ref sig .scVector) ≠ cc0_scratch1 by decide), Finset.mem_erase.mpr ⟨fun e => absurd (Proc.devRef_injective _ e) (show (cc0_scratch3 : Ref sig .scVector) ≠ cc0_scratch0 by decide), SparseCore.Cfg.mem_ownRefs_of_owner (p := (Proc.scVector (cV L) (jV L))) (b := ((Proc.scVector (cV L) (jV L)).devRef cc0_scratch3)) rfl⟩⟩⟩),
    SparseCore.bigSep_erase' (Finset.mem_erase.mpr ⟨fun e => absurd (Proc.devRef_injective _ e) (show (cc0_scratch4 : Ref sig .scVector) ≠ cc0_scratch3 by decide), Finset.mem_erase.mpr ⟨fun e => absurd (Proc.devRef_injective _ e) (show (cc0_scratch4 : Ref sig .scVector) ≠ cc0_scratch2 by decide), Finset.mem_erase.mpr ⟨fun e => absurd (Proc.devRef_injective _ e) (show (cc0_scratch4 : Ref sig .scVector) ≠ cc0_scratch1 by decide), Finset.mem_erase.mpr ⟨fun e => absurd (Proc.devRef_injective _ e) (show (cc0_scratch4 : Ref sig .scVector) ≠ cc0_scratch0 by decide), SparseCore.Cfg.mem_ownRefs_of_owner (p := (Proc.scVector (cV L) (jV L))) (b := ((Proc.scVector (cV L) (jV L)).devRef cc0_scratch4)) rfl⟩⟩⟩⟩)]

/-! ## The arithmetic of a chunk, and the running accumulators -/

/-- The table column that local column `q` of chunk `j` of subcore `(c, s)` is. -/
def colG (c : Fin 2) (s : Fin 16) (j q : ℕ) : ℕ := 768 * (2 * s.val + c.val + 32 * j) + q

omit [FloatOps F] in
theorem colG_lt (c : Fin 2) (s : Fin 16) (j : Fin 8) (q : Fin 768) : colG c s j.val q.val < 1000000 := by
  unfold colG; omega

/-- An input buffer holds chunk `j`: row by row the table's columns of the chunk. -/
def InOK (X : FVec F S64x1000000 .f32) (c : Fin 2) (s : Fin 16) (j : Fin 8) (fin : FVec F S64x768 .f32) : Prop :=
  ∀ (r : Fin 64) (q : Fin 768), fin (ix2 r q) = X (ix2 r ⟨colG c s j.val q.val, colG_lt c s j q⟩)

/-- The accumulator of local column `q` (on lane `l`) of chunk `j` after the first `k` table rows. -/
def accQ (X : FVec F S64x1000000 .f32) (Uc : FVec F S64x16 .f32) (c : Fin 2) (s : Fin 16) (j : Fin 8) (q : Fin 768) (l : Fin 16) (k : ℕ) : F .f32 :=
  accUpTo X Uc ⟨colG c s j.val q.val, colG_lt c s j q⟩ l k

theorem accQ_zero (X : FVec F S64x1000000 .f32) (Uc : FVec F S64x16 .f32) (c : Fin 2) (s : Fin 16) (j : Fin 8) (q : Fin 768) (l : Fin 16) :
    accQ X Uc c s j q l 0 = FloatOps.ofBits .f32 0x00000000#32 := rfl

/-- One more table row: acc + x · u, with x read from an input buffer that holds the chunk. -/
theorem accQ_succ (X : FVec F S64x1000000 .f32) (Uc : FVec F S64x16 .f32) (c : Fin 2) (s : Fin 16) (j : Fin 8) (q : Fin 768) (l : Fin 16)
    (fin : FVec F S64x768 .f32) (hin : InOK X c s j fin) (k : ℕ) (r : Fin 64) (hr : r.val = k) :
    accQ X Uc c s j q l (k + 1) = FloatOps.addf (accQ X Uc c s j q l k) (FloatOps.mulf (fin (ix2 r q)) (Uc (ix2 r l))) := by
  subst hr
  unfold accQ
  rw [accUpTo, dif_pos r.isLt, hin r q]

/-- The eight accumulators of pass `p`: accumulator `g` holds local columns 128 p + 16 g + l, lane by lane. -/
def accV (X : FVec F S64x1000000 .f32) (Uc : FVec F S64x16 .f32) (c : Fin 2) (s : Fin 16) (j : Fin 8) (p : Fin 6) (g : Fin 8) (k : ℕ) : FVec F S16 .f32 :=
  fun l => accQ X Uc c s j ⟨128 * p.val + 16 * g.val + (l 0).val, by have := (l 0).isLt; have : (l 0).val < 16 := this; omega⟩ ⟨(l 0).val, (l 0).isLt⟩ k

/-! ## Rows of the buffers as lane vectors, and the accumulators as the pass carries them -/

/-- Sixteen consecutive entries of row `r` of an input buffer from column `q0`. -/
def rowX (fin : FVec F S64x768 .f32) (r q0 : ℕ) : FVec F S16 .f32 :=
  fun l => if h : r < 64 ∧ q0 + (l 0).val < 768 then fin (ix2 ⟨r, h.1⟩ ⟨q0 + (l 0).val, h.2⟩) else FloatOps.ofBits .f32 0x00000000#32
/-- Row `r` of the repeated user column. -/
def rowU (fu : FVec F S64x16 .f32) (r : ℕ) : FVec F S16 .f32 :=
  fun l => if h : r < 64 then fu (ix2 ⟨r, h⟩ ⟨(l 0).val, (l 0).isLt⟩) else FloatOps.ofBits .f32 0x00000000#32

/-- The accumulator of the sixteen columns from `q0` after the first `k` rows, as a lane vector: from zero,
    acc + x_r · u_r. -/
def accVec (fin : FVec F S64x768 .f32) (fu : FVec F S64x16 .f32) (q0 : ℕ) : ℕ → FVec F S16 .f32
  | 0 => broadcast S16 (Scalar.ofBits .f32 0x00000000#32)
  | k + 1 => addf (accVec fin fu q0 k) (mulf (rowX fin k q0) (rowU fu k))

theorem accVec_succ (fin : FVec F S64x768 .f32) (fu : FVec F S64x16 .f32) (q0 k : ℕ) :
    accVec fin fu q0 (k + 1) = addf (accVec fin fu q0 k) (mulf (rowX fin k q0) (rowU fu k)) := rfl

/-- A 16-lane row load of an input buffer is that row as a lane vector. -/
theorem ldrowX (fin : FVec F S64x768 .f32) (off : Fin 2 → ℕ) (inb : ∀ a, off a + S1x16.size a ≤ S64x768.size a) (r q0 : ℕ) (h : off = ![r, q0]) :
    shapeCast S16 (View.readAt (Elt F) (b0).view (Rect.unit (s := S64x768) off S1x16.size inb).toLoadRect fin) shapeCasts_S1x16_S16 = rowX fin r q0 := by
  subst h
  funext l
  have h0 : r + 1 ≤ 64 := inb 0
  have h1 : q0 + 16 ≤ 768 := inb 1
  have hl : (l 0).val < 16 := (l 0).isLt
  unfold rowX
  rw [dif_pos ⟨by omega, by omega⟩]
  rw [shapeCast_apply _ _ l (ix2 0 ⟨(l 0).val, hl⟩) (by simp [Shape.rowMajor_val_two, Shape.rowMajor_val_one])]
  show fin _ = fin _
  congr 1; funext a; apply Fin.ext
  match a with
  | ⟨0, _⟩ => show r + 1 * 0 = r; omega
  | ⟨1, _⟩ => show q0 + 1 * (l 0).val = q0 + (l 0).val; omega

/-- A row load of the user buffer is that row as a lane vector. -/
theorem ldrowU (fu : FVec F S64x16 .f32) (off : Fin 2 → ℕ) (inb : ∀ a, off a + S1x16.size a ≤ S64x16.size a) (r : ℕ) (h : off = ![r, 0]) :
    shapeCast S16 (View.readAt (Elt F) (b4).view (Rect.unit (s := S64x16) off S1x16.size inb).toLoadRect fu) shapeCasts_S1x16_S16 = rowU fu r := by
  subst h
  funext l
  have h0 : r + 1 ≤ 64 := inb 0
  have hl : (l 0).val < 16 := (l 0).isLt
  unfold rowU
  rw [dif_pos (by omega)]
  rw [shapeCast_apply _ _ l (ix2 0 ⟨(l 0).val, hl⟩) (by simp [Shape.rowMajor_val_two, Shape.rowMajor_val_one])]
  show fu _ = fu _
  congr 1; funext a; apply Fin.ext
  match a with
  | ⟨0, _⟩ => show r + 1 * 0 = r; omega
  | ⟨1, _⟩ => show 0 + 1 * (l 0).val = (l 0).val; omega

/-- What an out buffer holds at local column `q` once the pass that owns it is done: the accumulator of its block of
    sixteen columns after all 64 rows, on its lane. -/
def outG (fin : FVec F S64x768 .f32) (fu : FVec F S64x16 .f32) : FVec F S768 .f32 :=
  fun q => accVec fin fu (16 * ((q 0).val / 16)) 64 (ix1 ⟨(q 0).val % 16, Nat.mod_lt _ (by decide)⟩)

/-! ## A pass's eight stores, read back -/

omit [FloatOps F] in
theorem mem_unit16 {off : Fin 1 → ℕ} {inb : ∀ a, off a + S16.size a ≤ S768.size a} {q : S768.Idx} :
    q ∈ (Rect.unit (s := S768) off S16.size inb).set ↔ off 0 ≤ (q 0).val ∧ (q 0).val < off 0 + 16 := by
  rw [Rect.mem_set_unit]
  constructor
  · intro h; exact h 0
  · intro h a; match a with | ⟨0, _⟩ => exact h

/-- At a column of the block of sixteen that starts at `q0`, the finished out buffer holds that block's accumulator. -/
theorem outG_at (fin : FVec F S64x768 .f32) (fu : FVec F S64x16 .f32) (q : S768.Idx) (q0 x : ℕ) (hx : x < 16) (h16 : 16 ∣ q0)
    (hq : (q 0).val = q0 + x) : outG fin fu q = accVec fin fu q0 64 (ix1 ⟨x, hx⟩) := by
  unfold outG
  have h2 : (q 0).val % 16 = x := by omega
  have h1 : 16 * ((q 0).val / 16) = q0 := by omega
  subst h2
  rw [h1]

omit [FloatOps F] in
/-- One store peeled off a list of stores: under it the payload, beside it what the earlier stores left. -/
theorem writes_cons_step {κ : Kind} {sp : Space} {s : Shape} {e : EltTy} (v : View sig κ sp s e) (f : v.ty.Contents (Elt F))
    (r : Rect s) (w : r.shape.Idx → Elt F e) (Ls : List (View.Piece (Elt F) s e)) (G : s.Idx → Elt F e) (y : s.Idx)
    (hG : ∀ x, w x = G (r.emb x)) (hrest : y ∉ r.set → v.read (Elt F) (v.writes (Elt F) f Ls) y = G y) :
    v.read (Elt F) (v.writes (Elt F) f (⟨r, w⟩ :: Ls)) y = G y := by
  by_cases hy : y ∈ r.set
  · obtain ⟨x, rfl⟩ : ∃ x, r.emb x = y := r.exists_idx_of_mem hy
    rw [View.read_writes_cons_emb]; exact hG x
  · rw [View.writes_cons, View.read_slice_write_of_not_mem r _ _ _ (by rwa [Rect.map_emb_univ])]
    exact hrest hy

/-- After pass `P` the first `128 (P + 1)` columns of the out buffer are done. -/
theorem out_pass (fin : FVec F S64x768 .f32) (fu : FVec F S64x16 .f32) (fo : FVec F S768 .f32) (P : ℕ) (hP : P < 6)
    (o0 : Fin 1 → ℕ) (i0 : ∀ a, o0 a + S16.size a ≤ S768.size a) (w0 : FVec F S16 .f32) (ho0 : o0 = ![128 * P + 0]) (hw0 : w0 = accVec fin fu (128 * P + 0) 64)
    (o1 : Fin 1 → ℕ) (i1 : ∀ a, o1 a + S16.size a ≤ S768.size a) (w1 : FVec F S16 .f32) (ho1 : o1 = ![128 * P + 16]) (hw1 : w1 = accVec fin fu (128 * P + 16) 64)
    (o2 : Fin 1 → ℕ) (i2 : ∀ a, o2 a + S16.size a ≤ S768.size a) (w2 : FVec F S16 .f32) (ho2 : o2 = ![128 * P + 32]) (hw2 : w2 = accVec fin fu (128 * P + 32) 64)
    (o3 : Fin 1 → ℕ) (i3 : ∀ a, o3 a + S16.size a ≤ S768.size a) (w3 : FVec F S16 .f32) (ho3 : o3 = ![128 * P + 48]) (hw3 : w3 = accVec fin fu (128 * P + 48) 64)
    (o4 : Fin 1 → ℕ) (i4 : ∀ a, o4 a + S16.size a ≤ S768.size a) (w4 : FVec F S16 .f32) (ho4 : o4 = ![128 * P + 64]) (hw4 : w4 = accVec fin fu (128 * P + 64) 64)
    (o5 : Fin 1 → ℕ) (i5 : ∀ a, o5 a + S16.size a ≤ S768.size a) (w5 : FVec F S16 .f32) (ho5 : o5 = ![128 * P + 80]) (hw5 : w5 = accVec fin fu (128 * P + 80) 64)
    (o6 : Fin 1 → ℕ) (i6 : ∀ a, o6 a + S16.size a ≤ S768.size a) (w6 : FVec F S16 .f32) (ho6 : o6 = ![128 * P + 96]) (hw6 : w6 = accVec fin fu (128 * P + 96) 64)
    (o7 : Fin 1 → ℕ) (i7 : ∀ a, o7 a + S16.size a ≤ S768.size a) (w7 : FVec F S16 .f32) (ho7 : o7 = ![128 * P + 112]) (hw7 : w7 = accVec fin fu (128 * P + 112) 64)
    (hfo : ∀ q : S768.Idx, (q 0).val < 128 * P → fo q = outG fin fu q) :
    ∀ q : S768.Idx, (q 0).val < 128 * (P + 1) →
      (b2).view.read (Elt F) ((b2).view.writes (Elt F) fo [⟨Rect.unit (s := S768) o7 S16.size i7, w7⟩, ⟨Rect.unit (s := S768) o6 S16.size i6, w6⟩, ⟨Rect.unit (s := S768) o5 S16.size i5, w5⟩, ⟨Rect.unit (s := S768) o4 S16.size i4, w4⟩, ⟨Rect.unit (s := S768) o3 S16.size i3, w3⟩, ⟨Rect.unit (s := S768) o2 S16.size i2, w2⟩, ⟨Rect.unit (s := S768) o1 S16.size i1, w1⟩, ⟨Rect.unit (s := S768) o0 S16.size i0, w0⟩]) q = outG fin fu q := by
  subst ho0 hw0 ho1 hw1 ho2 hw2 ho3 hw3 ho4 hw4 ho5 hw5 ho6 hw6 ho7 hw7
  intro q hq
  refine writes_cons_step _ _ _ _ _ _ q (fun x => (congrArg (accVec fin fu (128 * P + 112) 64) (ValueIdx.eq_ix1 x)).trans (outG_at fin fu _ (128 * P + 112) (x 0).val (x 0).isLt (by omega) (by show (128 * P + 112) + 1 * (x 0).val = 128 * P + 112 + (x 0).val; omega)).symm) (fun h7 => ?_)
  rw [mem_unit16] at h7; simp only [Matrix.cons_val_zero, Matrix.cons_val_fin_one] at h7
  refine writes_cons_step _ _ _ _ _ _ q (fun x => (congrArg (accVec fin fu (128 * P + 96) 64) (ValueIdx.eq_ix1 x)).trans (outG_at fin fu _ (128 * P + 96) (x 0).val (x 0).isLt (by omega) (by show (128 * P + 96) + 1 * (x 0).val = 128 * P + 96 + (x 0).val; omega)).symm) (fun h6 => ?_)
  rw [mem_unit16] at h6; simp only [Matrix.cons_val_zero, Matrix.cons_val_fin_one] at h6
  refine writes_cons_step _ _ _ _ _ _ q (fun x => (congrArg (accVec fin fu (128 * P + 80) 64) (ValueIdx.eq_ix1 x)).trans (outG_at fin fu _ (128 * P + 80) (x 0).val (x 0).isLt (by omega) (by show (128 * P + 80) + 1 * (x 0).val = 128 * P + 80 + (x 0).val; omega)).symm) (fun h5 => ?_)
  rw [mem_unit16] at h5; simp only [Matrix.cons_val_zero, Matrix.cons_val_fin_one] at h5
  refine writes_cons_step _ _ _ _ _ _ q (fun x => (congrArg (accVec fin fu (128 * P + 64) 64) (ValueIdx.eq_ix1 x)).trans (outG_at fin fu _ (128 * P + 64) (x 0).val (x 0).isLt (by omega) (by show (128 * P + 64) + 1 * (x 0).val = 128 * P + 64 + (x 0).val; omega)).symm) (fun h4 => ?_)
  rw [mem_unit16] at h4; simp only [Matrix.cons_val_zero, Matrix.cons_val_fin_one] at h4
  refine writes_cons_step _ _ _ _ _ _ q (fun x => (congrArg (accVec fin fu (128 * P + 48) 64) (ValueIdx.eq_ix1 x)).trans (outG_at fin fu _ (128 * P + 48) (x 0).val (x 0).isLt (by omega) (by show (128 * P + 48) + 1 * (x 0).val = 128 * P + 48 + (x 0).val; omega)).symm) (fun h3 => ?_)
  rw [mem_unit16] at h3; simp only [Matrix.cons_val_zero, Matrix.cons_val_fin_one] at h3
  refine writes_cons_step _ _ _ _ _ _ q (fun x => (congrArg (accVec fin fu (128 * P + 32) 64) (ValueIdx.eq_ix1 x)).trans (outG_at fin fu _ (128 * P + 32) (x 0).val (x 0).isLt (by omega) (by show (128 * P + 32) + 1 * (x 0).val = 128 * P + 32 + (x 0).val; omega)).symm) (fun h2 => ?_)
  rw [mem_unit16] at h2; simp only [Matrix.cons_val_zero, Matrix.cons_val_fin_one] at h2
  refine writes_cons_step _ _ _ _ _ _ q (fun x => (congrArg (accVec fin fu (128 * P + 16) 64) (ValueIdx.eq_ix1 x)).trans (outG_at fin fu _ (128 * P + 16) (x 0).val (x 0).isLt (by omega) (by show (128 * P + 16) + 1 * (x 0).val = 128 * P + 16 + (x 0).val; omega)).symm) (fun h1 => ?_)
  rw [mem_unit16] at h1; simp only [Matrix.cons_val_zero, Matrix.cons_val_fin_one] at h1
  refine writes_cons_step _ _ _ _ _ _ q (fun x => (congrArg (accVec fin fu (128 * P + 0) 64) (ValueIdx.eq_ix1 x)).trans (outG_at fin fu _ (128 * P + 0) (x 0).val (x 0).isLt (by omega) (by show (128 * P + 0) + 1 * (x 0).val = 128 * P + 0 + (x 0).val; omega)).symm) (fun h0 => ?_)
  rw [mem_unit16] at h0; simp only [Matrix.cons_val_zero, Matrix.cons_val_fin_one] at h0
  exact hfo q (by omega)

/-- What the inner loop of a pass carries and reads: the eight accumulators after the first `8 k` rows, the input
    buffer and the user buffer. -/
def I3 (fin : FVec F S64x768 .f32) (fu : FVec F S64x16 .f32) (p : Fin k0_t2_loop.trips) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(⌜acc = (accVec fin fu (128 * p.val + 0) (8 * k), accVec fin fu (128 * p.val + 16) (8 * k), accVec fin fu (128 * p.val + 32) (8 * k), accVec fin fu (128 * p.val + 48) (8 * k), accVec fin fu (128 * p.val + 64) (8 * k), accVec fin fu (128 * p.val + 80) (8 * k), accVec fin fu (128 * p.val + 96) (8 * k), accVec fin fu (128 * p.val + 112) (8 * k))⌝
    ∗ ((b0).view.loc (V d (cV L) (jV L)) ↦{fullShare} fin) ∗ ((b4).view.loc (V d (cV L) (jV L)) ↦{fullShare} fu))

set_option maxHeartbeats 4000000 in
set_option maxRecDepth 65536 in
/-- One block of eight table rows: each accumulator takes its eight steps acc + x_r · u_r. -/
theorem t3_trip (fin : FVec F S64x768 .f32) (fu : FVec F S64x16 .f32) (p : Fin k0_t2_loop.trips) (v60 : BitVec 32)
    (k : Fin k0_t3_loop.trips) (acc : FVec F S16 .f32 × FVec F S16 .f32 × FVec F S16 .f32 × FVec F S16 .f32 × FVec F S16 .f32 × FVec F S16 .f32 × FVec F S16 .f32 × FVec F S16 .f32) :
    I3 d L fin fu p k.val acc
      ⊢ wp frame (wpE (defs₀ (F := F)) 𝒱₀ (V d (cV L) (jV L)) none) Set.univ
          (k0_t3_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 0#32 1#32 p v60 k acc) (I3 d L fin fu p (k.val + 1)) := by
  have e0_0 : k0_off6 p k 0#32 0#32 = ![8 * k.val + 0, 128 * p.val + 0] := k0_off6_eq p k ⟨0, by decide⟩ ⟨0, by decide⟩
  have e0_1 : k0_off6 p k 0#32 16#32 = ![8 * k.val + 0, 128 * p.val + 16] := k0_off6_eq p k ⟨0, by decide⟩ ⟨1, by decide⟩
  have e0_2 : k0_off6 p k 0#32 32#32 = ![8 * k.val + 0, 128 * p.val + 32] := k0_off6_eq p k ⟨0, by decide⟩ ⟨2, by decide⟩
  have e0_3 : k0_off6 p k 0#32 48#32 = ![8 * k.val + 0, 128 * p.val + 48] := k0_off6_eq p k ⟨0, by decide⟩ ⟨3, by decide⟩
  have e0_4 : k0_off6 p k 0#32 64#32 = ![8 * k.val + 0, 128 * p.val + 64] := k0_off6_eq p k ⟨0, by decide⟩ ⟨4, by decide⟩
  have e0_5 : k0_off6 p k 0#32 80#32 = ![8 * k.val + 0, 128 * p.val + 80] := k0_off6_eq p k ⟨0, by decide⟩ ⟨5, by decide⟩
  have e0_6 : k0_off6 p k 0#32 96#32 = ![8 * k.val + 0, 128 * p.val + 96] := k0_off6_eq p k ⟨0, by decide⟩ ⟨6, by decide⟩
  have e0_7 : k0_off6 p k 0#32 112#32 = ![8 * k.val + 0, 128 * p.val + 112] := k0_off6_eq p k ⟨0, by decide⟩ ⟨7, by decide⟩
  have e1_0 : k0_off6 p k 1#32 0#32 = ![8 * k.val + 1, 128 * p.val + 0] := k0_off6_eq p k ⟨1, by decide⟩ ⟨0, by decide⟩
  have e1_1 : k0_off6 p k 1#32 16#32 = ![8 * k.val + 1, 128 * p.val + 16] := k0_off6_eq p k ⟨1, by decide⟩ ⟨1, by decide⟩
  have e1_2 : k0_off6 p k 1#32 32#32 = ![8 * k.val + 1, 128 * p.val + 32] := k0_off6_eq p k ⟨1, by decide⟩ ⟨2, by decide⟩
  have e1_3 : k0_off6 p k 1#32 48#32 = ![8 * k.val + 1, 128 * p.val + 48] := k0_off6_eq p k ⟨1, by decide⟩ ⟨3, by decide⟩
  have e1_4 : k0_off6 p k 1#32 64#32 = ![8 * k.val + 1, 128 * p.val + 64] := k0_off6_eq p k ⟨1, by decide⟩ ⟨4, by decide⟩
  have e1_5 : k0_off6 p k 1#32 80#32 = ![8 * k.val + 1, 128 * p.val + 80] := k0_off6_eq p k ⟨1, by decide⟩ ⟨5, by decide⟩
  have e1_6 : k0_off6 p k 1#32 96#32 = ![8 * k.val + 1, 128 * p.val + 96] := k0_off6_eq p k ⟨1, by decide⟩ ⟨6, by decide⟩
  have e1_7 : k0_off6 p k 1#32 112#32 = ![8 * k.val + 1, 128 * p.val + 112] := k0_off6_eq p k ⟨1, by decide⟩ ⟨7, by decide⟩
  have e2_0 : k0_off6 p k 2#32 0#32 = ![8 * k.val + 2, 128 * p.val + 0] := k0_off6_eq p k ⟨2, by decide⟩ ⟨0, by decide⟩
  have e2_1 : k0_off6 p k 2#32 16#32 = ![8 * k.val + 2, 128 * p.val + 16] := k0_off6_eq p k ⟨2, by decide⟩ ⟨1, by decide⟩
  have e2_2 : k0_off6 p k 2#32 32#32 = ![8 * k.val + 2, 128 * p.val + 32] := k0_off6_eq p k ⟨2, by decide⟩ ⟨2, by decide⟩
  have e2_3 : k0_off6 p k 2#32 48#32 = ![8 * k.val + 2, 128 * p.val + 48] := k0_off6_eq p k ⟨2, by decide⟩ ⟨3, by decide⟩
  have e2_4 : k0_off6 p k 2#32 64#32 = ![8 * k.val + 2, 128 * p.val + 64] := k0_off6_eq p k ⟨2, by decide⟩ ⟨4, by decide⟩
  have e2_5 : k0_off6 p k 2#32 80#32 = ![8 * k.val + 2, 128 * p.val + 80] := k0_off6_eq p k ⟨2, by decide⟩ ⟨5, by decide⟩
  have e2_6 : k0_off6 p k 2#32 96#32 = ![8 * k.val + 2, 128 * p.val + 96] := k0_off6_eq p k ⟨2, by decide⟩ ⟨6, by decide⟩
  have e2_7 : k0_off6 p k 2#32 112#32 = ![8 * k.val + 2, 128 * p.val + 112] := k0_off6_eq p k ⟨2, by decide⟩ ⟨7, by decide⟩
  have e3_0 : k0_off6 p k 3#32 0#32 = ![8 * k.val + 3, 128 * p.val + 0] := k0_off6_eq p k ⟨3, by decide⟩ ⟨0, by decide⟩
  have e3_1 : k0_off6 p k 3#32 16#32 = ![8 * k.val + 3, 128 * p.val + 16] := k0_off6_eq p k ⟨3, by decide⟩ ⟨1, by decide⟩
  have e3_2 : k0_off6 p k 3#32 32#32 = ![8 * k.val + 3, 128 * p.val + 32] := k0_off6_eq p k ⟨3, by decide⟩ ⟨2, by decide⟩
  have e3_3 : k0_off6 p k 3#32 48#32 = ![8 * k.val + 3, 128 * p.val + 48] := k0_off6_eq p k ⟨3, by decide⟩ ⟨3, by decide⟩
  have e3_4 : k0_off6 p k 3#32 64#32 = ![8 * k.val + 3, 128 * p.val + 64] := k0_off6_eq p k ⟨3, by decide⟩ ⟨4, by decide⟩
  have e3_5 : k0_off6 p k 3#32 80#32 = ![8 * k.val + 3, 128 * p.val + 80] := k0_off6_eq p k ⟨3, by decide⟩ ⟨5, by decide⟩
  have e3_6 : k0_off6 p k 3#32 96#32 = ![8 * k.val + 3, 128 * p.val + 96] := k0_off6_eq p k ⟨3, by decide⟩ ⟨6, by decide⟩
  have e3_7 : k0_off6 p k 3#32 112#32 = ![8 * k.val + 3, 128 * p.val + 112] := k0_off6_eq p k ⟨3, by decide⟩ ⟨7, by decide⟩
  have e4_0 : k0_off6 p k 4#32 0#32 = ![8 * k.val + 4, 128 * p.val + 0] := k0_off6_eq p k ⟨4, by decide⟩ ⟨0, by decide⟩
  have e4_1 : k0_off6 p k 4#32 16#32 = ![8 * k.val + 4, 128 * p.val + 16] := k0_off6_eq p k ⟨4, by decide⟩ ⟨1, by decide⟩
  have e4_2 : k0_off6 p k 4#32 32#32 = ![8 * k.val + 4, 128 * p.val + 32] := k0_off6_eq p k ⟨4, by decide⟩ ⟨2, by decide⟩
  have e4_3 : k0_off6 p k 4#32 48#32 = ![8 * k.val + 4, 128 * p.val + 48] := k0_off6_eq p k ⟨4, by decide⟩ ⟨3, by decide⟩
  have e4_4 : k0_off6 p k 4#32 64#32 = ![8 * k.val + 4, 128 * p.val + 64] := k0_off6_eq p k ⟨4, by decide⟩ ⟨4, by decide⟩
  have e4_5 : k0_off6 p k 4#32 80#32 = ![8 * k.val + 4, 128 * p.val + 80] := k0_off6_eq p k ⟨4, by decide⟩ ⟨5, by decide⟩
  have e4_6 : k0_off6 p k 4#32 96#32 = ![8 * k.val + 4, 128 * p.val + 96] := k0_off6_eq p k ⟨4, by decide⟩ ⟨6, by decide⟩
  have e4_7 : k0_off6 p k 4#32 112#32 = ![8 * k.val + 4, 128 * p.val + 112] := k0_off6_eq p k ⟨4, by decide⟩ ⟨7, by decide⟩
  have e5_0 : k0_off6 p k 5#32 0#32 = ![8 * k.val + 5, 128 * p.val + 0] := k0_off6_eq p k ⟨5, by decide⟩ ⟨0, by decide⟩
  have e5_1 : k0_off6 p k 5#32 16#32 = ![8 * k.val + 5, 128 * p.val + 16] := k0_off6_eq p k ⟨5, by decide⟩ ⟨1, by decide⟩
  have e5_2 : k0_off6 p k 5#32 32#32 = ![8 * k.val + 5, 128 * p.val + 32] := k0_off6_eq p k ⟨5, by decide⟩ ⟨2, by decide⟩
  have e5_3 : k0_off6 p k 5#32 48#32 = ![8 * k.val + 5, 128 * p.val + 48] := k0_off6_eq p k ⟨5, by decide⟩ ⟨3, by decide⟩
  have e5_4 : k0_off6 p k 5#32 64#32 = ![8 * k.val + 5, 128 * p.val + 64] := k0_off6_eq p k ⟨5, by decide⟩ ⟨4, by decide⟩
  have e5_5 : k0_off6 p k 5#32 80#32 = ![8 * k.val + 5, 128 * p.val + 80] := k0_off6_eq p k ⟨5, by decide⟩ ⟨5, by decide⟩
  have e5_6 : k0_off6 p k 5#32 96#32 = ![8 * k.val + 5, 128 * p.val + 96] := k0_off6_eq p k ⟨5, by decide⟩ ⟨6, by decide⟩
  have e5_7 : k0_off6 p k 5#32 112#32 = ![8 * k.val + 5, 128 * p.val + 112] := k0_off6_eq p k ⟨5, by decide⟩ ⟨7, by decide⟩
  have e6_0 : k0_off6 p k 6#32 0#32 = ![8 * k.val + 6, 128 * p.val + 0] := k0_off6_eq p k ⟨6, by decide⟩ ⟨0, by decide⟩
  have e6_1 : k0_off6 p k 6#32 16#32 = ![8 * k.val + 6, 128 * p.val + 16] := k0_off6_eq p k ⟨6, by decide⟩ ⟨1, by decide⟩
  have e6_2 : k0_off6 p k 6#32 32#32 = ![8 * k.val + 6, 128 * p.val + 32] := k0_off6_eq p k ⟨6, by decide⟩ ⟨2, by decide⟩
  have e6_3 : k0_off6 p k 6#32 48#32 = ![8 * k.val + 6, 128 * p.val + 48] := k0_off6_eq p k ⟨6, by decide⟩ ⟨3, by decide⟩
  have e6_4 : k0_off6 p k 6#32 64#32 = ![8 * k.val + 6, 128 * p.val + 64] := k0_off6_eq p k ⟨6, by decide⟩ ⟨4, by decide⟩
  have e6_5 : k0_off6 p k 6#32 80#32 = ![8 * k.val + 6, 128 * p.val + 80] := k0_off6_eq p k ⟨6, by decide⟩ ⟨5, by decide⟩
  have e6_6 : k0_off6 p k 6#32 96#32 = ![8 * k.val + 6, 128 * p.val + 96] := k0_off6_eq p k ⟨6, by decide⟩ ⟨6, by decide⟩
  have e6_7 : k0_off6 p k 6#32 112#32 = ![8 * k.val + 6, 128 * p.val + 112] := k0_off6_eq p k ⟨6, by decide⟩ ⟨7, by decide⟩
  have e7_0 : k0_off6 p k 7#32 0#32 = ![8 * k.val + 7, 128 * p.val + 0] := k0_off6_eq p k ⟨7, by decide⟩ ⟨0, by decide⟩
  have e7_1 : k0_off6 p k 7#32 16#32 = ![8 * k.val + 7, 128 * p.val + 16] := k0_off6_eq p k ⟨7, by decide⟩ ⟨1, by decide⟩
  have e7_2 : k0_off6 p k 7#32 32#32 = ![8 * k.val + 7, 128 * p.val + 32] := k0_off6_eq p k ⟨7, by decide⟩ ⟨2, by decide⟩
  have e7_3 : k0_off6 p k 7#32 48#32 = ![8 * k.val + 7, 128 * p.val + 48] := k0_off6_eq p k ⟨7, by decide⟩ ⟨3, by decide⟩
  have e7_4 : k0_off6 p k 7#32 64#32 = ![8 * k.val + 7, 128 * p.val + 64] := k0_off6_eq p k ⟨7, by decide⟩ ⟨4, by decide⟩
  have e7_5 : k0_off6 p k 7#32 80#32 = ![8 * k.val + 7, 128 * p.val + 80] := k0_off6_eq p k ⟨7, by decide⟩ ⟨5, by decide⟩
  have e7_6 : k0_off6 p k 7#32 96#32 = ![8 * k.val + 7, 128 * p.val + 96] := k0_off6_eq p k ⟨7, by decide⟩ ⟨6, by decide⟩
  have e7_7 : k0_off6 p k 7#32 112#32 = ![8 * k.val + 7, 128 * p.val + 112] := k0_off6_eq p k ⟨7, by decide⟩ ⟨7, by decide⟩
  have u0 : k0_off5 k 0#32 = ![8 * k.val + 0, 0] := k0_off5_eq k ⟨0, by decide⟩
  have u1 : k0_off5 k 1#32 = ![8 * k.val + 1, 0] := k0_off5_eq k ⟨1, by decide⟩
  have u2 : k0_off5 k 2#32 = ![8 * k.val + 2, 0] := k0_off5_eq k ⟨2, by decide⟩
  have u3 : k0_off5 k 3#32 = ![8 * k.val + 3, 0] := k0_off5_eq k ⟨3, by decide⟩
  have u4 : k0_off5 k 4#32 = ![8 * k.val + 4, 0] := k0_off5_eq k ⟨4, by decide⟩
  have u5 : k0_off5 k 5#32 = ![8 * k.val + 5, 0] := k0_off5_eq k ⟨5, by decide⟩
  have u6 : k0_off5 k 6#32 = ![8 * k.val + 6, 0] := k0_off5_eq k ⟨6, by decide⟩
  have u7 : k0_off5 k 7#32 = ![8 * k.val + 7, 0] := k0_off5_eq k ⟨7, by decide⟩
  unfold I3 k0_t3_body
  iintro ⟨%hacc, H0, H4⟩
  subst hacc
  sl_exec
  sl_step
  isplitr
  · ipureintro
    sl_unfold_run_names
    simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84]
    simp only [ldrowX fin _ _ _ _ e0_0, ldrowX fin _ _ _ _ e0_1, ldrowX fin _ _ _ _ e0_2, ldrowX fin _ _ _ _ e0_3, ldrowX fin _ _ _ _ e0_4, ldrowX fin _ _ _ _ e0_5, ldrowX fin _ _ _ _ e0_6, ldrowX fin _ _ _ _ e0_7, ldrowX fin _ _ _ _ e1_0, ldrowX fin _ _ _ _ e1_1, ldrowX fin _ _ _ _ e1_2, ldrowX fin _ _ _ _ e1_3, ldrowX fin _ _ _ _ e1_4, ldrowX fin _ _ _ _ e1_5, ldrowX fin _ _ _ _ e1_6, ldrowX fin _ _ _ _ e1_7, ldrowX fin _ _ _ _ e2_0, ldrowX fin _ _ _ _ e2_1, ldrowX fin _ _ _ _ e2_2, ldrowX fin _ _ _ _ e2_3, ldrowX fin _ _ _ _ e2_4, ldrowX fin _ _ _ _ e2_5, ldrowX fin _ _ _ _ e2_6, ldrowX fin _ _ _ _ e2_7, ldrowX fin _ _ _ _ e3_0, ldrowX fin _ _ _ _ e3_1, ldrowX fin _ _ _ _ e3_2, ldrowX fin _ _ _ _ e3_3, ldrowX fin _ _ _ _ e3_4, ldrowX fin _ _ _ _ e3_5, ldrowX fin _ _ _ _ e3_6, ldrowX fin _ _ _ _ e3_7, ldrowX fin _ _ _ _ e4_0, ldrowX fin _ _ _ _ e4_1, ldrowX fin _ _ _ _ e4_2, ldrowX fin _ _ _ _ e4_3, ldrowX fin _ _ _ _ e4_4, ldrowX fin _ _ _ _ e4_5, ldrowX fin _ _ _ _ e4_6, ldrowX fin _ _ _ _ e4_7, ldrowX fin _ _ _ _ e5_0, ldrowX fin _ _ _ _ e5_1, ldrowX fin _ _ _ _ e5_2, ldrowX fin _ _ _ _ e5_3, ldrowX fin _ _ _ _ e5_4, ldrowX fin _ _ _ _ e5_5, ldrowX fin _ _ _ _ e5_6, ldrowX fin _ _ _ _ e5_7, ldrowX fin _ _ _ _ e6_0, ldrowX fin _ _ _ _ e6_1, ldrowX fin _ _ _ _ e6_2, ldrowX fin _ _ _ _ e6_3, ldrowX fin _ _ _ _ e6_4, ldrowX fin _ _ _ _ e6_5, ldrowX fin _ _ _ _ e6_6, ldrowX fin _ _ _ _ e6_7, ldrowX fin _ _ _ _ e7_0, ldrowX fin _ _ _ _ e7_1, ldrowX fin _ _ _ _ e7_2, ldrowX fin _ _ _ _ e7_3, ldrowX fin _ _ _ _ e7_4, ldrowX fin _ _ _ _ e7_5, ldrowX fin _ _ _ _ e7_6, ldrowX fin _ _ _ _ e7_7,
      ldrowU fu _ _ _ u0, ldrowU fu _ _ _ u1, ldrowU fu _ _ _ u2, ldrowU fu _ _ _ u3, ldrowU fu _ _ _ u4, ldrowU fu _ _ _ u5, ldrowU fu _ _ _ u6, ldrowU fu _ _ _ u7]
    rw [show 8 * (k.val + 1) = 8 * k.val + 7 + 1 from by omega]
    simp only [accVec_succ]
    rfl
  isplitl [H0] <;> iassumption

/-- Before pass `k`: the first `128 k` columns of the out buffer are done. -/
def I2 (fin : FVec F S64x768 .f32) (fu : FVec F S64x16 .f32) (k : ℕ) (_ : BitVec 32) : sProp 𝕄 :=
  iprop(((b0).view.loc (V d (cV L) (jV L)) ↦{fullShare} fin) ∗ ((b4).view.loc (V d (cV L) (jV L)) ↦{fullShare} fu)
    ∗ ∃ fo : FVec F S768 .f32, ((b2).view.loc (V d (cV L) (jV L)) ↦{fullShare} fo) ∗ ⌜∀ q : S768.Idx, (q 0).val < 128 * k → fo q = outG fin fu q⌝)

set_option maxHeartbeats 4000000 in
set_option maxRecDepth 65536 in
/-- One pass: the eight accumulators run over all 64 rows from zero and are stored at columns 128 p + 16 g. -/
theorem t2_trip (fin : FVec F S64x768 .f32) (fu : FVec F S64x16 .f32) (v1 : BitVec 32) (jp : Fin k0_t1_loop.trips)
    (p : Fin k0_t2_loop.trips) (a : BitVec 32) :
    I2 d L fin fu p.val a
      ⊢ wp frame (wpE (defs₀ (F := F)) 𝒱₀ (V d (cV L) (jV L)) none) Set.univ
          (k0_t2_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 v1 0#32 1#32 jp p a) (I2 d L fin fu (p.val + 1)) := by
  have s0 : k0_off7 p 0#32 = ![128 * p.val + 0] := k0_off7_eq p ⟨0, by decide⟩
  have s1 : k0_off7 p 16#32 = ![128 * p.val + 16] := k0_off7_eq p ⟨1, by decide⟩
  have s2 : k0_off7 p 32#32 = ![128 * p.val + 32] := k0_off7_eq p ⟨2, by decide⟩
  have s3 : k0_off7 p 48#32 = ![128 * p.val + 48] := k0_off7_eq p ⟨3, by decide⟩
  have s4 : k0_off7 p 64#32 = ![128 * p.val + 64] := k0_off7_eq p ⟨4, by decide⟩
  have s5 : k0_off7 p 80#32 = ![128 * p.val + 80] := k0_off7_eq p ⟨5, by decide⟩
  have s6 : k0_off7 p 96#32 = ![128 * p.val + 96] := k0_off7_eq p ⟨6, by decide⟩
  have s7 : k0_off7 p 112#32 = ![128 * p.val + 112] := k0_off7_eq p ⟨7, by decide⟩
  unfold I2 k0_t2_body
  iintro ⟨H0, H4, %fo, H2, %hfo⟩
  sl_exec
  sl_for (I3 d L fin fu p) $$ [H0 H4]
  case region => exact fun k acc => t3_trip d L fin fu p _ k acc
  · unfold I3
    isplitr
    · ipureintro; rfl
    isplitl [H0] <;> iassumption
  iintro %acc HI
  unfold I3
  icases HI with ⟨%hacc, H0, H4⟩
  subst hacc
  sl_exec
  sl_step
  isplitl [H0]; · iexact H0
  isplitl [H4]; · iexact H4
  iexists _
  isplitl [H2]; · iexact H2
  ipureintro
  exact out_pass fin fu fo p.val p.isLt _ _ _ s0 rfl _ _ _ s1 rfl _ _ _ s2 rfl _ _ _ s3 rfl _ _ _ s4 rfl _ _ _ s5 rfl _ _ _ s6 rfl _ _ _ s7 rfl hfo

/-! ## The subcore's columns of the result, chunk by chunk -/

/-- Chunk `2 jp + b` of the result as the task addresses it when it copies an out buffer there. -/
abbrev oSl (jp : Fin k0_t1_loop.trips) (b : Fin 2) : Memref sig .scVector .hbm S768 .f32 :=
  oM.slice (Rect.unit (s := S196608) (k0_off8 L jp (BitVec.ofNat 32 b.val)) S768.size (k0_off8_inb L jp b)) (fun _ => rfl)

/-- The chunks of subcore `(c, s)` not yet started before trip `k`: chunks `j ≥ 2 k`. -/
def todoSet (c : Fin 2) (s : Fin 16) (k : ℕ) : Finset S196608.Idx :=
  Finset.univ.filter fun n => (n 0).val / 768 % 32 = 2 * s.val + c.val ∧ 2 * k ≤ (n 0).val / 768 / 32
/-- The chunks finished and waited for before trip `k`: chunks `j + 2 < 2 k`. -/
def doneSet (c : Fin 2) (s : Fin 16) (k : ℕ) : Finset S196608.Idx :=
  Finset.univ.filter fun n => (n 0).val / 768 % 32 = 2 * s.val + c.val ∧ (n 0).val / 768 / 32 + 2 < 2 * k

omit [FloatOps F] in
theorem trips1 : k0_t1_loop.trips = 4 := by decide

omit [FloatOps F] in
theorem set_oSl (jp : Fin k0_t1_loop.trips) (b : Fin 2) :
    (oSl L jp b).view.set = chunkSet (cL L) (sL L) ⟨2 * jp.val + b.val, by have := jp.isLt; have : jp.val < 4 := this; omega⟩ := by
  show ((View.whole (main_v4_scv : Ref sig .scVector)).slice (Rect.unit (s := S196608) (k0_off8 L jp (BitVec.ofNat 32 b.val)) S768.size (k0_off8_inb L jp b))).set = _
  rw [View.set_slice]
  refine Finset.map_refl.trans ?_
  ext n
  rw [Rect.mem_set_unit, k0_off8_eq]
  have hn : (n 0).val < 196608 := (n 0).isLt
  have hc : (L 0).val < 2 := (L 0).isLt
  have hs : (L 1).val < 16 := (L 1).isLt
  have hj : jp.val < 4 := jp.isLt
  have hb := b.isLt
  simp only [chunkSet, Finset.mem_filter, Finset.mem_univ, true_and, Fin.val_cast]
  constructor
  · intro h
    have h0 := h 0
    simp only [Matrix.cons_val_zero, Matrix.cons_val_fin_one] at h0
    have h1 : (1536 * (L 1).val + 768 * (L 0).val + 49152 * jp.val + 24576 * b.val) + 768 > (n 0).val := h0.2
    have h2 : 1536 * (L 1).val + 768 * (L 0).val + 49152 * jp.val + 24576 * b.val ≤ (n 0).val := h0.1
    omega
  · intro h a
    match a with
    | ⟨0, _⟩ =>
      simp only [Matrix.cons_val_zero, Matrix.cons_val_fin_one]
      refine ⟨?_, ?_⟩
      · show 1536 * (L 1).val + 768 * (L 0).val + 49152 * jp.val + 24576 * b.val ≤ (n 0).val; omega
      · show (n 0).val < 1536 * (L 1).val + 768 * (L 0).val + 49152 * jp.val + 24576 * b.val + 768; omega

omit [FloatOps F] in
theorem todoSet_zero (c : Fin 2) (s : Fin 16) : todoSet c s 0 = tileSet c s := by
  ext n; simp [todoSet, tileSet]

omit [FloatOps F] in
theorem chunk_sub_todo (c : Fin 2) (s : Fin 16) (k : ℕ) (j : Fin 8) (hj : 2 * k ≤ j.val) : chunkSet c s j ⊆ todoSet c s k := by
  intro n; simp only [chunkSet, todoSet, Finset.mem_filter, Finset.mem_univ, true_and]; intro h
  have := c.isLt; have := s.isLt; omega

omit [FloatOps F] in
theorem todo_sdiff (c : Fin 2) (s : Fin 16) (k : ℕ) (j0 j1 : Fin 8) (h0 : j0.val = 2 * k) (h1 : j1.val = 2 * k + 1) :
    (todoSet c s k \ chunkSet c s j0) \ chunkSet c s j1 = todoSet c s (k + 1) := by
  ext n; simp only [chunkSet, todoSet, Finset.mem_sdiff, Finset.mem_filter, Finset.mem_univ, true_and]
  have := c.isLt; have := s.isLt; omega

/-! ## From the buffers to the table and the specification -/

theorem accUpTo_congr (X : FVec F S64x1000000 .f32) (Uc : FVec F S64x16 .f32) {n n' : Fin 1000000} {l l' : Fin 16} (k : ℕ)
    (h1 : n.val = n'.val) (h2 : l.val = l'.val) : accUpTo X Uc n l k = accUpTo X Uc n' l' k := by
  obtain rfl := Fin.ext h1; obtain rfl := Fin.ext h2; rfl

/-- The lane vectors of the pass are, lane by lane, the specification's running accumulators. -/
theorem accVec_apply (X : FVec F S64x1000000 .f32) (Uc : FVec F S64x16 .f32) (c : Fin 2) (s : Fin 16) (j : Fin 8)
    (fin : FVec F S64x768 .f32) (hin : InOK X c s j fin) (q0 x : ℕ) (hx : x < 16) (hq : q0 + x < 768) :
    ∀ k, k ≤ 64 → accVec fin Uc q0 k (ix1 ⟨x, hx⟩) = accQ X Uc c s j ⟨q0 + x, hq⟩ ⟨x, hx⟩ k
  | 0, _ => rfl
  | k + 1, hk => by
    have hk' : k < 64 := by omega
    rw [accVec_succ, accQ_succ X Uc c s j _ _ fin hin k ⟨k, hk'⟩ rfl, ← accVec_apply X Uc c s j fin hin q0 x hx hq k (by omega)]
    show FloatOps.addf _ (FloatOps.mulf (rowX fin k q0 (ix1 ⟨x, hx⟩)) (rowU Uc k (ix1 ⟨x, hx⟩))) = _
    unfold rowX rowU
    rw [dif_pos ⟨hk', hq⟩, dif_pos hk']

/-- A finished out buffer holds, column by column, what the specification puts at the chunk's columns. -/
theorem outG_scOut (X : FVec F S64x1000000 .f32) (Uc : FVec F S64x16 .f32) (c : Fin 2) (s : Fin 16) (j : Fin 8)
    (fin : FVec F S64x768 .f32) (hin : InOK X c s j fin) (q : S768.Idx) (n : S196608.Idx)
    (hn : (n 0).val = 768 * (2 * s.val + c.val + 32 * j.val) + (q 0).val) :
    outG fin Uc q = scOut X Uc n := by
  have hq : (q 0).val < 768 := (q 0).isLt
  unfold outG scOut
  rw [accVec_apply X Uc c s j fin hin (16 * ((q 0).val / 16)) ((q 0).val % 16) (Nat.mod_lt _ (by decide)) (by omega) 64 (le_refl _)]
  unfold accQ colG
  exact accUpTo_congr X Uc 64 (by show 768 * (2 * s.val + c.val + 32 * j.val) + (16 * ((q 0).val / 16) + (q 0).val % 16) = (n 0).val; omega) (by show (q 0).val % 16 = (n 0).val % 16; omega)

/-- A chunk of the table copied whole into an input buffer is that chunk. -/
theorem InOK_slice (c : Fin 2) (s : Fin 16) (j : Fin 8) (off : Fin 2 → ℕ) (inb : ∀ a, off a + S64x768.size a ≤ S64x1000000.size a)
    (h : off = ![0, 768 * (2 * s.val + c.val + 32 * j.val)]) (X : FVec F S64x1000000 .f32) :
    InOK X c s j ((xM.slice (Rect.unit (s := S64x1000000) off S64x768.size inb) (fun _ => rfl)).view.read (Elt F) X) := by
  subst h
  intro r q
  show X _ = X _
  congr 1; funext a; apply Fin.ext
  match a with
  | ⟨0, _⟩ => show 0 + 1 * r.val = r.val; omega
  | ⟨1, _⟩ => show 768 * (2 * s.val + c.val + 32 * j.val) + 1 * q.val = colG c s j.val q.val; unfold colG; omega
/-- The same for the second input buffer: is that row as a lane vector. -/
theorem ldrowX1 (fin : FVec F S64x768 .f32) (off : Fin 2 → ℕ) (inb : ∀ a, off a + S1x16.size a ≤ S64x768.size a) (r q0 : ℕ) (h : off = ![r, q0]) :
    shapeCast S16 (View.readAt (Elt F) (b1).view (Rect.unit (s := S64x768) off S1x16.size inb).toLoadRect fin) shapeCasts_S1x16_S16 = rowX fin r q0 := by
  subst h
  funext l
  have h0 : r + 1 ≤ 64 := inb 0
  have h1 : q0 + 16 ≤ 768 := inb 1
  have hl : (l 0).val < 16 := (l 0).isLt
  unfold rowX
  rw [dif_pos ⟨by omega, by omega⟩]
  rw [shapeCast_apply _ _ l (ix2 0 ⟨(l 0).val, hl⟩) (by simp [Shape.rowMajor_val_two, Shape.rowMajor_val_one])]
  show fin _ = fin _
  congr 1; funext a; apply Fin.ext
  match a with
  | ⟨0, _⟩ => show r + 1 * 0 = r; omega
  | ⟨1, _⟩ => show q0 + 1 * (l 0).val = q0 + (l 0).val; omega

/-- After pass `P` the first `128 (P + 1)` columns of the out buffer are done. -/
theorem out_pass1 (fin : FVec F S64x768 .f32) (fu : FVec F S64x16 .f32) (fo : FVec F S768 .f32) (P : ℕ) (hP : P < 6)
    (o0 : Fin 1 → ℕ) (i0 : ∀ a, o0 a + S16.size a ≤ S768.size a) (w0 : FVec F S16 .f32) (ho0 : o0 = ![128 * P + 0]) (hw0 : w0 = accVec fin fu (128 * P + 0) 64)
    (o1 : Fin 1 → ℕ) (i1 : ∀ a, o1 a + S16.size a ≤ S768.size a) (w1 : FVec F S16 .f32) (ho1 : o1 = ![128 * P + 16]) (hw1 : w1 = accVec fin fu (128 * P + 16) 64)
    (o2 : Fin 1 → ℕ) (i2 : ∀ a, o2 a + S16.size a ≤ S768.size a) (w2 : FVec F S16 .f32) (ho2 : o2 = ![128 * P + 32]) (hw2 : w2 = accVec fin fu (128 * P + 32) 64)
    (o3 : Fin 1 → ℕ) (i3 : ∀ a, o3 a + S16.size a ≤ S768.size a) (w3 : FVec F S16 .f32) (ho3 : o3 = ![128 * P + 48]) (hw3 : w3 = accVec fin fu (128 * P + 48) 64)
    (o4 : Fin 1 → ℕ) (i4 : ∀ a, o4 a + S16.size a ≤ S768.size a) (w4 : FVec F S16 .f32) (ho4 : o4 = ![128 * P + 64]) (hw4 : w4 = accVec fin fu (128 * P + 64) 64)
    (o5 : Fin 1 → ℕ) (i5 : ∀ a, o5 a + S16.size a ≤ S768.size a) (w5 : FVec F S16 .f32) (ho5 : o5 = ![128 * P + 80]) (hw5 : w5 = accVec fin fu (128 * P + 80) 64)
    (o6 : Fin 1 → ℕ) (i6 : ∀ a, o6 a + S16.size a ≤ S768.size a) (w6 : FVec F S16 .f32) (ho6 : o6 = ![128 * P + 96]) (hw6 : w6 = accVec fin fu (128 * P + 96) 64)
    (o7 : Fin 1 → ℕ) (i7 : ∀ a, o7 a + S16.size a ≤ S768.size a) (w7 : FVec F S16 .f32) (ho7 : o7 = ![128 * P + 112]) (hw7 : w7 = accVec fin fu (128 * P + 112) 64)
    (hfo : ∀ q : S768.Idx, (q 0).val < 128 * P → fo q = outG fin fu q) :
    ∀ q : S768.Idx, (q 0).val < 128 * (P + 1) →
      (b3).view.read (Elt F) ((b3).view.writes (Elt F) fo [⟨Rect.unit (s := S768) o7 S16.size i7, w7⟩, ⟨Rect.unit (s := S768) o6 S16.size i6, w6⟩, ⟨Rect.unit (s := S768) o5 S16.size i5, w5⟩, ⟨Rect.unit (s := S768) o4 S16.size i4, w4⟩, ⟨Rect.unit (s := S768) o3 S16.size i3, w3⟩, ⟨Rect.unit (s := S768) o2 S16.size i2, w2⟩, ⟨Rect.unit (s := S768) o1 S16.size i1, w1⟩, ⟨Rect.unit (s := S768) o0 S16.size i0, w0⟩]) q = outG fin fu q := by
  subst ho0 hw0 ho1 hw1 ho2 hw2 ho3 hw3 ho4 hw4 ho5 hw5 ho6 hw6 ho7 hw7
  intro q hq
  refine writes_cons_step _ _ _ _ _ _ q (fun x => (congrArg (accVec fin fu (128 * P + 112) 64) (ValueIdx.eq_ix1 x)).trans (outG_at fin fu _ (128 * P + 112) (x 0).val (x 0).isLt (by omega) (by show (128 * P + 112) + 1 * (x 0).val = 128 * P + 112 + (x 0).val; omega)).symm) (fun h7 => ?_)
  rw [mem_unit16] at h7; simp only [Matrix.cons_val_zero, Matrix.cons_val_fin_one] at h7
  refine writes_cons_step _ _ _ _ _ _ q (fun x => (congrArg (accVec fin fu (128 * P + 96) 64) (ValueIdx.eq_ix1 x)).trans (outG_at fin fu _ (128 * P + 96) (x 0).val (x 0).isLt (by omega) (by show (128 * P + 96) + 1 * (x 0).val = 128 * P + 96 + (x 0).val; omega)).symm) (fun h6 => ?_)
  rw [mem_unit16] at h6; simp only [Matrix.cons_val_zero, Matrix.cons_val_fin_one] at h6
  refine writes_cons_step _ _ _ _ _ _ q (fun x => (congrArg (accVec fin fu (128 * P + 80) 64) (ValueIdx.eq_ix1 x)).trans (outG_at fin fu _ (128 * P + 80) (x 0).val (x 0).isLt (by omega) (by show (128 * P + 80) + 1 * (x 0).val = 128 * P + 80 + (x 0).val; omega)).symm) (fun h5 => ?_)
  rw [mem_unit16] at h5; simp only [Matrix.cons_val_zero, Matrix.cons_val_fin_one] at h5
  refine writes_cons_step _ _ _ _ _ _ q (fun x => (congrArg (accVec fin fu (128 * P + 64) 64) (ValueIdx.eq_ix1 x)).trans (outG_at fin fu _ (128 * P + 64) (x 0).val (x 0).isLt (by omega) (by show (128 * P + 64) + 1 * (x 0).val = 128 * P + 64 + (x 0).val; omega)).symm) (fun h4 => ?_)
  rw [mem_unit16] at h4; simp only [Matrix.cons_val_zero, Matrix.cons_val_fin_one] at h4
  refine writes_cons_step _ _ _ _ _ _ q (fun x => (congrArg (accVec fin fu (128 * P + 48) 64) (ValueIdx.eq_ix1 x)).trans (outG_at fin fu _ (128 * P + 48) (x 0).val (x 0).isLt (by omega) (by show (128 * P + 48) + 1 * (x 0).val = 128 * P + 48 + (x 0).val; omega)).symm) (fun h3 => ?_)
  rw [mem_unit16] at h3; simp only [Matrix.cons_val_zero, Matrix.cons_val_fin_one] at h3
  refine writes_cons_step _ _ _ _ _ _ q (fun x => (congrArg (accVec fin fu (128 * P + 32) 64) (ValueIdx.eq_ix1 x)).trans (outG_at fin fu _ (128 * P + 32) (x 0).val (x 0).isLt (by omega) (by show (128 * P + 32) + 1 * (x 0).val = 128 * P + 32 + (x 0).val; omega)).symm) (fun h2 => ?_)
  rw [mem_unit16] at h2; simp only [Matrix.cons_val_zero, Matrix.cons_val_fin_one] at h2
  refine writes_cons_step _ _ _ _ _ _ q (fun x => (congrArg (accVec fin fu (128 * P + 16) 64) (ValueIdx.eq_ix1 x)).trans (outG_at fin fu _ (128 * P + 16) (x 0).val (x 0).isLt (by omega) (by show (128 * P + 16) + 1 * (x 0).val = 128 * P + 16 + (x 0).val; omega)).symm) (fun h1 => ?_)
  rw [mem_unit16] at h1; simp only [Matrix.cons_val_zero, Matrix.cons_val_fin_one] at h1
  refine writes_cons_step _ _ _ _ _ _ q (fun x => (congrArg (accVec fin fu (128 * P + 0) 64) (ValueIdx.eq_ix1 x)).trans (outG_at fin fu _ (128 * P + 0) (x 0).val (x 0).isLt (by omega) (by show (128 * P + 0) + 1 * (x 0).val = 128 * P + 0 + (x 0).val; omega)).symm) (fun h0 => ?_)
  rw [mem_unit16] at h0; simp only [Matrix.cons_val_zero, Matrix.cons_val_fin_one] at h0
  exact hfo q (by omega)

/-- What the inner loop of a pass carries and reads: the eight accumulators after the first `8 k` rows, the input
    buffer and the user buffer. -/
def I31 (fin : FVec F S64x768 .f32) (fu : FVec F S64x16 .f32) (p : Fin k0_t4_loop.trips) (k : ℕ) (acc : FVec F S16 .f32 × FVec F S16 .f32 × FVec F S16 .f32 × FVec F S16 .f32 × FVec F S16 .f32 × FVec F S16 .f32 × FVec F S16 .f32 × FVec F S16 .f32) : sProp 𝕄 :=
  iprop(⌜acc = (accVec fin fu (128 * p.val + 0) (8 * k), accVec fin fu (128 * p.val + 16) (8 * k), accVec fin fu (128 * p.val + 32) (8 * k), accVec fin fu (128 * p.val + 48) (8 * k), accVec fin fu (128 * p.val + 64) (8 * k), accVec fin fu (128 * p.val + 80) (8 * k), accVec fin fu (128 * p.val + 96) (8 * k), accVec fin fu (128 * p.val + 112) (8 * k))⌝
    ∗ ((b1).view.loc (V d (cV L) (jV L)) ↦{fullShare} fin) ∗ ((b4).view.loc (V d (cV L) (jV L)) ↦{fullShare} fu))

set_option maxHeartbeats 4000000 in
set_option maxRecDepth 65536 in
/-- One block of eight table rows: each accumulator takes its eight steps acc + x_r · u_r. -/
theorem t3_trip1 (fin : FVec F S64x768 .f32) (fu : FVec F S64x16 .f32) (p : Fin k0_t4_loop.trips) (v60 : BitVec 32)
    (k : Fin k0_t5_loop.trips) (acc : FVec F S16 .f32 × FVec F S16 .f32 × FVec F S16 .f32 × FVec F S16 .f32 × FVec F S16 .f32 × FVec F S16 .f32 × FVec F S16 .f32 × FVec F S16 .f32) :
    I31 d L fin fu p k.val acc
      ⊢ wp frame (wpE (defs₀ (F := F)) 𝒱₀ (V d (cV L) (jV L)) none) Set.univ
          (k0_t5_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 0#32 1#32 p v60 k acc) (I31 d L fin fu p (k.val + 1)) := by
  have e0_0 : k0_off12 p k 0#32 0#32 = ![8 * k.val + 0, 128 * p.val + 0] := k0_off12_eq p k ⟨0, by decide⟩ ⟨0, by decide⟩
  have e0_1 : k0_off12 p k 0#32 16#32 = ![8 * k.val + 0, 128 * p.val + 16] := k0_off12_eq p k ⟨0, by decide⟩ ⟨1, by decide⟩
  have e0_2 : k0_off12 p k 0#32 32#32 = ![8 * k.val + 0, 128 * p.val + 32] := k0_off12_eq p k ⟨0, by decide⟩ ⟨2, by decide⟩
  have e0_3 : k0_off12 p k 0#32 48#32 = ![8 * k.val + 0, 128 * p.val + 48] := k0_off12_eq p k ⟨0, by decide⟩ ⟨3, by decide⟩
  have e0_4 : k0_off12 p k 0#32 64#32 = ![8 * k.val + 0, 128 * p.val + 64] := k0_off12_eq p k ⟨0, by decide⟩ ⟨4, by decide⟩
  have e0_5 : k0_off12 p k 0#32 80#32 = ![8 * k.val + 0, 128 * p.val + 80] := k0_off12_eq p k ⟨0, by decide⟩ ⟨5, by decide⟩
  have e0_6 : k0_off12 p k 0#32 96#32 = ![8 * k.val + 0, 128 * p.val + 96] := k0_off12_eq p k ⟨0, by decide⟩ ⟨6, by decide⟩
  have e0_7 : k0_off12 p k 0#32 112#32 = ![8 * k.val + 0, 128 * p.val + 112] := k0_off12_eq p k ⟨0, by decide⟩ ⟨7, by decide⟩
  have e1_0 : k0_off12 p k 1#32 0#32 = ![8 * k.val + 1, 128 * p.val + 0] := k0_off12_eq p k ⟨1, by decide⟩ ⟨0, by decide⟩
  have e1_1 : k0_off12 p k 1#32 16#32 = ![8 * k.val + 1, 128 * p.val + 16] := k0_off12_eq p k ⟨1, by decide⟩ ⟨1, by decide⟩
  have e1_2 : k0_off12 p k 1#32 32#32 = ![8 * k.val + 1, 128 * p.val + 32] := k0_off12_eq p k ⟨1, by decide⟩ ⟨2, by decide⟩
  have e1_3 : k0_off12 p k 1#32 48#32 = ![8 * k.val + 1, 128 * p.val + 48] := k0_off12_eq p k ⟨1, by decide⟩ ⟨3, by decide⟩
  have e1_4 : k0_off12 p k 1#32 64#32 = ![8 * k.val + 1, 128 * p.val + 64] := k0_off12_eq p k ⟨1, by decide⟩ ⟨4, by decide⟩
  have e1_5 : k0_off12 p k 1#32 80#32 = ![8 * k.val + 1, 128 * p.val + 80] := k0_off12_eq p k ⟨1, by decide⟩ ⟨5, by decide⟩
  have e1_6 : k0_off12 p k 1#32 96#32 = ![8 * k.val + 1, 128 * p.val + 96] := k0_off12_eq p k ⟨1, by decide⟩ ⟨6, by decide⟩
  have e1_7 : k0_off12 p k 1#32 112#32 = ![8 * k.val + 1, 128 * p.val + 112] := k0_off12_eq p k ⟨1, by decide⟩ ⟨7, by decide⟩
  have e2_0 : k0_off12 p k 2#32 0#32 = ![8 * k.val + 2, 128 * p.val + 0] := k0_off12_eq p k ⟨2, by decide⟩ ⟨0, by decide⟩
  have e2_1 : k0_off12 p k 2#32 16#32 = ![8 * k.val + 2, 128 * p.val + 16] := k0_off12_eq p k ⟨2, by decide⟩ ⟨1, by decide⟩
  have e2_2 : k0_off12 p k 2#32 32#32 = ![8 * k.val + 2, 128 * p.val + 32] := k0_off12_eq p k ⟨2, by decide⟩ ⟨2, by decide⟩
  have e2_3 : k0_off12 p k 2#32 48#32 = ![8 * k.val + 2, 128 * p.val + 48] := k0_off12_eq p k ⟨2, by decide⟩ ⟨3, by decide⟩
  have e2_4 : k0_off12 p k 2#32 64#32 = ![8 * k.val + 2, 128 * p.val + 64] := k0_off12_eq p k ⟨2, by decide⟩ ⟨4, by decide⟩
  have e2_5 : k0_off12 p k 2#32 80#32 = ![8 * k.val + 2, 128 * p.val + 80] := k0_off12_eq p k ⟨2, by decide⟩ ⟨5, by decide⟩
  have e2_6 : k0_off12 p k 2#32 96#32 = ![8 * k.val + 2, 128 * p.val + 96] := k0_off12_eq p k ⟨2, by decide⟩ ⟨6, by decide⟩
  have e2_7 : k0_off12 p k 2#32 112#32 = ![8 * k.val + 2, 128 * p.val + 112] := k0_off12_eq p k ⟨2, by decide⟩ ⟨7, by decide⟩
  have e3_0 : k0_off12 p k 3#32 0#32 = ![8 * k.val + 3, 128 * p.val + 0] := k0_off12_eq p k ⟨3, by decide⟩ ⟨0, by decide⟩
  have e3_1 : k0_off12 p k 3#32 16#32 = ![8 * k.val + 3, 128 * p.val + 16] := k0_off12_eq p k ⟨3, by decide⟩ ⟨1, by decide⟩
  have e3_2 : k0_off12 p k 3#32 32#32 = ![8 * k.val + 3, 128 * p.val + 32] := k0_off12_eq p k ⟨3, by decide⟩ ⟨2, by decide⟩
  have e3_3 : k0_off12 p k 3#32 48#32 = ![8 * k.val + 3, 128 * p.val + 48] := k0_off12_eq p k ⟨3, by decide⟩ ⟨3, by decide⟩
  have e3_4 : k0_off12 p k 3#32 64#32 = ![8 * k.val + 3, 128 * p.val + 64] := k0_off12_eq p k ⟨3, by decide⟩ ⟨4, by decide⟩
  have e3_5 : k0_off12 p k 3#32 80#32 = ![8 * k.val + 3, 128 * p.val + 80] := k0_off12_eq p k ⟨3, by decide⟩ ⟨5, by decide⟩
  have e3_6 : k0_off12 p k 3#32 96#32 = ![8 * k.val + 3, 128 * p.val + 96] := k0_off12_eq p k ⟨3, by decide⟩ ⟨6, by decide⟩
  have e3_7 : k0_off12 p k 3#32 112#32 = ![8 * k.val + 3, 128 * p.val + 112] := k0_off12_eq p k ⟨3, by decide⟩ ⟨7, by decide⟩
  have e4_0 : k0_off12 p k 4#32 0#32 = ![8 * k.val + 4, 128 * p.val + 0] := k0_off12_eq p k ⟨4, by decide⟩ ⟨0, by decide⟩
  have e4_1 : k0_off12 p k 4#32 16#32 = ![8 * k.val + 4, 128 * p.val + 16] := k0_off12_eq p k ⟨4, by decide⟩ ⟨1, by decide⟩
  have e4_2 : k0_off12 p k 4#32 32#32 = ![8 * k.val + 4, 128 * p.val + 32] := k0_off12_eq p k ⟨4, by decide⟩ ⟨2, by decide⟩
  have e4_3 : k0_off12 p k 4#32 48#32 = ![8 * k.val + 4, 128 * p.val + 48] := k0_off12_eq p k ⟨4, by decide⟩ ⟨3, by decide⟩
  have e4_4 : k0_off12 p k 4#32 64#32 = ![8 * k.val + 4, 128 * p.val + 64] := k0_off12_eq p k ⟨4, by decide⟩ ⟨4, by decide⟩
  have e4_5 : k0_off12 p k 4#32 80#32 = ![8 * k.val + 4, 128 * p.val + 80] := k0_off12_eq p k ⟨4, by decide⟩ ⟨5, by decide⟩
  have e4_6 : k0_off12 p k 4#32 96#32 = ![8 * k.val + 4, 128 * p.val + 96] := k0_off12_eq p k ⟨4, by decide⟩ ⟨6, by decide⟩
  have e4_7 : k0_off12 p k 4#32 112#32 = ![8 * k.val + 4, 128 * p.val + 112] := k0_off12_eq p k ⟨4, by decide⟩ ⟨7, by decide⟩
  have e5_0 : k0_off12 p k 5#32 0#32 = ![8 * k.val + 5, 128 * p.val + 0] := k0_off12_eq p k ⟨5, by decide⟩ ⟨0, by decide⟩
  have e5_1 : k0_off12 p k 5#32 16#32 = ![8 * k.val + 5, 128 * p.val + 16] := k0_off12_eq p k ⟨5, by decide⟩ ⟨1, by decide⟩
  have e5_2 : k0_off12 p k 5#32 32#32 = ![8 * k.val + 5, 128 * p.val + 32] := k0_off12_eq p k ⟨5, by decide⟩ ⟨2, by decide⟩
  have e5_3 : k0_off12 p k 5#32 48#32 = ![8 * k.val + 5, 128 * p.val + 48] := k0_off12_eq p k ⟨5, by decide⟩ ⟨3, by decide⟩
  have e5_4 : k0_off12 p k 5#32 64#32 = ![8 * k.val + 5, 128 * p.val + 64] := k0_off12_eq p k ⟨5, by decide⟩ ⟨4, by decide⟩
  have e5_5 : k0_off12 p k 5#32 80#32 = ![8 * k.val + 5, 128 * p.val + 80] := k0_off12_eq p k ⟨5, by decide⟩ ⟨5, by decide⟩
  have e5_6 : k0_off12 p k 5#32 96#32 = ![8 * k.val + 5, 128 * p.val + 96] := k0_off12_eq p k ⟨5, by decide⟩ ⟨6, by decide⟩
  have e5_7 : k0_off12 p k 5#32 112#32 = ![8 * k.val + 5, 128 * p.val + 112] := k0_off12_eq p k ⟨5, by decide⟩ ⟨7, by decide⟩
  have e6_0 : k0_off12 p k 6#32 0#32 = ![8 * k.val + 6, 128 * p.val + 0] := k0_off12_eq p k ⟨6, by decide⟩ ⟨0, by decide⟩
  have e6_1 : k0_off12 p k 6#32 16#32 = ![8 * k.val + 6, 128 * p.val + 16] := k0_off12_eq p k ⟨6, by decide⟩ ⟨1, by decide⟩
  have e6_2 : k0_off12 p k 6#32 32#32 = ![8 * k.val + 6, 128 * p.val + 32] := k0_off12_eq p k ⟨6, by decide⟩ ⟨2, by decide⟩
  have e6_3 : k0_off12 p k 6#32 48#32 = ![8 * k.val + 6, 128 * p.val + 48] := k0_off12_eq p k ⟨6, by decide⟩ ⟨3, by decide⟩
  have e6_4 : k0_off12 p k 6#32 64#32 = ![8 * k.val + 6, 128 * p.val + 64] := k0_off12_eq p k ⟨6, by decide⟩ ⟨4, by decide⟩
  have e6_5 : k0_off12 p k 6#32 80#32 = ![8 * k.val + 6, 128 * p.val + 80] := k0_off12_eq p k ⟨6, by decide⟩ ⟨5, by decide⟩
  have e6_6 : k0_off12 p k 6#32 96#32 = ![8 * k.val + 6, 128 * p.val + 96] := k0_off12_eq p k ⟨6, by decide⟩ ⟨6, by decide⟩
  have e6_7 : k0_off12 p k 6#32 112#32 = ![8 * k.val + 6, 128 * p.val + 112] := k0_off12_eq p k ⟨6, by decide⟩ ⟨7, by decide⟩
  have e7_0 : k0_off12 p k 7#32 0#32 = ![8 * k.val + 7, 128 * p.val + 0] := k0_off12_eq p k ⟨7, by decide⟩ ⟨0, by decide⟩
  have e7_1 : k0_off12 p k 7#32 16#32 = ![8 * k.val + 7, 128 * p.val + 16] := k0_off12_eq p k ⟨7, by decide⟩ ⟨1, by decide⟩
  have e7_2 : k0_off12 p k 7#32 32#32 = ![8 * k.val + 7, 128 * p.val + 32] := k0_off12_eq p k ⟨7, by decide⟩ ⟨2, by decide⟩
  have e7_3 : k0_off12 p k 7#32 48#32 = ![8 * k.val + 7, 128 * p.val + 48] := k0_off12_eq p k ⟨7, by decide⟩ ⟨3, by decide⟩
  have e7_4 : k0_off12 p k 7#32 64#32 = ![8 * k.val + 7, 128 * p.val + 64] := k0_off12_eq p k ⟨7, by decide⟩ ⟨4, by decide⟩
  have e7_5 : k0_off12 p k 7#32 80#32 = ![8 * k.val + 7, 128 * p.val + 80] := k0_off12_eq p k ⟨7, by decide⟩ ⟨5, by decide⟩
  have e7_6 : k0_off12 p k 7#32 96#32 = ![8 * k.val + 7, 128 * p.val + 96] := k0_off12_eq p k ⟨7, by decide⟩ ⟨6, by decide⟩
  have e7_7 : k0_off12 p k 7#32 112#32 = ![8 * k.val + 7, 128 * p.val + 112] := k0_off12_eq p k ⟨7, by decide⟩ ⟨7, by decide⟩
  have u0 : k0_off11 k 0#32 = ![8 * k.val + 0, 0] := k0_off11_eq k ⟨0, by decide⟩
  have u1 : k0_off11 k 1#32 = ![8 * k.val + 1, 0] := k0_off11_eq k ⟨1, by decide⟩
  have u2 : k0_off11 k 2#32 = ![8 * k.val + 2, 0] := k0_off11_eq k ⟨2, by decide⟩
  have u3 : k0_off11 k 3#32 = ![8 * k.val + 3, 0] := k0_off11_eq k ⟨3, by decide⟩
  have u4 : k0_off11 k 4#32 = ![8 * k.val + 4, 0] := k0_off11_eq k ⟨4, by decide⟩
  have u5 : k0_off11 k 5#32 = ![8 * k.val + 5, 0] := k0_off11_eq k ⟨5, by decide⟩
  have u6 : k0_off11 k 6#32 = ![8 * k.val + 6, 0] := k0_off11_eq k ⟨6, by decide⟩
  have u7 : k0_off11 k 7#32 = ![8 * k.val + 7, 0] := k0_off11_eq k ⟨7, by decide⟩
  unfold I31 k0_t5_body
  iintro ⟨%hacc, H0, H4⟩
  subst hacc
  sl_exec
  sl_step
  isplitr
  · ipureintro
    sl_unfold_run_names
    simp only [k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168]
    simp only [ldrowX1 fin _ _ _ _ e0_0, ldrowX1 fin _ _ _ _ e0_1, ldrowX1 fin _ _ _ _ e0_2, ldrowX1 fin _ _ _ _ e0_3, ldrowX1 fin _ _ _ _ e0_4, ldrowX1 fin _ _ _ _ e0_5, ldrowX1 fin _ _ _ _ e0_6, ldrowX1 fin _ _ _ _ e0_7, ldrowX1 fin _ _ _ _ e1_0, ldrowX1 fin _ _ _ _ e1_1, ldrowX1 fin _ _ _ _ e1_2, ldrowX1 fin _ _ _ _ e1_3, ldrowX1 fin _ _ _ _ e1_4, ldrowX1 fin _ _ _ _ e1_5, ldrowX1 fin _ _ _ _ e1_6, ldrowX1 fin _ _ _ _ e1_7, ldrowX1 fin _ _ _ _ e2_0, ldrowX1 fin _ _ _ _ e2_1, ldrowX1 fin _ _ _ _ e2_2, ldrowX1 fin _ _ _ _ e2_3, ldrowX1 fin _ _ _ _ e2_4, ldrowX1 fin _ _ _ _ e2_5, ldrowX1 fin _ _ _ _ e2_6, ldrowX1 fin _ _ _ _ e2_7, ldrowX1 fin _ _ _ _ e3_0, ldrowX1 fin _ _ _ _ e3_1, ldrowX1 fin _ _ _ _ e3_2, ldrowX1 fin _ _ _ _ e3_3, ldrowX1 fin _ _ _ _ e3_4, ldrowX1 fin _ _ _ _ e3_5, ldrowX1 fin _ _ _ _ e3_6, ldrowX1 fin _ _ _ _ e3_7, ldrowX1 fin _ _ _ _ e4_0, ldrowX1 fin _ _ _ _ e4_1, ldrowX1 fin _ _ _ _ e4_2, ldrowX1 fin _ _ _ _ e4_3, ldrowX1 fin _ _ _ _ e4_4, ldrowX1 fin _ _ _ _ e4_5, ldrowX1 fin _ _ _ _ e4_6, ldrowX1 fin _ _ _ _ e4_7, ldrowX1 fin _ _ _ _ e5_0, ldrowX1 fin _ _ _ _ e5_1, ldrowX1 fin _ _ _ _ e5_2, ldrowX1 fin _ _ _ _ e5_3, ldrowX1 fin _ _ _ _ e5_4, ldrowX1 fin _ _ _ _ e5_5, ldrowX1 fin _ _ _ _ e5_6, ldrowX1 fin _ _ _ _ e5_7, ldrowX1 fin _ _ _ _ e6_0, ldrowX1 fin _ _ _ _ e6_1, ldrowX1 fin _ _ _ _ e6_2, ldrowX1 fin _ _ _ _ e6_3, ldrowX1 fin _ _ _ _ e6_4, ldrowX1 fin _ _ _ _ e6_5, ldrowX1 fin _ _ _ _ e6_6, ldrowX1 fin _ _ _ _ e6_7, ldrowX1 fin _ _ _ _ e7_0, ldrowX1 fin _ _ _ _ e7_1, ldrowX1 fin _ _ _ _ e7_2, ldrowX1 fin _ _ _ _ e7_3, ldrowX1 fin _ _ _ _ e7_4, ldrowX1 fin _ _ _ _ e7_5, ldrowX1 fin _ _ _ _ e7_6, ldrowX1 fin _ _ _ _ e7_7,
      ldrowU fu _ _ _ u0, ldrowU fu _ _ _ u1, ldrowU fu _ _ _ u2, ldrowU fu _ _ _ u3, ldrowU fu _ _ _ u4, ldrowU fu _ _ _ u5, ldrowU fu _ _ _ u6, ldrowU fu _ _ _ u7]
    rw [show 8 * (k.val + 1) = 8 * k.val + 7 + 1 from by omega]
    simp only [accVec_succ]
    rfl
  isplitl [H0] <;> iassumption

/-- Before pass `k`: the first `128 k` columns of the out buffer are done. -/
def I21 (fin : FVec F S64x768 .f32) (fu : FVec F S64x16 .f32) (k : ℕ) (_ : BitVec 32) : sProp 𝕄 :=
  iprop(((b1).view.loc (V d (cV L) (jV L)) ↦{fullShare} fin) ∗ ((b4).view.loc (V d (cV L) (jV L)) ↦{fullShare} fu)
    ∗ ∃ fo : FVec F S768 .f32, ((b3).view.loc (V d (cV L) (jV L)) ↦{fullShare} fo) ∗ ⌜∀ q : S768.Idx, (q 0).val < 128 * k → fo q = outG fin fu q⌝)

set_option maxHeartbeats 4000000 in
set_option maxRecDepth 65536 in
/-- One pass: the eight accumulators run over all 64 rows from zero and are stored at columns 128 p + 16 g. -/
theorem t2_trip1 (fin : FVec F S64x768 .f32) (fu : FVec F S64x16 .f32)
    (p : Fin k0_t4_loop.trips) (a : BitVec 32) :
    I21 d L fin fu p.val a
      ⊢ wp frame (wpE (defs₀ (F := F)) 𝒱₀ (V d (cV L) (jV L)) none) Set.univ
          (k0_t4_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0  p a) (I21 d L fin fu (p.val + 1)) := by
  have s0 : k0_off13 p 0#32 = ![128 * p.val + 0] := k0_off13_eq p ⟨0, by decide⟩
  have s1 : k0_off13 p 16#32 = ![128 * p.val + 16] := k0_off13_eq p ⟨1, by decide⟩
  have s2 : k0_off13 p 32#32 = ![128 * p.val + 32] := k0_off13_eq p ⟨2, by decide⟩
  have s3 : k0_off13 p 48#32 = ![128 * p.val + 48] := k0_off13_eq p ⟨3, by decide⟩
  have s4 : k0_off13 p 64#32 = ![128 * p.val + 64] := k0_off13_eq p ⟨4, by decide⟩
  have s5 : k0_off13 p 80#32 = ![128 * p.val + 80] := k0_off13_eq p ⟨5, by decide⟩
  have s6 : k0_off13 p 96#32 = ![128 * p.val + 96] := k0_off13_eq p ⟨6, by decide⟩
  have s7 : k0_off13 p 112#32 = ![128 * p.val + 112] := k0_off13_eq p ⟨7, by decide⟩
  unfold I21 k0_t4_body
  iintro ⟨H0, H4, %fo, H2, %hfo⟩
  sl_exec
  sl_for (I31 d L fin fu p) $$ [H0 H4]
  case region => exact fun k acc => t3_trip1 d L fin fu p _ k acc
  · unfold I31
    isplitr
    · ipureintro; rfl
    isplitl [H0] <;> iassumption
  iintro %acc HI
  unfold I31
  icases HI with ⟨%hacc, H0, H4⟩
  subst hacc
  sl_exec
  sl_step
  isplitl [H0]; · iexact H0
  isplitl [H4]; · iexact H4
  iexists _
  isplitl [H2]; · iexact H2
  ipureintro
  exact out_pass1 fin fu fo p.val p.isLt _ _ _ s0 rfl _ _ _ s1 rfl _ _ _ s2 rfl _ _ _ s3 rfl _ _ _ s4 rfl _ _ _ s5 rfl _ _ _ s6 rfl _ _ _ s7 rfl hfo

/-! ## The loop over pairs of chunks: what is in flight between trips -/

/-- Chunk `2 jp + b` of the table as the task slices it. -/
abbrev iSl (jp : Fin k0_t1_loop.trips) (b : Fin 2) : Memref sig .scVector .hbm S64x768 .f32 :=
  xM.slice (Rect.unit (s := S64x1000000) (k0_off3 L jp (BitVec.ofNat 32 b.val)) S64x768.size (k0_off3_inb L jp b)) (fun _ => rfl)

/-- The two read tokens of the subcore's share of the table, one per input semaphore. -/
abbrev tok (i : Fin 2) : PosShare TreeShare := Transfers.shareTok (qTile (cL L) (sL L)) 2 i

omit [FloatOps F] in
theorem lt_trips1 {k : ℕ} (h : k < 4) : k < k0_t1_loop.trips := trips1 ▸ h

/-- Chunk `2 k` on its way into the first input buffer. -/
def InFlSt (k : ℕ) (h : k < 4) : sProp 𝕄 :=
  iprop(∃ f0 : Buf (Elt F) ((b0).view.loc (V d (cV L) (jV L))),
    Transfers.Flight countersEmb (V d (cV L) (jV L)) (SemLoc.dma cc0_scratch5.sem) (default : HIx 1) 1572864
      iprop(((b0).view.loc (V d (cV L) (jV L)) ↦{fullShare} View.write (Elt F) (b0).view f0 ((iSl L ⟨k, lt_trips1 h⟩ 0).view.read (Elt F) (Xt m d)) Finset.univ)
        ∗ ((xM).view.loc (V d (cV L) (jV L)) ↦[(iSl L ⟨k, lt_trips1 h⟩ 0).view.set]{tok L 0} Xt m d))
    ∗ ((xM).view.loc (V d (cV L) (jV L)) ↦[Finset.univ \ (iSl L ⟨k, lt_trips1 h⟩ 0).view.set]{tok L 0} Xt m d))
/-- The first input buffer idle. -/
def InIdle : sProp 𝕄 :=
  iprop(semVal (cell0 d (cV L) (jV L)) 0 ∗ (∃ f0, (b0).view.loc (V d (cV L) (jV L)) ↦{fullShare} f0) ∗ ((xM).view.loc (V d (cV L) (jV L)) ↦{tok L 0} Xt m d))
/-- The first input buffer before trip `k`: chunk `2 k` is on its way into it, or (after the last trip) it is idle. -/
def InSt (k : ℕ) : sProp 𝕄 := if h : k < 4 then InFlSt m d L k h else InIdle m d L
theorem InSt_lt {k : ℕ} (h : k < 4) : InSt m d L k = InFlSt m d L k h := dif_pos h
theorem InSt_ge {k : ℕ} (h : ¬ k < 4) : InSt m d L k = InIdle m d L := dif_neg h

/-- An out buffer whose copy to chunk `2 jp + b` of the result is on its way: it delivers the chunk at the
    specification and the buffer back. -/
def OutFl (bo : Memref sig .scVector .vmem S768 .f32) (sm : DmaSems sig S_) (jp : Fin k0_t1_loop.trips) (b : Fin 2) : sProp 𝕄 :=
  iprop(∃ fo2 : Buf (Elt F) ((bo).view.loc (V d (cV L) (jV L))),
    Transfers.Flight countersEmb (V d (cV L) (jV L)) (SemLoc.dma sm.sem) (default : HIx 1) 24576
      iprop(((oSl L jp b).view.loc (V d (cV L) (jV L)) ↦[(oSl L jp b).view.set]{fullShare} scOut (Xt m d) (Ubc m d))
        ∗ ((bo).view.loc (V d (cV L) (jV L)) ↦[(bo).view.set]{fullShare} fo2))
    ∗ ((bo).view.loc (V d (cV L) (jV L)) ↦[Finset.univ \ (bo).view.set]{fullShare} fo2))

/-- The two out buffers copying out the chunks of trip `k - 1`. -/
def OutFlSt (k : ℕ) (h : 0 < k ∧ k ≤ 4) : sProp 𝕄 :=
  iprop(OutFl m d L b2 cc0_scratch7 ⟨k - 1, lt_trips1 (by omega)⟩ 0 ∗ OutFl m d L b3 cc0_scratch8 ⟨k - 1, lt_trips1 (by omega)⟩ 1)
/-- The two out buffers idle. -/
def OutIdle : sProp 𝕄 :=
  iprop(semVal (cell2 d (cV L) (jV L)) 0 ∗ (∃ f, (b2).view.loc (V d (cV L) (jV L)) ↦{fullShare} f) ∗ semVal (cell3 d (cV L) (jV L)) 0 ∗ (∃ f, (b3).view.loc (V d (cV L) (jV L)) ↦{fullShare} f))
/-- The two out buffers before trip `k`: idle before the first trip, else copying out the previous trip's chunks. -/
def OutSt (k : ℕ) : sProp 𝕄 := if h : 0 < k ∧ k ≤ 4 then OutFlSt m d L k h else OutIdle d L
theorem OutSt_pos {k : ℕ} (h : 0 < k ∧ k ≤ 4) : OutSt m d L k = OutFlSt m d L k h := dif_pos h
theorem OutSt_neg {k : ℕ} (h : ¬ (0 < k ∧ k ≤ 4)) : OutSt m d L k = OutIdle d L := dif_neg h

/-- The subcore's part of the result before trip `k`: the chunks waited for at the specification, the chunks not yet
    started at some contents. -/
def OmSt (k : ℕ) : sProp 𝕄 :=
  iprop((v4Loc d ↦[doneSet (cL L) (sL L) k]{fullShare} scOut (Xt m d) (Ubc m d)) ∗ ∃ f, v4Loc d ↦[todoSet (cL L) (sL L) k]{fullShare} f)

/-- Before trip `k` of the loop over pairs of chunks. -/
def I1 (O : CellTallies nD τ sig (HIx 1)) (W : Waits sig (HIx 1)) (k : ℕ) (_ : BitVec 32) : sProp 𝕄 :=
  iprop(Transfers.MayWaits (V d (cV L) (jV L)) (default : HIx 1) O ∗ InSt m d L k
    ∗ (semVal (cell1 d (cV L) (jV L)) 0 ∗ (∃ f1, (b1).view.loc (V d (cV L) (jV L)) ↦{fullShare} f1) ∗ ((xM).view.loc (V d (cV L) (jV L)) ↦{tok L 1} Xt m d))
    ∗ OutSt m d L k ∗ ((b4).view.loc (V d (cV L) (jV L)) ↦{fullShare} Ubc m d) ∗ OmSt m d L k
    ∗ ∃ W', ⌜∀ p ∈ W', p ∈ W ∨ p.2 = none⌝ ∗ owes (V d (cV L) (jV L)) O W')

omit [FloatOps F] in
theorem cond_all (k : Fin k0_t1_loop.trips) : k0_cond1 k = 1#1 ∧ (k0_cond2 k = 1#1 ↔ 0 < k.val) ∧ (k0_cond3 k = 1#1 ↔ k.val < 3) ∧ (k0_cond4 k = 1#1 ↔ 0 < k.val) := by
  revert k; decide

omit [FloatOps F] in
theorem sub_todo0 (k : Fin k0_t1_loop.trips) : (oSl L k 0).view.set ⊆ todoSet (cL L) (sL L) k.val := by
  rw [set_oSl]; exact chunk_sub_todo _ _ _ _ (by simp)

omit [FloatOps F] in
theorem sub_todo1 (k : Fin k0_t1_loop.trips) : (oSl L k 1).view.set ⊆ todoSet (cL L) (sL L) k.val \ (oSl L k 0).view.set := by
  rw [set_oSl, set_oSl]
  intro n
  simp only [chunkSet, todoSet, Finset.mem_sdiff, Finset.mem_filter, Finset.mem_univ, true_and]
  have := (cL L).isLt; have := (sL L).isLt; have : k.val < 4 := k.isLt
  intro h; simp at h ⊢; omega

omit [FloatOps F] in
theorem todo_next (k : Fin k0_t1_loop.trips) :
    (todoSet (cL L) (sL L) k.val \ (oSl L k 0).view.set) \ (oSl L k 1).view.set = todoSet (cL L) (sL L) (k.val + 1) := by
  rw [set_oSl, set_oSl]; exact todo_sdiff _ _ _ _ _ (by simp) (by simp)

omit [FloatOps F] in
theorem pts_oSl (k : Fin k0_t1_loop.trips) (b : Fin 2) (f : Buf (Elt F) (v4Loc d)) :
    ((v4Loc d ↦[(oSl L k b).view.set]{fullShare} f) : sProp 𝕄) = ((oSl L k b).view.loc (V d (cV L) (jV L)) ↦[(oSl L k b).view.set]{fullShare} f) := rfl

omit [FloatOps F] in
theorem off2_eq_off3 (k : Fin k0_t1_loop.trips) : k0_off2 L k = k0_off3 L k (BitVec.ofNat 32 (1 : Fin 2).val) := by
  rw [k0_off2_eq, k0_off3_eq]; simp

omit [FloatOps F] in
theorem off9_eq_off3 (k : Fin k0_t1_loop.trips) (h : k.val + 1 < 4) :
    k0_off9 L k = k0_off3 L ⟨k.val + 1, lt_trips1 h⟩ (BitVec.ofNat 32 (0 : Fin 2).val) := by
  rw [k0_off9_eq, k0_off3_eq]; simp; omega

omit [FloatOps F] in
theorem off1_eq_off3 : k0_off1 L = k0_off3 L ⟨0, lt_trips1 (by omega)⟩ (BitVec.ofNat 32 (0 : Fin 2).val) := by
  rw [k0_off1_eq, k0_off3_eq]; simp

/-- A table chunk landed whole in the second input buffer, its source slice spelt at another offset vector that is the same. -/
theorem landed1 (f0 : Buf (Elt F) ((b1).view.loc (V d (cV L) (jV L)))) (w : S64x768.Idx → Elt F .f32)
    (off off' : Fin 2 → ℕ) (inb : ∀ a, off a + S64x768.size a ≤ S64x1000000.size a) (inb' : ∀ a, off' a + S64x768.size a ≤ S64x1000000.size a)
    (h : off = off') (hw : w = (xM.slice (Rect.unit (s := S64x1000000) off S64x768.size inb) (fun _ => rfl)).view.read (Elt F) (Xt m d)) :
    (((b1).view.loc (V d (cV L) (jV L)) ↦{fullShare} View.write (Elt F) (b1).view f0 w Finset.univ) : sProp 𝕄)
      ⊢ ((b1).view.loc (V d (cV L) (jV L)) ↦{fullShare} (xM.slice (Rect.unit (s := S64x1000000) off' S64x768.size inb') (fun _ => rfl)).view.read (Elt F) (Xt m d)) := by
  subst h hw
  exact Entails.of_eq (congrArg (fun g => (((b1).view.loc (V d (cV L) (jV L)) ↦{fullShare} g) : sProp 𝕄)) (View.write_whole_univ (Val := Elt F) cc0_scratch1 f0 _))

omit [FloatOps F] in
theorem sub_done0 (j : Fin k0_t1_loop.trips) (k : ℕ) (hk : k = j.val + 1) : (oSl L j 0).view.set ⊆ doneSet (cL L) (sL L) (k + 1) := by
  rw [set_oSl]; intro n
  simp only [chunkSet, doneSet, Finset.mem_filter, Finset.mem_univ, true_and]
  have := (cL L).isLt; have := (sL L).isLt; have : j.val < 4 := j.isLt
  intro h; simp at h ⊢; omega

omit [FloatOps F] in
theorem sub_done1 (j : Fin k0_t1_loop.trips) (k : ℕ) (hk : k = j.val + 1) :
    (oSl L j 1).view.set ⊆ doneSet (cL L) (sL L) (k + 1) \ (oSl L j 0).view.set := by
  rw [set_oSl, set_oSl]; intro n
  simp only [chunkSet, doneSet, Finset.mem_sdiff, Finset.mem_filter, Finset.mem_univ, true_and]
  have := (cL L).isLt; have := (sL L).isLt; have : j.val < 4 := j.isLt
  intro h; simp at h ⊢; omega

omit [FloatOps F] in
theorem done_prev (j : Fin k0_t1_loop.trips) (k : ℕ) (hk : k = j.val + 1) :
    (doneSet (cL L) (sL L) (k + 1) \ (oSl L j 0).view.set) \ (oSl L j 1).view.set = doneSet (cL L) (sL L) k := by
  rw [set_oSl, set_oSl]; ext n
  simp only [chunkSet, doneSet, Finset.mem_sdiff, Finset.mem_filter, Finset.mem_univ, true_and]
  have := (cL L).isLt; have := (sL L).isLt; have : j.val < 4 := j.isLt
  simp; omega

omit [FloatOps F] in
theorem doneSet_one (c : Fin 2) (s : Fin 16) : doneSet c s 1 = doneSet c s 0 := by
  ext n; simp only [doneSet, Finset.mem_filter, Finset.mem_univ, true_and]; omega

omit [FloatOps F] in
theorem pts_oSl' (k : Fin k0_t1_loop.trips) (b : Fin 2) (f : Buf (Elt F) (v4Loc d)) :
    (((oSl L k b).view.loc (V d (cV L) (jV L)) ↦[(oSl L k b).view.set]{fullShare} f) : sProp 𝕄) = (v4Loc d ↦[(oSl L k b).view.set]{fullShare} f) := rfl

omit [FloatOps F] in
theorem doneSet_zero (c : Fin 2) (s : Fin 16) : doneSet c s 0 = ∅ := by
  ext n; simp [doneSet]

omit [FloatOps F] in
theorem sub_tile0 (j : Fin k0_t1_loop.trips) : (oSl L j 0).view.set ⊆ tileSet (cL L) (sL L) := by
  rw [set_oSl]; intro n
  simp only [chunkSet, tileSet, Finset.mem_filter, Finset.mem_univ, true_and]
  have := (cL L).isLt; have := (sL L).isLt; have : j.val < 4 := j.isLt
  intro h; simp at h ⊢; omega

omit [FloatOps F] in
theorem sub_tile1 (j : Fin k0_t1_loop.trips) : (oSl L j 1).view.set ⊆ tileSet (cL L) (sL L) \ (oSl L j 0).view.set := by
  rw [set_oSl, set_oSl]; intro n
  simp only [chunkSet, tileSet, Finset.mem_sdiff, Finset.mem_filter, Finset.mem_univ, true_and]
  have := (cL L).isLt; have := (sL L).isLt; have : j.val < 4 := j.isLt
  intro h; simp at h ⊢; omega

omit [FloatOps F] in
theorem tile_prev (j : Fin k0_t1_loop.trips) (hj : j.val = 3) :
    (tileSet (cL L) (sL L) \ (oSl L j 0).view.set) \ (oSl L j 1).view.set = doneSet (cL L) (sL L) 4 := by
  rw [set_oSl, set_oSl]; ext n
  simp only [chunkSet, tileSet, doneSet, Finset.mem_sdiff, Finset.mem_filter, Finset.mem_univ, true_and]
  have := (cL L).isLt; have := (sL L).isLt; have hn : (n 0).val < 196608 := (n 0).isLt
  simp; omega

/-! ## Restating what is in flight at the end of a trip -/

/-- An input copy in flight, its source slice spelt at another offset vector that is the same. -/
theorem inFl_respell (bi : Memref sig .scVector .vmem S64x768 .f32) (sm : SemLoc sig) (q : PosShare TreeShare)
    (f0 : Buf (Elt F) ((bi).view.loc (V d (cV L) (jV L)))) (w : S64x768.Idx → Elt F .f32)
    (off off' : Fin 2 → ℕ) (inb : ∀ a, off a + S64x768.size a ≤ S64x1000000.size a) (inb' : ∀ a, off' a + S64x768.size a ≤ S64x1000000.size a)
    (h : off = off') (hw : w = (xM.slice (Rect.unit (s := S64x1000000) off S64x768.size inb) (fun _ => rfl)).view.read (Elt F) (Xt m d)) :
    iprop(Transfers.Flight countersEmb (V d (cV L) (jV L)) sm (default : HIx 1) 1572864
          iprop(((bi).view.loc (V d (cV L) (jV L)) ↦{fullShare} View.write (Elt F) (bi).view f0 w Finset.univ)
            ∗ ((xM).view.loc (V d (cV L) (jV L)) ↦[(xM.slice (Rect.unit (s := S64x1000000) off S64x768.size inb) (fun _ => rfl)).view.set]{q} Xt m d))
        ∗ ((xM).view.loc (V d (cV L) (jV L)) ↦[Finset.univ \ (xM.slice (Rect.unit (s := S64x1000000) off S64x768.size inb) (fun _ => rfl)).view.set]{q} Xt m d))
      ⊢ (iprop(Transfers.Flight countersEmb (V d (cV L) (jV L)) sm (default : HIx 1) 1572864
          iprop(((bi).view.loc (V d (cV L) (jV L)) ↦{fullShare} View.write (Elt F) (bi).view f0 ((xM.slice (Rect.unit (s := S64x1000000) off' S64x768.size inb') (fun _ => rfl)).view.read (Elt F) (Xt m d)) Finset.univ)
            ∗ ((xM).view.loc (V d (cV L) (jV L)) ↦[(xM.slice (Rect.unit (s := S64x1000000) off' S64x768.size inb') (fun _ => rfl)).view.set]{q} Xt m d))
        ∗ ((xM).view.loc (V d (cV L) (jV L)) ↦[Finset.univ \ (xM.slice (Rect.unit (s := S64x1000000) off' S64x768.size inb') (fun _ => rfl)).view.set]{q} Xt m d)) : sProp 𝕄) := by
  subst h hw
  exact BI.Entails.refl _

omit [FloatOps F] in
/-- What one whole write through a view lands, on the view's elements, is any contents that read as the payload. -/
theorem land_generic {sp : Space} {s : Shape} {e : EltTy} (c : Thread nD τ) (v : View sig c.2.kind sp s e) (q : PosShare TreeShare)
    (fprev g : Buf (Elt F) (v.loc c)) (w : s.Idx → Elt F e) (hw : ∀ x, w x = v.read (Elt F) g x) :
    ((v.loc c ↦[v.set]{q} v.writes (Elt F) fprev [⟨Rect.whole s, w⟩]) : sProp 𝕄) = (v.loc c ↦[v.set]{q} g) :=
  pointsTo_congr fun i hi => by
    obtain ⟨x, -, rfl⟩ := Finset.mem_map.mp hi
    have h1 := View.read_writes_cons_emb v fprev (Rect.whole s) w [] x
    rw [Rect.emb_whole_apply] at h1
    have h2 := h1.trans (hw x)
    rw [View.read_apply, View.read_apply] at h2
    exact (cast_inj _).1 h2

/-- The copy of a finished out buffer to its chunk, in flight: it delivers the specification on that chunk. -/
theorem outFl_conv (bo : Memref sig .scVector .vmem S768 .f32) (sm : SemLoc sig) (jp : Fin k0_t1_loop.trips) (b : Fin 2)
    (fprev : Buf (Elt F) ((oSl L jp b).view.loc (V d (cV L) (jV L)))) (w : S768.Idx → F .f32) (fo2 : Buf (Elt F) ((bo).view.loc (V d (cV L) (jV L))))
    (hw : ∀ q : S768.Idx, w q = (oSl L jp b).view.read (Elt F) (scOut (Xt m d) (Ubc m d)) q) :
    (Transfers.Flight countersEmb (V d (cV L) (jV L)) sm (default : HIx 1) 24576
        iprop(((oSl L jp b).view.loc (V d (cV L) (jV L)) ↦[(oSl L jp b).view.set]{fullShare} (oSl L jp b).view.writes (Elt F) fprev [⟨Rect.whole S768, w⟩])
          ∗ ((bo).view.loc (V d (cV L) (jV L)) ↦[(bo).view.set]{fullShare} fo2)) : sProp 𝕄)
      ⊢ Transfers.Flight countersEmb (V d (cV L) (jV L)) sm (default : HIx 1) 24576
        iprop(((oSl L jp b).view.loc (V d (cV L) (jV L)) ↦[(oSl L jp b).view.set]{fullShare} scOut (Xt m d) (Ubc m d))
          ∗ ((bo).view.loc (V d (cV L) (jV L)) ↦[(bo).view.set]{fullShare} fo2)) := by
  rw [land_generic (V d (cV L) (jV L)) (oSl L jp b).view fullShare fprev (scOut (Xt m d) (Ubc m d)) w hw]

/-- The finished out buffer of chunk `2 jp + b` holds the specification at the chunk's columns. -/
theorem out_value (jp : Fin k0_t1_loop.trips) (b : Fin 2) (fin : FVec F S64x768 .f32) (fo2 : FVec F S768 .f32) (w : S768.Idx → F .f32) (hwf : w = fo2)
    (hin : fin = (iSl L jp b).view.read (Elt F) (Xt m d))
    (hfo : ∀ q : S768.Idx, (q 0).val < 128 * 6 → fo2 q = outG fin (Ubc m d) q) :
    ∀ q : S768.Idx, w q = (oSl L jp b).view.read (Elt F) (scOut (Xt m d) (Ubc m d)) q := by
  subst hwf hin
  intro q
  have hq : (q 0).val < 768 := (q 0).isLt
  have hj : jp.val < 4 := jp.isLt
  have hb := b.isLt
  rw [hfo q (by omega)]
  show _ = scOut (Xt m d) (Ubc m d) ((oSl L jp b).view.emb q)
  refine outG_scOut (Xt m d) (Ubc m d) (cL L) (sL L) ⟨2 * jp.val + b.val, by omega⟩ _
    (InOK_slice (cL L) (sL L) ⟨2 * jp.val + b.val, by omega⟩ _ _ ((k0_off3_eq L jp b).trans (congrArg (fun t => ![0, t]) (by
      show _ = 768 * (2 * (L 1).val + (L 0).val + 32 * (2 * jp.val + b.val)); omega))) (Xt m d)) q _ ?_
  have h8 : k0_off8 L jp (BitVec.ofNat 32 b.val) 0 = 1536 * (L 1).val + 768 * (L 0).val + 49152 * jp.val + 24576 * b.val := by
    rw [k0_off8_eq]; rfl
  show (k0_off8 L jp (BitVec.ofNat 32 b.val) 0 + 1 * (q 0).val) = 768 * (2 * (L 1).val + (L 0).val + 32 * (2 * jp.val + b.val)) + (q 0).val
  rw [h8]
  omega

set_option maxHeartbeats 4000000 in
set_option maxRecDepth 65536 in
theorem t1_trip_mid (O : CellTallies nD τ sig (HIx 1)) (W : Waits sig (HIx 1)) (v1 a : BitVec 32) (k : Fin k0_t1_loop.trips)
    (h0 : 0 < k.val) (h3 : k.val < 3) :
    I1 m d L O W k.val a
      ⊢ wp frame (wpE (defs₀ (F := F)) 𝒱₀ (V d (cV L) (jV L)) none) Set.univ
          (k0_t1_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 v1 k a) (I1 m d L O W (k.val + 1)) := by
  obtain ⟨hc1, hc2, hc3, hc4⟩ := cond_all k
  have hc2 : k0_cond2 k = 1#1 := hc2.mpr h0
  have hc3 : k0_cond3 k = 1#1 := hc3.mpr h3
  have hc4 : k0_cond4 k = 1#1 := hc4.mpr h0
  have hk4 : k.val < 4 := by omega
  unfold I1
  rw [InSt_lt m d L hk4, OutSt_pos m d L (k := k.val) ⟨h0, by omega⟩]
  unfold InFlSt OutFlSt OutFl OmSt
  iintro ⟨#Hmw, ⟨%f0, Hf5, Hxr⟩, ⟨Hs6, ⟨%f1, H1⟩, Hx1⟩, ⟨⟨%fo2, Hf7, H2r⟩, ⟨%fo3, Hf8, H3r⟩⟩, H4, ⟨Hdone, %ftodo, Htodo⟩, %W', %hW', HO⟩
  ihave Hsp := (pointsTo_split_subset (q := fullShare) (f := ftodo) (sub_todo0 L k)).1 $$ Htodo
  icases Hsp with ⟨Ho0, Htodo⟩
  ihave Hsp := (pointsTo_split_subset (q := fullShare) (f := ftodo) (sub_todo1 L k)).1 $$ Htodo
  icases Hsp with ⟨Ho1, Htodo⟩
  ihave Ho0 := (Entails.of_eq (pts_oSl (F := F) d L k 0 ftodo)) $$ Ho0
  ihave Ho1 := (Entails.of_eq (pts_oSl (F := F) d L k 1 ftodo)) $$ Ho1
  unfold k0_t1_body
  sl_exec
  sl_for (I2 d L (View.write (Elt F) (b0).view f0 ((iSl L ⟨k.val, lt_trips1 hk4⟩ 0).view.read (Elt F) (Xt m d)) Finset.univ) (Ubc m d)) $$ [Hf5_dst H4 H2r]
  case region => exact fun p acc => t2_trip d L _ _ v1 k p acc
  · unfold I2
    isplitl [Hf5_dst]; · iexact Hf5_dst
    isplitl [H4]; · iexact H4
    iexists fo2
    isplitl [H2r]; · iexact H2r
    ipureintro; intro q hq; omega
  iintro %a2 HI
  unfold I2
  icases HI with ⟨H0, H4, %fo2', H2, %hfo2'⟩
  sl_exec
  ihave H1 := (landed1 m d L f1 (t1_trip_mid.sl.dma0 m d L k hc1) (k0_off2 L k) (k0_off3 L k (BitVec.ofNat 32 (1 : Fin 2).val)) (k0_off2_inb L k hc1) (k0_off3_inb L k 1) (off2_eq_off3 L k) rfl) $$ H1
  sl_for (I21 d L ((iSl L k 1).view.read (Elt F) (Xt m d)) (Ubc m d)) $$ [H1 H4 H3r]
  case region => exact fun p acc => t2_trip1 d L _ _ p acc
  · unfold I21
    isplitl [H1]; · iexact H1
    isplitl [H4]; · iexact H4
    iexists fo3
    isplitl [H3r]; · iexact H3r
    ipureintro; intro q hq; omega
  iintro %a3 HI
  unfold I21
  icases HI with ⟨H1, H4, %fo3', H3, %hfo3'⟩
  sl_exec
  sl_step
  have ek : (⟨k.val + 1 - 1, lt_trips1 (by omega)⟩ : Fin k0_t1_loop.trips) = k := Fin.ext (by show k.val + 1 - 1 = k.val; omega)
  have hv0 := out_value m d L k 0 _ fo2' (t1_trip_mid.sl.dma0_1 fo2') rfl (View.write_whole_univ (Val := Elt F) cc0_scratch0 f0 _) (fun q hq => hfo2' q hq)
  have hv1 := out_value m d L k 1 _ fo3' (t1_trip_mid.sl.dma0_3 fo3') rfl rfl (fun q hq => hfo3' q hq)
  isplitl []; · iexact Hmw
  isplitl [Hf5 Hxr]
  · rw [InSt_lt m d L (k := k.val + 1) (by omega)]; unfold InFlSt
    iexists _
    iapply (inFl_respell m d L b0 (SemLoc.dma cc0_scratch5.sem) (tok L 0) _ (t1_trip_mid.sl.dma0_2 m d L k hc3) (k0_off9 L k) (k0_off3 L ⟨k.val + 1, lt_trips1 (by omega)⟩ (BitVec.ofNat 32 (0 : Fin 2).val)) (k0_off9_inb L k hc3) (k0_off3_inb L _ 0) (off9_eq_off3 L k (by omega)) rfl)
    isplitl [Hf5]
    · iexact Hf5
    · iexact Hxr
  isplitl [Hs6 H1 Hx1]
  · isplitl [Hs6]; · iexact Hs6
    isplitl [H1]; · iexists _; iexact H1
    iexact Hx1
  isplitl [Hf7 H2 Hf8 H3]
  · rw [OutSt_pos m d L (k := k.val + 1) ⟨by omega, by omega⟩]; unfold OutFlSt OutFl
    rw [ek]
    isplitl [Hf7 H2]
    · iexists _
      isplitl [Hf7]
      · iapply (outFl_conv m d L b2 _ k 0 _ _ _ hv0) $$ Hf7
      · iexact H2
    · iexists _
      isplitl [Hf8]
      · iapply (outFl_conv m d L b3 _ k 1 _ _ _ hv1) $$ Hf8
      · iexact H3
  isplitl [H4]; · iexact H4
  isplitl [Hdone Hf7_dst Hf8_dst Htodo]
  · isplitl [Hdone Hf7_dst Hf8_dst]
    · have ej : k.val = (⟨k.val - 1, lt_trips1 (by omega)⟩ : Fin k0_t1_loop.trips).val + 1 := by show k.val = k.val - 1 + 1; omega
      iapply (pointsTo_split_subset (q := fullShare) (sub_done0 L ⟨k.val - 1, lt_trips1 (by omega)⟩ k.val ej)).2
      isplitl [Hf7_dst]; · iapply (Entails.of_eq (pts_oSl' (F := F) d L _ 0 _)) $$ Hf7_dst
      iapply (pointsTo_split_subset (q := fullShare) (sub_done1 L ⟨k.val - 1, lt_trips1 (by omega)⟩ k.val ej)).2
      isplitl [Hf8_dst]; · iapply (Entails.of_eq (pts_oSl' (F := F) d L _ 1 _)) $$ Hf8_dst
      rw [done_prev L ⟨k.val - 1, lt_trips1 (by omega)⟩ k.val ej]
      iexact Hdone
    · iexists ftodo
      rw [← todo_next L k]
      iexact Htodo
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

set_option maxHeartbeats 4000000 in
set_option maxRecDepth 65536 in
theorem t1_trip_first (O : CellTallies nD τ sig (HIx 1)) (W : Waits sig (HIx 1)) (v1 a : BitVec 32) (k : Fin k0_t1_loop.trips)
    (h0 : k.val = 0) (h3 : k.val < 3) :
    I1 m d L O W k.val a
      ⊢ wp frame (wpE (defs₀ (F := F)) 𝒱₀ (V d (cV L) (jV L)) none) Set.univ
          (k0_t1_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 v1 k a) (I1 m d L O W (k.val + 1)) := by
  obtain ⟨hc1, hc2, hc3, hc4⟩ := cond_all k
  have hc2 : ¬ k0_cond2 k = 1#1 := fun h => absurd (hc2.mp h) (by omega)
  have hc3 : k0_cond3 k = 1#1 := hc3.mpr h3
  have hc4 : ¬ k0_cond4 k = 1#1 := fun h => absurd (hc4.mp h) (by omega)
  have hk4 : k.val < 4 := by omega
  unfold I1
  rw [InSt_lt m d L hk4, OutSt_neg m d L (k := k.val) (by omega)]
  unfold InFlSt OutIdle OmSt
  iintro ⟨#Hmw, ⟨%f0, Hf5, Hxr⟩, ⟨Hs6, ⟨%f1, H1⟩, Hx1⟩, ⟨Hf7, ⟨%fo2, H2r⟩, Hf8, ⟨%fo3, H3r⟩⟩, H4, ⟨Hdone, %ftodo, Htodo⟩, %W', %hW', HO⟩
  ihave Hsp := (pointsTo_split_subset (q := fullShare) (f := ftodo) (sub_todo0 L k)).1 $$ Htodo
  icases Hsp with ⟨Ho0, Htodo⟩
  ihave Hsp := (pointsTo_split_subset (q := fullShare) (f := ftodo) (sub_todo1 L k)).1 $$ Htodo
  icases Hsp with ⟨Ho1, Htodo⟩
  ihave Ho0 := (Entails.of_eq (pts_oSl (F := F) d L k 0 ftodo)) $$ Ho0
  ihave Ho1 := (Entails.of_eq (pts_oSl (F := F) d L k 1 ftodo)) $$ Ho1
  unfold k0_t1_body
  sl_exec
  sl_for (I2 d L (View.write (Elt F) (b0).view f0 ((iSl L ⟨k.val, lt_trips1 hk4⟩ 0).view.read (Elt F) (Xt m d)) Finset.univ) (Ubc m d)) $$ [Hf5_dst H4 H2r]
  case region => exact fun p acc => t2_trip d L _ _ v1 k p acc
  · unfold I2
    isplitl [Hf5_dst]; · iexact Hf5_dst
    isplitl [H4]; · iexact H4
    iexists fo2
    isplitl [H2r]; · iexact H2r
    ipureintro; intro q hq; omega
  iintro %a2 HI
  unfold I2
  icases HI with ⟨H0, H4, %fo2', H2, %hfo2'⟩
  sl_exec
  ihave H1 := (landed1 m d L f1 (t1_trip_first.sl.dma0 m d L k hc1) (k0_off2 L k) (k0_off3 L k (BitVec.ofNat 32 (1 : Fin 2).val)) (k0_off2_inb L k hc1) (k0_off3_inb L k 1) (off2_eq_off3 L k) rfl) $$ H1
  sl_for (I21 d L ((iSl L k 1).view.read (Elt F) (Xt m d)) (Ubc m d)) $$ [H1 H4 H3r]
  case region => exact fun p acc => t2_trip1 d L _ _ p acc
  · unfold I21
    isplitl [H1]; · iexact H1
    isplitl [H4]; · iexact H4
    iexists fo3
    isplitl [H3r]; · iexact H3r
    ipureintro; intro q hq; omega
  iintro %a3 HI
  unfold I21
  icases HI with ⟨H1, H4, %fo3', H3, %hfo3'⟩
  sl_exec
  sl_step
  have ek : (⟨k.val + 1 - 1, lt_trips1 (by omega)⟩ : Fin k0_t1_loop.trips) = k := Fin.ext (by show k.val + 1 - 1 = k.val; omega)
  have hv0 := out_value m d L k 0 _ fo2' (t1_trip_first.sl.dma0_1 fo2') rfl (View.write_whole_univ (Val := Elt F) cc0_scratch0 f0 _) (fun q hq => hfo2' q hq)
  have hv1 := out_value m d L k 1 _ fo3' (t1_trip_first.sl.dma0_3 fo3') rfl rfl (fun q hq => hfo3' q hq)
  isplitl []; · iexact Hmw
  isplitl [Hf5 Hxr]
  · rw [InSt_lt m d L (k := k.val + 1) (by omega)]; unfold InFlSt
    iexists _
    iapply (inFl_respell m d L b0 (SemLoc.dma cc0_scratch5.sem) (tok L 0) _ (t1_trip_first.sl.dma0_2 m d L k hc3) (k0_off9 L k) (k0_off3 L ⟨k.val + 1, lt_trips1 (by omega)⟩ (BitVec.ofNat 32 (0 : Fin 2).val)) (k0_off9_inb L k hc3) (k0_off3_inb L _ 0) (off9_eq_off3 L k (by omega)) rfl)
    isplitl [Hf5]
    · iexact Hf5
    · iexact Hxr
  isplitl [Hs6 H1 Hx1]
  · isplitl [Hs6]; · iexact Hs6
    isplitl [H1]; · iexists _; iexact H1
    iexact Hx1
  isplitl [Hf7 H2 Hf8 H3]
  · rw [OutSt_pos m d L (k := k.val + 1) ⟨by omega, by omega⟩]; unfold OutFlSt OutFl
    rw [ek]
    isplitl [Hf7 H2]
    · iexists _
      isplitl [Hf7]
      · iapply (outFl_conv m d L b2 _ k 0 _ _ _ hv0) $$ Hf7
      · iexact H2
    · iexists _
      isplitl [Hf8]
      · iapply (outFl_conv m d L b3 _ k 1 _ _ _ hv1) $$ Hf8
      · iexact H3
  isplitl [H4]; · iexact H4
  isplitl [Hdone Htodo]
  · isplitl [Hdone]
    · rw [show doneSet (cL L) (sL L) (k.val + 1) = doneSet (cL L) (sL L) k.val from by rw [h0]; exact doneSet_one _ _]
      iexact Hdone
    · iexists ftodo
      rw [← todo_next L k]
      iexact Htodo
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

set_option maxHeartbeats 4000000 in
set_option maxRecDepth 65536 in
theorem t1_trip_last (O : CellTallies nD τ sig (HIx 1)) (W : Waits sig (HIx 1)) (v1 a : BitVec 32) (k : Fin k0_t1_loop.trips)
    (h0 : 0 < k.val) (h3 : k.val = 3) :
    I1 m d L O W k.val a
      ⊢ wp frame (wpE (defs₀ (F := F)) 𝒱₀ (V d (cV L) (jV L)) none) Set.univ
          (k0_t1_body L xM (Memref.isWhole_whole _) uM (Memref.isWhole_whole _) oM (Memref.isWhole_whole _) b0 (Memref.isWhole_whole _) b1 (Memref.isWhole_whole _) b2 (Memref.isWhole_whole _) b3 (Memref.isWhole_whole _) b4 (Memref.isWhole_whole _) cc0_scratch5 cc0_scratch6 cc0_scratch7 cc0_scratch8 cc0_scoped0 v1 k a) (I1 m d L O W (k.val + 1)) := by
  obtain ⟨hc1, hc2, hc3, hc4⟩ := cond_all k
  have hc2 : k0_cond2 k = 1#1 := hc2.mpr h0
  have hc3 : ¬ k0_cond3 k = 1#1 := fun h => absurd (hc3.mp h) (by omega)
  have hc4 : k0_cond4 k = 1#1 := hc4.mpr h0
  have hk4 : k.val < 4 := by omega
  unfold I1
  rw [InSt_lt m d L hk4, OutSt_pos m d L (k := k.val) ⟨h0, by omega⟩]
  unfold InFlSt OutFlSt OutFl OmSt
  iintro ⟨#Hmw, ⟨%f0, Hf5, Hxr⟩, ⟨Hs6, ⟨%f1, H1⟩, Hx1⟩, ⟨⟨%fo2, Hf7, H2r⟩, ⟨%fo3, Hf8, H3r⟩⟩, H4, ⟨Hdone, %ftodo, Htodo⟩, %W', %hW', HO⟩
  ihave Hsp := (pointsTo_split_subset (q := fullShare) (f := ftodo) (sub_todo0 L k)).1 $$ Htodo
  icases Hsp with ⟨Ho0, Htodo⟩
  ihave Hsp := (pointsTo_split_subset (q := fullShare) (f := ftodo) (sub_todo1 L k)).1 $$ Htodo
  icases Hsp with ⟨Ho1, Htodo⟩
  ihave Ho0 := (Entails.of_eq (pts_oSl (F := F) d L k 0 ftodo)) $$ Ho0
  ihave Ho1 := (Entails.of_eq (pts_oSl (F := F) d L k 1 ftodo)) $$ Ho1
  unfold k0_t1_body
  sl_exec
  sl_for (I2 d L (View.write (Elt F) (b0).view f0 ((iSl L ⟨k.val, lt_trips1 hk4⟩ 0).view.read (Elt F) (Xt m d)) Finset.univ) (Ubc m d)) $$ [Hf5_dst H4 H2r]
  case region => exact fun p acc => t2_trip d L _ _ v1 k p acc
  · unfold I2
    isplitl [Hf5_dst]; · iexact Hf5_dst
    isplitl [H4]; · iexact H4
    iexists fo2
    isplitl [H2r]; · iexact H2r
    ipureintro; intro q hq; omega
  iintro %a2 HI
  unfold I2
  icases HI with ⟨H0, H4, %fo2', H2, %hfo2'⟩
  sl_exec
  ihave H1 := (landed1 m d L f1 (t1_trip_last.sl.dma0 m d L k hc1) (k0_off2 L k) (k0_off3 L k (BitVec.ofNat 32 (1 : Fin 2).val)) (k0_off2_inb L k hc1) (k0_off3_inb L k 1) (off2_eq_off3 L k) rfl) $$ H1
  sl_for (I21 d L ((iSl L k 1).view.read (Elt F) (Xt m d)) (Ubc m d)) $$ [H1 H4 H3r]
  case region => exact fun p acc => t2_trip1 d L _ _ p acc
  · unfold I21
    isplitl [H1]; · iexact H1
    isplitl [H4]; · iexact H4
    iexists fo3
    isplitl [H3r]; · iexact H3r
    ipureintro; intro q hq; omega
  iintro %a3 HI
  unfold I21
  icases HI with ⟨H1, H4, %fo3', H3, %hfo3'⟩
  sl_exec
  sl_step
  have ek : (⟨k.val + 1 - 1, lt_trips1 (by omega)⟩ : Fin k0_t1_loop.trips) = k := Fin.ext (by show k.val + 1 - 1 = k.val; omega)
  have hv0 := out_value m d L k 0 _ fo2' (t1_trip_last.sl.dma0_1 fo2') rfl (View.write_whole_univ (Val := Elt F) cc0_scratch0 f0 _) (fun q hq => hfo2' q hq)
  have hv1 := out_value m d L k 1 _ fo3' (t1_trip_last.sl.dma0_2 fo3') rfl rfl (fun q hq => hfo3' q hq)
  isplitl []; · iexact Hmw
  isplitl [Hf5 Hxr H0]
  · rw [InSt_ge m d L (k := k.val + 1) (by omega)]; unfold InIdle
    isplitl [Hf5]; · iexact Hf5
    isplitl [H0]; · iexists _; iexact H0
    iexact Hxr
  isplitl [Hs6 H1 Hx1]
  · isplitl [Hs6]; · iexact Hs6
    isplitl [H1]; · iexists _; iexact H1
    iexact Hx1
  isplitl [Hf7 H2 Hf8 H3]
  · rw [OutSt_pos m d L (k := k.val + 1) ⟨by omega, by omega⟩]; unfold OutFlSt OutFl
    rw [ek]
    isplitl [Hf7 H2]
    · iexists _
      isplitl [Hf7]
      · iapply (outFl_conv m d L b2 _ k 0 _ _ _ hv0) $$ Hf7
      · iexact H2
    · iexists _
      isplitl [Hf8]
      · iapply (outFl_conv m d L b3 _ k 1 _ _ _ hv1) $$ Hf8
      · iexact H3
  isplitl [H4]; · iexact H4
  isplitl [Hdone Hf7_dst Hf8_dst Htodo]
  · isplitl [Hdone Hf7_dst Hf8_dst]
    · have ej : k.val = (⟨k.val - 1, lt_trips1 (by omega)⟩ : Fin k0_t1_loop.trips).val + 1 := by show k.val = k.val - 1 + 1; omega
      iapply (pointsTo_split_subset (q := fullShare) (sub_done0 L ⟨k.val - 1, lt_trips1 (by omega)⟩ k.val ej)).2
      isplitl [Hf7_dst]; · iapply (Entails.of_eq (pts_oSl' (F := F) d L _ 0 _)) $$ Hf7_dst
      iapply (pointsTo_split_subset (q := fullShare) (sub_done1 L ⟨k.val - 1, lt_trips1 (by omega)⟩ k.val ej)).2
      isplitl [Hf8_dst]; · iapply (Entails.of_eq (pts_oSl' (F := F) d L _ 1 _)) $$ Hf8_dst
      rw [done_prev L ⟨k.val - 1, lt_trips1 (by omega)⟩ k.val ej]
      iexact Hdone
    · iexists ftodo
      rw [← todo_next L k]
      iexact Htodo
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

omit [FloatOps F] in
theorem todoSet_four (c : Fin 2) (s : Fin 16) : todoSet c s 4 = ∅ := by
  ext n; have hn : (n 0).val < 196608 := (n 0).isLt
  simp only [todoSet, Finset.mem_filter, Finset.mem_univ, true_and, Finset.notMem_empty, iff_false]; omega

/-- The user column landed whole in its buffer. -/
theorem landedU (f4 : Buf (Elt F) ((b4).view.loc (V d (cV L) (jV L)))) (w : S64x16.Idx → Elt F .f32) (hw : w = Ubc m d) :
    (((b4).view.loc (V d (cV L) (jV L)) ↦{fullShare} View.write (Elt F) (b4).view f4 w Finset.univ) : sProp 𝕄)
      ⊢ ((b4).view.loc (V d (cV L) (jV L)) ↦{fullShare} Ubc m d) := by
  subst hw
  exact Entails.of_eq (congrArg (fun g => (((b4).view.loc (V d (cV L) (jV L)) ↦{fullShare} g) : sProp 𝕄)) (View.write_whole_univ (Val := Elt F) cc0_scratch4 f4 _))

omit [FloatOps F] in
theorem pts_b (b : Ref sig .scVector) (f : Buf (Elt F) ((Memref.whole b).view.loc (V d (cV L) (jV L)))) :
    (((Memref.whole b).view.loc (V d (cV L) (jV L)) ↦{fullShare} f) : sProp 𝕄) = ((V d (cV L) (jV L)).loc b ↦{fullShare} f) := rfl

set_option maxHeartbeats 4000000 in
set_option maxRecDepth 65536 in
/-- The task on vector subcore `(L 0, L 1)` of device `d`: from the read shares of the two tables and its chunks
    of the result at any contents, to the shares and its chunks at the specification. -/
theorem tile_body (hF : (K (F := F)).Facts) (O : CellTallies nD τ sig (HIx 1)) (W : Waits sig (HIx 1)) (hO : ∀ g, O g none = 0) :
    iprop(levAts (K (F := F)).L (K (F := F)).lev ∗ emp
        ∗ goRes m d (cL L) (sL L)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_body L (Memref.whole main_v2_scv) (Memref.isWhole_whole _) (Memref.whole main_v1_scv) (Memref.isWhole_whole _)
            (Memref.whole main_v4_scv) (Memref.isWhole_whole _) (Memref.whole cc0_scratch0) (Memref.isWhole_whole _)
            (Memref.whole cc0_scratch1) (Memref.isWhole_whole _) (Memref.whole cc0_scratch2) (Memref.isWhole_whole _)
            (Memref.whole cc0_scratch3) (Memref.isWhole_whole _) (Memref.whole cc0_scratch4) (Memref.isWhole_whole _)
            cc0_scratch5 cc0_scratch6 cc0_scratch7 cc0_scratch8 cc0_scoped0)
          fun _ => iprop(tdRes m d (cL L) (sL L)
            ∗ scopedBufs (V d (cV L) (jV L)) ∗ scopedSems0 (V d (cV L) (jV L))
            ∗ ∃ W', ⌜∀ p ∈ W', p ∈ W ∨ p.2 = none⌝ ∗ owes (V d (cV L) (jV L)) O W') := by
  have hshare : ∀ (f : Buf (Elt F) ((xM).view.loc (V d (cV L) (jV L)))),
      (((xM).view.loc (V d (cV L) (jV L)) ↦{qTile (cL L) (sL L)} f) : sProp 𝕄)
        ⊣⊢ iprop((((xM).view.loc (V d (cV L) (jV L)) ↦{(qTile (cL L) (sL L)).left.left} f) ∗ ((xM).view.loc (V d (cV L) (jV L)) ↦{tok L 1} f)) ∗ ((xM).view.loc (V d (cV L) (jV L)) ↦{tok L 0} f)) := fun f =>
    ⟨(pointsTo_share (PosShare.mem_left_op_right _)).1.trans (sep_mono_left (pointsTo_share (PosShare.mem_left_op_right _)).1),
     (sep_mono_left (pointsTo_share (PosShare.mem_left_op_right _)).2).trans (pointsTo_share (PosShare.mem_left_op_right _)).2⟩
  simp only [cc0__sc_body_eq_skeleton]; unfold cc0__sc_body_skel
  rw [(K (F := F)).scopedBufs_V hF d (cV L) (jV L), SparseCore.Cfg.scopedSems0_V (Val := Elt F) d (cV L) (jV L), ownSems0_V, ownBufs_V]
  unfold goRes
  iintro ⟨#Hlv, Hemp, ⟨Hx, Hu, %fo, Ho⟩, ⟨⟨%f0, H0⟩, ⟨%f1, H1⟩, ⟨%f2, H2⟩, ⟨%f3, H3⟩, ⟨%f4, H4⟩, Hbufs⟩, ⟨Hs5, Hs6, Hs7, Hs8, Hs0, Hsems⟩, HO⟩
  ihave Hmw := (show levAts (K (F := F)).L (K (F := F)).lev ⊢ Transfers.MayWaits (V d (cV L) (jV L)) (default : HIx 1) O from
    (K (F := F)).mayWaits_none (thr := (V d (cV L) (jV L))) hO) $$ Hlv
  ihave Hdone := (show (emp : sProp 𝕄) ⊢ (v4Loc d ↦[doneSet (cL L) (sL L) 0]{fullShare} scOut (Xt m d) (Ubc m d)) from
    Entails.of_eq (by rw [doneSet_zero, pointsTo_empty])) $$ Hemp
  ihave Hx' := (Entails.of_eq (show (v2Loc d ↦{qTile (cL L) (sL L)} Xt m d : sProp 𝕄) = ((xM).view.loc (V d (cV L) (jV L)) ↦{qTile (cL L) (sL L)} Xt m d) from rfl)) $$ Hx
  ihave Hx' := (hshare _).1 $$ Hx'
  icases Hx' with ⟨Hxrest, Hx0⟩
  ihave Hu' := (Entails.of_eq (show (v1Loc d ↦{qTile (cL L) (sL L)} Ubc m d : sProp 𝕄) = ((uM).view.loc (V d (cV L) (jV L)) ↦{qTile (cL L) (sL L)} Ubc m d) from rfl)) $$ Hu
  ihave H0' := (Entails.of_eq (show ((V d (cV L) (jV L)).loc cc0_scratch0 ↦{fullShare} f0 : sProp 𝕄) = ((b0).view.loc (V d (cV L) (jV L)) ↦{fullShare} f0) from rfl)) $$ H0
  ihave H1' := (Entails.of_eq (show ((V d (cV L) (jV L)).loc cc0_scratch1 ↦{fullShare} f1 : sProp 𝕄) = ((b1).view.loc (V d (cV L) (jV L)) ↦{fullShare} f1) from rfl)) $$ H1
  ihave H2' := (Entails.of_eq (show ((V d (cV L) (jV L)).loc cc0_scratch2 ↦{fullShare} f2 : sProp 𝕄) = ((b2).view.loc (V d (cV L) (jV L)) ↦{fullShare} f2) from rfl)) $$ H2
  ihave H3' := (Entails.of_eq (show ((V d (cV L) (jV L)).loc cc0_scratch3 ↦{fullShare} f3 : sProp 𝕄) = ((b3).view.loc (V d (cV L) (jV L)) ↦{fullShare} f3) from rfl)) $$ H3
  ihave H4' := (Entails.of_eq (show ((V d (cV L) (jV L)).loc cc0_scratch4 ↦{fullShare} f4 : sProp 𝕄) = ((b4).view.loc (V d (cV L) (jV L)) ↦{fullShare} f4) from rfl)) $$ H4
  sl_exec
  ihave H4' := (landedU m d L f4 (tile_body.sl.dma0 m d) rfl) $$ H4'
  ihave Hin := (inFl_respell m d L b0 (SemLoc.dma cc0_scratch5.sem) (tok L 0) f0 (tile_body.sl.dma0_1 m d L) (k0_off1 L) (k0_off3 L ⟨0, lt_trips1 (by omega)⟩ (BitVec.ofNat 32 (0 : Fin 2).val)) (k0_off1_inb L) (k0_off3_inb L _ 0) (off1_eq_off3 L) rfl) $$ [Hs5 Hx0]
  · isplitl [Hs5]; · iexact Hs5
    iexact Hx0
  icases Hxrest with ⟨Hxd, Hx1⟩
  sl_for (I1 m d L O W) $$ [Hmw Hin Hs6 H1' Hx1 Hs7 H2' Hs8 H3' H4' Hdone Ho HO]
  case region =>
    intro k a
    by_cases h0 : k.val = 0
    · exact t1_trip_first m d L O W _ a k h0 (by omega)
    by_cases h3 : k.val = 3
    · exact t1_trip_last m d L O W _ a k (by omega) h3
    exact t1_trip_mid m d L O W _ a k (by omega) (by have := k.isLt; have : k.val < 4 := this; omega)
  · unfold I1
    rw [InSt_lt m d L (k := 0) (by omega), OutSt_neg m d L (k := 0) (by omega)]
    unfold InFlSt OutIdle OmSt
    isplitl [Hmw]; · iexact Hmw
    isplitl [Hin]; · iexists _; iexact Hin
    isplitl [Hs6 H1' Hx1]
    · isplitl [Hs6]; · iexact Hs6
      isplitl [H1']; · iexists _; iexact H1'
      iexact Hx1
    isplitl [Hs7 H2' Hs8 H3']
    · isplitl [Hs7]; · iexact Hs7
      isplitl [H2']; · iexists _; iexact H2'
      isplitl [Hs8]; · iexact Hs8
      iexists _; iexact H3'
    isplitl [H4']; · iexact H4'
    isplitl [Hdone Ho]
    · isplitl [Hdone]; · iexact Hdone
      iexists fo; rw [todoSet_zero]; iexact Ho
    iexists _; isplitr
    swap; · iexact HO
    ipureintro; intro p hp
    rcases Finset.mem_insert.mp hp with hp | hp; · exact .inr (hp ▸ rfl)
    exact .inl hp
  iintro %a HI
  have e4 : Scf.trips k0_t1_loop.lb k0_t1_loop.ub k0_t1_loop.st = 4 := trips1
  rw [e4]
  unfold I1
  rw [InSt_ge m d L (k := 4) (by omega), OutSt_pos m d L (k := 4) ⟨by omega, by omega⟩]
  unfold InIdle OutFlSt OutFl OmSt
  icases HI with ⟨#Hmw2, ⟨Hs5, ⟨%f0', H0⟩, Hx0⟩, ⟨Hs6, ⟨%f1', H1⟩, Hx1⟩, ⟨⟨%fo2, Hf7, H2r⟩, ⟨%fo3, Hf8, H3r⟩⟩, H4, ⟨Hdone, %ftodo, Htodo⟩, %W', %hW', HO⟩
  sl_exec
  sl_step
  unfold tdRes
  ihave Hemp2 := (Entails.of_eq (show ((v4Loc d ↦[todoSet (cL L) (sL L) 4]{fullShare} ftodo) : sProp 𝕄) = (iprop(emp) : sProp 𝕄) from by rw [todoSet_four, pointsTo_empty])) $$ Htodo
  icases Hemp2 with -
  isplitl [Hxd Hx1 Hx0 Hu' Hdone Hf7_dst Hf8_dst]
  · isplitl [Hxd Hx1 Hx0]
    · iapply (Entails.of_eq (show (((xM).view.loc (V d (cV L) (jV L)) ↦{qTile (cL L) (sL L)} Xt m d) : sProp 𝕄) = (v2Loc d ↦{qTile (cL L) (sL L)} Xt m d) from rfl))
      iapply (hshare _).2
      isplitl [Hxd Hx1]
      · isplitl [Hxd]; · iexact Hxd
        iexact Hx1
      iexact Hx0
    isplitl [Hu']
    · iapply (Entails.of_eq (show (((uM).view.loc (V d (cV L) (jV L)) ↦{qTile (cL L) (sL L)} Ubc m d) : sProp 𝕄) = (v1Loc d ↦{qTile (cL L) (sL L)} Ubc m d) from rfl))
      iexact Hu'
    iapply (pointsTo_split_subset (q := fullShare) (sub_tile0 L ⟨4 - 1, lt_trips1 (by omega)⟩)).2
    isplitl [Hf7_dst]; · iapply (Entails.of_eq (pts_oSl' (F := F) d L _ 0 _)) $$ Hf7_dst
    iapply (pointsTo_split_subset (q := fullShare) (sub_tile1 L ⟨4 - 1, lt_trips1 (by omega)⟩)).2
    isplitl [Hf8_dst]; · iapply (Entails.of_eq (pts_oSl' (F := F) d L _ 1 _)) $$ Hf8_dst
    rw [tile_prev L ⟨4 - 1, lt_trips1 (by omega)⟩ rfl]
    iexact Hdone
  isplitl [H0 H1 H2r H3r H4 Hbufs]
  · isplitl [H0]; · iexists _; iapply (Entails.of_eq (pts_b (F := F) d L cc0_scratch0 _)); iexact H0
    isplitl [H1]; · iexists _; iapply (Entails.of_eq (pts_b (F := F) d L cc0_scratch1 _)); iexact H1
    isplitl [H2r]; · iexists _; iapply (Entails.of_eq (pts_b (F := F) d L cc0_scratch2 _)); iexact H2r
    isplitl [H3r]; · iexists _; iapply (Entails.of_eq (pts_b (F := F) d L cc0_scratch3 _)); iexact H3r
    isplitl [H4]; · iexists _; iapply (Entails.of_eq (pts_b (F := F) d L cc0_scratch4 _)); iexact H4
    iexact Hbufs
  isplitl [Hs5 Hs6 Hf7 Hf8 Hs0 Hsems]
  · isplitl [Hs5]; · iexact Hs5
    isplitl [Hs6]; · iexact Hs6
    isplitl [Hf7]; · iexact Hf7
    isplitl [Hf8]; · iexact Hf8
    isplitl [Hs0]; · iexact Hs0
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_body (coordsV c s)
          (Memref.whole main_v2_scv) (Memref.isWhole_whole _) (Memref.whole main_v1_scv) (Memref.isWhole_whole _)
          (Memref.whole main_v4_scv) (Memref.isWhole_whole _) (Memref.whole cc0_scratch0) (Memref.isWhole_whole _)
          (Memref.whole cc0_scratch1) (Memref.isWhole_whole _) (Memref.whole cc0_scratch2) (Memref.isWhole_whole _)
          (Memref.whole cc0_scratch3) (Memref.isWhole_whole _) (Memref.whole cc0_scratch4) (Memref.isWhole_whole _)
          cc0_scratch5 cc0_scratch6 cc0_scratch7 cc0_scratch8 cc0_scoped0) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsV ⟨_, hci.1⟩ ⟨_, hci.2⟩) hF O W hO).trans (wp_mono frame _ _ fun _ => obl_post)

end Tile

end Cert.Proof.KB

end
-- ==== Proof.Region.lean ====
/-
  The TensorCore half of the program: the pipelined call that takes the columns n ≥ 196608 of the transposed
  table in 25 blocks of 32768 columns, each block's result the sum over the 64 rows d of x_d · u_d.

  The mathematics. Grid point t stages block t + 6 of the table (columns 32768 (t + 6) + y, y < 32768) and
  writes block t of the result (indices 32768 t + y). The last table block runs past column 1000000: the
  transfer is cut there, and the staging columns past the cut hold words nothing names. The last result block is
  cut at index 803392 in the same place (16960 columns remain in both), so what is written back is computed from
  a staged block that agrees with the table on every column that exists. The user column is staged once, at the
  first point, and the body never writes it. The staging contents are therefore CONSTRAINED (a relation between
  what the body finds and what it leaves), not named: the result at point t is the body's reduction of SOME
  block agreeing with the table where the table has columns.
-/
import proofs.«207427_g73340861546603_cont_9to1c4b_775_30_alg».proof.Proof.Common
import Idealize.ShloMosaic.Lib.Pipeline.Frame
import Idealize.ShloMosaic.Lib.WholeRead

noncomputable section

namespace Cert.Proof.KI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ)

variable [FloatOps F]

/-! ## The pipeline's proof data -/

/-- No pipeline has a prefetched table. -/
abbrev adm : (p : Fin 1) → (pcfgs (F := F) p).Adm := fun p => (cfgs p).toPCfg_adm

/-- A staged table block agrees with the table `X` on the columns of block `t + 6` that exist. -/
def AgreesAt (X : FVec F S64x1000000 .f32) (t : ℕ) (xb : Vec F S64x32768 .f32) : Prop :=
  ∀ (r : Fin 64) (y : Fin 32768) (h : 32768 * (t + 6) + y.val < 1000000), xb (ix2 r y) = X (ix2 r ⟨32768 * (t + 6) + y.val, h⟩)

/-- The proof data: the three arrays at entry (the user column, the table, the result at whatever it held); the
    user column's staging buffer holds the column after every point, the table's is unconstrained (it is fetched
    anew at every point), the result's holds the body's reduction of some block agreeing with the table; no
    invariant, nothing owed, full shares. -/
def rdats (U3 : FVec F S64x1 .f32) (X2 : FVec F S64x1000000 .f32) (A5 : FVec F S803392 .f32) (_ : Fin 1) (d : Dev nD) :
    Pipeline.RDat τ (Elt F) (HIx 1) ℕ UU ℕ (Pipeline.pin (pcfgs (F := F)) adm 0) d where
  A w := match w with
    | ⟨0, _⟩ => U3
    | ⟨1, _⟩ => X2
    | ⟨2, _⟩ => A5
  after w t := match w with
    | ⟨0, _⟩ => fun _ X => X = U3
    | ⟨1, _⟩ => fun _ _ => True
    | ⟨2, _⟩ => fun _ X => ∃ xb : Vec F S64x32768 .f32, AgreesAt X2 t.val xb ∧ X = k1_pay1 xb U3
  Φ _ := iprop(emp)
  q _ := fullShare
  owed _ := 0

/-! ## The windows' blocks, decided over the grid -/

/-- The table's window at point `t` stages block `t + 6` along the columns, all 64 rows. -/
theorem index1 : ∀ t : Fin cfg1.N, win1_1.index t 0 = 0 ∧ win1_1.index t 1 = t.val + 6 :=
  (by decide +kernel : ∀ t : Fin grid1.N, win1_1.index t 0 = 0 ∧ win1_1.index t 1 = t.val + 6)
/-- Its transfer moves all 64 rows and the columns of the block that exist. -/
theorem xsize1 : ∀ t : Fin cfg1.N, win1_1.xsize (grid1.coords t) 0 = 64 ∧ win1_1.xsize (grid1.coords t) 1 = min 32768 (1000000 - 32768 * (t.val + 6)) :=
  (by decide +kernel : ∀ t : Fin grid1.N, win1_1.xsize (grid1.coords t) 0 = 64 ∧ win1_1.xsize (grid1.coords t) 1 = min 32768 (1000000 - 32768 * (t.val + 6)))
/-- The result's window at point `t` writes block `t`, -/
theorem index2 : ∀ t : Fin cfg1.N, win1_2.index t 0 = t.val :=
  (by decide +kernel : ∀ t : Fin grid1.N, win1_2.index t 0 = t.val)
/-- the indices of it that exist. -/
theorem xsize2 : ∀ t : Fin cfg1.N, win1_2.xsize (grid1.coords t) 0 = min 32768 (803392 - 32768 * t.val) :=
  (by decide +kernel : ∀ t : Fin grid1.N, win1_2.xsize (grid1.coords t) 0 = min 32768 (803392 - 32768 * t.val))
/-- The user column's window is never cut. -/
theorem xsize0 : ∀ t : Fin cfg1.N, win1_0.xsize (grid1.coords t) 0 = 64 ∧ win1_0.xsize (grid1.coords t) 1 = 1 :=
  (by decide +kernel : ∀ t : Fin grid1.N, win1_0.xsize (grid1.coords t) 0 = 64 ∧ win1_0.xsize (grid1.coords t) 1 = 1)
theorem index0 : ∀ t : Fin cfg1.N, win1_0.index t 0 = 0 ∧ win1_0.index t 1 = 0 :=
  (by decide +kernel : ∀ t : Fin grid1.N, win1_0.index t 0 = 0 ∧ win1_0.index t 1 = 0)

/-! ## What the body finds in the staging buffers -/

section Finds

variable (U3 : FVec F S64x1 .f32) (X2 : FVec F S64x1000000 .f32) (A5 : FVec F S803392 .f32) (d : Dev nD)

/-- A fetch of the user column's window fills the whole staging buffer with the column. -/
theorem fill0 (t : Fin cfg1.N) (d0 : S64x1.Idx → F .f32) :
    win1_0.fill (grid1.coords t) d0 ((win1_0.blk t).view.read (Elt F) U3) = U3 := by
  refine funext fun (j : S64x1.Idx) => ?_
  unfold Pipeline.Window.fill
  have hm : win1_0.moved (grid1.coords t) j = true :=
    (win1_0.moved_iff (grid1.coords t) j).mpr fun a => by
      match a with
      | ⟨0, _⟩ => show (j 0).val < win1_0.xsize (grid1.coords t) 0; rw [(xsize0 t).1]; exact (j 0).isLt
      | ⟨1, _⟩ => show (j 1).val < win1_0.xsize (grid1.coords t) 1; rw [(xsize0 t).2]; exact (j 1).isLt
  rw [dif_pos hm, View.read_apply]
  show U3 _ = U3 _
  congr 1; funext a; apply Fin.ext
  match a with
  | ⟨0, _⟩ => show win1_0.index t 0 * 64 + 1 * (j 0).val = (j 0).val; rw [(index0 t).1]; omega
  | ⟨1, _⟩ => show win1_0.index t 1 * 1 + 1 * (j 1).val = (j 1).val; rw [(index0 t).2]; omega

/-- A fetch of the table's window leaves a block that agrees with the table on the columns that exist. -/
theorem fill1 (t : Fin cfg1.N) (d0 : S64x32768.Idx → F .f32) :
    AgreesAt X2 t.val (win1_1.fill (grid1.coords t) d0 ((win1_1.blk t).view.read (Elt F) X2)) := by
  intro r y h
  unfold Pipeline.Window.fill
  have hm : win1_1.moved (grid1.coords t) (ix2 r y) = true :=
    (win1_1.moved_iff (grid1.coords t) (ix2 r y)).mpr fun a => by
      match a with
      | ⟨0, _⟩ => show r.val < win1_1.xsize (grid1.coords t) 0; rw [(xsize1 t).1]; exact r.isLt
      | ⟨1, _⟩ => show y.val < win1_1.xsize (grid1.coords t) 1; rw [(xsize1 t).2]; have := y.isLt; omega
  rw [dif_pos hm, View.read_apply]
  show X2 _ = X2 _
  congr 1; funext a; apply Fin.ext
  match a with
  | ⟨0, _⟩ => show win1_1.index t 0 * 64 + 1 * r.val = r.val; rw [(index1 t).1]; omega
  | ⟨1, _⟩ => show win1_1.index t 1 * 32768 + 1 * y.val = 32768 * (t.val + 6) + y.val; rw [(index1 t).2]; omega

/-- The user column's window is an input: no point writes it back. -/
theorem flush1_0 : ∀ u : Fin cfg1.N, (cfg1.win 0).flush u = false :=
  (by decide +kernel : ∀ u : Fin grid1.N, win1_0.flush u = false)

/-- The user column's staging buffer holds the column whenever the body runs. -/
theorem finds0 {t : Fin cfg1.N} {Y : S64x1.Idx → F .f32} (h : (rdats U3 X2 A5 0 d).Finds 0 t Y) : Y = U3 := by
  by_cases hf : (cfg1.win 0).fetch t = true
  · obtain ⟨d0, rfl⟩ := ((rdats U3 X2 A5 0 d).finds_of_fetch hf Y).mp h
    exact fill0 U3 t d0
  · have hf' : (cfg1.win 0).fetch t = false := by simpa using hf
    have ht : t.val ≠ 0 := fun e => hf ((fetch1_0 t).mpr (by rw [e]))
    rcases ((rdats U3 X2 A5 0 d).finds_of_pos hf' ht Y).mp h with hfl | ⟨Y', -, hY⟩
    · rw [flush1_0] at hfl; exact absurd hfl Bool.false_ne_true
    · exact hY

/-- The table's staging buffer holds a block agreeing with the table whenever the body runs. -/
theorem finds1 {t : Fin cfg1.N} {Y : S64x32768.Idx → F .f32} (h : (rdats U3 X2 A5 0 d).Finds 1 t Y) : AgreesAt X2 t.val Y := by
  obtain ⟨d0, rfl⟩ := ((rdats U3 X2 A5 0 d).finds_of_fetch (fetch1_1 t) Y).mp h
  exact fill1 X2 t d0

end Finds

/-! ## The kernel body -/

/-- One store through the whole-shape rectangle at zero offsets covers the buffer. -/
theorem cover_unit_zero {S : Shape} {e : EltTy} {off : Fin S.rank → Nat} (h : off = fun _ => 0)
    (inb : ∀ a, off a + S.size a ≤ S.size a) (w : S.Idx → Elt F e) (y : S.Idx) :
    ∃ p ∈ [(⟨Rect.unit off S.size inb, w⟩ : View.Piece (Elt F) S e)], y ∈ p.1.set := by
  subst h
  exact ⟨_, List.mem_singleton_self _, by show y ∈ (Rect.whole S).set; rw [Rect.set_whole]; exact Finset.mem_univ y⟩

/-- The body on any whole staging memrefs: it loads the table block and the user column, and stores the reduction
    of their product over the rows; the first two buffers are left as found. -/
theorem body_run (c : Dev nD) (E : Set ℕ) (i : grid1.Coords)
    (arg1 : Memref sig .tc .vmem S64x1 .f32) (h1 : arg1.IsWhole) (arg2 : Memref sig .tc .vmem S64x32768 .f32) (h2 : arg2.IsWhole)
    (arg3 : Memref sig .tc .vmem S32768 .f32) (h3 : arg3.IsWhole)
    (Y1 : Vec F S64x1 .f32) (Y2 : Vec F S64x32768 .f32) (Y3 : Vec F S32768 .f32) (Kk : PUnit → sProp 𝕄) :
    iprop(owns (c.tc : Thread nD τ) arg1 fullShare Y1 ∗ owns (c.tc : Thread nD τ) arg2 fullShare Y2 ∗ owns (c.tc : Thread nD τ) arg3 fullShare Y3
        ∗ (iprop(owns (c.tc : Thread nD τ) arg1 fullShare Y1 ∗ owns (c.tc : Thread nD τ) arg2 fullShare Y2
              ∗ owns (c.tc : Thread nD τ) arg3 fullShare (k1_pay1 Y2 Y1)) -∗ Kk ⟨⟩))
      ⊢ wp frame (wpE (defs₀ (F := F)) 𝒱₀ (c.tc : Thread nD τ) none) E (cc1__tc_body i arg1 h1 arg2 h2 arg3 h3) Kk := by
  simp only [cc1__tc_body_eq_skeleton]; unfold cc1__tc_body_skel
  unfold owns
  iintro ⟨⟨%f1, %hf1, H1⟩, ⟨%f2, %hf2, H2⟩, ⟨%f3, %hf3, H3⟩, Hk⟩
  obtain rfl := Memref.IsWhole.eq_unread h1 hf1
  obtain rfl := Memref.IsWhole.eq_unread h2 hf2
  obtain rfl := Memref.IsWhole.eq_unread h3 hf3
  sl_exec
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  have hz2 : (![0, 0] : Fin 2 → Nat) = fun _ => 0 := funext fun a => by fin_cases a <;> rfl
  have hz1 : (![0] : Fin 1 → Nat) = fun _ => 0 := funext fun a => by fin_cases a; rfl
  rw [View.read_writes_eq_canon _ _ _ (fun y => cover_unit_zero hz1 _ _ y), View.canon_unit_zero hz1]
  simp only [View.readAt_eq_ld, hf1, hf2, View.ld_unit_zero (S := S64x32768) hz2, View.ld_unit_zero (S := S64x1) hz2]

/-- The library's body obligation over the relational proof data, at every point. -/
theorem body_obligation (U3 : FVec F S64x1 .f32) (X2 : FVec F S64x1000000 .f32) (A5 : FVec F S803392 .f32) (c : Dev nD) :
    (rdats U3 X2 A5 0 c).BodyObligation (defs₀ (F := F)) 𝒱₀ (none : HIx 1) Set.univ := by
  intro t Y hY
  rw [bigSep_W1, bigSep_W1]
  have e0 : Y 0 = U3 := finds0 U3 X2 A5 c (hY 0)
  have a1 : AgreesAt X2 t.val (Y 1) := finds1 U3 X2 A5 c (hY 1)
  have eΦ : ∀ k, (rdats U3 X2 A5 0 c).Φ k = iprop(emp) := fun _ => rfl
  have eO : (rdats U3 X2 A5 0 c).owesAt (none : HIx 1) t.succ = (rdats U3 X2 A5 0 c).owesAt (none : HIx 1) t.castSucc := rfl
  rw [eΦ, eΦ, eO]
  iintro ⟨HΦ, HO, H0, H1, H2⟩
  iapply (body_run c Set.univ (grid1.coords t) (win1_0.stage (cfg1.slots t 0)) (hstage1_0 _) (win1_1.stage (cfg1.slots t 1)) (hstage1_1 _)
    (win1_2.stage (cfg1.slots t 2)) (hstage1_2 _) (Y 0) (Y 1) (Y 2) _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists (Y 0); isplitr; · ipureintro; exact e0
    iexact H0
  isplitl [H1]
  · iexists (Y 1); isplitr; · ipureintro; trivial
    iexact H1
  · iexists (k1_pay1 (Y 1) (Y 0)); isplitr
    · ipureintro; exact ⟨Y 1, a1, by rw [e0]⟩
    iexact H2

/-! ## What the result array holds after the write-backs -/

section Result

variable (U3 : FVec F S64x1 .f32) (X2 : FVec F S64x1000000 .f32) (A5 : FVec F S803392 .f32) (d : Dev nD)

/-- The result blocks below `n` are written: each is the body's reduction of a block agreeing with the table. -/
def DoneBelow (n : ℕ) (f : FVec F S803392 .f32) : Prop :=
  ∀ t : ℕ, t < n → ∃ xb : Vec F S64x32768 .f32, AgreesAt X2 t xb ∧
    ∀ (y : Fin 32768) (h : 32768 * t + y.val < 803392), f (ix1 ⟨32768 * t + y.val, h⟩) = k1_pay1 xb U3 (ix1 y)

/-- An index of the result is in point `t`'s block iff it is among the block's indices that exist. -/
theorem mem_blk2 (t : Fin cfg1.N) (i : S803392.Idx) :
    i ∈ (win1_2.blk t).view.setOn Finset.univ ↔ 32768 * t.val ≤ (i 0).val ∧ (i 0).val < 32768 * t.val + min 32768 (803392 - 32768 * t.val) := by
  rw [View.setOn_univ]
  show i ∈ ((View.whole main_v5).slice (win1_2.rect t)).set ↔ _
  rw [View.set_slice_whole, Rect.mem_set_unit]
  constructor
  · intro h
    have h0 : win1_2.index t 0 * 32768 ≤ (i 0).val ∧ (i 0).val < win1_2.index t 0 * 32768 + win1_2.xsize (grid1.coords t) 0 := h 0
    rw [index2 t, xsize2 t] at h0; omega
  · intro h a
    match a with
    | ⟨0, _⟩ =>
      show win1_2.index t 0 * 32768 ≤ (i 0).val ∧ (i 0).val < win1_2.index t 0 * 32768 + win1_2.xsize (grid1.coords t) 0
      rw [index2 t, xsize2 t]; omega

/-- After the write-backs below `n` the blocks below `n` are written and stay written: the blocks are disjoint. -/
theorem arrAt2 : ∀ (n : ℕ), n ≤ cfg1.N → ∀ f, (rdats U3 X2 A5 0 d).ArrAt 2 n f → DoneBelow U3 X2 n f
  | 0, _, _, _ => fun t ht => absurd ht (Nat.not_lt_zero t)
  | n + 1, hn, f, h => by
    have hn' : n < cfg1.N := hn
    rw [show (rdats U3 X2 A5 0 d).ArrAt 2 (n + 1) = _ from (rdats U3 X2 A5 0 d).ArrAt_succ 2 ⟨n, hn'⟩,
      if_pos (show ((Pipeline.pin (pcfgs (F := F)) adm 0).win 2).flush ⟨n, hn'⟩ = true from flush1_2 ⟨n, hn'⟩)] at h
    have h' : ∃ (G₀ : FVec F S803392 .f32) (X : FVec F S32768 .f32), (rdats U3 X2 A5 0 d).ArrAt 2 n G₀ ∧ (rdats U3 X2 A5 0 d).Leaves 2 ⟨n, hn'⟩ X
        ∧ f = (win1_2.blk ⟨n, hn'⟩).view.write (Elt F) G₀ (win1_2.cut (grid1.coords ⟨n, hn'⟩) X) Finset.univ := h
    obtain ⟨G₀, X, hG₀, ⟨Y, -, xb, hxb, rfl⟩, rfl⟩ := h'
    have ih := arrAt2 n (Nat.le_of_lt hn') G₀ hG₀
    intro t ht
    by_cases e : t = n
    · subst e
      refine ⟨xb, hxb, fun y hy => ?_⟩
      let x : (win1_2.xblock (grid1.coords ⟨t, hn'⟩)).Idx := fun a => ⟨y.val, by
        match a with
        | ⟨0, _⟩ =>
          show y.val < win1_2.xsize (grid1.coords ⟨t, hn'⟩) 0
          rw [xsize2]; show y.val < min 32768 (803392 - 32768 * t); have := y.isLt; omega⟩
      have ei : (ix1 ⟨32768 * t + y.val, hy⟩ : S803392.Idx) = (win1_2.blk ⟨t, hn'⟩).view.emb x := by
        funext a; apply Fin.ext
        match a with
        | ⟨0, _⟩ =>
          show 32768 * t + y.val = win1_2.index ⟨t, hn'⟩ 0 * 32768 + 1 * y.val
          rw [index2]; show _ = t * 32768 + 1 * y.val; omega
      rw [ei, View.write_emb_of_mem _ _ (Finset.mem_univ x)]
      show k1_pay1 xb U3 (win1_2.xinj _ x) = k1_pay1 xb U3 (ix1 y)
      congr 1; funext a; apply Fin.ext
      match a with
      | ⟨0, _⟩ => rfl
    · obtain ⟨xb', hxb', hf⟩ := ih t (by omega)
      refine ⟨xb', hxb', fun y hy => ?_⟩
      rw [View.write_of_not_mem _ _ _ (show (ix1 ⟨32768 * t + y.val, hy⟩ : S803392.Idx) ∉ (win1_2.blk ⟨n, hn'⟩).view.setOn Finset.univ from by
        rw [mem_blk2]; show ¬(32768 * n ≤ 32768 * t + y.val ∧ 32768 * t + y.val < 32768 * n + min 32768 (803392 - 32768 * n))
        have := y.isLt; omega)]
      exact hf y hy

/-- After all 25 write-backs the result array satisfies the specification. -/
theorem tcSpec_of_arrAt {f : FVec F S803392 .f32} (h : (rdats U3 X2 A5 0 d).ArrAt 2 cfg1.N f) : TcSpec X2 U3 f := by
  intro t
  obtain ⟨xb, hxb, hf⟩ := arrAt2 U3 X2 A5 d cfg1.N le_rfl f h t.val (by have e : cfg1.N = 25 := N_1; have := t.isLt; omega)
  exact ⟨xb, hxb, hf⟩

end Result

/-! ## The launch element's piece -/

/-- From the staging rounds' launch element, every TensorCore's staging cells' ghost state and duty tokens. -/
theorem region_ghost :
    (BI.own ((EP (F := F)) (initOf (Pipeline.cells (nD := nD) (τ := τ) cfgs cellOf_inj) (Pipeline.launchToks (nD := nD) (τ := τ) cfgs cellOf_inj))) : sProp 𝕄)
      ⊢ iprop(|==> bigSep Finset.univ fun d : Dev nD => iprop(Pipeline.cellsGhost cfgs (EP (F := F)) 0 d ∗ Pipeline.toksInit cfgs (EP (F := F)) 0 d)) := by
  have e : ∀ Φ : Fin 1 → sProp 𝕄, bigSep Finset.univ Φ = Φ 0 := fun Φ => by
    rw [show (Finset.univ : Finset (Fin 1)) = {0} from by decide, bigSep_singleton]
  have h := Pipeline.fund_ghost (nD := nD) (τ := τ) (Ix := HIx 1) (Val := Elt F) (Name := ℕ) (U := UU) (Lvl := ℕ) cfgs (EP (F := F)) cellOf_inj
  have e1 : (fun c : Dev nD => bigSep Finset.univ fun p : Fin 1 => (Pipeline.cellsGhost cfgs (EP (F := F)) p c : sProp 𝕄))
      = fun c => Pipeline.cellsGhost cfgs (EP (F := F)) 0 c := funext fun c => e _
  have e2 : (fun c : Dev nD => bigSep Finset.univ fun p : Fin 1 => (Pipeline.toksInit cfgs (EP (F := F)) p c : sProp 𝕄))
      = fun c => Pipeline.toksInit cfgs (EP (F := F)) 0 c := funext fun c => e _
  rw [e1, e2] at h
  rw [bigSep_sep']
  exact h

/-! ## The region -/

section Region

variable (U3 : FVec F S64x1 .f32) (X2 : FVec F S64x1000000 .f32) (A5 : FVec F S803392 .f32)
  (lv : GSem nD τ sig → HIx 1 → ℕ) (Wf : (c : Dev nD) → (b : Ref sig .tc) → Buf (Elt F) ((c.tc : Thread nD τ).loc b))

/-- No pipeline has a prefetched table: nothing is held of them. -/
theorem prefHeld_none (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld; rw [Finset.univ_eq_empty, BI.bigSep_empty]

/-- What the TensorCore owes as the pipeline's proof data holds it: nothing, its recorded waits unbounded. -/
theorem owesAt_iff (c : Dev nD) (k : Fin (cfg1.N + 1)) :
    ((rdats U3 X2 A5 0 c).owesAt (none : HIx 1) k : sProp 𝕄) ⊣⊢ iprop(∃ Wt, owes (c.tc : Thread nD τ) (0 : CellTallies nD τ sig (HIx 1)) Wt) := by
  constructor
  · unfold Pipeline.RDat.owesAt Pipeline.owesWithin
    iintro ⟨%Wt, -, HO⟩; iexists Wt; iexact HO
  · unfold Pipeline.RDat.owesAt Pipeline.owesWithin Pipeline.RDat.bound
    iintro ⟨%Wt, HO⟩; iexists Wt; isplitr; · ipureintro; exact fun _ _ => Or.inl trivial
    iexact HO

/-- The three arrays as the pipeline holds them are the arrays as @main holds them: whole buffers. -/
theorem arr0_eq (c : Dev nD) (G : FVec F S64x1 .f32) :
    (((cfg1.win 0).arr.view.loc (c.tc : Thread nD τ)) ↦[(cfg1.win 0).arr.view.set]{fullShare} G : sProp 𝕄) = (v3Loc c ↦{fullShare} G) := by
  show ((v3Loc c) ↦[(Memref.whole main_v3 : Memref sig .tc _ _ _).view.set]{fullShare} G : sProp 𝕄) = _
  rw [(Memref.isWhole_whole main_v3).set_eq_univ]
theorem arr1_eq (c : Dev nD) (G : FVec F S64x1000000 .f32) :
    (((cfg1.win 1).arr.view.loc (c.tc : Thread nD τ)) ↦[(cfg1.win 1).arr.view.set]{fullShare} G : sProp 𝕄) = (v2Loc c ↦{fullShare} G) := by
  show ((v2Loc c) ↦[(Memref.whole main_v2 : Memref sig .tc _ _ _).view.set]{fullShare} G : sProp 𝕄) = _
  rw [(Memref.isWhole_whole main_v2).set_eq_univ]
theorem arr2_eq (c : Dev nD) (G : FVec F S803392 .f32) :
    (((cfg1.win 2).arr.view.loc (c.tc : Thread nD τ)) ↦[(cfg1.win 2).arr.view.set]{fullShare} G : sProp 𝕄) = (v5Loc c ↦{fullShare} G) := by
  show ((v5Loc c) ↦[(Memref.whole main_v5 : Memref sig .tc _ _ _).view.set]{fullShare} G : sProp 𝕄) = _
  rw [(Memref.isWhole_whole main_v5).set_eq_univ]

/-- The region's record: the layout the launch decides, no semaphore of the kernel's own, the body obligation, no
    wait evidence needed (nothing is owed), and the sorting of what @main holds around the region. -/
def regionSeg : Pipeline.RDat.RegionSeg (pcfgs (F := F)) adm (rdats U3 X2 A5) (none : HIx 1) defs₀ 𝒱₀ (K (F := F)).L lv 0 where
  win := winFacts1.to₀
  block_pos := block_pos1
  stage_whole := stage_whole1
  K := PEmpty
  osem k := k.elim
  ho := Pipeline.OwnSemFacts.none _
  hbody c := body_obligation U3 X2 A5 c
  hwaits := Pipeline.RDat.hwaits_of_owed_zero _ _ _ _ _ _ 0 fun _ _ => rfl
  pre c := iprop((∃ Wt, owes (c.tc : Thread nD τ) (0 : CellTallies nD τ sig (HIx 1)) Wt)
    ∗ (v3Loc c ↦{fullShare} U3) ∗ (v2Loc c ↦{fullShare} X2) ∗ (v5Loc c ↦{fullShare} A5) ∗ Pipeline.unscopedRest spec1 c (Wf c))
  post c := iprop((∃ Wt, owes (c.tc : Thread nD τ) (0 : CellTallies nD τ sig (HIx 1)) Wt)
    ∗ (v3Loc c ↦{fullShare} U3) ∗ (v2Loc c ↦{fullShare} X2) ∗ (∃ f, ⌜TcSpec X2 U3 f⌝ ∗ v5Loc c ↦{fullShare} f)
    ∗ Pipeline.unscopedRest spec1 c (Wf c))
  X _ := iprop(emp)
  Y _ := iprop(emp)
  Z c := Pipeline.unscopedRest spec1 c (Wf c)
  hentry c := by
    rw [Pipeline.ownSems0_none, prefHeld_none,
      Pipeline.RDat.arrays_eq (pcfgs (F := F)) adm (rdats U3 X2 A5) 0 c arr_whole1 (fun w => by unfold Pipeline.RDat.share; split <;> rfl), bigSep_W1]
    iintro ⟨⟨HO, H3, H2, H5, HW⟩, -, -⟩
    imodintro
    isplitl [H3 H2 H5]
    · isplitl [H3]; · iexact H3
      isplitl [H2]; · iexact H2
      iexact H5
    isplitr; · iempintro
    isplitl [HO]; · iapply (owesAt_iff U3 X2 A5 c 0).2; iexact HO
    isplitr; · iempintro
    iexact HW
  hin c := by iintro -; iempintro
  hout c := by
    rw [Pipeline.ownSems0_none, scopedRest1_eq]
    iintro -; isplitr; · iempintro
    isplitr <;> iempintro
  hexit c := by
    have hs : ∀ w, (rdats U3 X2 A5 0 c).share w = fullShare := fun w => by unfold Pipeline.RDat.share; split <;> rfl
    unfold Pipeline.RDat.arraysAt
    simp only [hs]
    rw [bigSep_W1]
    iintro ⟨⟨⟨%F0, %h0, H0⟩, ⟨%F1, %h1, H1⟩, ⟨%F2, %h2, H2⟩⟩, HO, -, HZ⟩
    imodintro
    rw [(rdats U3 X2 A5 0 c).ArrAt_in 0 rfl] at h0
    rw [(rdats U3 X2 A5 0 c).ArrAt_in 1 rfl] at h1
    have h0' : F0 = U3 := h0
    have h1' : F1 = X2 := h1
    isplitl [HO]; · iapply (owesAt_iff U3 X2 A5 c (Fin.last _)).1; iexact HO
    isplitl [H0]; · iapply (Entails.of_eq ((arr0_eq c F0).trans (by rw [h0']))); iexact H0
    isplitl [H1]; · iapply (Entails.of_eq ((arr1_eq c F1).trans (by rw [h1']))); iexact H1
    isplitl [H2]
    · iexists F2; isplitr; · ipureintro; exact tcSpec_of_arrAt U3 X2 A5 c h2
      iapply (Entails.of_eq (arr2_eq c F2)); iexact H2
    iexact HZ

end Region

/-- The TensorCore's pipelined call, from what @main holds after the SparseCore call: the region boundary, what the
    TensorCore owes (nothing is left after the one SparseCore call) with its recorded waits, the staging cells'
    ghost state, the user column, the table, the result array at some contents and the six other arrays; to the
    same with the result array at contents satisfying `TcSpec`. -/
theorem region_wp {lv : GSem nD τ sig → HIx 1 → ℕ} (κ : GSem nD τ sig → ℕ) (d : Dev nD)
    (U3 : FVec F S64x1 .f32) (X2 : FVec F S64x1000000 .f32)
    (W : (b : Ref sig .tc) → Buf (Elt F) ((d.tc : Thread nD τ).loc b)) :
    iprop((K (F := F)).ctx EH (P m) κ lv ∗ boundary (T d)
        ∗ (∃ Wt, ⌜(K (F := F)).WBelow (T d) Wt (8 * 1)⌝ ∗ owes (T d) ((K (F := F)).Otc d 1) Wt)
        ∗ Pipeline.cellsGhost cfgs (EP (F := F)) 0 d ∗ Pipeline.toksInit cfgs (EP (F := F)) 0 d
        ∗ (v3Loc d ↦{fullShare} U3) ∗ (v2Loc d ↦{fullShare} X2) ∗ (∃ f, v5Loc d ↦{fullShare} f)
        ∗ Pipeline.unscopedRest spec1 d W)
      ⊢ wp frame (wpE ((K (F := F)).defs (D (F := F))) 𝒱 (T d) none) Set.univ
          (Prog.lift (.customCall (SparseCore.inner (Pipeline.entry 0)) ())) fun _ =>
          iprop(boundary (T d)
            ∗ (∃ Wt, ⌜(K (F := F)).WBelow (T d) Wt (8 * 1)⌝ ∗ owes (T d) ((K (F := F)).Otc d 1) Wt)
            ∗ (v3Loc d ↦{fullShare} U3) ∗ (v2Loc d ↦{fullShare} X2)
            ∗ (∃ f, ⌜TcSpec X2 U3 f⌝ ∗ v5Loc d ↦{fullShare} f)
            ∗ Pipeline.unscopedRest spec1 d W) := by
  -- with one SparseCore call every recorded wait sits at or below level 8
  have hW8 : ∀ Wt, (K (F := F)).WBelow (T d) Wt (8 * 1) := fun Wt p _ => by
    rcases p with ⟨sm, ι⟩
    cases ι with
    | none => show (K (F := F)).lev (T d, sm) none ≤ 8 * 1; rw [SparseCore.Cfg.lev_none]; exact Nat.zero_le _
    | some q => exact (SparseCore.Cfg.lev_some_le (K (F := F)) (T d, sm) q).trans (by have := q.isLt; omega)
  rw [(K (F := F)).Otc_end d (le_refl 1)]
  iintro ⟨#Hctx, Hbd, ⟨%Wt, -, HO⟩, Hg, Ht, H3, H2, ⟨%A5, H5⟩, HW⟩
  ihave Hlev := (SparseCore.Cfg.ctx_levAts κ) $$ Hctx
  iapply ((K (F := F)).wp_liftProg (D (F := F)) 𝒱 (T d) Set.univ none (Prog.lift (.customCall (Pipeline.entry 0) ())) _)
  -- the library's step over the region, at this record, to the stated post
  have hstep := Pipeline.RDat.RegionSeg.wp (pcfgs (F := F)) adm (rdats U3 X2 A5) (none : HIx 1) cellOf_inj (EP (F := F)) defs₀ 𝒱₀ (K (F := F)).L lv
    (regionSeg U3 X2 A5 lv fun _ b => W b) d none (fun u hu => by cases hu) (fun _ => Prog.ret PUnit.unit) (fun _ =>
          iprop(boundary (T d)
            ∗ (∃ Wt, ⌜(K (F := F)).WBelow (T d) Wt (8 * 1)⌝ ∗ owes (T d) (0 : CellTallies nD τ sig (HIx 1)) Wt)
            ∗ (v3Loc d ↦{fullShare} U3) ∗ (v2Loc d ↦{fullShare} X2)
            ∗ (∃ f, ⌜TcSpec X2 U3 f⌝ ∗ v5Loc d ↦{fullShare} f)
            ∗ Pipeline.unscopedRest spec1 d W))
  have epin : Pipeline.pin (pcfgs (F := F)) adm = cfgs := funext fun p => Pipeline.Cfg.toPCfg_at (cfgs p) (adm p)
  rw [epin] at hstep
  have epre : (regionSeg U3 X2 A5 lv fun _ b => W b).pre d = iprop((∃ Wt, owes (d.tc : Thread nD τ) (0 : CellTallies nD τ sig (HIx 1)) Wt)
    ∗ (v3Loc d ↦{fullShare} U3) ∗ (v2Loc d ↦{fullShare} X2) ∗ (v5Loc d ↦{fullShare} A5) ∗ Pipeline.unscopedRest spec1 d W) := rfl
  have epost : (regionSeg U3 X2 A5 lv fun _ b => W b).post d = iprop((∃ Wt, owes (d.tc : Thread nD τ) (0 : CellTallies nD τ sig (HIx 1)) Wt)
    ∗ (v3Loc d ↦{fullShare} U3) ∗ (v2Loc d ↦{fullShare} X2) ∗ (∃ f, ⌜TcSpec X2 U3 f⌝ ∗ v5Loc d ↦{fullShare} f)
    ∗ Pipeline.unscopedRest spec1 d W) := rfl
  rw [epre, epost] at hstep
  iapply hstep
  isplitr [Hbd HO Hg Ht H3 H2 H5 HW]
  · iintro ⟨Hbd, ⟨%Wt', HO⟩, H3, H2, H5, HW⟩
    rw [wp_ret]; imodintro
    isplitl [Hbd]; · iexact Hbd
    isplitl [HO]
    · iexists Wt'; isplitr; · ipureintro; exact hW8 Wt'
      iexact HO
    isplitl [H3]; · iexact H3
    isplitl [H2]; · iexact H2
    isplitl [H5]; · iexact H5
    iexact HW
  isplitl [Hbd]; · iexact Hbd
  isplitl [HO H3 H2 H5 HW]
  · isplitl [HO]; · iexists Wt; iexact HO
    isplitl [H3]; · iexact H3
    isplitl [H2]; · iexact H2
    isplitl [H5]; · iexact H5
    iexact HW
  isplitr; · iexact Hlev
  isplitl [Hg]; · iexact Hg
  iexact Ht

end Cert.Proof.KI

end
-- ==== Proof.RegionB.lean ====
/-
  The TensorCore half of the program: the pipelined call that takes the columns n ≥ 196608 of the transposed
  table in 25 blocks of 32768 columns, each block's result the sum over the 64 rows d of x_d · u_d.

  The mathematics. Grid point t stages block t + 6 of the table (columns 32768 (t + 6) + y, y < 32768) and
  writes block t of the result (indices 32768 t + y). The last table block runs past column 1000000: the
  transfer is cut there, and the staging columns past the cut hold words nothing names. The last result block is
  cut at index 803392 in the same place (16960 columns remain in both), so what is written back is computed from
  a staged block that agrees with the table on every column that exists. The user column is staged once, at the
  first point, and the body never writes it. The staging contents are therefore CONSTRAINED (a relation between
  what the body finds and what it leaves), not named: the result at point t is the body's reduction of SOME
  block agreeing with the table where the table has columns.
-/
import proofs.«207427_g73340861546603_cont_9to1c4b_775_30_alg».proof.Proof.CommonB
import Idealize.ShloMosaic.Lib.Pipeline.Frame
import Idealize.ShloMosaic.Lib.WholeRead

noncomputable section

namespace Cert.Proof.KB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix1 ix2)

variable {F : FTy → Type}

local notation "𝕄" => MT nD τ sig (HIx 1) (Elt F) ℕ UU ℕ

variable (m : (ℓ : Loc nD τ sig) → Buf (Elt F) ℓ)

variable [FloatOps F]

/-! ## The pipeline's proof data -/

/-- No pipeline has a prefetched table. -/
abbrev adm : (p : Fin 1) → (pcfgs (F := F) p).Adm := fun p => (cfgs p).toPCfg_adm

/-- A staged table block agrees with the table `X` on the columns of block `t + 6` that exist. -/
def AgreesAt (X : FVec F S64x1000000 .f32) (t : ℕ) (xb : Vec F S64x32768 .f32) : Prop :=
  ∀ (r : Fin 64) (y : Fin 32768) (h : 32768 * (t + 6) + y.val < 1000000), xb (ix2 r y) = X (ix2 r ⟨32768 * (t + 6) + y.val, h⟩)

/-- The proof data: the three arrays at entry (the user column, the table, the result at whatever it held); the
    user column's staging buffer holds the column after every point, the table's is unconstrained (it is fetched
    anew at every point), the result's holds the body's reduction of some block agreeing with the table; no
    invariant, nothing owed, full shares. -/
def rdats (U3 : FVec F S64x1 .f32) (X2 : FVec F S64x1000000 .f32) (A5 : FVec F S803392 .f32) (_ : Fin 1) (d : Dev nD) :
    Pipeline.RDat τ (Elt F) (HIx 1) ℕ UU ℕ (Pipeline.pin (pcfgs (F := F)) adm 0) d where
  A w := match w with
    | ⟨0, _⟩ => U3
    | ⟨1, _⟩ => X2
    | ⟨2, _⟩ => A5
  after w t := match w with
    | ⟨0, _⟩ => fun _ X => X = U3
    | ⟨1, _⟩ => fun _ _ => True
    | ⟨2, _⟩ => fun _ X => ∃ xb : Vec F S64x32768 .f32, AgreesAt X2 t.val xb ∧ X = k1_pay1 xb U3
  Φ _ := iprop(emp)
  q _ := fullShare
  owed _ := 0

/-! ## The windows' blocks, decided over the grid -/

/-- The table's window at point `t` stages block `t + 6` along the columns, all 64 rows. -/
theorem index1 : ∀ t : Fin cfg1.N, win1_1.index t 0 = 0 ∧ win1_1.index t 1 = t.val + 6 :=
  (by decide +kernel : ∀ t : Fin grid1.N, win1_1.index t 0 = 0 ∧ win1_1.index t 1 = t.val + 6)
/-- Its transfer moves all 64 rows and the columns of the block that exist. -/
theorem xsize1 : ∀ t : Fin cfg1.N, win1_1.xsize (grid1.coords t) 0 = 64 ∧ win1_1.xsize (grid1.coords t) 1 = min 32768 (1000000 - 32768 * (t.val + 6)) :=
  (by decide +kernel : ∀ t : Fin grid1.N, win1_1.xsize (grid1.coords t) 0 = 64 ∧ win1_1.xsize (grid1.coords t) 1 = min 32768 (1000000 - 32768 * (t.val + 6)))
/-- The result's window at point `t` writes block `t`, -/
theorem index2 : ∀ t : Fin cfg1.N, win1_2.index t 0 = t.val :=
  (by decide +kernel : ∀ t : Fin grid1.N, win1_2.index t 0 = t.val)
/-- the indices of it that exist. -/
theorem xsize2 : ∀ t : Fin cfg1.N, win1_2.xsize (grid1.coords t) 0 = min 32768 (803392 - 32768 * t.val) :=
  (by decide +kernel : ∀ t : Fin grid1.N, win1_2.xsize (grid1.coords t) 0 = min 32768 (803392 - 32768 * t.val))
/-- The user column's window is never cut. -/
theorem xsize0 : ∀ t : Fin cfg1.N, win1_0.xsize (grid1.coords t) 0 = 64 ∧ win1_0.xsize (grid1.coords t) 1 = 1 :=
  (by decide +kernel : ∀ t : Fin grid1.N, win1_0.xsize (grid1.coords t) 0 = 64 ∧ win1_0.xsize (grid1.coords t) 1 = 1)
theorem index0 : ∀ t : Fin cfg1.N, win1_0.index t 0 = 0 ∧ win1_0.index t 1 = 0 :=
  (by decide +kernel : ∀ t : Fin grid1.N, win1_0.index t 0 = 0 ∧ win1_0.index t 1 = 0)

/-! ## What the body finds in the staging buffers -/

section Finds

variable (U3 : FVec F S64x1 .f32) (X2 : FVec F S64x1000000 .f32) (A5 : FVec F S803392 .f32) (d : Dev nD)

/-- A fetch of the user column's window fills the whole staging buffer with the column. -/
theorem fill0 (t : Fin cfg1.N) (d0 : S64x1.Idx → F .f32) :
    win1_0.fill (grid1.coords t) d0 ((win1_0.blk t).view.read (Elt F) U3) = U3 := by
  refine funext fun (j : S64x1.Idx) => ?_
  unfold Pipeline.Window.fill
  have hm : win1_0.moved (grid1.coords t) j = true :=
    (win1_0.moved_iff (grid1.coords t) j).mpr fun a => by
      match a with
      | ⟨0, _⟩ => show (j 0).val < win1_0.xsize (grid1.coords t) 0; rw [(xsize0 t).1]; exact (j 0).isLt
      | ⟨1, _⟩ => show (j 1).val < win1_0.xsize (grid1.coords t) 1; rw [(xsize0 t).2]; exact (j 1).isLt
  rw [dif_pos hm, View.read_apply]
  show U3 _ = U3 _
  congr 1; funext a; apply Fin.ext
  match a with
  | ⟨0, _⟩ => show win1_0.index t 0 * 64 + 1 * (j 0).val = (j 0).val; rw [(index0 t).1]; omega
  | ⟨1, _⟩ => show win1_0.index t 1 * 1 + 1 * (j 1).val = (j 1).val; rw [(index0 t).2]; omega

/-- A fetch of the table's window leaves a block that agrees with the table on the columns that exist. -/
theorem fill1 (t : Fin cfg1.N) (d0 : S64x32768.Idx → F .f32) :
    AgreesAt X2 t.val (win1_1.fill (grid1.coords t) d0 ((win1_1.blk t).view.read (Elt F) X2)) := by
  intro r y h
  unfold Pipeline.Window.fill
  have hm : win1_1.moved (grid1.coords t) (ix2 r y) = true :=
    (win1_1.moved_iff (grid1.coords t) (ix2 r y)).mpr fun a => by
      match a with
      | ⟨0, _⟩ => show r.val < win1_1.xsize (grid1.coords t) 0; rw [(xsize1 t).1]; exact r.isLt
      | ⟨1, _⟩ => show y.val < win1_1.xsize (grid1.coords t) 1; rw [(xsize1 t).2]; have := y.isLt; omega
  rw [dif_pos hm, View.read_apply]
  show X2 _ = X2 _
  congr 1; funext a; apply Fin.ext
  match a with
  | ⟨0, _⟩ => show win1_1.index t 0 * 64 + 1 * r.val = r.val; rw [(index1 t).1]; omega
  | ⟨1, _⟩ => show win1_1.index t 1 * 32768 + 1 * y.val = 32768 * (t.val + 6) + y.val; rw [(index1 t).2]; omega

/-- The user column's window is an input: no point writes it back. -/
theorem flush1_0 : ∀ u : Fin cfg1.N, (cfg1.win 0).flush u = false :=
  (by decide +kernel : ∀ u : Fin grid1.N, win1_0.flush u = false)

/-- The user column's staging buffer holds the column whenever the body runs. -/
theorem finds0 {t : Fin cfg1.N} {Y : S64x1.Idx → F .f32} (h : (rdats U3 X2 A5 0 d).Finds 0 t Y) : Y = U3 := by
  by_cases hf : (cfg1.win 0).fetch t = true
  · obtain ⟨d0, rfl⟩ := ((rdats U3 X2 A5 0 d).finds_of_fetch hf Y).mp h
    exact fill0 U3 t d0
  · have hf' : (cfg1.win 0).fetch t = false := by simpa using hf
    have ht : t.val ≠ 0 := fun e => hf ((fetch1_0 t).mpr (by rw [e]))
    rcases ((rdats U3 X2 A5 0 d).finds_of_pos hf' ht Y).mp h with hfl | ⟨Y', -, hY⟩
    · rw [flush1_0] at hfl; exact absurd hfl Bool.false_ne_true
    · exact hY

/-- The table's staging buffer holds a block agreeing with the table whenever the body runs. -/
theorem finds1 {t : Fin cfg1.N} {Y : S64x32768.Idx → F .f32} (h : (rdats U3 X2 A5 0 d).Finds 1 t Y) : AgreesAt X2 t.val Y := by
  obtain ⟨d0, rfl⟩ := ((rdats U3 X2 A5 0 d).finds_of_fetch (fetch1_1 t) Y).mp h
  exact fill1 X2 t d0

end Finds

/-! ## The kernel body -/

/-- One store through the whole-shape rectangle at zero offsets covers the buffer. -/
theorem cover_unit_zero {S : Shape} {e : EltTy} {off : Fin S.rank → Nat} (h : off = fun _ => 0)
    (inb : ∀ a, off a + S.size a ≤ S.size a) (w : S.Idx → Elt F e) (y : S.Idx) :
    ∃ p ∈ [(⟨Rect.unit off S.size inb, w⟩ : View.Piece (Elt F) S e)], y ∈ p.1.set := by
  subst h
  exact ⟨_, List.mem_singleton_self _, by show y ∈ (Rect.whole S).set; rw [Rect.set_whole]; exact Finset.mem_univ y⟩

/-- The body on any whole staging memrefs: it loads the table block and the user column, and stores the reduction
    of their product over the rows; the first two buffers are left as found. -/
theorem body_run (c : Dev nD) (E : Set ℕ) (i : grid1.Coords)
    (arg1 : Memref sig .tc .vmem S64x1 .f32) (h1 : arg1.IsWhole) (arg2 : Memref sig .tc .vmem S64x32768 .f32) (h2 : arg2.IsWhole)
    (arg3 : Memref sig .tc .vmem S32768 .f32) (h3 : arg3.IsWhole)
    (Y1 : Vec F S64x1 .f32) (Y2 : Vec F S64x32768 .f32) (Y3 : Vec F S32768 .f32) (Kk : PUnit → sProp 𝕄) :
    iprop(owns (c.tc : Thread nD τ) arg1 fullShare Y1 ∗ owns (c.tc : Thread nD τ) arg2 fullShare Y2 ∗ owns (c.tc : Thread nD τ) arg3 fullShare Y3
        ∗ (iprop(owns (c.tc : Thread nD τ) arg1 fullShare Y1 ∗ owns (c.tc : Thread nD τ) arg2 fullShare Y2
              ∗ owns (c.tc : Thread nD τ) arg3 fullShare (k1_pay1 Y2 Y1)) -∗ Kk ⟨⟩))
      ⊢ wp frame (wpE (defs₀ (F := F)) 𝒱₀ (c.tc : Thread nD τ) none) E (cc1__tc_body i arg1 h1 arg2 h2 arg3 h3) Kk := by
  simp only [cc1__tc_body_eq_skeleton]; unfold cc1__tc_body_skel
  unfold owns
  iintro ⟨⟨%f1, %hf1, H1⟩, ⟨%f2, %hf2, H2⟩, ⟨%f3, %hf3, H3⟩, Hk⟩
  obtain rfl := Memref.IsWhole.eq_unread h1 hf1
  obtain rfl := Memref.IsWhole.eq_unread h2 hf2
  obtain rfl := Memref.IsWhole.eq_unread h3 hf3
  sl_exec
  sl_step
  iapply Hk
  isplitl [H1]
  · iexists _; isplitr; · ipureintro; exact hf1
    iexact H1
  isplitl [H2]
  · iexists _; isplitr; · ipureintro; exact hf2
    iexact H2
  iexists _; isplitr
  swap; · iexact H3
  ipureintro
  have hz2 : (![0, 0] : Fin 2 → Nat) = fun _ => 0 := funext fun a => by fin_cases a <;> rfl
  have hz1 : (![0] : Fin 1 → Nat) = fun _ => 0 := funext fun a => by fin_cases a; rfl
  rw [View.read_writes_eq_canon _ _ _ (fun y => cover_unit_zero hz1 _ _ y), View.canon_unit_zero hz1]
  simp only [View.readAt_eq_ld, hf1, hf2, View.ld_unit_zero (S := S64x32768) hz2, View.ld_unit_zero (S := S64x1) hz2]

/-- The library's body obligation over the relational proof data, at every point. -/
theorem body_obligation (U3 : FVec F S64x1 .f32) (X2 : FVec F S64x1000000 .f32) (A5 : FVec F S803392 .f32) (c : Dev nD) :
    (rdats U3 X2 A5 0 c).BodyObligation (defs₀ (F := F)) 𝒱₀ (none : HIx 1) Set.univ := by
  intro t Y hY
  rw [bigSep_W1, bigSep_W1]
  have e0 : Y 0 = U3 := finds0 U3 X2 A5 c (hY 0)
  have a1 : AgreesAt X2 t.val (Y 1) := finds1 U3 X2 A5 c (hY 1)
  have eΦ : ∀ k, (rdats U3 X2 A5 0 c).Φ k = iprop(emp) := fun _ => rfl
  have eO : (rdats U3 X2 A5 0 c).owesAt (none : HIx 1) t.succ = (rdats U3 X2 A5 0 c).owesAt (none : HIx 1) t.castSucc := rfl
  rw [eΦ, eΦ, eO]
  iintro ⟨HΦ, HO, H0, H1, H2⟩
  iapply (body_run c Set.univ (grid1.coords t) (win1_0.stage (cfg1.slots t 0)) (hstage1_0 _) (win1_1.stage (cfg1.slots t 1)) (hstage1_1 _)
    (win1_2.stage (cfg1.slots t 2)) (hstage1_2 _) (Y 0) (Y 1) (Y 2) _)
  isplitl [H0]; · iexact H0
  isplitl [H1]; · iexact H1
  isplitl [H2]; · iexact H2
  iintro ⟨H0, H1, H2⟩
  isplitl [HΦ]; · iexact HΦ
  isplitl [HO]; · iexact HO
  isplitl [H0]
  · iexists (Y 0); isplitr; · ipureintro; exact e0
    iexact H0
  isplitl [H1]
  · iexists (Y 1); isplitr; · ipureintro; trivial
    iexact H1
  · iexists (k1_pay1 (Y 1) (Y 0)); isplitr
    · ipureintro; exact ⟨Y 1, a1, by rw [e0]⟩
    iexact H2

/-! ## What the result array holds after the write-backs -/

section Result

variable (U3 : FVec F S64x1 .f32) (X2 : FVec F S64x1000000 .f32) (A5 : FVec F S803392 .f32) (d : Dev nD)

/-- The result blocks below `n` are written: each is the body's reduction of a block agreeing with the table. -/
def DoneBelow (n : ℕ) (f : FVec F S803392 .f32) : Prop :=
  ∀ t : ℕ, t < n → ∃ xb : Vec F S64x32768 .f32, AgreesAt X2 t xb ∧
    ∀ (y : Fin 32768) (h : 32768 * t + y.val < 803392), f (ix1 ⟨32768 * t + y.val, h⟩) = k1_pay1 xb U3 (ix1 y)

/-- An index of the result is in point `t`'s block iff it is among the block's indices that exist. -/
theorem mem_blk2 (t : Fin cfg1.N) (i : S803392.Idx) :
    i ∈ (win1_2.blk t).view.setOn Finset.univ ↔ 32768 * t.val ≤ (i 0).val ∧ (i 0).val < 32768 * t.val + min 32768 (803392 - 32768 * t.val) := by
  rw [View.setOn_univ]
  show i ∈ ((View.whole main_v5).slice (win1_2.rect t)).set ↔ _
  rw [View.set_slice_whole, Rect.mem_set_unit]
  constructor
  · intro h
    have h0 : win1_2.index t 0 * 32768 ≤ (i 0).val ∧ (i 0).val < win1_2.index t 0 * 32768 + win1_2.xsize (grid1.coords t) 0 := h 0
    rw [index2 t, xsize2 t] at h0; omega
  · intro h a
    match a with
    | ⟨0, _⟩ =>
      show win1_2.index t 0 * 32768 ≤ (i 0).val ∧ (i 0).val < win1_2.index t 0 * 32768 + win1_2.xsize (grid1.coords t) 0
      rw [index2 t, xsize2 t]; omega

/-- After the write-backs below `n` the blocks below `n` are written and stay written: the blocks are disjoint. -/
theorem arrAt2 : ∀ (n : ℕ), n ≤ cfg1.N → ∀ f, (rdats U3 X2 A5 0 d).ArrAt 2 n f → DoneBelow U3 X2 n f
  | 0, _, _, _ => fun t ht => absurd ht (Nat.not_lt_zero t)
  | n + 1, hn, f, h => by
    have hn' : n < cfg1.N := hn
    rw [show (rdats U3 X2 A5 0 d).ArrAt 2 (n + 1) = _ from (rdats U3 X2 A5 0 d).ArrAt_succ 2 ⟨n, hn'⟩,
      if_pos (show ((Pipeline.pin (pcfgs (F := F)) adm 0).win 2).flush ⟨n, hn'⟩ = true from flush1_2 ⟨n, hn'⟩)] at h
    have h' : ∃ (G₀ : FVec F S803392 .f32) (X : FVec F S32768 .f32), (rdats U3 X2 A5 0 d).ArrAt 2 n G₀ ∧ (rdats U3 X2 A5 0 d).Leaves 2 ⟨n, hn'⟩ X
        ∧ f = (win1_2.blk ⟨n, hn'⟩).view.write (Elt F) G₀ (win1_2.cut (grid1.coords ⟨n, hn'⟩) X) Finset.univ := h
    obtain ⟨G₀, X, hG₀, ⟨Y, -, xb, hxb, rfl⟩, rfl⟩ := h'
    have ih := arrAt2 n (Nat.le_of_lt hn') G₀ hG₀
    intro t ht
    by_cases e : t = n
    · subst e
      refine ⟨xb, hxb, fun y hy => ?_⟩
      let x : (win1_2.xblock (grid1.coords ⟨t, hn'⟩)).Idx := fun a => ⟨y.val, by
        match a with
        | ⟨0, _⟩ =>
          show y.val < win1_2.xsize (grid1.coords ⟨t, hn'⟩) 0
          rw [xsize2]; show y.val < min 32768 (803392 - 32768 * t); have := y.isLt; omega⟩
      have ei : (ix1 ⟨32768 * t + y.val, hy⟩ : S803392.Idx) = (win1_2.blk ⟨t, hn'⟩).view.emb x := by
        funext a; apply Fin.ext
        match a with
        | ⟨0, _⟩ =>
          show 32768 * t + y.val = win1_2.index ⟨t, hn'⟩ 0 * 32768 + 1 * y.val
          rw [index2]; show _ = t * 32768 + 1 * y.val; omega
      rw [ei, View.write_emb_of_mem _ _ (Finset.mem_univ x)]
      show k1_pay1 xb U3 (win1_2.xinj _ x) = k1_pay1 xb U3 (ix1 y)
      congr 1; funext a; apply Fin.ext
      match a with
      | ⟨0, _⟩ => rfl
    · obtain ⟨xb', hxb', hf⟩ := ih t (by omega)
      refine ⟨xb', hxb', fun y hy => ?_⟩
      rw [View.write_of_not_mem _ _ _ (show (ix1 ⟨32768 * t + y.val, hy⟩ : S803392.Idx) ∉ (win1_2.blk ⟨n, hn'⟩).view.setOn Finset.univ from by
        rw [mem_blk2]; show ¬(32768 * n ≤ 32768 * t + y.val ∧ 32768 * t + y.val < 32768 * n + min 32768 (803392 - 32768 * n))
        have := y.isLt; omega)]
      exact hf y hy

/-- After all 25 write-backs the result array satisfies the specification. -/
theorem tcSpec_of_arrAt {f : FVec F S803392 .f32} (h : (rdats U3 X2 A5 0 d).ArrAt 2 cfg1.N f) : TcSpec X2 U3 f := by
  intro t
  obtain ⟨xb, hxb, hf⟩ := arrAt2 U3 X2 A5 d cfg1.N le_rfl f h t.val (by have e : cfg1.N = 25 := N_1; have := t.isLt; omega)
  exact ⟨xb, hxb, hf⟩

end Result

/-! ## The launch element's piece -/

/-- From the staging rounds' launch element, every TensorCore's staging cells' ghost state and duty tokens. -/
theorem region_ghost :
    (BI.own ((EP (F := F)) (initOf (Pipeline.cells (nD := nD) (τ := τ) cfgs cellOf_inj) (Pipeline.launchToks (nD := nD) (τ := τ) cfgs cellOf_inj))) : sProp 𝕄)
      ⊢ iprop(|==> bigSep Finset.univ fun d : Dev nD => iprop(Pipeline.cellsGhost cfgs (EP (F := F)) 0 d ∗ Pipeline.toksInit cfgs (EP (F := F)) 0 d)) := by
  have e : ∀ Φ : Fin 1 → sProp 𝕄, bigSep Finset.univ Φ = Φ 0 := fun Φ => by
    rw [show (Finset.univ : Finset (Fin 1)) = {0} from by decide, bigSep_singleton]
  have h := Pipeline.fund_ghost (nD := nD) (τ := τ) (Ix := HIx 1) (Val := Elt F) (Name := ℕ) (U := UU) (Lvl := ℕ) cfgs (EP (F := F)) cellOf_inj
  have e1 : (fun c : Dev nD => bigSep Finset.univ fun p : Fin 1 => (Pipeline.cellsGhost cfgs (EP (F := F)) p c : sProp 𝕄))
      = fun c => Pipeline.cellsGhost cfgs (EP (F := F)) 0 c := funext fun c => e _
  have e2 : (fun c : Dev nD => bigSep Finset.univ fun p : Fin 1 => (Pipeline.toksInit cfgs (EP (F := F)) p c : sProp 𝕄))
      = fun c => Pipeline.toksInit cfgs (EP (F := F)) 0 c := funext fun c => e _
  rw [e1, e2] at h
  rw [bigSep_sep']
  exact h

/-! ## The region -/

section Region

variable (U3 : FVec F S64x1 .f32) (X2 : FVec F S64x1000000 .f32) (A5 : FVec F S803392 .f32)
  (lv : GSem nD τ sig → HIx 1 → ℕ) (Wf : (c : Dev nD) → (b : Ref sig .tc) → Buf (Elt F) ((c.tc : Thread nD τ).loc b))

/-- No pipeline has a prefetched table: nothing is held of them. -/
theorem prefHeld_none (c : Dev nD) (q) (pf) :
    (Pipeline.prefHeld (Ix := HIx 1) (Name := ℕ) (U := UU) (Lvl := ℕ) (Val := Elt F) (pcfgs (F := F) 0).pre c q pf : sProp 𝕄) = BI.emp := by
  unfold Pipeline.prefHeld; rw [Finset.univ_eq_empty, BI.bigSep_empty]

/-- What the TensorCore owes as the pipeline's proof data holds it: nothing, its recorded waits unbounded. -/
theorem owesAt_iff (c : Dev nD) (k : Fin (cfg1.N + 1)) :
    ((rdats U3 X2 A5 0 c).owesAt (none : HIx 1) k : sProp 𝕄) ⊣⊢ iprop(∃ Wt, owes (c.tc : Thread nD τ) (0 : CellTallies nD τ sig (HIx 1)) Wt) := by
  constructor
  · unfold Pipeline.RDat.owesAt Pipeline.owesWithin
    iintro ⟨%Wt, -, HO⟩; iexists Wt; iexact HO
  · unfold Pipeline.RDat.owesAt Pipeline.owesWithin Pipeline.RDat.bound
    iintro ⟨%Wt, HO⟩; iexists Wt; isplitr; · ipureintro; exact fun _ _ => Or.inl trivial
    iexact HO

/-- The three arrays as the pipeline holds them are the arrays as @main holds them: whole buffers. -/
theorem arr0_eq (c : Dev nD) (G : FVec F S64x1 .f32) :
    (((cfg1.win 0).arr.view.loc (c.tc : Thread nD τ)) ↦[(cfg1.win 0).arr.view.set]{fullShare} G : sProp 𝕄) = (v3Loc c ↦{fullShare} G) := by
  show ((v3Loc c) ↦[(Memref.whole main_v3 : Memref sig .tc _ _ _).view.set]{fullShare} G : sProp 𝕄) = _
  rw [(Memref.isWhole_whole main_v3).set_eq_univ]
theorem arr1_eq (c : Dev nD) (G : FVec F S64x1000000 .f32) :
    (((cfg1.win 1).arr.view.loc (c.tc : Thread nD τ)) ↦[(cfg1.win 1).arr.view.set]{fullShare} G : sProp 𝕄) = (v2Loc c ↦{fullShare} G) := by
  show ((v2Loc c) ↦[(Memref.whole main_v2 : Memref sig .tc _ _ _).view.set]{fullShare} G : sProp 𝕄) = _
  rw [(Memref.isWhole_whole main_v2).set_eq_univ]
theorem arr2_eq (c : Dev nD) (G : FVec F S803392 .f32) :
    (((cfg1.win 2).arr.view.loc (c.tc : Thread nD τ)) ↦[(cfg1.win 2).arr.view.set]{fullShare} G : sProp 𝕄) = (v5Loc c ↦{fullShare} G) := by
  show ((v5Loc c) ↦[(Memref.whole main_v5 : Memref sig .tc _ _ _).view.set]{fullShare} G : sProp 𝕄) = _
  rw [(Memref.isWhole_whole main_v5).set_eq_univ]

/-- The region's record: the layout the launch decides, no semaphore of the kernel's own, the body obligation, no
    wait evidence needed (nothing is owed), and the sorting of what @main holds around the region. -/
def regionSeg : Pipeline.RDat.RegionSeg (pcfgs (F := F)) adm (rdats U3 X2 A5) (none : HIx 1) defs₀ 𝒱₀ (K (F := F)).L lv 0 where
  win := winFacts1.to₀
  block_pos := block_pos1
  stage_whole := stage_whole1
  K := PEmpty
  osem k := k.elim
  ho := Pipeline.OwnSemFacts.none _
  hbody c := body_obligation U3 X2 A5 c
  hwaits := Pipeline.RDat.hwaits_of_owed_zero _ _ _ _ _ _ 0 fun _ _ => rfl
  pre c := iprop((∃ Wt, owes (c.tc : Thread nD τ) (0 : CellTallies nD τ sig (HIx 1)) Wt)
    ∗ (v3Loc c ↦{fullShare} U3) ∗ (v2Loc c ↦{fullShare} X2) ∗ (v5Loc c ↦{fullShare} A5) ∗ Pipeline.unscopedRest spec1 c (Wf c))
  post c := iprop((∃ Wt, owes (c.tc : Thread nD τ) (0 : CellTallies nD τ sig (HIx 1)) Wt)
    ∗ (v3Loc c ↦{fullShare} U3) ∗ (v2Loc c ↦{fullShare} X2) ∗ (∃ f, ⌜TcSpec X2 U3 f⌝ ∗ v5Loc c ↦{fullShare} f)
    ∗ Pipeline.unscopedRest spec1 c (Wf c))
  X _ := iprop(emp)
  Y _ := iprop(emp)
  Z c := Pipeline.unscopedRest spec1 c (Wf c)
  hentry c := by
    rw [Pipeline.ownSems0_none, prefHeld_none,
      Pipeline.RDat.arrays_eq (pcfgs (F := F)) adm (rdats U3 X2 A5) 0 c arr_whole1 (fun w => by unfold Pipeline.RDat.share; split <;> rfl), bigSep_W1]
    iintro ⟨⟨HO, H3, H2, H5, HW⟩, -, -⟩
    imodintro
    isplitl [H3 H2 H5]
    · isplitl [H3]; · iexact H3
      isplitl [H2]; · iexact H2
      iexact H5
    isplitr; · iempintro
    isplitl [HO]; · iapply (owesAt_iff U3 X2 A5 c 0).2; iexact HO
    isplitr; · iempintro
    iexact HW
  hin c := by iintro -; iempintro
  hout c := by
    rw [Pipeline.ownSems0_none, scopedRest1_eq]
    iintro -; isplitr; · iempintro
    isplitr <;> iempintro
  hexit c := by
    have hs : ∀ w, (rdats U3 X2 A5 0 c).share w = fullShare := fun w => by unfold Pipeline.RDat.share; split <;> rfl
    unfold Pipeline.RDat.arraysAt
    simp only [hs]
    rw [bigSep_W1]
    iintro ⟨⟨⟨%F0, %h0, H0⟩, ⟨%F1, %h1, H1⟩, ⟨%F2, %h2, H2⟩⟩, HO, -, HZ⟩
    imodintro
    rw [(rdats U3 X2 A5 0 c).ArrAt_in 0 rfl] at h0
    rw [(rdats U3 X2 A5 0 c).ArrAt_in 1 rfl] at h1
    have h0' : F0 = U3 := h0
    have h1' : F1 = X2 := h1
    isplitl [HO]; · iapply (owesAt_iff U3 X2 A5 c (Fin.last _)).1; iexact HO
    isplitl [H0]; · iapply (Entails.of_eq ((arr0_eq c F0).trans (by rw [h0']))); iexact H0
    isplitl [H1]; · iapply (Entails.of_eq ((arr1_eq c F1).trans (by rw [h1']))); iexact H1
    isplitl [H2]
    · iexists F2; isplitr; · ipureintro; exact tcSpec_of_arrAt U3 X2 A5 c h2
      iapply (Entails.of_eq (arr2_eq c F2)); iexact H2
    iexact HZ

end Region

/-- The TensorCore's pipelined call, from what @main holds after the SparseCore call: the region boundary, what the
    TensorCore owes (nothing is left after the one SparseCore call) with its recorded waits, the staging cells'
    ghost state, the user column, the table, the result array at some contents and the six other arrays; to the
    same with the result array at contents satisfying `TcSpec`. -/
theorem region_wp {lv : GSem nD τ sig → HIx 1 → ℕ} (κ : GSem nD τ sig → ℕ) (d : Dev nD)
    (U3 : FVec F S64x1 .f32) (X2 : FVec F S64x1000000 .f32)
    (W : (b : Ref sig .tc) → Buf (Elt F) ((d.tc : Thread nD τ).loc b)) :
    iprop((K (F := F)).ctx EH (P m) κ lv ∗ boundary (T d)
        ∗ (∃ Wt, ⌜(K (F := F)).WBelow (T d) Wt (8 * 1)⌝ ∗ owes (T d) ((K (F := F)).Otc d 1) Wt)
        ∗ Pipeline.cellsGhost cfgs (EP (F := F)) 0 d ∗ Pipeline.toksInit cfgs (EP (F := F)) 0 d
        ∗ (v3Loc d ↦{fullShare} U3) ∗ (v2Loc d ↦{fullShare} X2) ∗ (∃ f, v5Loc d ↦{fullShare} f)
        ∗ Pipeline.unscopedRest spec1 d W)
      ⊢ wp frame (wpE ((K (F := F)).defs (D (F := F))) 𝒱 (T d) none) Set.univ
          (Prog.lift (.customCall (SparseCore.inner (Pipeline.entry 0)) ())) fun _ =>
          iprop(boundary (T d)
            ∗ (∃ Wt, ⌜(K (F := F)).WBelow (T d) Wt (8 * 1)⌝ ∗ owes (T d) ((K (F := F)).Otc d 1) Wt)
            ∗ (v3Loc d ↦{fullShare} U3) ∗ (v2Loc d ↦{fullShare} X2)
            ∗ (∃ f, ⌜TcSpec X2 U3 f⌝ ∗ v5Loc d ↦{fullShare} f)
            ∗ Pipeline.unscopedRest spec1 d W) := by
  -- with one SparseCore call every recorded wait sits at or below level 8
  have hW8 : ∀ Wt, (K (F := F)).WBelow (T d) Wt (8 * 1) := fun Wt p _ => by
    rcases p with ⟨sm, ι⟩
    cases ι with
    | none => show (K (F := F)).lev (T d, sm) none ≤ 8 * 1; rw [SparseCore.Cfg.lev_none]; exact Nat.zero_le _
    | some q => exact (SparseCore.Cfg.lev_some_le (K (F := F)) (T d, sm) q).trans (by have := q.isLt; omega)
  rw [(K (F := F)).Otc_end d (le_refl 1)]
  iintro ⟨#Hctx, Hbd, ⟨%Wt, -, HO⟩, Hg, Ht, H3, H2, ⟨%A5, H5⟩, HW⟩
  ihave Hlev := (SparseCore.Cfg.ctx_levAts κ) $$ Hctx
  iapply ((K (F := F)).wp_liftProg (D (F := F)) 𝒱 (T d) Set.univ none (Prog.lift (.customCall (Pipeline.entry 0) ())) _)
  -- the library's step over the region, at this record, to the stated post
  have hstep := Pipeline.RDat.RegionSeg.wp (pcfgs (F := F)) adm (rdats U3 X2 A5) (none : HIx 1) cellOf_inj (EP (F := F)) defs₀ 𝒱₀ (K (F := F)).L lv
    (regionSeg U3 X2 A5 lv fun _ b => W b) d none (fun u hu => by cases hu) (fun _ => Prog.ret PUnit.unit) (fun _ =>
          iprop(boundary (T d)
            ∗ (∃ Wt, ⌜(K (F := F)).WBelow (T d) Wt (8 * 1)⌝ ∗ owes (T d) (0 : CellTallies nD τ sig (HIx 1)) Wt)
            ∗ (v3Loc d ↦{fullShare} U3) ∗ (v2Loc d ↦{fullShare} X2)
            ∗ (∃ f, ⌜TcSpec X2 U3 f⌝ ∗ v5Loc d ↦{fullShare} f)
            ∗ Pipeline.unscopedRest spec1 d W))
  have epin : Pipeline.pin (pcfgs (F := F)) adm = cfgs := funext fun p => Pipeline.Cfg.toPCfg_at (cfgs p) (adm p)
  rw [epin] at hstep
  have epre : (regionSeg U3 X2 A5 lv fun _ b => W b).pre d = iprop((∃ Wt, owes (d.tc : Thread nD τ) (0 : CellTallies nD τ sig (HIx 1)) Wt)
    ∗ (v3Loc d ↦{fullShare} U3) ∗ (v2Loc d ↦{fullShare} X2) ∗ (v5Loc d ↦{fullShare} A5) ∗ Pipeline.unscopedRest spec1 d W) := rfl
  have epost : (regionSeg U3 X2 A5 lv fun _ b => W b).post d = iprop((∃ Wt, owes (d.tc : Thread nD τ) (0 : CellTallies nD τ sig (HIx 1)) Wt)
    ∗ (v3Loc d ↦{fullShare} U3) ∗ (v2Loc d ↦{fullShare} X2) ∗ (∃ f, ⌜TcSpec X2 U3 f⌝ ∗ v5Loc d ↦{fullShare} f)
    ∗ Pipeline.unscopedRest spec1 d W) := rfl
  rw [epre, epost] at hstep
  iapply hstep
  isplitr [Hbd HO Hg Ht H3 H2 H5 HW]
  · iintro ⟨Hbd, ⟨%Wt', HO⟩, H3, H2, H5, HW⟩
    rw [wp_ret]; imodintro
    isplitl [Hbd]; · iexact Hbd
    isplitl [HO]
    · iexists Wt'; isplitr; · ipureintro; exact hW8 Wt'
      iexact HO
    isplitl [H3]; · iexact H3
    isplitl [H2]; · iexact H2
    isplitl [H5]; · iexact H5
    iexact HW
  isplitl [Hbd]; · iexact Hbd
  isplitl [HO H3 H2 H5 HW]
  · isplitl [HO]; · iexists Wt; iexact HO
    isplitl [H3]; · iexact H3
    isplitl [H2]; · iexact H2
    isplitl [H5]; · iexact H5
    iexact HW
  isplitr; · iexact Hlev
  isplitl [Hg]; · iexact Hg
  iexact Ht

end Cert.Proof.KB

end
-- ==== Proof.RefSide.lean ====
/-
  The reference's side at the extended reals: the reference computes, at column n, the sum over d of u[d] · items[n, d]
  from zero — the score — and its frame is its run with the value dropped.
-/
import proofs.«207427_g73340861546603_cont_9to1c4b_775_30_alg».proof.Defs
import proofs.«207427_g73340861546603_cont_9to1c4b_775_30_alg».proof.Proof.Gen.ReferenceIdeal.Read
import proofs.«207427_g73340861546603_cont_9to1c4b_775_30_alg».proof.Proof.Gen.Pre_finite_inputs
import Idealize.ShloMosaic.Lib.ValueIdx
import Idealize.ShloMosaic.PureOps.Ideal.Laws

noncomputable section

namespace Cert.Proof.RefSide

open Idealize.ShloMosaic Idealize.ShloMosaic.TcCoe Idealize.SL.Sem
open Idealize.ShloMosaic.ValueIdx (ix1 ix2)
open Cert.ReferenceIdeal Cert.ReferenceIdeal.Gen

/-- The score of item n: Σ_d items[n, d] · u[d], over the extended reals. -/
def score (x0 : FVec Ideal S1000000x64 .f32) (x1 : FVec Ideal S1x64 .f32) : FVec Ideal S1000000 .f32 :=
  fun i => ∑ k : Fin 64, x0 (ix2 (i 0) k) * x1 (ix2 (0 : Fin 1) k)

/-- The reference's result is the score: the sum starts from the zero word, and each term is u[d] · items[n, d]. -/
theorem ref_eq (x0 : FVec Ideal S1000000x64 .f32) (x1 : FVec Ideal S1x64 .f32) :
    Cert.ReferenceIdeal.Read.val_main_v2 (F := Ideal) x0 x1 = score x0 x1 := by
  funext i
  rw [Cert.ReferenceIdeal.Read.val_main_v2_apply]
  simp only [Cert.ReferenceIdeal.Read.val_main_cst_apply, Cert.ReferenceIdeal.Read.val_main_v1_apply,
    Cert.ReferenceIdeal.Read.val_main_v0_apply, Ideal.ofBits_def, Ideal.ofBits_zero_f32, zero_add, Ideal.mulf_def]
  unfold score
  refine Finset.sum_congr rfl fun k _ => ?_
  rw [mul_comm]
  congr 1
  · exact congrArg x0 (funext fun a => match a with | ⟨0, _⟩ => rfl | ⟨1, _⟩ => rfl)
  · exact congrArg x1 (funext fun a => match a with | ⟨0, _⟩ => rfl | ⟨1, _⟩ => rfl)

/-- The reference's frame: its run, the value dropped. -/
theorem frame_ri : Cert.frame_ReferenceIdeal := fun m ρ _ =>
  (θ_run Cert.ReferenceIdeal.defs _ _).mono (fun _ h c => (h c).2) (Cert.ReferenceIdeal.Value.run (F := Ideal) m ρ)

end Cert.Proof.RefSide

end
-- ==== Proof.KValue.lean ====
/-
  The value at the extended reals: both halves of the kernel's result are the score.
  The SparseCore half: the accumulator after k table rows is the sum of the first k products, so after 64 rows it
  is Σ_d items[n, d] · u[d] (the transposed table read back, the repeated column read at its lane).
  The TensorCore half: the body's reduction of a staged block against the user column, at a column that exists,
  is the same sum (a staged column that exists is the table's).
  The concatenation reads the first half below 196608 and the second above.
-/
import proofs.«207427_g73340861546603_cont_9to1c4b_775_30_alg».proof.Proof.Common
import proofs.«207427_g73340861546603_cont_9to1c4b_775_30_alg».proof.Proof.RefSide
import Idealize.ShloMosaic.Lib.ValueLayout
import Idealize.ShloMosaic.Lib.Pipeline.Value
import Idealize.ShloMosaic.PureOps.Ideal.Laws

noncomputable section

namespace Cert.Proof.KI

open Cert.KernelIdeal Cert.KernelIdeal.Gen
open Idealize.ShloMosaic Idealize.SL.Sem
open Idealize.ShloMosaic.SparseCore (S V T)
open Idealize.ShloMosaic.SparseCore.Cfg (HIx)
open Idealize.ShloMosaic.ValueIdx (ix1 ix2)
open Cert.Proof.RefSide (score)

variable (m : (ℓ : Loc nD τ sig) → Buf (Elt Ideal) ℓ)

/-- The transposed table read back. -/
theorem Xt_apply (d : Dev nD) (k : Fin 64) (n : Fin 1000000) : Xt (F := Ideal) m d (ix2 k n) = m (a0Loc d) (ix2 n k) := by
  unfold Xt
  exact ValueIdx.transpose_ix2_apply _ _ k n

/-- The user column read back. -/
theorem Ucol_apply (d : Dev nD) (k : Fin 64) : Ucol (F := Ideal) m d (ix2 k (0 : Fin 1)) = m (a1Loc d) (ix2 (0 : Fin 1) k) := by
  unfold Ucol
  refine shapeCast_apply (s := S1x64) (t := S64x1) _ _ _ _ ?_
  show (S1x64.rowMajor (ix2 (0 : Fin 1) k)).val = (S64x1.rowMajor (ix2 k (0 : Fin 1))).val
  rw [Shape.rowMajor_val_two, Shape.rowMajor_val_two]
  show 0 * 64 + k.val = k.val * 1 + 0
  omega

/-- The repeated column read back: every lane holds the column. -/
theorem Ubc_apply (d : Dev nD) (k : Fin 64) (l : Fin 16) : Ubc (F := Ideal) m d (ix2 k l) = m (a1Loc d) (ix2 (0 : Fin 1) k) := by
  unfold Ubc
  refine (broadcastInDim_apply _ bcast_S64x1_S64x16_0_1 _ (ix2 k l) (ix2 k (0 : Fin 1)) (fun a => match a with
    | ⟨0, _⟩ => by show k.val = if (64 : Nat) = 1 then 0 else k.val; rw [if_neg (by decide)]
    | ⟨1, _⟩ => by show 0 = if (1 : Nat) = 1 then 0 else l.val; rw [if_pos rfl])).trans ?_
  exact Ucol_apply m d k

/-- The accumulator after `k` rows is the sum of the first `k` products. -/
theorem accUpTo_eq (X : FVec Ideal S64x1000000 .f32) (Uc : FVec Ideal S64x16 .f32) (n : Fin 1000000) (l : Fin 16) (k : ℕ) :
    accUpTo X Uc n l k = ∑ j ∈ Finset.range k, (if h : j < 64 then X (ix2 ⟨j, h⟩ n) * Uc (ix2 ⟨j, h⟩ l) else 0) := by
  induction k with
  | zero => simp [accUpTo]
  | succ k ih =>
    rw [Finset.sum_range_succ, ← ih, accUpTo]
    by_cases h : k < 64
    · rw [dif_pos h, dif_pos h]; rfl
    · rw [dif_neg h, dif_neg h, add_zero]

/-- What the SparseCore call leaves at column `n`: the score's sum over the transposed table and the repeated column. -/
theorem scOut_apply (X : FVec Ideal S64x1000000 .f32) (Uc : FVec Ideal S64x16 .f32) (n : S196608.Idx) :
    scOut X Uc n = ∑ j : Fin 64, X (ix2 j ⟨(n 0).val, lt_trans (n 0).isLt (by decide)⟩) * Uc (ix2 j ⟨(n 0).val % 16, Nat.mod_lt _ (by decide)⟩) := by
  unfold scOut
  rw [accUpTo_eq, ← Fin.sum_univ_eq_sum_range (fun j => if h : j < 64 then X (ix2 ⟨j, h⟩ _) * Uc (ix2 ⟨j, h⟩ _) else 0) 64]
  exact Finset.sum_congr rfl fun j _ => by rw [dif_pos j.isLt]

/-- The TensorCore body's reduction of a staged block against the user column, read at a column. -/
theorem tc_apply (xb : Vec Ideal S64x32768 .f32) (U3 : FVec Ideal S64x1 .f32) (y : Fin 32768) :
    k1_pay1 (F := Ideal) xb U3 (ix1 y) = ∑ k : Fin 64, xb (ix2 k y) * U3 (ix2 k (0 : Fin 1)) := by
  unfold k1_pay1
  refine (Ideal.multiReduction_add_single _ 0x00000000#32 reduces_S64x32768_S32768 (.inl rfl) rfl (ix1 y)).trans ?_
  refine Finset.sum_congr rfl fun k _ => ?_
  have hl : reduces_S64x32768_S32768.lift (ix1 y) k = ix2 k y :=
    funext fun c => match c with | ⟨0, _⟩ => Fin.ext rfl | ⟨1, _⟩ => Fin.ext rfl
  rw [hl]
  show shapeCast S64x32768 xb shapeCasts_S64x32768_S64x32768 (ix2 k y) * broadcastTo S64x32768 (shapeCast S64x1 U3 shapeCasts_S64x1_S64x1) broadcasts_S64x1_S64x32768 (ix2 k y) = _
  rw [shapeCast_self, shapeCast_self]
  congr 1
  exact broadcastTo_apply _ broadcasts_S64x1_S64x32768 (ix2 k y) (ix2 k (0 : Fin 1)) (fun a => match a with
    | ⟨0, _⟩ => by show k.val = if (64 : Nat) = 1 then 0 else k.val; rw [if_neg (by decide)]
    | ⟨1, _⟩ => by show 0 = if (1 : Nat) = 1 then 0 else y.val; rw [if_pos rfl])

/-- Both halves joined are the score. -/
theorem whole_eq_score (d : Dev nD) (f : FVec Ideal S803392 .f32) (hf : TcSpec (Xt (F := Ideal) m d) (Ucol (F := Ideal) m d) f) :
    concatenate S1000000 0 [⟨S196608, scOut (Xt (F := Ideal) m d) (Ubc (F := Ideal) m d)⟩, ⟨S803392, f⟩] concatenates_S196608_S803392_S1000000_d0
      = score (m (a0Loc d)) (m (a1Loc d)) := by
  funext i
  unfold score
  by_cases hi : (i 0).val < 196608
  · refine (concatenate_pair_apply_left (t := S1000000) (s₁ := S196608) (s₂ := S803392) (0 : Fin 1) _ _ concatenates_S196608_S803392_S1000000_d0 i rfl (ix1 (⟨(i 0).val, hi⟩ : Fin 196608))
      (fun b => match b with | ⟨0, _⟩ => rfl)).trans ?_
    rw [scOut_apply]
    refine Finset.sum_congr rfl fun k _ => ?_
    rw [Xt_apply, Ubc_apply]
    rfl
  · have hlt := (i 0).isLt
    have hi' : (i 0).val - 196608 < 803392 := by
      show (i 0).val - 196608 < 803392
      have : (i 0).val < 1000000 := hlt
      omega
    refine (concatenate_pair_apply_right (t := S1000000) (s₁ := S196608) (s₂ := S803392) (0 : Fin 1) _ _ concatenates_S196608_S803392_S1000000_d0 i rfl rfl (ix1 (⟨(i 0).val - 196608, hi'⟩ : Fin 803392))
      (fun b hb => absurd (Subsingleton.elim (α := Fin 1) _ _) hb)
      (by show (i 0).val - 196608 + 196608 = (i 0).val; omega)).trans ?_
    have ht : ((i 0).val - 196608) / 32768 < 25 := by omega
    obtain ⟨xb, hxb, hfx⟩ := hf ⟨((i 0).val - 196608) / 32768, ht⟩
    have hy : ((i 0).val - 196608) % 32768 < 32768 := Nat.mod_lt _ (by decide)
    have hsplit : 32768 * (((i 0).val - 196608) / 32768) + ((i 0).val - 196608) % 32768 = (i 0).val - 196608 := Nat.div_add_mod _ _
    have hfx' := hfx ⟨((i 0).val - 196608) % 32768, hy⟩ (by show 32768 * (((i 0).val - 196608) / 32768) + ((i 0).val - 196608) % 32768 < 803392; omega)
    have hidx : (ix1 (⟨(i 0).val - 196608, hi'⟩ : Fin 803392) : S803392.Idx)
        = ix1 (⟨32768 * (((i 0).val - 196608) / 32768) + ((i 0).val - 196608) % 32768, by omega⟩ : Fin 803392) :=
      congrArg ix1 (Fin.ext hsplit.symm)
    rw [hidx, hfx', tc_apply]
    refine Finset.sum_congr rfl fun k _ => ?_
    have hin : 32768 * (((i 0).val - 196608) / 32768 + 6) + ((i 0).val - 196608) % 32768 < 1000000 := by omega
    have e1 := hxb k ⟨((i 0).val - 196608) % 32768, hy⟩ hin
    have e2 := Xt_apply m d k ⟨32768 * (((i 0).val - 196608) / 32768 + 6) + ((i 0).val - 196608) % 32768, hin⟩
    have e3 := Ucol_apply m d k
    have e4 : m (a0Loc d) (ix2 (⟨32768 * (((i 0).val - 196608) / 32768 + 6) + ((i 0).val - 196608) % 32768, hin⟩ : Fin 1000000) k)
        = m (a0Loc d) (ix2 (i 0) k) :=
      congrArg (fun n : Fin 1000000 => m (a0Loc d) (ix2 n k))
        (Fin.ext (by show 32768 * (((i 0).val - 196608) / 32768 + 6) + ((i 0).val - 196608) % 32768 = (i 0).val; omega))
    exact congrArg₂ (· * ·) (e1.trans (e2.trans e4)) e3

end Cert.Proof.KI

end
-- ==== Proof.lean ====
/-
  The claim. The kernel's program and its idealization are one text read at two float instances; each runs to the
  end, faults nowhere and leaves its arguments unchanged (the launch theorem over the body obligation of a vector
  subcore, the TensorCore pipeline's region and @main), the idealization rewrote nothing, and at the extended
  reals the kernel's result — the SparseCore half followed by the TensorCore half — is, column by column, the
  reference's score Σ_d items[n, d] · u[d].
-/
import proofs.«207427_g73340861546603_cont_9to1c4b_775_30_alg».proof.Defs
import proofs.«207427_g73340861546603_cont_9to1c4b_775_30_alg».proof.Proof.Gen.Kernel
import proofs.«207427_g73340861546603_cont_9to1c4b_775_30_alg».proof.Proof.Gen.KernelIdeal
import proofs.«207427_g73340861546603_cont_9to1c4b_775_30_alg».proof.Proof.Gen.ReferenceIdeal
import proofs.«207427_g73340861546603_cont_9to1c4b_775_30_alg».proof.Proof.Gen.Pre_finite_inputs
import proofs.«207427_g73340861546603_cont_9to1c4b_775_30_alg».proof.Proof.Main
import proofs.«207427_g73340861546603_cont_9to1c4b_775_30_alg».proof.Proof.MainB
import proofs.«207427_g73340861546603_cont_9to1c4b_775_30_alg».proof.Proof.Tile
import proofs.«207427_g73340861546603_cont_9to1c4b_775_30_alg».proof.Proof.TileB
import proofs.«207427_g73340861546603_cont_9to1c4b_775_30_alg».proof.Proof.Region
import proofs.«207427_g73340861546603_cont_9to1c4b_775_30_alg».proof.Proof.RegionB
import proofs.«207427_g73340861546603_cont_9to1c4b_775_30_alg».proof.Proof.KValue
import proofs.«207427_g73340861546603_cont_9to1c4b_775_30_alg».proof.Proof.RefSide
import Idealize.ShloMosaic.Adequacy
import Idealize.ShloMosaic.Init

noncomputable section

namespace Cert.Proof

open Idealize.ShloMosaic Idealize.SL.Sem

theorem frame_k : Cert.frame_Kernel := fun m ρ _ =>
  (θ_run Cert.Kernel.defs _ _).mono (fun _ h c => ⟨(h c).1, (h c).2.1⟩) (Cert.Proof.KB.run_main (F := Bits) m ρ (Cert.Proof.KB.tileObl m Cert.Proof.KB.facts) (fun κ d U3 X2 W => Cert.Proof.KB.region_wp m κ d U3 X2 W) Cert.Proof.KB.region_ghost)

theorem frame_ki : Cert.frame_KernelIdeal := fun m ρ _ =>
  (θ_run Cert.KernelIdeal.defs _ _).mono (fun _ h c => ⟨(h c).1, (h c).2.1⟩) (Cert.Proof.KI.run_main (F := Ideal) m ρ (Cert.Proof.KI.tileObl m Cert.Proof.KI.facts) (fun κ d U3 X2 W => Cert.Proof.KI.region_wp m κ d U3 X2 W) Cert.Proof.KI.region_ghost)

/-- At the extended reals both programs end with the score in their result. -/
theorem algebraic : Cert.algebraic_KernelIdeal_ReferenceIdeal := by
  intro m ρ m' ρ' _ hagree
  refine ⟨fun c => Cert.Proof.RefSide.score (m (Cert.Proof.KI.a0Loc c)) (m (Cert.Proof.KI.a1Loc c)), ?_, ?_⟩
  · refine (θ_run Cert.KernelIdeal.defs _ _).mono (fun r h c => ?_) (Cert.Proof.KI.run_main (F := Ideal) m ρ (Cert.Proof.KI.tileObl m Cert.Proof.KI.facts) (fun κ d U3 X2 W => Cert.Proof.KI.region_wp m κ d U3 X2 W) Cert.Proof.KI.region_ghost)
    obtain ⟨h0, h1, f, hf, h6⟩ := h c
    exact ⟨h6.trans (Cert.Proof.KI.whole_eq_score m c f hf), h0, h1⟩
  · refine (θ_run Cert.ReferenceIdeal.defs _ _).mono (fun _ h c => ⟨?_, (h c).2.1, (h c).2.2⟩)
      (Cert.ReferenceIdeal.Value.run (F := Ideal) m' ρ')
    rw [(h c).1, Cert.ReferenceIdeal.Read.val_main_v2_eq, Cert.Proof.RefSide.ref_eq, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, Cert.Proof.RefSide.frame_ri, trivial, algebraic⟩

end Cert.Proof

end
